-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg15 : FVec F S10 .f32) (main_v63 : IVec S_ 1) (main_v67 : IVec S_ 1) : IVec S_ 1 :=
  let main_v68 : IVec S_ 1 := andi main_v63 main_v67
  let main_v69 : FVec F S10 .f32 := Host.absf main_arg15
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg12 : FVec F S256 .f32) (main_arg13 : FVec F S256 .f32) (main_arg14 : FVec F S256x10 .f32) (main_arg15 : FVec F S10 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x10 .f32 := Host.absf main_arg14
  let main_cst_24 : FVec F S_ .f32 := constant S_ .f32 0x7F800000#32
  let main_v65 : FVec F S256x10 .f32 := broadcastInDim S256x10 ![] bcast_S_S256x10 main_cst_24
  let main_v66 : IVec S256x10 1 := cmpf .olt main_v64 main_v65
  let main_c_25 : IVec S_ 1 := constantI S_ 1 1#1
  let main_v67 : IVec S_ 1 := (fun x v => Host.reduce IntOp.andi x v reducesTo_S256x10_S_d0_1 h_S_) main_v66 main_c_25
  fn_part4 (F := F) main_arg15 main_v63 main_v67

def fn_part2 {F : FTy → Type} [FloatOps F] (main_arg8 : FVec F S512 .f32) (main_arg9 : FVec F S512 .f32) (main_arg10 : FVec F S512x256 .f32) (main_arg11 : FVec F S256 .f32) (main_arg12 : FVec F S256 .f32) (main_arg13 : FVec F S256 .f32) (main_arg14 : FVec F S256x10 .f32) (main_arg15 : FVec F S10 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x256 .f32 := Host.absf main_arg10
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_v48 main_v49 main_v50

def fn_part1 {F : FTy → Type} [FloatOps F] (main_arg5 : FVec F S512 .f32) (main_arg6 : FVec F S512x512 .f32) (main_arg7 : FVec F S512 .f32) (main_arg8 : FVec F S512 .f32) (main_arg9 : FVec F S512 .f32) (main_arg10 : FVec F S512x256 .f32) (main_arg11 : FVec F S256 .f32) (main_arg12 : FVec F S256 .f32) (main_arg13 : FVec F S256 .f32) (main_arg14 : FVec F S256x10 .f32) (main_arg15 : FVec F S10 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S10000x512 .f32) (main_arg1 : IVec S2x160000 32) (main_arg2 : FVec F S512x512 .f32) (main_arg3 : FVec F S512 .f32) (main_arg4 : FVec F S512 .f32) (main_arg5 : FVec F S512 .f32) (main_arg6 : FVec F S512x512 .f32) (main_arg7 : FVec F S512 .f32) (main_arg8 : FVec F S512 .f32) (main_arg9 : FVec F S512 .f32) (main_arg10 : FVec F S512x256 .f32) (main_arg11 : FVec F S256 .f32) (main_arg12 : FVec F S256 .f32) (main_arg13 : FVec F S256 .f32) (main_arg14 : FVec F S256x10 .f32) (main_arg15 : FVec F S10 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x10 : Shape := ⟨2, ![256, 10]⟩
abbrev S10 : Shape := ⟨1, ![10]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S1000x512 : Shape := ⟨2, ![1000, 512]⟩
abbrev S160000x512 : Shape := ⟨2, ![160000, 512]⟩
abbrev S10000x1 : Shape := ⟨2, ![10000, 1]⟩
abbrev S1x512 : Shape := ⟨2, ![1, 512]⟩
abbrev S1000x1 : Shape := ⟨2, ![1000, 1]⟩
abbrev S10000x256 : Shape := ⟨2, ![10000, 256]⟩
abbrev S1000x256 : Shape := ⟨2, ![1000, 256]⟩
abbrev S160000x256 : Shape := ⟨2, ![160000, 256]⟩
abbrev S1x256 : Shape := ⟨2, ![1, 256]⟩
abbrev S1x10 : Shape := ⟨2, ![1, 10]⟩
abbrev S10000x10 : Shape := ⟨2, ![10000, 10]⟩
abbrev S1000x10 : Shape := ⟨2, ![1000, 10]⟩

abbrev nBuf : Space → Nat
  | .hbm => 206
  | .vmem => 78
  | .smem => 0
  | _ => 0

abbrev hbmTy0_0 (i : Nat) : BufTy := match i % 128 with
  | 0 => ⟨S10000x512, .f32⟩
  | 1 => ⟨S2x160000, .i32⟩
  | 2 => ⟨S512x512, .f32⟩
  | 3 => ⟨S512, .f32⟩
  | 4 => ⟨S512, .f32⟩
  | 5 => ⟨S512, .f32⟩
  | 6 => ⟨S512x512, .f32⟩
  | 7 => ⟨S512, .f32⟩
  | 8 => ⟨S512, .f32⟩
  | 9 => ⟨S512, .f32⟩
  | 10 => ⟨S512x256, .f32⟩
  | 11 => ⟨S256, .f32⟩
  | 12 => ⟨S256, .f32⟩
  | 13 => ⟨S256, .f32⟩
  | 14 => ⟨S256x10, .f32⟩
  | 15 => ⟨S10, .f32⟩
  | 16 => ⟨S1x160000, .i32⟩
  | 17 => ⟨S160000, .i32⟩
  | 18 => ⟨S1x160000, .i32⟩
  | 19 => ⟨S160000, .i32⟩
  | 20 => ⟨S_, .f32⟩
  | 21 => ⟨S160000, .f32⟩
  | 22 => ⟨S_, .f32⟩
  | 23 => ⟨S10000, .f32⟩
  | 24 => ⟨S160000x1, .i32⟩
  | 25 => ⟨S10000, .f32⟩
  | 26 => ⟨S_, .f32⟩
  | 27 => ⟨S10000, .f32⟩
  | 28 => ⟨S10000, .f32⟩
  | 29 => ⟨S10000, .f32⟩
  | 30 => ⟨S10000, .f32⟩
  | 31 => ⟨S10000x512, .bf16⟩
  | 32 => ⟨S512x512, .bf16⟩
  | 33 => ⟨S512x512, .bf16⟩
  | 34 => ⟨S512x256, .bf16⟩
  | 35 => ⟨S256x10, .bf16⟩
  | 36 => ⟨S10000x512, .f32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000, .f32⟩
  | 55 => ⟨S160000, .f32⟩
  | 56 => ⟨S_, .i32⟩
  | 57 => ⟨S160000, .i32⟩
  | 58 => ⟨S160000, .i1⟩
  | 59 => ⟨S_, .i32⟩
  | 60 => ⟨S160000, .i32⟩
  | 61 => ⟨S160000, .i32⟩
  | 62 => ⟨S160000, .i32⟩
  | 63 => ⟨S160000x1, .i32⟩
  | 64 => ⟨S160000x512, .f32⟩
  | 65 => ⟨S160000x1, .f32⟩
  | 66 => ⟨S160000x512, .f32⟩
  | 67 => ⟨S160000x512, .f32⟩
  | 68 => ⟨S_, .f32⟩
  | 69 => ⟨S10000x512, .f32⟩
  | 70 => ⟨S160000x1, .i32⟩
  | 71 => ⟨S10000x512, .f32⟩
  | 72 => ⟨S10000x1, .f32⟩
  | 73 => ⟨S1x512, .f32⟩
  | 74 => ⟨S10000x512, .f32⟩
  | 75 => ⟨S1x512, .f32⟩
  | 76 => ⟨S1x512, .f32⟩
  | 77 => ⟨S512, .f32⟩
  | 78 => ⟨S_, .f32⟩
  | 79 => ⟨S512, .f32⟩
  | 80 => ⟨S512, .f32⟩
  | 81 => ⟨S512, .f32⟩
  | 82 => ⟨S_, .f32⟩
  | 83 => ⟨S512, .f32⟩
  | 84 => ⟨S512, .f32⟩
  | 85 => ⟨S512, .f32⟩
  | 86 => ⟨S512, .f32⟩
  | 87 => ⟨S1x512, .f32⟩
  | 88 => ⟨S1x512, .f32⟩
  | 89 => ⟨S1x512, .f32⟩
  | 90 => ⟨S1x512, .f32⟩
  | 91 => ⟨S10000x512, .bf16⟩
  | 92 => ⟨S10000x512, .f32⟩
  | 93 => ⟨S_, .i32⟩
  | 94 => ⟨S160000, .i32⟩
  | 95 => ⟨S160000, .i1⟩
  | 96 => ⟨S_, .i32⟩
  | 97 => ⟨S160000, .i32⟩
  | 98 => ⟨S160000, .i32⟩
  | 99 => ⟨S160000, .i32⟩
  | 100 => ⟨S160000x1, .i32⟩
  | 101 => ⟨S160000, .f32⟩
  | 102 => ⟨S_, .i32⟩
  | 103 => ⟨S160000, .i32⟩
  | 104 => ⟨S160000, .i1⟩
  | 105 => ⟨S_, .i32⟩
  | 106 => ⟨S160000, .i32⟩
  | 107 => ⟨S160000, .i32⟩
  | 108 => ⟨S160000, .i32⟩
  | 109 => ⟨S160000x1, .i32⟩
  | 110 => ⟨S160000, .f32⟩
  | 111 => ⟨S160000, .f32⟩
  | 112 => ⟨S_, .i32⟩
  | 113 => ⟨S160000, .i32⟩
  | 114 => ⟨S160000, .i1⟩
  | 115 => ⟨S_, .i32⟩
  | 116 => ⟨S160000, .i32⟩
  | 117 => ⟨S160000, .i32⟩
  | 118 => ⟨S160000, .i32⟩
  | 119 => ⟨S160000x1, .i32⟩
  | 120 => ⟨S160000x512, .f32⟩
  | 121 => ⟨S160000x1, .f32⟩
  | 122 => ⟨S160000x512, .f32⟩
  | 123 => ⟨S160000x512, .f32⟩
  | 124 => ⟨S_, .f32⟩
  | 125 => ⟨S10000x512, .f32⟩
  | 126 => ⟨S160000x1, .i32⟩
  | 127 => ⟨S10000x512, .f32⟩
  | _ => ⟨S10000x512, .f32⟩

abbrev hbmTy0_1 (i : Nat) : BufTy := match i % 128 with
  | 0 => ⟨S10000x1, .f32⟩
  | 1 => ⟨S1x512, .f32⟩
  | 2 => ⟨S10000x512, .f32⟩
  | 3 => ⟨S1x512, .f32⟩
  | 4 => ⟨S1x512, .f32⟩
  | 5 => ⟨S512, .f32⟩
  | 6 => ⟨S_, .f32⟩
  | 7 => ⟨S512, .f32⟩
  | 8 => ⟨S512, .f32⟩
  | 9 => ⟨S512, .f32⟩
  | 10 => ⟨S_, .f32⟩
  | 11 => ⟨S512, .f32⟩
  | 12 => ⟨S512, .f32⟩
  | 13 => ⟨S512, .f32⟩
  | 14 => ⟨S512, .f32⟩
  | 15 => ⟨S1x512, .f32⟩
  | 16 => ⟨S1x512, .f32⟩
  | 17 => ⟨S1x512, .f32⟩
  | 18 => ⟨S1x512, .f32⟩
  | 19 => ⟨S10000x512, .bf16⟩
  | 20 => ⟨S10000x256, .f32⟩
  | 21 => ⟨S_, .i32⟩
  | 22 => ⟨S160000, .i32⟩
  | 23 => ⟨S160000, .i1⟩
  | 24 => ⟨S_, .i32⟩
  | 25 => ⟨S160000, .i32⟩
  | 26 => ⟨S160000, .i32⟩
  | 27 => ⟨S160000, .i32⟩
  | 28 => ⟨S160000x1, .i32⟩
  | 29 => ⟨S160000, .f32⟩
  | 30 => ⟨S_, .i32⟩
  | 31 => ⟨S160000, .i32⟩
  | 32 => ⟨S160000, .i1⟩
  | 33 => ⟨S_, .i32⟩
  | 34 => ⟨S160000, .i32⟩
  | 35 => ⟨S160000, .i32⟩
  | 36 => ⟨S160000, .i32⟩
  | 37 => ⟨S160000x1, .i32⟩
  | 38 => ⟨S160000, .f32⟩
  | 39 => ⟨S160000, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S160000x256, .f32⟩
  | 49 => ⟨S160000x1, .f32⟩
  | 50 => ⟨S160000x256, .f32⟩
  | 51 => ⟨S160000x256, .f32⟩
  | 52 => ⟨S_, .f32⟩
  | 53 => ⟨S10000x256, .f32⟩
  | 54 => ⟨S160000x1, .i32⟩
  | 55 => ⟨S10000x256, .f32⟩
  | 56 => ⟨S10000x1, .f32⟩
  | 57 => ⟨S1x256, .f32⟩
  | 58 => ⟨S10000x256, .f32⟩
  | 59 => ⟨S1x256, .f32⟩
  | 60 => ⟨S1x256, .f32⟩
  | 61 => ⟨S256, .f32⟩
  | 62 => ⟨S_, .f32⟩
  | 63 => ⟨S256, .f32⟩
  | 64 => ⟨S256, .f32⟩
  | 65 => ⟨S256, .f32⟩
  | 66 => ⟨S_, .f32⟩
  | 67 => ⟨S256, .f32⟩
  | 68 => ⟨S256, .f32⟩
  | 69 => ⟨S256, .f32⟩
  | 70 => ⟨S256, .f32⟩
  | 71 => ⟨S1x256, .f32⟩
  | 72 => ⟨S1x256, .f32⟩
  | 73 => ⟨S1x256, .f32⟩
  | 74 => ⟨S1x256, .f32⟩
  | 75 => ⟨S10000x256, .bf16⟩
  | 76 => ⟨S1x10, .f32⟩
  | 77 => ⟨S10000x10, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | .local _ .vmem, ⟨0, _⟩ => ⟨S1000x512, .bf16⟩
  | .local _ .vmem, ⟨1, _⟩ => ⟨S1000x512, .bf16⟩
  | .local _ .vmem, ⟨2, _⟩ => ⟨S512x512, .bf16⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x1, .f32⟩
  | .local _ .vmem, ⟨10, _⟩ => ⟨S1000x1, .f32⟩
  | .local _ .vmem, ⟨11, _⟩ => ⟨S1x512, .f32⟩
  | .local _ .vmem, ⟨12, _⟩ => ⟨S1000x512, .f32⟩
  | .local _ .vmem, ⟨13, _⟩ => ⟨S1000x512, .f32⟩
  | .local _ .vmem, ⟨14, _⟩ => ⟨S1x512, .f32⟩
  | .local _ .vmem, ⟨15, _⟩ => ⟨S1x512, .f32⟩
  | .local _ .vmem, ⟨16, _⟩ => ⟨S1000x512, .f32⟩
  | .local _ .vmem, ⟨17, _⟩ => ⟨S1000x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1000x512, .bf16⟩
  | .local _ .vmem, ⟨23, _⟩ => ⟨S1000x512, .bf16⟩
  | .local _ .vmem, ⟨24, _⟩ => ⟨S1000x512, .bf16⟩
  | .local _ .vmem, ⟨25, _⟩ => ⟨S1000x512, .bf16⟩
  | .local _ .vmem, ⟨26, _⟩ => ⟨S512x512, .bf16⟩
  | .local _ .vmem, ⟨27, _⟩ => ⟨S1000x512, .f32⟩
  | .local _ .vmem, ⟨28, _⟩ => ⟨S1000x512, .f32⟩
  | .local _ .vmem, ⟨29, _⟩ => ⟨S1000x512, .f32⟩
  | .local _ .vmem, ⟨30, _⟩ => ⟨S1000x512, .f32⟩
  | .local _ .vmem, ⟨31, _⟩ => ⟨S1000x512, .f32⟩
  | .local _ .vmem, ⟨32, _⟩ => ⟨S1000x512, .f32⟩
  | .local _ .vmem, ⟨33, _⟩ => ⟨S1000x1, .f32⟩
  | .local _ .vmem, ⟨34, _⟩ => ⟨S1000x1, .f32⟩
  | .local _ .vmem, ⟨35, _⟩ => ⟨S1x512, .f32⟩
  | .local _ .vmem, ⟨36, _⟩ => ⟨S1000x512, .f32⟩
  | .local _ .vmem, ⟨37, _⟩ => ⟨S1000x512, .f32⟩
  | .local _ .vmem, ⟨38, _⟩ => ⟨S1x512, .f32⟩
  | .local _ .vmem, ⟨39, _⟩ => ⟨S1x512, .f32⟩
  | .local _ .vmem, ⟨40, _⟩ => ⟨S1000x512, .f32⟩
  | .local _ .vmem, ⟨41, _⟩ => ⟨S1000x512, .f32⟩
  | .local _ .vmem, ⟨42, _⟩ => ⟨S1x512, .f32⟩
  | .local _ .vmem, ⟨43, _⟩ => ⟨S1x512, .f32⟩
  | .local _ .vmem, ⟨44, _⟩ => ⟨S1x512, .f32⟩
  | .local _ .vmem, ⟨45, _⟩ => ⟨S1x512, .f32⟩
  | .local _ .vmem, ⟨46, _⟩ => ⟨S1000x512, .bf16⟩
  | .local _ .vmem, ⟨47, _⟩ => ⟨S1000x512, .bf16⟩
  | .local _ .vmem, ⟨48, _⟩ => ⟨S1000x512, .bf16⟩
  | .local _ .vmem, ⟨49, _⟩ => ⟨S1000x512, .bf16⟩
  | .local _ .vmem, ⟨50, _⟩ => ⟨S512x256, .bf16⟩
  | .local _ .vmem, ⟨51, _⟩ => ⟨S1000x256, .f32⟩
  | .local _ .vmem, ⟨52, _⟩ => ⟨S1000x256, .f32⟩
  | .local _ .vmem, ⟨53, _⟩ => ⟨S1000x256, .f32⟩
  | .local _ .vmem, ⟨54, _⟩ => ⟨S1000x256, .f32⟩
  | .local _ .vmem, ⟨55, _⟩ => ⟨S1000x256, .f32⟩
  | .local _ .vmem, ⟨56, _⟩ => ⟨S1000x256, .f32⟩
  | .local _ .vmem, ⟨57, _⟩ => ⟨S1000x1, .f32⟩
  | .local _ .vmem, ⟨58, _⟩ => ⟨S1000x1, .f32⟩
  | .local _ .vmem, ⟨59, _⟩ => ⟨S1x256, .f32⟩
  | .local _ .vmem, ⟨60, _⟩ => ⟨S1000x256, .f32⟩
  | .local _ .vmem, ⟨61, _⟩ => ⟨S1000x256, .f32⟩
  | .local _ .vmem, ⟨62, _⟩ => ⟨S1x256, .f32⟩
  | .local _ .vmem, ⟨63, _⟩ => ⟨S1x256, .f32⟩
  | .local _ .vmem, ⟨64, _⟩ => ⟨S1000x256, .f32⟩
  | .local _ .vmem, ⟨65, _⟩ => ⟨S1000x256, .f32⟩
  | .local _ .vmem, ⟨66, _⟩ => ⟨S1x256, .f32⟩
  | .local _ .vmem, ⟨67, _⟩ => ⟨S1x256, .f32⟩
  | .local _ .vmem, ⟨68, _⟩ => ⟨S1x256, .f32⟩
  | .local _ .vmem, ⟨69, _⟩ => ⟨S1x256, .f32⟩
  | .local _ .vmem, ⟨70, _⟩ => ⟨S1000x256, .bf16⟩
  | .local _ .vmem, ⟨71, _⟩ => ⟨S1000x256, .bf16⟩
  | .local _ .vmem, ⟨72, _⟩ => ⟨S1000x256, .bf16⟩
  | .local _ .vmem, ⟨73, _⟩ => ⟨S1000x256, .bf16⟩
  | .local _ .vmem, ⟨74, _⟩ => ⟨S256x10, .bf16⟩
  | .local _ .vmem, ⟨75, _⟩ => ⟨S1x10, .f32⟩
  | .local _ .vmem, ⟨76, _⟩ => ⟨S1000x10, .f32⟩
  | .local _ .vmem, ⟨77, _⟩ => ⟨S1000x10, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48_0 : Ref sig .tc := ⟨.hbm, 74, rfl⟩
abbrev main_v48_1 : Ref sig .tc := ⟨.hbm, 75, rfl⟩
abbrev main_v48_2 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_10 : Ref sig .tc := ⟨.hbm, 93, rfl⟩
abbrev main_v63 : Ref sig .tc := ⟨.hbm, 94, rfl⟩
abbrev main_v64 : Ref sig .tc := ⟨.hbm, 95, rfl⟩
abbrev main_c_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_12 : Ref sig .tc := ⟨.hbm, 102, rfl⟩
abbrev main_v70 : Ref sig .tc := ⟨.hbm, 103, rfl⟩
abbrev main_v71 : Ref sig .tc := ⟨.hbm, 104, rfl⟩
abbrev main_c_13 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_14 : Ref sig .tc := ⟨.hbm, 112, rfl⟩
abbrev main_v78 : Ref sig .tc := ⟨.hbm, 113, rfl⟩
abbrev main_v79 : Ref sig .tc := ⟨.hbm, 114, rfl⟩
abbrev main_c_15 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_16 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93_0 : Ref sig .tc := ⟨.hbm, 130, rfl⟩
abbrev main_v93_1 : Ref sig .tc := ⟨.hbm, 131, rfl⟩
abbrev main_v93_2 : Ref sig .tc := ⟨.hbm, 132, rfl⟩
abbrev main_v94 : Ref sig .tc := ⟨.hbm, 133, rfl⟩
abbrev main_cst_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_18 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_c_19 : Ref sig .tc := ⟨.hbm, 149, rfl⟩
abbrev main_v108 : Ref sig .tc := ⟨.hbm, 150, rfl⟩
abbrev main_v109 : Ref sig .tc := ⟨.hbm, 151, rfl⟩
abbrev main_c_20 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_c_21 : Ref sig .tc := ⟨.hbm, 158, rfl⟩
abbrev main_v115 : Ref sig .tc := ⟨.hbm, 159, rfl⟩
abbrev main_v116 : Ref sig .tc := ⟨.hbm, 160, rfl⟩
abbrev main_c_22 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_c_23 : Ref sig .tc := ⟨.hbm, 168, rfl⟩
abbrev main_v123 : Ref sig .tc := ⟨.hbm, 169, rfl⟩
abbrev main_v124 : Ref sig .tc := ⟨.hbm, 170, rfl⟩
abbrev main_c_24 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_25 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138_0 : Ref sig .tc := ⟨.hbm, 186, rfl⟩
abbrev main_v138_1 : Ref sig .tc := ⟨.hbm, 187, rfl⟩
abbrev main_v138_2 : Ref sig .tc := ⟨.hbm, 188, rfl⟩
abbrev main_v139 : Ref sig .tc := ⟨.hbm, 189, rfl⟩
abbrev main_cst_26 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_27 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg6_0 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg3_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61
abbrev cc7_sem5_0 : DmaSem sig := 62
abbrev cc7_sem6_0 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem3_1 : DmaSem sig := 77

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1000x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x512 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S1000x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1000x256 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x256 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x10 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x10 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S1000x10 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bitsLt_bf16_f32 : FTy.bits .bf16 < FTy.bits .f32
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  shapeCasts_S10000_S10000x1 : S10000.ShapeCasts S10000x1
  shapeCasts_S512_S1x512 : S512.ShapeCasts S1x512
  inb_S1x512_S1x512_0_0 : ∀ a, (![0, 0] : Fin 2 → Nat) a + S1x512.size a ≤ S1x512.size a
  h_S1x512 : 0 < S1x512.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  shapeCasts_S1x512_S1x512 : S1x512.ShapeCasts S1x512
  broadcasts_S1x512_S1000x512 : S1x512.Broadcasts S1000x512
  reduces_S1000x512_S512 : S1000x512.Reduces [0] S512
  shapeCasts_S1x512_S512 : S1x512.ShapeCasts S512
  bcast_S_S512 : S_.BroadcastsInDim S512 (![] : Fin 0 → Fin S512.rank)
  packedbf16_S1000x512_S1000x512_0_0 : (Rect.unit (s := S1000x512) ![0, 0] S1000x512.size inb_S1000x512_S1000x512_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1000x256_S1000x256_0_0 : ∀ a, (![0, 0] : Fin 2 → Nat) a + S1000x256.size a ≤ S1000x256.size a
  h_S1000x256 : 0 < S1000x256.numel
  bcast_S160000x1_S160000x256_0_1 : S160000x1.BroadcastsInDim S160000x256 (![0, 1] : Fin 2 → Fin S160000x256.rank)
  bcast_S_S10000x256 : S_.BroadcastsInDim S10000x256 (![] : Fin 0 → Fin S10000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1000x256_S1000x256 : S1000x256.ShapeCasts S1000x256
  broadcasts_S1000x1_S1000x256 : S1000x1.Broadcasts S1000x256
  shapeCasts_S1x256_S1x256 : S1x256.ShapeCasts S1x256
  broadcasts_S1x256_S1000x256 : S1x256.Broadcasts S1000x256
  reduces_S1000x256_S256 : S1000x256.Reduces [0] S256
  shapeCasts_S1x256_S256 : S1x256.ShapeCasts S256
  bcast_S_S256 : S_.BroadcastsInDim S256 (![] : Fin 0 → Fin S256.rank)
  packedbf16_S1000x256_S1000x256_0_0 : (Rect.unit (s := S1000x256) ![0, 0] S1000x256.size inb_S1000x256_S1000x256_0_0).PackedRows (EltTy.packing .bf16)
  shapeCasts_S10_S1x10 : S10.ShapeCasts S1x10
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  inb_S1000x10_S1000x10_0_0 : ∀ a, (![0, 0] : Fin 2 → Nat) a + S1000x10.size a ≤ S1000x10.size a
  h_S1000x10 : 0 < S1000x10.numel
  scatter_S10000_S160000x1_S160000_n_0_0_1_wf : ScatterDims.WF S10000 S160000x1 S160000 [] [0] [0] 1
  dot_S1000x512_S512x512_S1000x512_1_0_0_1_n_n_wf : DotDims.WF S1000x512 S512x512 S1000x512 [1] [0] [0] [1] [] []
  gather_S10000_S160000x1_S160000_n_0_n_n_0_1_1_wf : GatherDims.WF S10000 S160000x1 S160000 [] [0] [] [0] [] 1 ![1]
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S1000x512_S512x256_S1000x256_1_0_0_1_n_n_wf : DotDims.WF S1000x512 S512x256 S1000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  dot_S1000x256_S256x10_S1000x10_1_0_0_1_n_n_wf : DotDims.WF S1000x256 S256x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .bf16 = 32 ∨ (Rect.block (s := S10000x512) S1000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .f32 = 32 ∨ (Rect.block (s := S10000x512) S1000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S10000x512.size a
  hwx1_1 : ∀ i : grid1.Coords, EltTy.bits .f32 = 32 ∨ (Rect.block (s := S10000x512) S1000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S10000x1.size a
  hwx1_2 : ∀ i : grid1.Coords, EltTy.bits .f32 = 32 ∨ (Rect.block (s := S10000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x512.size a ≤ S10000x512.size a
  hwx1_4 : ∀ i : grid1.Coords, EltTy.bits .f32 = 32 ∨ (Rect.block (s := S10000x512) S1000x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S10000x512.size a
  hwx2_0 : ∀ i : grid2.Coords, EltTy.bits .f32 = 32 ∨ (Rect.block (s := S10000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x512.size a ≤ S10000x512.size a
  hwx2_5 : ∀ i : grid2.Coords, EltTy.bits .bf16 = 32 ∨ (Rect.block (s := S10000x512) S1000x512.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S10000x512.size a
  hwx3_0 : ∀ i : grid3.Coords, EltTy.bits .bf16 = 32 ∨ (Rect.block (s := S10000x512) S1000x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .bf16 = 32 ∨ (Rect.block (s := S512x512) S512x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x512.size a ≤ S10000x512.size a
  hwx3_2 : ∀ i : grid3.Coords, EltTy.bits .f32 = 32 ∨ (Rect.block (s := S10000x512) S1000x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S10000x512.size a
  hwx4_0 : ∀ i : grid4.Coords, EltTy.bits .f32 = 32 ∨ (Rect.block (s := S10000x512) S1000x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x512.size a ≤ S10000x512.size a
  hwx4_1 : ∀ i : grid4.Coords, EltTy.bits .f32 = 32 ∨ (Rect.block (s := S10000x512) S1000x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x1.size a ≤ S10000x1.size a
  hwx4_2 : ∀ i : grid4.Coords, EltTy.bits .f32 = 32 ∨ (Rect.block (s := S10000x1) S1000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x512.size a ≤ S10000x512.size a
  hwx4_4 : ∀ i : grid4.Coords, EltTy.bits .f32 = 32 ∨ (Rect.block (s := S10000x512) S1000x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x512.size a ≤ S1x512.size a
  hwx4_5 : ∀ i : grid4.Coords, EltTy.bits .f32 = 32 ∨ (Rect.block (s := S1x512) S1x512.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x512.size a ≤ S1x512.size a
  hwx4_6 : ∀ i : grid4.Coords, EltTy.bits .f32 = 32 ∨ (Rect.block (s := S1x512) S1x512.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x512.size a ≤ S10000x512.size a
  hwx5_0 : ∀ i : grid5.Coords, EltTy.bits .f32 = 32 ∨ (Rect.block (s := S10000x512) S1000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x512.size a ≤ S1x512.size a
  hwx5_1 : ∀ i : grid5.Coords, EltTy.bits .f32 = 32 ∨ (Rect.block (s := S1x512) S1x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x512.size a ≤ S10000x512.size a
  hwx5_5 : ∀ i : grid5.Coords, EltTy.bits .bf16 = 32 ∨ (Rect.block (s := S10000x512) S1000x512.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x512.size a ≤ S10000x512.size a
  hwx6_0 : ∀ i : grid6.Coords, EltTy.bits .bf16 = 32 ∨ (Rect.block (s := S10000x512) S1000x512.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x256.size a ≤ S512x256.size a
  hwx6_1 : ∀ i : grid6.Coords, EltTy.bits .bf16 = 32 ∨ (Rect.block (s := S512x256) S512x256.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x256.size a ≤ S10000x256.size a
  hwx6_2 : ∀ i : grid6.Coords, EltTy.bits .f32 = 32 ∨ (Rect.block (s := S10000x256) S1000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x256.size a ≤ S10000x256.size a
  hwx7_0 : ∀ i : grid7.Coords, EltTy.bits .f32 = 32 ∨ (Rect.block (s := S10000x256) S1000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x256.size a ≤ S10000x256.size a
  hwx7_1 : ∀ i : grid7.Coords, EltTy.bits .f32 = 32 ∨ (Rect.block (s := S10000x256) S1000x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1000x1.size a ≤ S10000x1.size a
  hwx7_2 : ∀ i : grid7.Coords, EltTy.bits .f32 = 32 ∨ (Rect.block (s := S10000x1) S1000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1000x256.size a ≤ S10000x256.size a
  hwx7_4 : ∀ i : grid7.Coords, EltTy.bits .f32 = 32 ∨ (Rect.block (s := S10000x256) S1000x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x256.size a ≤ S1x256.size a
  hwx7_5 : ∀ i : grid7.Coords, EltTy.bits .f32 = 32 ∨ (Rect.block (s := S1x256) S1x256.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x256.size a ≤ S10000x256.size a
  hwx8_0 : ∀ i : grid8.Coords, EltTy.bits .f32 = 32 ∨ (Rect.block (s := S10000x256) S1000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x256.size a ≤ S1x256.size a
  hwx8_1 : ∀ i : grid8.Coords, EltTy.bits .f32 = 32 ∨ (Rect.block (s := S1x256) S1x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1000x256.size a ≤ S10000x256.size a
  hwx8_5 : ∀ i : grid8.Coords, EltTy.bits .bf16 = 32 ∨ (Rect.block (s := S10000x256) S1000x256.size (cc8_transform_5 i) (hinb8_5 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x256.size a ≤ S10000x256.size a
  hwx9_0 : ∀ i : grid9.Coords, EltTy.bits .bf16 = 32 ∨ (Rect.block (s := S10000x256) S1000x256.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x10.size a ≤ S256x10.size a
  hwx9_1 : ∀ i : grid9.Coords, EltTy.bits .bf16 = 32 ∨ (Rect.block (s := S256x10) S256x10.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x10.size a ≤ S1x10.size a
  hwx9_2 : ∀ i : grid9.Coords, EltTy.bits .f32 = 32 ∨ (Rect.block (s := S1x10) S1x10.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1000x10.size a ≤ S10000x10.size a
  hwx9_3 : ∀ i : grid9.Coords, EltTy.bits .f32 = 32 ∨ (Rect.block (s := S10000x10) S1000x10.size (cc9_transform_3 i) (hinb9_3 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S1000x256_S256x10_S1000x10_1_0_0_1_n_n : DotDims S1000x256 S256x10 S1000x10 where
  lhsContracting := [1]
  rhsContracting := [0]
  lhsNonContracting := [0]
  rhsNonContracting := [1]
  lhsBatch := []
  rhsBatch := []
  wf := dot_S1000x256_S256x10_S1000x10_1_0_0_1_n_n_wf

abbrev win0_0 : Pipeline.Window sig grid0 :=
  Pipeline.Window.ofSpec (Memref.whole main_v12) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48_0) S1000x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v48_1) S1x512.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48_2) S1x512.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v48_0) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S1000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1000x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v90) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1000x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v91) S1000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v92) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93_0) S1000x512.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v93_1) S1x512.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v93_2) S1x512.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v93_0) S1000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102) S1x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v103) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v104) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v106) S1000x512.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v106) S1000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v15) S512x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v107) S1000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v135) S1000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v107) S1000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v136) S1000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v137) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v138_0) S1000x256.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v138_1) S1x256.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v138_2) S1x256.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v138_0) S1000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v147) S1x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v148) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v149) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v150) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v151) S1000x256.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v151) S1000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v16) S256x10.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v152) S1x10.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v153) S1000x10.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x10 : Shape := ⟨2, ![256, 10]⟩
abbrev S10 : Shape := ⟨1, ![10]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S160000x512 : Shape := ⟨2, ![160000, 512]⟩
abbrev S10000x1 : Shape := ⟨2, ![10000, 1]⟩
abbrev S1x512 : Shape := ⟨2, ![1, 512]⟩
abbrev S10000x256 : Shape := ⟨2, ![10000, 256]⟩
abbrev S160000x256 : Shape := ⟨2, ![160000, 256]⟩
abbrev S1x256 : Shape := ⟨2, ![1, 256]⟩
abbrev S10000x10 : Shape := ⟨2, ![10000, 10]⟩
abbrev S1x10 : Shape := ⟨2, ![1, 10]⟩

abbrev nBuf : Space → Nat
  | .hbm => 265
  | .vmem => 0
  | .smem => 0
  | _ => 0

abbrev hbmTy0_0 (i : Nat) : BufTy := match i % 128 with
  | 0 => ⟨S10000x512, .f32⟩
  | 1 => ⟨S2x160000, .i32⟩
  | 2 => ⟨S512x512, .f32⟩
  | 3 => ⟨S512, .f32⟩
  | 4 => ⟨S512, .f32⟩
  | 5 => ⟨S512, .f32⟩
  | 6 => ⟨S512x512, .f32⟩
  | 7 => ⟨S512, .f32⟩
  | 8 => ⟨S512, .f32⟩
  | 9 => ⟨S512, .f32⟩
  | 10 => ⟨S512x256, .f32⟩
  | 11 => ⟨S256, .f32⟩
  | 12 => ⟨S256, .f32⟩
  | 13 => ⟨S256, .f32⟩
  | 14 => ⟨S256x10, .f32⟩
  | 15 => ⟨S10, .f32⟩
  | 16 => ⟨S1x160000, .i32⟩
  | 17 => ⟨S160000, .i32⟩
  | 18 => ⟨S1x160000, .i32⟩
  | 19 => ⟨S160000, .i32⟩
  | 20 => ⟨S_, .f32⟩
  | 21 => ⟨S160000, .f32⟩
  | 22 => ⟨S_, .f32⟩
  | 23 => ⟨S10000, .f32⟩
  | 24 => ⟨S160000x1, .i32⟩
  | 25 => ⟨S10000, .f32⟩
  | 26 => ⟨S_, .f32⟩
  | 27 => ⟨S10000, .f32⟩
  | 28 => ⟨S10000, .f32⟩
  | 29 => ⟨S10000, .f32⟩
  | 30 => ⟨S10000x512, .f32⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S160000x1, .i32⟩
  | 39 => ⟨S160000, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S160000, .f32⟩
  | 49 => ⟨S160000, .f32⟩
  | 50 => ⟨S_, .i32⟩
  | 51 => ⟨S160000, .i32⟩
  | 52 => ⟨S160000, .i1⟩
  | 53 => ⟨S_, .i32⟩
  | 54 => ⟨S160000, .i32⟩
  | 55 => ⟨S160000, .i32⟩
  | 56 => ⟨S160000, .i32⟩
  | 57 => ⟨S160000x1, .i32⟩
  | 58 => ⟨S160000x512, .f32⟩
  | 59 => ⟨S160000x1, .f32⟩
  | 60 => ⟨S160000x512, .f32⟩
  | 61 => ⟨S160000x512, .f32⟩
  | 62 => ⟨S_, .f32⟩
  | 63 => ⟨S10000x512, .f32⟩
  | 64 => ⟨S160000x1, .i32⟩
  | 65 => ⟨S10000x512, .f32⟩
  | 66 => ⟨S10000, .f32⟩
  | 67 => ⟨S10000x1, .f32⟩
  | 68 => ⟨S10000x512, .f32⟩
  | 69 => ⟨S10000x512, .f32⟩
  | 70 => ⟨S10000x512, .f32⟩
  | 71 => ⟨S1x512, .f32⟩
  | 72 => ⟨S10000x512, .f32⟩
  | 73 => ⟨S10000x512, .f32⟩
  | 74 => ⟨S_, .f32⟩
  | 75 => ⟨S512, .f32⟩
  | 76 => ⟨S_, .f32⟩
  | 77 => ⟨S512, .f32⟩
  | 78 => ⟨S512, .f32⟩
  | 79 => ⟨S1x512, .f32⟩
  | 80 => ⟨S10000x512, .f32⟩
  | 81 => ⟨S10000x512, .f32⟩
  | 82 => ⟨S10000x512, .f32⟩
  | 83 => ⟨S_, .f32⟩
  | 84 => ⟨S512, .f32⟩
  | 85 => ⟨S_, .f32⟩
  | 86 => ⟨S512, .f32⟩
  | 87 => ⟨S512, .f32⟩
  | 88 => ⟨S1x512, .f32⟩
  | 89 => ⟨S10000x512, .f32⟩
  | 90 => ⟨S10000x512, .f32⟩
  | 91 => ⟨S_, .f32⟩
  | 92 => ⟨S512, .f32⟩
  | 93 => ⟨S512, .f32⟩
  | 94 => ⟨S512, .f32⟩
  | 95 => ⟨S1x512, .f32⟩
  | 96 => ⟨S10000x512, .f32⟩
  | 97 => ⟨S10000x512, .f32⟩
  | 98 => ⟨S1x512, .f32⟩
  | 99 => ⟨S10000x512, .f32⟩
  | 100 => ⟨S10000x512, .f32⟩
  | 101 => ⟨S1x512, .f32⟩
  | 102 => ⟨S10000x512, .f32⟩
  | 103 => ⟨S10000x512, .f32⟩
  | 104 => ⟨S_, .f32⟩
  | 105 => ⟨S10000x512, .f32⟩
  | 106 => ⟨S10000x512, .f32⟩
  | 107 => ⟨S10000x512, .f32⟩
  | 108 => ⟨S_, .i32⟩
  | 109 => ⟨S160000, .i32⟩
  | 110 => ⟨S160000, .i1⟩
  | 111 => ⟨S_, .i32⟩
  | 112 => ⟨S160000, .i32⟩
  | 113 => ⟨S160000, .i32⟩
  | 114 => ⟨S160000, .i32⟩
  | 115 => ⟨S160000x1, .i32⟩
  | 116 => ⟨S160000, .f32⟩
  | 117 => ⟨S_, .i32⟩
  | 118 => ⟨S160000, .i32⟩
  | 119 => ⟨S160000, .i1⟩
  | 120 => ⟨S_, .i32⟩
  | 121 => ⟨S160000, .i32⟩
  | 122 => ⟨S160000, .i32⟩
  | 123 => ⟨S160000, .i32⟩
  | 124 => ⟨S160000x1, .i32⟩
  | 125 => ⟨S160000, .f32⟩
  | 126 => ⟨S160000, .f32⟩
  | 127 => ⟨S_, .i32⟩
  | _ => ⟨S10000x512, .f32⟩

abbrev hbmTy0_1 (i : Nat) : BufTy := match i % 128 with
  | 0 => ⟨S160000, .i32⟩
  | 1 => ⟨S160000, .i1⟩
  | 2 => ⟨S_, .i32⟩
  | 3 => ⟨S160000, .i32⟩
  | 4 => ⟨S160000, .i32⟩
  | 5 => ⟨S160000, .i32⟩
  | 6 => ⟨S160000x1, .i32⟩
  | 7 => ⟨S160000x512, .f32⟩
  | 8 => ⟨S160000x1, .f32⟩
  | 9 => ⟨S160000x512, .f32⟩
  | 10 => ⟨S160000x512, .f32⟩
  | 11 => ⟨S_, .f32⟩
  | 12 => ⟨S10000x512, .f32⟩
  | 13 => ⟨S160000x1, .i32⟩
  | 14 => ⟨S10000x512, .f32⟩
  | 15 => ⟨S10000, .f32⟩
  | 16 => ⟨S10000x1, .f32⟩
  | 17 => ⟨S10000x512, .f32⟩
  | 18 => ⟨S10000x512, .f32⟩
  | 19 => ⟨S10000x512, .f32⟩
  | 20 => ⟨S1x512, .f32⟩
  | 21 => ⟨S10000x512, .f32⟩
  | 22 => ⟨S10000x512, .f32⟩
  | 23 => ⟨S_, .f32⟩
  | 24 => ⟨S512, .f32⟩
  | 25 => ⟨S_, .f32⟩
  | 26 => ⟨S512, .f32⟩
  | 27 => ⟨S512, .f32⟩
  | 28 => ⟨S1x512, .f32⟩
  | 29 => ⟨S10000x512, .f32⟩
  | 30 => ⟨S10000x512, .f32⟩
  | 31 => ⟨S10000x512, .f32⟩
  | 32 => ⟨S_, .f32⟩
  | 33 => ⟨S512, .f32⟩
  | 34 => ⟨S_, .f32⟩
  | 35 => ⟨S512, .f32⟩
  | 36 => ⟨S512, .f32⟩
  | 37 => ⟨S1x512, .f32⟩
  | 38 => ⟨S10000x512, .f32⟩
  | 39 => ⟨S10000x512, .f32⟩
  | 40 => ⟨S_, .f32⟩
  | 41 => ⟨S512, .f32⟩
  | 42 => ⟨S512, .f32⟩
  | 43 => ⟨S512, .f32⟩
  | 44 => ⟨S1x512, .f32⟩
  | 45 => ⟨S10000x512, .f32⟩
  | 46 => ⟨S10000x512, .f32⟩
  | 47 => ⟨S1x512, .f32⟩
  | 48 => ⟨S10000x512, .f32⟩
  | 49 => ⟨S10000x512, .f32⟩
  | 50 => ⟨S1x512, .f32⟩
  | 51 => ⟨S10000x512, .f32⟩
  | 52 => ⟨S10000x512, .f32⟩
  | 53 => ⟨S_, .f32⟩
  | 54 => ⟨S10000x512, .f32⟩
  | 55 => ⟨S10000x512, .f32⟩
  | 56 => ⟨S10000x256, .f32⟩
  | 57 => ⟨S_, .i32⟩
  | 58 => ⟨S160000, .i32⟩
  | 59 => ⟨S160000, .i1⟩
  | 60 => ⟨S_, .i32⟩
  | 61 => ⟨S160000, .i32⟩
  | 62 => ⟨S160000, .i32⟩
  | 63 => ⟨S160000, .i32⟩
  | 64 => ⟨S160000x1, .i32⟩
  | 65 => ⟨S160000, .f32⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S160000x1, .i32⟩
  | 74 => ⟨S160000, .f32⟩
  | 75 => ⟨S160000, .f32⟩
  | 76 => ⟨S_, .i32⟩
  | 77 => ⟨S160000, .i32⟩
  | 78 => ⟨S160000, .i1⟩
  | 79 => ⟨S_, .i32⟩
  | 80 => ⟨S160000, .i32⟩
  | 81 => ⟨S160000, .i32⟩
  | 82 => ⟨S160000, .i32⟩
  | 83 => ⟨S160000x1, .i32⟩
  | 84 => ⟨S160000x256, .f32⟩
  | 85 => ⟨S160000x1, .f32⟩
  | 86 => ⟨S160000x256, .f32⟩
  | 87 => ⟨S160000x256, .f32⟩
  | 88 => ⟨S_, .f32⟩
  | 89 => ⟨S10000x256, .f32⟩
  | 90 => ⟨S160000x1, .i32⟩
  | 91 => ⟨S10000x256, .f32⟩
  | 92 => ⟨S10000, .f32⟩
  | 93 => ⟨S10000x1, .f32⟩
  | 94 => ⟨S10000x256, .f32⟩
  | 95 => ⟨S10000x256, .f32⟩
  | 96 => ⟨S10000x256, .f32⟩
  | 97 => ⟨S1x256, .f32⟩
  | 98 => ⟨S10000x256, .f32⟩
  | 99 => ⟨S10000x256, .f32⟩
  | 100 => ⟨S_, .f32⟩
  | 101 => ⟨S256, .f32⟩
  | 102 => ⟨S_, .f32⟩
  | 103 => ⟨S256, .f32⟩
  | 104 => ⟨S256, .f32⟩
  | 105 => ⟨S1x256, .f32⟩
  | 106 => ⟨S10000x256, .f32⟩
  | 107 => ⟨S10000x256, .f32⟩
  | 108 => ⟨S10000x256, .f32⟩
  | 109 => ⟨S_, .f32⟩
  | 110 => ⟨S256, .f32⟩
  | 111 => ⟨S_, .f32⟩
  | 112 => ⟨S256, .f32⟩
  | 113 => ⟨S256, .f32⟩
  | 114 => ⟨S1x256, .f32⟩
  | 115 => ⟨S10000x256, .f32⟩
  | 116 => ⟨S10000x256, .f32⟩
  | 117 => ⟨S_, .f32⟩
  | 118 => ⟨S256, .f32⟩
  | 119 => ⟨S256, .f32⟩
  | 120 => ⟨S256, .f32⟩
  | 121 => ⟨S1x256, .f32⟩
  | 122 => ⟨S10000x256, .f32⟩
  | 123 => ⟨S10000x256, .f32⟩
  | 124 => ⟨S1x256, .f32⟩
  | 125 => ⟨S10000x256, .f32⟩
  | 126 => ⟨S10000x256, .f32⟩
  | 127 => ⟨S1x256, .f32⟩
  | _ => ⟨S10000x512, .f32⟩

abbrev hbmTy0_2 (i : Nat) : BufTy := match i % 128 with
  | 0 => ⟨S10000x256, .f32⟩
  | 1 => ⟨S10000x256, .f32⟩
  | 2 => ⟨S_, .f32⟩
  | 3 => ⟨S10000x256, .f32⟩
  | 4 => ⟨S10000x256, .f32⟩
  | 5 => ⟨S10000x10, .f32⟩
  | 6 => ⟨S1x10, .f32⟩
  | 7 => ⟨S10000x10, .f32⟩
  | 8 => ⟨S10000x10, .f32⟩
  | _ => ⟨S10000x512, .f32⟩

abbrev hbmTy (i : Nat) : BufTy := match i / 128 with
  | 0 => hbmTy0_0 i
  | 1 => hbmTy0_1 i
  | 2 => hbmTy0_2 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call0_cst : Ref sig .tc := ⟨.hbm, 104, rfl⟩
abbrev main_call0_v0 : Ref sig .tc := ⟨.hbm, 105, rfl⟩
abbrev main_v73 : Ref sig .tc := ⟨.hbm, 106, rfl⟩
abbrev main_v74 : Ref sig .tc := ⟨.hbm, 107, rfl⟩
abbrev main_c_13 : Ref sig .tc := ⟨.hbm, 108, rfl⟩
abbrev main_v75 : Ref sig .tc := ⟨.hbm, 109, rfl⟩
abbrev main_v76 : Ref sig .tc := ⟨.hbm, 110, rfl⟩
abbrev main_c_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_15 : Ref sig .tc := ⟨.hbm, 117, rfl⟩
abbrev main_v82 : Ref sig .tc := ⟨.hbm, 118, rfl⟩
abbrev main_v83 : Ref sig .tc := ⟨.hbm, 119, rfl⟩
abbrev main_c_16 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_17 : Ref sig .tc := ⟨.hbm, 127, rfl⟩
abbrev main_v90 : Ref sig .tc := ⟨.hbm, 128, rfl⟩
abbrev main_v91 : Ref sig .tc := ⟨.hbm, 129, rfl⟩
abbrev main_c_18 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_19 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_20 : Ref sig .tc := ⟨.hbm, 151, rfl⟩
abbrev main_v111 : Ref sig .tc := ⟨.hbm, 152, rfl⟩
abbrev main_cst_21 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_22 : Ref sig .tc := ⟨.hbm, 160, rfl⟩
abbrev main_v118 : Ref sig .tc := ⟨.hbm, 161, rfl⟩
abbrev main_cst_23 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_24 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_call1_cst : Ref sig .tc := ⟨.hbm, 181, rfl⟩
abbrev main_call1_v0 : Ref sig .tc := ⟨.hbm, 182, rfl⟩
abbrev main_v136 : Ref sig .tc := ⟨.hbm, 183, rfl⟩
abbrev main_v137 : Ref sig .tc := ⟨.hbm, 184, rfl⟩
abbrev main_c_25 : Ref sig .tc := ⟨.hbm, 185, rfl⟩
abbrev main_v138 : Ref sig .tc := ⟨.hbm, 186, rfl⟩
abbrev main_v139 : Ref sig .tc := ⟨.hbm, 187, rfl⟩
abbrev main_c_26 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_c_27 : Ref sig .tc := ⟨.hbm, 194, rfl⟩
abbrev main_v145 : Ref sig .tc := ⟨.hbm, 195, rfl⟩
abbrev main_v146 : Ref sig .tc := ⟨.hbm, 196, rfl⟩
abbrev main_c_28 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_c_29 : Ref sig .tc := ⟨.hbm, 204, rfl⟩
abbrev main_v153 : Ref sig .tc := ⟨.hbm, 205, rfl⟩
abbrev main_v154 : Ref sig .tc := ⟨.hbm, 206, rfl⟩
abbrev main_c_30 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_cst_31 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_32 : Ref sig .tc := ⟨.hbm, 228, rfl⟩
abbrev main_v174 : Ref sig .tc := ⟨.hbm, 229, rfl⟩
abbrev main_cst_33 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_cst_34 : Ref sig .tc := ⟨.hbm, 237, rfl⟩
abbrev main_v181 : Ref sig .tc := ⟨.hbm, 238, rfl⟩
abbrev main_cst_35 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_cst_36 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_call2_cst : Ref sig .tc := ⟨.hbm, 258, rfl⟩
abbrev main_call2_v0 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  reducesTo_S10000x512_S512_d0 : S10000x512.ReducesTo [0] S512
  h_S_ : 0 < S_.numel
  bcast_S_S512 : S_.BroadcastsInDim S512 (![] : Fin 0 → Fin S512.rank)
  bcast_S160000x1_S160000x256_0_1 : S160000x1.BroadcastsInDim S160000x256 (![0, 1] : Fin 2 → Fin S160000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  bcast_S_S256 : S_.BroadcastsInDim S256 (![] : Fin 0 → Fin S256.rank)
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  scatter_S10000_S160000x1_S160000_n_0_0_1_wf : ScatterDims.WF S10000 S160000x1 S160000 [] [0] [0] 1
  dot_S10000x512_S512x512_S10000x512_1_0_0_1_n_n_wf : DotDims.WF S10000x512 S512x512 S10000x512 [1] [0] [0] [1] [] []
  gather_S10000_S160000x1_S160000_n_0_n_n_0_1_1_wf : GatherDims.WF S10000 S160000x1 S160000 [] [0] [] [0] [] 1 ![1]
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x256_S10000x256_1_0_0_1_n_n_wf : DotDims.WF S10000x512 S512x256 S10000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  dot_S10000x256_S256x10_S10000x10_1_0_0_1_n_n_wf : DotDims.WF S10000x256 S256x10 S10000x10 [1] [0] [0] [1] [] []

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S10000x256_S256x10_S10000x10_1_0_0_1_n_n : DotDims S10000x256 S256x10 S10000x10 where
  lhsContracting := [1]
  rhsContracting := [0]
  lhsNonContracting := [0]
  rhsNonContracting := [1]
  lhsBatch := []
  rhsBatch := []
  wf := dot_S10000x256_S256x10_S10000x10_1_0_0_1_n_n_wf

class Facts : Prop extends Facts₀ where

variable [Facts]
-- ==== Proof.ValueRun.lean ====
/-
  The kernel program's run with its result named: every weakly fair execution of the idealized kernel program terminates
  without a fault, the sixteen argument arrays end as launched, and the result array ends holding what the fold through
  the program's segments (host stretches and the ten pipelined regions) leaves at the result buffer.
-/
import proofs.«136907_j29480655519935_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program's segments, read at the result buffer as well as at the arguments: the final memory holds, at
    every unscoped buffer, the contents the fold through the segments leaves there. -/
theorem run_result : θ_run defs (onTc (τ := τ) (main (F := F))) ⟨m, fun _ => 0, ρ⟩ (fun r => ∀ c : Dev nD,
      r.2.mem ((c.tc : Thread nD τ).loc main_v153) = W18 m ρ c (Proc.devRef .tc main_v153)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v153 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c)⟩)

end Cert.KernelIdeal.ValueRun

end
-- ==== Proof.Carry.lean ====
/-
  Buffers that no later segment of the kernel program writes keep their contents: a host stretch leaves every buffer it does
  not assign as it found it, and a pipelined region leaves every buffer that is not one of its windows' arrays as it
  found it. Each lemma walks one buffer back through the segments to the point where it was last assigned.
-/
import proofs.«136907_j29480655519935_1_alg».proof.Proof.Gen.KernelIdeal.Frame
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem keep_main_v1_2_1 (c : Dev nD) : W2 (F := Ideal) m ρ c (Proc.devRef .tc main_v1) = W1 (F := Ideal) m ρ c (Proc.devRef .tc main_v1) :=
  calc W2 (F := Ideal) m ρ c (Proc.devRef .tc main_v1)
    _ = W1 (F := Ideal) m ρ c (Proc.devRef .tc main_v1) := W2_of_ne m ρ c main_v1 (by decide)

theorem keep_main_v3_2_1 (c : Dev nD) : W2 (F := Ideal) m ρ c (Proc.devRef .tc main_v3) = W1 (F := Ideal) m ρ c (Proc.devRef .tc main_v3) :=
  calc W2 (F := Ideal) m ρ c (Proc.devRef .tc main_v3)
    _ = W1 (F := Ideal) m ρ c (Proc.devRef .tc main_v3) := W2_of_ne m ρ c main_v3 (by decide)

theorem keep_main_v10_2_1 (c : Dev nD) : W2 (F := Ideal) m ρ c (Proc.devRef .tc main_v10) = W1 (F := Ideal) m ρ c (Proc.devRef .tc main_v10) :=
  calc W2 (F := Ideal) m ρ c (Proc.devRef .tc main_v10)
    _ = W1 (F := Ideal) m ρ c (Proc.devRef .tc main_v10) := W2_of_ne m ρ c main_v10 (by decide)

theorem keep_main_v11_2_1 (c : Dev nD) : W2 (F := Ideal) m ρ c (Proc.devRef .tc main_v11) = W1 (F := Ideal) m ρ c (Proc.devRef .tc main_v11) :=
  calc W2 (F := Ideal) m ρ c (Proc.devRef .tc main_v11)
    _ = W1 (F := Ideal) m ρ c (Proc.devRef .tc main_v11) := W2_of_ne m ρ c main_v11 (by decide)

theorem keep_main_arg3_2_0 (c : Dev nD) : W2 (F := Ideal) m ρ c (Proc.devRef .tc main_arg3) = m ((c : Thread nD τ).loc main_arg3) :=
  calc W2 (F := Ideal) m ρ c (Proc.devRef .tc main_arg3)
    _ = W1 (F := Ideal) m ρ c (Proc.devRef .tc main_arg3) := W2_of_ne m ρ c main_arg3 (by decide)
    _ = W0 (F := Ideal) m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem keep_main_v17_3_2 (c : Dev nD) : W3 (F := Ideal) m ρ c (Proc.devRef .tc main_v17) = W2 (F := Ideal) m ρ c (Proc.devRef .tc main_v17) :=
  calc W3 (F := Ideal) m ρ c (Proc.devRef .tc main_v17)
    _ = W2 (F := Ideal) m ρ c (Proc.devRef .tc main_v17) := StableHlo.after_of_forall_not_mem (b := Proc.devRef .tc main_v17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg4_4_0 (c : Dev nD) : W4 (F := Ideal) m ρ c (Proc.devRef .tc main_arg4) = m ((c : Thread nD τ).loc main_arg4) :=
  calc W4 (F := Ideal) m ρ c (Proc.devRef .tc main_arg4)
    _ = W3 (F := Ideal) m ρ c (Proc.devRef .tc main_arg4) := W4_of_ne m ρ c main_arg4 (by decide)
    _ = W2 (F := Ideal) m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg4) := W2_of_ne m ρ c main_arg4 (by decide)
    _ = W0 (F := Ideal) m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem keep_main_arg5_4_0 (c : Dev nD) : W4 (F := Ideal) m ρ c (Proc.devRef .tc main_arg5) = m ((c : Thread nD τ).loc main_arg5) :=
  calc W4 (F := Ideal) m ρ c (Proc.devRef .tc main_arg5)
    _ = W3 (F := Ideal) m ρ c (Proc.devRef .tc main_arg5) := W4_of_ne m ρ c main_arg5 (by decide)
    _ = W2 (F := Ideal) m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg5) := W2_of_ne m ρ c main_arg5 (by decide)
    _ = W0 (F := Ideal) m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem keep_main_v48_0_5_4 (c : Dev nD) : W5 (F := Ideal) m ρ c (Proc.devRef .tc main_v48_0) = W4 (F := Ideal) m ρ c (Proc.devRef .tc main_v48_0) :=
  calc W5 (F := Ideal) m ρ c (Proc.devRef .tc main_v48_0)
    _ = W4 (F := Ideal) m ρ c (Proc.devRef .tc main_v48_0) := StableHlo.after_of_forall_not_mem (b := Proc.devRef .tc main_v48_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v14_6_1 (c : Dev nD) : W6 (F := Ideal) m ρ c (Proc.devRef .tc main_v14) = W1 (F := Ideal) m ρ c (Proc.devRef .tc main_v14) :=
  calc W6 (F := Ideal) m ρ c (Proc.devRef .tc main_v14)
    _ = W5 (F := Ideal) m ρ c (Proc.devRef .tc main_v14) := W6_of_ne m ρ c main_v14 (by decide)
    _ = W4 (F := Ideal) m ρ c (Proc.devRef .tc main_v14) := StableHlo.after_of_forall_not_mem (b := Proc.devRef .tc main_v14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v14) := W4_of_ne m ρ c main_v14 (by decide)
    _ = W2 (F := Ideal) m ρ c (Proc.devRef .tc main_v14) := StableHlo.after_of_forall_not_mem (b := Proc.devRef .tc main_v14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v14) := W2_of_ne m ρ c main_v14 (by decide)

theorem keep_main_v1_7_1 (c : Dev nD) : W7 (F := Ideal) m ρ c (Proc.devRef .tc main_v1) = W1 (F := Ideal) m ρ c (Proc.devRef .tc main_v1) :=
  calc W7 (F := Ideal) m ρ c (Proc.devRef .tc main_v1)
    _ = W6 (F := Ideal) m ρ c (Proc.devRef .tc main_v1) := W7_of_ne m ρ c main_v1 (by decide)
    _ = W5 (F := Ideal) m ρ c (Proc.devRef .tc main_v1) := W6_of_ne m ρ c main_v1 (by decide)
    _ = W4 (F := Ideal) m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v1) := W4_of_ne m ρ c main_v1 (by decide)
    _ = W2 (F := Ideal) m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v1) := W2_of_ne m ρ c main_v1 (by decide)

theorem keep_main_v3_7_1 (c : Dev nD) : W7 (F := Ideal) m ρ c (Proc.devRef .tc main_v3) = W1 (F := Ideal) m ρ c (Proc.devRef .tc main_v3) :=
  calc W7 (F := Ideal) m ρ c (Proc.devRef .tc main_v3)
    _ = W6 (F := Ideal) m ρ c (Proc.devRef .tc main_v3) := W7_of_ne m ρ c main_v3 (by decide)
    _ = W5 (F := Ideal) m ρ c (Proc.devRef .tc main_v3) := W6_of_ne m ρ c main_v3 (by decide)
    _ = W4 (F := Ideal) m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v3) := W4_of_ne m ρ c main_v3 (by decide)
    _ = W2 (F := Ideal) m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v3) := W2_of_ne m ρ c main_v3 (by decide)

theorem keep_main_v10_7_1 (c : Dev nD) : W7 (F := Ideal) m ρ c (Proc.devRef .tc main_v10) = W1 (F := Ideal) m ρ c (Proc.devRef .tc main_v10) :=
  calc W7 (F := Ideal) m ρ c (Proc.devRef .tc main_v10)
    _ = W6 (F := Ideal) m ρ c (Proc.devRef .tc main_v10) := W7_of_ne m ρ c main_v10 (by decide)
    _ = W5 (F := Ideal) m ρ c (Proc.devRef .tc main_v10) := W6_of_ne m ρ c main_v10 (by decide)
    _ = W4 (F := Ideal) m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v10) := W4_of_ne m ρ c main_v10 (by decide)
    _ = W2 (F := Ideal) m ρ c (Proc.devRef .tc main_v10) := StableHlo.after_of_forall_not_mem (b := Proc.devRef .tc main_v10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v10) := W2_of_ne m ρ c main_v10 (by decide)

theorem keep_main_v11_7_1 (c : Dev nD) : W7 (F := Ideal) m ρ c (Proc.devRef .tc main_v11) = W1 (F := Ideal) m ρ c (Proc.devRef .tc main_v11) :=
  calc W7 (F := Ideal) m ρ c (Proc.devRef .tc main_v11)
    _ = W6 (F := Ideal) m ρ c (Proc.devRef .tc main_v11) := W7_of_ne m ρ c main_v11 (by decide)
    _ = W5 (F := Ideal) m ρ c (Proc.devRef .tc main_v11) := W6_of_ne m ρ c main_v11 (by decide)
    _ = W4 (F := Ideal) m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v11) := W4_of_ne m ρ c main_v11 (by decide)
    _ = W2 (F := Ideal) m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v11) := W2_of_ne m ρ c main_v11 (by decide)

theorem keep_main_arg7_7_0 (c : Dev nD) : W7 (F := Ideal) m ρ c (Proc.devRef .tc main_arg7) = m ((c : Thread nD τ).loc main_arg7) :=
  calc W7 (F := Ideal) m ρ c (Proc.devRef .tc main_arg7)
    _ = W6 (F := Ideal) m ρ c (Proc.devRef .tc main_arg7) := W7_of_ne m ρ c main_arg7 (by decide)
    _ = W5 (F := Ideal) m ρ c (Proc.devRef .tc main_arg7) := W6_of_ne m ρ c main_arg7 (by decide)
    _ = W4 (F := Ideal) m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_arg7) := W4_of_ne m ρ c main_arg7 (by decide)
    _ = W2 (F := Ideal) m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg7) := W2_of_ne m ρ c main_arg7 (by decide)
    _ = W0 (F := Ideal) m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem keep_main_v62_8_7 (c : Dev nD) : W8 (F := Ideal) m ρ c (Proc.devRef .tc main_v62) = W7 (F := Ideal) m ρ c (Proc.devRef .tc main_v62) :=
  calc W8 (F := Ideal) m ρ c (Proc.devRef .tc main_v62)
    _ = W7 (F := Ideal) m ρ c (Proc.devRef .tc main_v62) := StableHlo.after_of_forall_not_mem (b := Proc.devRef .tc main_v62) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg8_9_0 (c : Dev nD) : W9 (F := Ideal) m ρ c (Proc.devRef .tc main_arg8) = m ((c : Thread nD τ).loc main_arg8) :=
  calc W9 (F := Ideal) m ρ c (Proc.devRef .tc main_arg8)
    _ = W8 (F := Ideal) m ρ c (Proc.devRef .tc main_arg8) := W9_of_ne m ρ c main_arg8 (by decide)
    _ = W7 (F := Ideal) m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_arg8) := W7_of_ne m ρ c main_arg8 (by decide)
    _ = W5 (F := Ideal) m ρ c (Proc.devRef .tc main_arg8) := W6_of_ne m ρ c main_arg8 (by decide)
    _ = W4 (F := Ideal) m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_arg8) := W4_of_ne m ρ c main_arg8 (by decide)
    _ = W2 (F := Ideal) m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg8) := W2_of_ne m ρ c main_arg8 (by decide)
    _ = W0 (F := Ideal) m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem keep_main_arg9_9_0 (c : Dev nD) : W9 (F := Ideal) m ρ c (Proc.devRef .tc main_arg9) = m ((c : Thread nD τ).loc main_arg9) :=
  calc W9 (F := Ideal) m ρ c (Proc.devRef .tc main_arg9)
    _ = W8 (F := Ideal) m ρ c (Proc.devRef .tc main_arg9) := W9_of_ne m ρ c main_arg9 (by decide)
    _ = W7 (F := Ideal) m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_arg9) := W7_of_ne m ρ c main_arg9 (by decide)
    _ = W5 (F := Ideal) m ρ c (Proc.devRef .tc main_arg9) := W6_of_ne m ρ c main_arg9 (by decide)
    _ = W4 (F := Ideal) m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_arg9) := W4_of_ne m ρ c main_arg9 (by decide)
    _ = W2 (F := Ideal) m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg9) := W2_of_ne m ρ c main_arg9 (by decide)
    _ = W0 (F := Ideal) m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem keep_main_v93_0_10_9 (c : Dev nD) : W10 (F := Ideal) m ρ c (Proc.devRef .tc main_v93_0) = W9 (F := Ideal) m ρ c (Proc.devRef .tc main_v93_0) :=
  calc W10 (F := Ideal) m ρ c (Proc.devRef .tc main_v93_0)
    _ = W9 (F := Ideal) m ρ c (Proc.devRef .tc main_v93_0) := StableHlo.after_of_forall_not_mem (b := Proc.devRef .tc main_v93_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v15_11_1 (c : Dev nD) : W11 (F := Ideal) m ρ c (Proc.devRef .tc main_v15) = W1 (F := Ideal) m ρ c (Proc.devRef .tc main_v15) :=
  calc W11 (F := Ideal) m ρ c (Proc.devRef .tc main_v15)
    _ = W10 (F := Ideal) m ρ c (Proc.devRef .tc main_v15) := W11_of_ne m ρ c main_v15 (by decide)
    _ = W9 (F := Ideal) m ρ c (Proc.devRef .tc main_v15) := StableHlo.after_of_forall_not_mem (b := Proc.devRef .tc main_v15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 (F := Ideal) m ρ c (Proc.devRef .tc main_v15) := W9_of_ne m ρ c main_v15 (by decide)
    _ = W7 (F := Ideal) m ρ c (Proc.devRef .tc main_v15) := StableHlo.after_of_forall_not_mem (b := Proc.devRef .tc main_v15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_v15) := W7_of_ne m ρ c main_v15 (by decide)
    _ = W5 (F := Ideal) m ρ c (Proc.devRef .tc main_v15) := W6_of_ne m ρ c main_v15 (by decide)
    _ = W4 (F := Ideal) m ρ c (Proc.devRef .tc main_v15) := StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v15) := W4_of_ne m ρ c main_v15 (by decide)
    _ = W2 (F := Ideal) m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v15) := W2_of_ne m ρ c main_v15 (by decide)

theorem keep_main_v1_12_1 (c : Dev nD) : W12 (F := Ideal) m ρ c (Proc.devRef .tc main_v1) = W1 (F := Ideal) m ρ c (Proc.devRef .tc main_v1) :=
  calc W12 (F := Ideal) m ρ c (Proc.devRef .tc main_v1)
    _ = W11 (F := Ideal) m ρ c (Proc.devRef .tc main_v1) := W12_of_ne m ρ c main_v1 (by decide)
    _ = W10 (F := Ideal) m ρ c (Proc.devRef .tc main_v1) := W11_of_ne m ρ c main_v1 (by decide)
    _ = W9 (F := Ideal) m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 (F := Ideal) m ρ c (Proc.devRef .tc main_v1) := W9_of_ne m ρ c main_v1 (by decide)
    _ = W7 (F := Ideal) m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_v1) := W7_of_ne m ρ c main_v1 (by decide)
    _ = W5 (F := Ideal) m ρ c (Proc.devRef .tc main_v1) := W6_of_ne m ρ c main_v1 (by decide)
    _ = W4 (F := Ideal) m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v1) := W4_of_ne m ρ c main_v1 (by decide)
    _ = W2 (F := Ideal) m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v1) := W2_of_ne m ρ c main_v1 (by decide)

theorem keep_main_v3_12_1 (c : Dev nD) : W12 (F := Ideal) m ρ c (Proc.devRef .tc main_v3) = W1 (F := Ideal) m ρ c (Proc.devRef .tc main_v3) :=
  calc W12 (F := Ideal) m ρ c (Proc.devRef .tc main_v3)
    _ = W11 (F := Ideal) m ρ c (Proc.devRef .tc main_v3) := W12_of_ne m ρ c main_v3 (by decide)
    _ = W10 (F := Ideal) m ρ c (Proc.devRef .tc main_v3) := W11_of_ne m ρ c main_v3 (by decide)
    _ = W9 (F := Ideal) m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 (F := Ideal) m ρ c (Proc.devRef .tc main_v3) := W9_of_ne m ρ c main_v3 (by decide)
    _ = W7 (F := Ideal) m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_v3) := W7_of_ne m ρ c main_v3 (by decide)
    _ = W5 (F := Ideal) m ρ c (Proc.devRef .tc main_v3) := W6_of_ne m ρ c main_v3 (by decide)
    _ = W4 (F := Ideal) m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v3) := W4_of_ne m ρ c main_v3 (by decide)
    _ = W2 (F := Ideal) m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v3) := W2_of_ne m ρ c main_v3 (by decide)

theorem keep_main_v10_12_1 (c : Dev nD) : W12 (F := Ideal) m ρ c (Proc.devRef .tc main_v10) = W1 (F := Ideal) m ρ c (Proc.devRef .tc main_v10) :=
  calc W12 (F := Ideal) m ρ c (Proc.devRef .tc main_v10)
    _ = W11 (F := Ideal) m ρ c (Proc.devRef .tc main_v10) := W12_of_ne m ρ c main_v10 (by decide)
    _ = W10 (F := Ideal) m ρ c (Proc.devRef .tc main_v10) := W11_of_ne m ρ c main_v10 (by decide)
    _ = W9 (F := Ideal) m ρ c (Proc.devRef .tc main_v10) := StableHlo.after_of_forall_not_mem (b := Proc.devRef .tc main_v10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 (F := Ideal) m ρ c (Proc.devRef .tc main_v10) := W9_of_ne m ρ c main_v10 (by decide)
    _ = W7 (F := Ideal) m ρ c (Proc.devRef .tc main_v10) := StableHlo.after_of_forall_not_mem (b := Proc.devRef .tc main_v10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_v10) := W7_of_ne m ρ c main_v10 (by decide)
    _ = W5 (F := Ideal) m ρ c (Proc.devRef .tc main_v10) := W6_of_ne m ρ c main_v10 (by decide)
    _ = W4 (F := Ideal) m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v10) := W4_of_ne m ρ c main_v10 (by decide)
    _ = W2 (F := Ideal) m ρ c (Proc.devRef .tc main_v10) := StableHlo.after_of_forall_not_mem (b := Proc.devRef .tc main_v10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v10) := W2_of_ne m ρ c main_v10 (by decide)

theorem keep_main_v11_12_1 (c : Dev nD) : W12 (F := Ideal) m ρ c (Proc.devRef .tc main_v11) = W1 (F := Ideal) m ρ c (Proc.devRef .tc main_v11) :=
  calc W12 (F := Ideal) m ρ c (Proc.devRef .tc main_v11)
    _ = W11 (F := Ideal) m ρ c (Proc.devRef .tc main_v11) := W12_of_ne m ρ c main_v11 (by decide)
    _ = W10 (F := Ideal) m ρ c (Proc.devRef .tc main_v11) := W11_of_ne m ρ c main_v11 (by decide)
    _ = W9 (F := Ideal) m ρ c (Proc.devRef .tc main_v11) := StableHlo.after_of_forall_not_mem (b := Proc.devRef .tc main_v11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 (F := Ideal) m ρ c (Proc.devRef .tc main_v11) := W9_of_ne m ρ c main_v11 (by decide)
    _ = W7 (F := Ideal) m ρ c (Proc.devRef .tc main_v11) := StableHlo.after_of_forall_not_mem (b := Proc.devRef .tc main_v11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_v11) := W7_of_ne m ρ c main_v11 (by decide)
    _ = W5 (F := Ideal) m ρ c (Proc.devRef .tc main_v11) := W6_of_ne m ρ c main_v11 (by decide)
    _ = W4 (F := Ideal) m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v11) := W4_of_ne m ρ c main_v11 (by decide)
    _ = W2 (F := Ideal) m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v11) := W2_of_ne m ρ c main_v11 (by decide)

theorem keep_main_arg11_12_0 (c : Dev nD) : W12 (F := Ideal) m ρ c (Proc.devRef .tc main_arg11) = m ((c : Thread nD τ).loc main_arg11) :=
  calc W12 (F := Ideal) m ρ c (Proc.devRef .tc main_arg11)
    _ = W11 (F := Ideal) m ρ c (Proc.devRef .tc main_arg11) := W12_of_ne m ρ c main_arg11 (by decide)
    _ = W10 (F := Ideal) m ρ c (Proc.devRef .tc main_arg11) := W11_of_ne m ρ c main_arg11 (by decide)
    _ = W9 (F := Ideal) m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 (F := Ideal) m ρ c (Proc.devRef .tc main_arg11) := W9_of_ne m ρ c main_arg11 (by decide)
    _ = W7 (F := Ideal) m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_arg11) := W7_of_ne m ρ c main_arg11 (by decide)
    _ = W5 (F := Ideal) m ρ c (Proc.devRef .tc main_arg11) := W6_of_ne m ρ c main_arg11 (by decide)
    _ = W4 (F := Ideal) m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_arg11) := W4_of_ne m ρ c main_arg11 (by decide)
    _ = W2 (F := Ideal) m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg11) := W2_of_ne m ρ c main_arg11 (by decide)
    _ = W0 (F := Ideal) m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem keep_main_v107_13_12 (c : Dev nD) : W13 (F := Ideal) m ρ c (Proc.devRef .tc main_v107) = W12 (F := Ideal) m ρ c (Proc.devRef .tc main_v107) :=
  calc W13 (F := Ideal) m ρ c (Proc.devRef .tc main_v107)
    _ = W12 (F := Ideal) m ρ c (Proc.devRef .tc main_v107) := StableHlo.after_of_forall_not_mem (b := Proc.devRef .tc main_v107) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg12_14_0 (c : Dev nD) : W14 (F := Ideal) m ρ c (Proc.devRef .tc main_arg12) = m ((c : Thread nD τ).loc main_arg12) :=
  calc W14 (F := Ideal) m ρ c (Proc.devRef .tc main_arg12)
    _ = W13 (F := Ideal) m ρ c (Proc.devRef .tc main_arg12) := W14_of_ne m ρ c main_arg12 (by decide)
    _ = W12 (F := Ideal) m ρ c (Proc.devRef .tc main_arg12) := StableHlo.after_of_forall_not_mem (b := Proc.devRef .tc main_arg12) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 (F := Ideal) m ρ c (Proc.devRef .tc main_arg12) := W12_of_ne m ρ c main_arg12 (by decide)
    _ = W10 (F := Ideal) m ρ c (Proc.devRef .tc main_arg12) := W11_of_ne m ρ c main_arg12 (by decide)
    _ = W9 (F := Ideal) m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 (F := Ideal) m ρ c (Proc.devRef .tc main_arg12) := W9_of_ne m ρ c main_arg12 (by decide)
    _ = W7 (F := Ideal) m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_arg12) := W7_of_ne m ρ c main_arg12 (by decide)
    _ = W5 (F := Ideal) m ρ c (Proc.devRef .tc main_arg12) := W6_of_ne m ρ c main_arg12 (by decide)
    _ = W4 (F := Ideal) m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_arg12) := W4_of_ne m ρ c main_arg12 (by decide)
    _ = W2 (F := Ideal) m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg12) := W2_of_ne m ρ c main_arg12 (by decide)
    _ = W0 (F := Ideal) m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem keep_main_arg13_14_0 (c : Dev nD) : W14 (F := Ideal) m ρ c (Proc.devRef .tc main_arg13) = m ((c : Thread nD τ).loc main_arg13) :=
  calc W14 (F := Ideal) m ρ c (Proc.devRef .tc main_arg13)
    _ = W13 (F := Ideal) m ρ c (Proc.devRef .tc main_arg13) := W14_of_ne m ρ c main_arg13 (by decide)
    _ = W12 (F := Ideal) m ρ c (Proc.devRef .tc main_arg13) := StableHlo.after_of_forall_not_mem (b := Proc.devRef .tc main_arg13) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 (F := Ideal) m ρ c (Proc.devRef .tc main_arg13) := W12_of_ne m ρ c main_arg13 (by decide)
    _ = W10 (F := Ideal) m ρ c (Proc.devRef .tc main_arg13) := W11_of_ne m ρ c main_arg13 (by decide)
    _ = W9 (F := Ideal) m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 (F := Ideal) m ρ c (Proc.devRef .tc main_arg13) := W9_of_ne m ρ c main_arg13 (by decide)
    _ = W7 (F := Ideal) m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_arg13) := W7_of_ne m ρ c main_arg13 (by decide)
    _ = W5 (F := Ideal) m ρ c (Proc.devRef .tc main_arg13) := W6_of_ne m ρ c main_arg13 (by decide)
    _ = W4 (F := Ideal) m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_arg13) := W4_of_ne m ρ c main_arg13 (by decide)
    _ = W2 (F := Ideal) m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg13) := W2_of_ne m ρ c main_arg13 (by decide)
    _ = W0 (F := Ideal) m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem keep_main_v138_0_15_14 (c : Dev nD) : W15 (F := Ideal) m ρ c (Proc.devRef .tc main_v138_0) = W14 (F := Ideal) m ρ c (Proc.devRef .tc main_v138_0) :=
  calc W15 (F := Ideal) m ρ c (Proc.devRef .tc main_v138_0)
    _ = W14 (F := Ideal) m ρ c (Proc.devRef .tc main_v138_0) := StableHlo.after_of_forall_not_mem (b := Proc.devRef .tc main_v138_0) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg15_16_0 (c : Dev nD) : W16 (F := Ideal) m ρ c (Proc.devRef .tc main_arg15) = m ((c : Thread nD τ).loc main_arg15) :=
  calc W16 (F := Ideal) m ρ c (Proc.devRef .tc main_arg15)
    _ = W15 (F := Ideal) m ρ c (Proc.devRef .tc main_arg15) := W16_of_ne m ρ c main_arg15 (by decide)
    _ = W14 (F := Ideal) m ρ c (Proc.devRef .tc main_arg15) := StableHlo.after_of_forall_not_mem (b := Proc.devRef .tc main_arg15) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 (F := Ideal) m ρ c (Proc.devRef .tc main_arg15) := W14_of_ne m ρ c main_arg15 (by decide)
    _ = W12 (F := Ideal) m ρ c (Proc.devRef .tc main_arg15) := StableHlo.after_of_forall_not_mem (b := Proc.devRef .tc main_arg15) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 (F := Ideal) m ρ c (Proc.devRef .tc main_arg15) := W12_of_ne m ρ c main_arg15 (by decide)
    _ = W10 (F := Ideal) m ρ c (Proc.devRef .tc main_arg15) := W11_of_ne m ρ c main_arg15 (by decide)
    _ = W9 (F := Ideal) m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 (F := Ideal) m ρ c (Proc.devRef .tc main_arg15) := W9_of_ne m ρ c main_arg15 (by decide)
    _ = W7 (F := Ideal) m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_arg15) := W7_of_ne m ρ c main_arg15 (by decide)
    _ = W5 (F := Ideal) m ρ c (Proc.devRef .tc main_arg15) := W6_of_ne m ρ c main_arg15 (by decide)
    _ = W4 (F := Ideal) m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_arg15) := W4_of_ne m ρ c main_arg15 (by decide)
    _ = W2 (F := Ideal) m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg15) := W2_of_ne m ρ c main_arg15 (by decide)
    _ = W0 (F := Ideal) m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem keep_main_v151_17_16 (c : Dev nD) : W17 (F := Ideal) m ρ c (Proc.devRef .tc main_v151) = W16 (F := Ideal) m ρ c (Proc.devRef .tc main_v151) :=
  calc W17 (F := Ideal) m ρ c (Proc.devRef .tc main_v151)
    _ = W16 (F := Ideal) m ρ c (Proc.devRef .tc main_v151) := StableHlo.after_of_forall_not_mem (b := Proc.devRef .tc main_v151) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v16_17_1 (c : Dev nD) : W17 (F := Ideal) m ρ c (Proc.devRef .tc main_v16) = W1 (F := Ideal) m ρ c (Proc.devRef .tc main_v16) :=
  calc W17 (F := Ideal) m ρ c (Proc.devRef .tc main_v16)
    _ = W16 (F := Ideal) m ρ c (Proc.devRef .tc main_v16) := StableHlo.after_of_forall_not_mem (b := Proc.devRef .tc main_v16) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 (F := Ideal) m ρ c (Proc.devRef .tc main_v16) := W16_of_ne m ρ c main_v16 (by decide)
    _ = W14 (F := Ideal) m ρ c (Proc.devRef .tc main_v16) := StableHlo.after_of_forall_not_mem (b := Proc.devRef .tc main_v16) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 (F := Ideal) m ρ c (Proc.devRef .tc main_v16) := W14_of_ne m ρ c main_v16 (by decide)
    _ = W12 (F := Ideal) m ρ c (Proc.devRef .tc main_v16) := StableHlo.after_of_forall_not_mem (b := Proc.devRef .tc main_v16) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 (F := Ideal) m ρ c (Proc.devRef .tc main_v16) := W12_of_ne m ρ c main_v16 (by decide)
    _ = W10 (F := Ideal) m ρ c (Proc.devRef .tc main_v16) := W11_of_ne m ρ c main_v16 (by decide)
    _ = W9 (F := Ideal) m ρ c (Proc.devRef .tc main_v16) := StableHlo.after_of_forall_not_mem (b := Proc.devRef .tc main_v16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 (F := Ideal) m ρ c (Proc.devRef .tc main_v16) := W9_of_ne m ρ c main_v16 (by decide)
    _ = W7 (F := Ideal) m ρ c (Proc.devRef .tc main_v16) := StableHlo.after_of_forall_not_mem (b := Proc.devRef .tc main_v16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_v16) := W7_of_ne m ρ c main_v16 (by decide)
    _ = W5 (F := Ideal) m ρ c (Proc.devRef .tc main_v16) := W6_of_ne m ρ c main_v16 (by decide)
    _ = W4 (F := Ideal) m ρ c (Proc.devRef .tc main_v16) := StableHlo.after_of_forall_not_mem (b := Proc.devRef .tc main_v16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v16) := W4_of_ne m ρ c main_v16 (by decide)
    _ = W2 (F := Ideal) m ρ c (Proc.devRef .tc main_v16) := StableHlo.after_of_forall_not_mem (b := Proc.devRef .tc main_v16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v16) := W2_of_ne m ρ c main_v16 (by decide)

end Cert.KernelIdeal.Chain

end
-- ==== Proof.ChainBase.lean ====
/-
  What the first host stretch of the kernel program leaves: the edge endpoints, the inverse square roots of the degrees
  and their squares are the reference's own terms of the edge index array, and each narrowed copy of a float argument is
  that argument (a change of float format is the identity on the extended reals).
-/
import proofs.«136907_j29480655519935_1_alg».proof.Proof.Gen.KernelIdeal.Frame
import proofs.«136907_j29480655519935_1_alg».proof.Proof.RefRead

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

theorem w1_src : W1 (F := Ideal) m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl
theorem w1_dst : W1 (F := Ideal) m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl
theorem w1_dis : W1 (F := Ideal) m ρ c (Proc.devRef .tc main_v10) = Cert.ReferenceIdeal.Read.val_main_v10 (F := Ideal) (m ((c : Thread nD τ).loc main_arg1)) := by
  show StableHlo.after hostOps0 (W0 m ρ c) (Proc.devRef .tc main_v10) = _
  after_results
  rfl
theorem w1_dis2 : W1 (F := Ideal) m ρ c (Proc.devRef .tc main_v11) = Cert.ReferenceIdeal.Read.val_main_v40 (F := Ideal) (m ((c : Thread nD τ).loc main_arg1)) := by
  show StableHlo.after hostOps0 (W0 m ρ c) (Proc.devRef .tc main_v11) = _
  after_results
  rfl
theorem w1_v12 : W1 (F := Ideal) m ρ c (Proc.devRef .tc main_v12) = (m ((c : Thread nD τ).loc main_arg0)) := by
  show StableHlo.after hostOps0 (W0 m ρ c) (Proc.devRef .tc main_v12) = _
  after_results
  rfl
theorem w1_v13 : W1 (F := Ideal) m ρ c (Proc.devRef .tc main_v13) = (m ((c : Thread nD τ).loc main_arg2)) := by
  show StableHlo.after hostOps0 (W0 m ρ c) (Proc.devRef .tc main_v13) = _
  after_results
  rfl
theorem w1_v14 : W1 (F := Ideal) m ρ c (Proc.devRef .tc main_v14) = (m ((c : Thread nD τ).loc main_arg6)) := by
  show StableHlo.after hostOps0 (W0 m ρ c) (Proc.devRef .tc main_v14) = _
  after_results
  rfl
theorem w1_v15 : W1 (F := Ideal) m ρ c (Proc.devRef .tc main_v15) = (m ((c : Thread nD τ).loc main_arg10)) := by
  show StableHlo.after hostOps0 (W0 m ρ c) (Proc.devRef .tc main_v15) = _
  after_results
  rfl
theorem w1_v16 : W1 (F := Ideal) m ρ c (Proc.devRef .tc main_v16) = (m ((c : Thread nD τ).loc main_arg14)) := by
  show StableHlo.after hostOps0 (W0 m ρ c) (Proc.devRef .tc main_v16) = _
  after_results
  rfl

end Cert.KernelIdeal.Chain

end
-- ==== Proof.HostStretch.lean ====
/-
  Between two kernel regions the program runs a stretch of host operations. This file reads, index by index and from an
  arbitrary starting state, what such a stretch leaves at the buffers the next region takes:
  • a vector laid out as a column (n-by-1) or as a row (1-by-n), or a row flattened to a vector, has the same entries
    (the row-major position of (r, 0) in n-by-1, of (0, q) in 1-by-n and of q in a vector of n entries are r, q, q);
  • per layer, the column mean  s₁ / K  and the variance  s₂ / K − (s₁ / K) · (s₁ / K)  computed from the column sums s₁
    and the column sums of squares s₂ (K the constant the program divides by), laid out as rows, and the scale and shift
    vectors laid out as rows;
  • the per-row factor laid out as a column and the bias laid out as a row.
-/
import proofs.«136907_j29480655519935_1_alg».proof.Proof.Gen.KernelIdeal.Launch
import Idealize.ShloMosaic.Lib.ValueLayout
import Idealize.ShloMosaic.Lib.StableHlo.Run

noncomputable section

namespace Cert.KernelIdeal.HostValue

open Cert.KernelIdeal Cert.KernelIdeal.Gen Idealize.ShloMosaic Idealize.ShloMosaic.StableHlo Idealize.ShloMosaic.ValueIdx
open Idealize.SL.Sem

/-! ## The three layouts of a vector, read at an index -/

/-- A vector of n entries laid out as an n-by-1 matrix: entry (r, u) is entry r. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- [n] → [n, 1]: the entry at an index i of the column is the vector's entry i 0. -/
theorem col_apply {α : Type} {n : ℕ} (v : (⟨1, ![n]⟩ : Shape).Idx → α)
    (h : (⟨1, ![n]⟩ : Shape).ShapeCasts ⟨2, ![n, 1]⟩) (i : (⟨2, ![n, 1]⟩ : Shape).Idx) :
    shapeCast ⟨2, ![n, 1]⟩ v h i = v (ix1 (i 0)) := by
  conv_lhs => rw [eq_ix2 i]
  exact shapeCast_a_a1_apply v h (i 0) (i 1)

/-- [n] → [1, n]: the entry at an index j of the row is the vector's entry j 1. -/
theorem row_apply {α : Type} {n : ℕ} (v : (⟨1, ![n]⟩ : Shape).Idx → α)
    (h : (⟨1, ![n]⟩ : Shape).ShapeCasts ⟨2, ![1, n]⟩) (j : (⟨2, ![1, n]⟩ : Shape).Idx) :
    shapeCast ⟨2, ![1, n]⟩ v h j = v (ix1 (j 1)) := by
  conv_lhs => rw [eq_ix2 j]
  exact shapeCast_a_1a_apply v h (j 0) (j 1)

/-- [1, n] → [n]: the entry at q of the flattened row is the row's entry (0, q). -/
theorem flat_apply {α : Type} {n : ℕ} (v : (⟨2, ![1, n]⟩ : Shape).Idx → α)
    (h : (⟨2, ![1, n]⟩ : Shape).ShapeCasts ⟨1, ![n]⟩) (q : Fin n) :
    shapeCast ⟨1, ![n]⟩ v h (ix1 q) = v (ix2 (0 : Fin 1) q) :=
  shapeCast_1a_a_apply v h q

/-- The three at the requested spellings: (r, 0) of the column, (0, q) of the row. -/
theorem col_ix2 {α : Type} {n : ℕ} (v : (⟨1, ![n]⟩ : Shape).Idx → α)
    (h : (⟨1, ![n]⟩ : Shape).ShapeCasts ⟨2, ![n, 1]⟩) (r : Fin n) :
    shapeCast ⟨2, ![n, 1]⟩ v h (ix2 r (0 : Fin 1)) = v (ix1 r) := shapeCast_a_a1_apply v h r 0
theorem row_ix2 {α : Type} {n : ℕ} (v : (⟨1, ![n]⟩ : Shape).Idx → α)
    (h : (⟨1, ![n]⟩ : Shape).ShapeCasts ⟨2, ![1, n]⟩) (q : Fin n) :
    shapeCast ⟨2, ![1, n]⟩ v h (ix2 (0 : Fin 1) q) = v (ix1 q) := shapeCast_a_1a_apply v h 0 q

/-- The constant the program divides the column sums by. -/
abbrev K : EReal := Ideal.ofBits .f32 0x461C4000#32

/-! ## Layer 1: the stretch after the first layer's sums -/

/-- The column mean, as a row: the column sum over K. -/
theorem mean_l1 (Fv : Valuation τ sig (Elt Ideal)) :
    StableHlo.after (hostOps2 (F := Ideal)) Fv (Proc.devRef .tc main_v57)
      = fun j => Ideal.div ((Fv (Proc.devRef .tc main_v48_1) : S1x512.Idx → EReal) (ix2 (0 : Fin 1) (j 1 : Fin 512))) K := by
  after_results
  refine funext fun (j : S1x512.Idx) => ?_
  refine (row_apply _ shapeCasts_S512_S1x512 j).trans ?_
  exact congrArg (fun t : EReal => Ideal.div t K)
    (flat_apply (Fv (Proc.devRef .tc main_v48_1) : S1x512.Idx → EReal) shapeCasts_S1x512_S512 (j 1 : Fin 512))

/-- The column variance, as a row: the column sum of squares over K, less the square of the mean. -/
theorem var_l1 (Fv : Valuation τ sig (Elt Ideal)) :
    StableHlo.after (hostOps2 (F := Ideal)) Fv (Proc.devRef .tc main_v58)
      = fun j => Ideal.div ((Fv (Proc.devRef .tc main_v48_2) : S1x512.Idx → EReal) (ix2 (0 : Fin 1) (j 1 : Fin 512))) K
          - Ideal.div ((Fv (Proc.devRef .tc main_v48_1) : S1x512.Idx → EReal) (ix2 (0 : Fin 1) (j 1 : Fin 512))) K
            * Ideal.div ((Fv (Proc.devRef .tc main_v48_1) : S1x512.Idx → EReal) (ix2 (0 : Fin 1) (j 1 : Fin 512))) K := by
  after_results
  refine funext fun (j : S1x512.Idx) => ?_
  refine (row_apply _ shapeCasts_S512_S1x512 j).trans ?_
  exact congrArg₂ (fun a b : EReal => Ideal.div b K - Ideal.div a K * Ideal.div a K)
    (flat_apply (Fv (Proc.devRef .tc main_v48_1) : S1x512.Idx → EReal) shapeCasts_S1x512_S512 (j 1 : Fin 512))
    (flat_apply (Fv (Proc.devRef .tc main_v48_2) : S1x512.Idx → EReal) shapeCasts_S1x512_S512 (j 1 : Fin 512))

/-- The scale vector, as a row. -/
theorem g_l1 (Fv : Valuation τ sig (Elt Ideal)) :
    StableHlo.after (hostOps2 (F := Ideal)) Fv (Proc.devRef .tc main_v59)
      = fun j => (Fv (Proc.devRef .tc main_arg4) : S512.Idx → EReal) (ix1 (j 1 : Fin 512)) := by
  after_results
  refine funext fun (j : S1x512.Idx) => ?_
  exact row_apply _ shapeCasts_S512_S1x512 j

/-- The shift vector, as a row. -/
theorem be_l1 (Fv : Valuation τ sig (Elt Ideal)) :
    StableHlo.after (hostOps2 (F := Ideal)) Fv (Proc.devRef .tc main_v60)
      = fun j => (Fv (Proc.devRef .tc main_arg5) : S512.Idx → EReal) (ix1 (j 1 : Fin 512)) := by
  after_results
  refine funext fun (j : S1x512.Idx) => ?_
  exact row_apply _ shapeCasts_S512_S1x512 j

/-! ## The stretches before each layer's region: the per-row factor and the bias -/

/-- The per-row factor, as a column. -/
theorem d2_l1 (Fv : Valuation τ sig (Elt Ideal)) :
    StableHlo.after (hostOps1 (F := Ideal)) Fv (Proc.devRef .tc main_v46)
      = fun i => (Fv (Proc.devRef .tc main_v11) : S10000.Idx → EReal) (ix1 (i 0 : Fin 10000)) := by
  after_results
  refine funext fun (i : S10000x1.Idx) => ?_
  exact col_apply _ shapeCasts_S10000_S10000x1 i

/-- The bias vector, as a row. -/
theorem b_l1 (Fv : Valuation τ sig (Elt Ideal)) :
    StableHlo.after (hostOps1 (F := Ideal)) Fv (Proc.devRef .tc main_v47)
      = fun i => (Fv (Proc.devRef .tc main_arg3) : S512.Idx → EReal) (ix1 (i 1 : Fin 512)) := by
  after_results
  refine funext fun (i : S1x512.Idx) => ?_
  exact row_apply _ shapeCasts_S512_S1x512 i

/-! ## Layer 2: the stretch after the second layer's sums -/

/-- The column mean, as a row: the column sum over K. -/
theorem mean_l2 (Fv : Valuation τ sig (Elt Ideal)) :
    StableHlo.after (hostOps5 (F := Ideal)) Fv (Proc.devRef .tc main_v102)
      = fun j => Ideal.div ((Fv (Proc.devRef .tc main_v93_1) : S1x512.Idx → EReal) (ix2 (0 : Fin 1) (j 1 : Fin 512))) K := by
  after_results
  refine funext fun (j : S1x512.Idx) => ?_
  refine (row_apply _ shapeCasts_S512_S1x512 j).trans ?_
  exact congrArg (fun t : EReal => Ideal.div t K)
    (flat_apply (Fv (Proc.devRef .tc main_v93_1) : S1x512.Idx → EReal) shapeCasts_S1x512_S512 (j 1 : Fin 512))

/-- The column variance, as a row: the column sum of squares over K, less the square of the mean. -/
theorem var_l2 (Fv : Valuation τ sig (Elt Ideal)) :
    StableHlo.after (hostOps5 (F := Ideal)) Fv (Proc.devRef .tc main_v103)
      = fun j => Ideal.div ((Fv (Proc.devRef .tc main_v93_2) : S1x512.Idx → EReal) (ix2 (0 : Fin 1) (j 1 : Fin 512))) K
          - Ideal.div ((Fv (Proc.devRef .tc main_v93_1) : S1x512.Idx → EReal) (ix2 (0 : Fin 1) (j 1 : Fin 512))) K
            * Ideal.div ((Fv (Proc.devRef .tc main_v93_1) : S1x512.Idx → EReal) (ix2 (0 : Fin 1) (j 1 : Fin 512))) K := by
  after_results
  refine funext fun (j : S1x512.Idx) => ?_
  refine (row_apply _ shapeCasts_S512_S1x512 j).trans ?_
  exact congrArg₂ (fun a b : EReal => Ideal.div b K - Ideal.div a K * Ideal.div a K)
    (flat_apply (Fv (Proc.devRef .tc main_v93_1) : S1x512.Idx → EReal) shapeCasts_S1x512_S512 (j 1 : Fin 512))
    (flat_apply (Fv (Proc.devRef .tc main_v93_2) : S1x512.Idx → EReal) shapeCasts_S1x512_S512 (j 1 : Fin 512))

/-- The scale vector, as a row. -/
theorem g_l2 (Fv : Valuation τ sig (Elt Ideal)) :
    StableHlo.after (hostOps5 (F := Ideal)) Fv (Proc.devRef .tc main_v104)
      = fun j => (Fv (Proc.devRef .tc main_arg8) : S512.Idx → EReal) (ix1 (j 1 : Fin 512)) := by
  after_results
  refine funext fun (j : S1x512.Idx) => ?_
  exact row_apply _ shapeCasts_S512_S1x512 j

/-- The shift vector, as a row. -/
theorem be_l2 (Fv : Valuation τ sig (Elt Ideal)) :
    StableHlo.after (hostOps5 (F := Ideal)) Fv (Proc.devRef .tc main_v105)
      = fun j => (Fv (Proc.devRef .tc main_arg9) : S512.Idx → EReal) (ix1 (j 1 : Fin 512)) := by
  after_results
  refine funext fun (j : S1x512.Idx) => ?_
  exact row_apply _ shapeCasts_S512_S1x512 j

/-- The per-row factor, as a column. -/
theorem d2_l2 (Fv : Valuation τ sig (Elt Ideal)) :
    StableHlo.after (hostOps4 (F := Ideal)) Fv (Proc.devRef .tc main_v91)
      = fun i => (Fv (Proc.devRef .tc main_v11) : S10000.Idx → EReal) (ix1 (i 0 : Fin 10000)) := by
  after_results
  refine funext fun (i : S10000x1.Idx) => ?_
  exact col_apply _ shapeCasts_S10000_S10000x1 i

/-- The bias vector, as a row. -/
theorem b_l2 (Fv : Valuation τ sig (Elt Ideal)) :
    StableHlo.after (hostOps4 (F := Ideal)) Fv (Proc.devRef .tc main_v92)
      = fun i => (Fv (Proc.devRef .tc main_arg7) : S512.Idx → EReal) (ix1 (i 1 : Fin 512)) := by
  after_results
  refine funext fun (i : S1x512.Idx) => ?_
  exact row_apply _ shapeCasts_S512_S1x512 i

/-! ## Layer 3: the stretch after the third layer's sums -/

/-- The column mean, as a row: the column sum over K. -/
theorem mean_l3 (Fv : Valuation τ sig (Elt Ideal)) :
    StableHlo.after (hostOps8 (F := Ideal)) Fv (Proc.devRef .tc main_v147)
      = fun j => Ideal.div ((Fv (Proc.devRef .tc main_v138_1) : S1x256.Idx → EReal) (ix2 (0 : Fin 1) (j 1 : Fin 256))) K := by
  after_results
  refine funext fun (j : S1x256.Idx) => ?_
  refine (row_apply _ shapeCasts_S256_S1x256 j).trans ?_
  exact congrArg (fun t : EReal => Ideal.div t K)
    (flat_apply (Fv (Proc.devRef .tc main_v138_1) : S1x256.Idx → EReal) shapeCasts_S1x256_S256 (j 1 : Fin 256))

/-- The column variance, as a row: the column sum of squares over K, less the square of the mean. -/
theorem var_l3 (Fv : Valuation τ sig (Elt Ideal)) :
    StableHlo.after (hostOps8 (F := Ideal)) Fv (Proc.devRef .tc main_v148)
      = fun j => Ideal.div ((Fv (Proc.devRef .tc main_v138_2) : S1x256.Idx → EReal) (ix2 (0 : Fin 1) (j 1 : Fin 256))) K
          - Ideal.div ((Fv (Proc.devRef .tc main_v138_1) : S1x256.Idx → EReal) (ix2 (0 : Fin 1) (j 1 : Fin 256))) K
            * Ideal.div ((Fv (Proc.devRef .tc main_v138_1) : S1x256.Idx → EReal) (ix2 (0 : Fin 1) (j 1 : Fin 256))) K := by
  after_results
  refine funext fun (j : S1x256.Idx) => ?_
  refine (row_apply _ shapeCasts_S256_S1x256 j).trans ?_
  exact congrArg₂ (fun a b : EReal => Ideal.div b K - Ideal.div a K * Ideal.div a K)
    (flat_apply (Fv (Proc.devRef .tc main_v138_1) : S1x256.Idx → EReal) shapeCasts_S1x256_S256 (j 1 : Fin 256))
    (flat_apply (Fv (Proc.devRef .tc main_v138_2) : S1x256.Idx → EReal) shapeCasts_S1x256_S256 (j 1 : Fin 256))

/-- The scale vector, as a row. -/
theorem g_l3 (Fv : Valuation τ sig (Elt Ideal)) :
    StableHlo.after (hostOps8 (F := Ideal)) Fv (Proc.devRef .tc main_v149)
      = fun j => (Fv (Proc.devRef .tc main_arg12) : S256.Idx → EReal) (ix1 (j 1 : Fin 256)) := by
  after_results
  refine funext fun (j : S1x256.Idx) => ?_
  exact row_apply _ shapeCasts_S256_S1x256 j

/-- The shift vector, as a row. -/
theorem be_l3 (Fv : Valuation τ sig (Elt Ideal)) :
    StableHlo.after (hostOps8 (F := Ideal)) Fv (Proc.devRef .tc main_v150)
      = fun j => (Fv (Proc.devRef .tc main_arg13) : S256.Idx → EReal) (ix1 (j 1 : Fin 256)) := by
  after_results
  refine funext fun (j : S1x256.Idx) => ?_
  exact row_apply _ shapeCasts_S256_S1x256 j

/-- The per-row factor, as a column. -/
theorem d2_l3 (Fv : Valuation τ sig (Elt Ideal)) :
    StableHlo.after (hostOps7 (F := Ideal)) Fv (Proc.devRef .tc main_v136)
      = fun i => (Fv (Proc.devRef .tc main_v11) : S10000.Idx → EReal) (ix1 (i 0 : Fin 10000)) := by
  after_results
  refine funext fun (i : S10000x1.Idx) => ?_
  exact col_apply _ shapeCasts_S10000_S10000x1 i

/-- The bias vector, as a row. -/
theorem b_l3 (Fv : Valuation τ sig (Elt Ideal)) :
    StableHlo.after (hostOps7 (F := Ideal)) Fv (Proc.devRef .tc main_v137)
      = fun i => (Fv (Proc.devRef .tc main_arg11) : S256.Idx → EReal) (ix1 (i 1 : Fin 256)) := by
  after_results
  refine funext fun (i : S1x256.Idx) => ?_
  exact row_apply _ shapeCasts_S256_S1x256 i

/-! ## The last stretch -/

/-- The output bias, as a row. -/
theorem b_out (Fv : Valuation τ sig (Elt Ideal)) :
    StableHlo.after (hostOps9 (F := Ideal)) Fv (Proc.devRef .tc main_v152)
      = fun i => (Fv (Proc.devRef .tc main_arg15) : S10.Idx → EReal) (ix1 (i 1 : Fin 10)) := by
  after_results
  refine funext fun (i : S1x10.Idx) => ?_
  exact row_apply _ shapeCasts_S10_S1x10 i

end Cert.KernelIdeal.HostValue

end
-- ==== Proof.RegionMatmul6.lean ====
/- The array the third matrix-product region leaves. Its left operand is a [10000, 512] array x, read in ten blocks
   of 1000 rows; its right operand is a [512, 256] array w, read whole at every grid point; each point writes the
   1000 rows of the [10000, 256] output it computed. After the region the output's entry (r, c) is the sum over
   k < 512 of x(r, k) * w(k, c), at the extended-real values. -/
import proofs.«136907_j29480655519935_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

/-! ## The operand indices of the product at an output index and a contraction index -/

theorem matmul6_lhs0 (i : S1000x256.Idx) (u : dot_S1000x512_S512x256_S1000x256_1_0_0_1_n_n.contr.Idx) :
    (dot_S1000x512_S512x256_S1000x256_1_0_0_1_n_n.lhsIdx i u 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
theorem matmul6_lhs1 (i : S1000x256.Idx) (u : dot_S1000x512_S512x256_S1000x256_1_0_0_1_n_n.contr.Idx) :
    (dot_S1000x512_S512x256_S1000x256_1_0_0_1_n_n.lhsIdx i u 1).val = (u ⟨0, by decide⟩).val :=
  dot_S1000x512_S512x256_S1000x256_1_0_0_1_n_n.lhsIdx_val_of_single rfl i u
theorem matmul6_rhs0 (i : S1000x256.Idx) (u : dot_S1000x512_S512x256_S1000x256_1_0_0_1_n_n.contr.Idx) :
    (dot_S1000x512_S512x256_S1000x256_1_0_0_1_n_n.rhsIdx i u 0).val = (u ⟨0, by decide⟩).val :=
  dot_S1000x512_S512x256_S1000x256_1_0_0_1_n_n.rhsIdx_val_of_single rfl i u
theorem matmul6_rhs1 (i : S1000x256.Idx) (u : dot_S1000x512_S512x256_S1000x256_1_0_0_1_n_n.contr.Idx) :
    (dot_S1000x512_S512x256_S1000x256_1_0_0_1_n_n.rhsIdx i u 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

/-- The product into a zero accumulator at an index of the block: the sum over the contraction axis of the products
    of the left operand's row and the right operand's column. -/
theorem matmul6_prod (x0 : FVec Ideal S1000x512 .bf16) (x1 : FVec Ideal S512x256 .bf16) (p : Fin 1000) (q : Fin 256) :
    FloatOps.matmul (F := Ideal) dot_S1000x512_S512x256_S1000x256_1_0_0_1_n_n none x0 x1 (constant (F := Ideal) S1000x256 .f32 0x00000000#32) (ix2 p q)
      = ∑ k : Fin 512, x0 (ix2 p k) * x1 (ix2 k q) := by
  rw [Ideal.matmul_constant_zero_apply, ← Equiv.sum_comp (contrEquiv1 dot_S1000x512_S512x256_S1000x256_1_0_0_1_n_n 512 rfl rfl).symm]
  refine Finset.sum_congr rfl fun k _ => ?_
  have hk := contrEquiv1_symm_val dot_S1000x512_S512x256_S1000x256_1_0_0_1_n_n 512 rfl rfl k
  have el : dot_S1000x512_S512x256_S1000x256_1_0_0_1_n_n.lhsIdx (ix2 p q) ((contrEquiv1 dot_S1000x512_S512x256_S1000x256_1_0_0_1_n_n 512 rfl rfl).symm k) = ix2 p k := funext fun a => Fin.ext (by
    match a with
    | ⟨0, _⟩ => exact matmul6_lhs0 _ _
    | ⟨1, _⟩ => exact (matmul6_lhs1 _ _).trans hk)
  have er : dot_S1000x512_S512x256_S1000x256_1_0_0_1_n_n.rhsIdx (ix2 p q) ((contrEquiv1 dot_S1000x512_S512x256_S1000x256_1_0_0_1_n_n 512 rfl rfl).symm k) = ix2 k q := funext fun a => Fin.ext (by
    match a with
    | ⟨0, _⟩ => exact (matmul6_rhs0 _ _).trans hk
    | ⟨1, _⟩ => exact matmul6_rhs1 _ _)
  rw [el, er]

/-- The body's result at an index of the block. -/
theorem matmul6_pay (x0 : Vec Ideal S1000x512 .bf16) (x1 : Vec Ideal S512x256 .bf16) (p : Fin 1000) (q : Fin 256) :
    Gen.k6_pay1 (F := Ideal) x0 x1 (ix2 p q) = ∑ k : Fin 512, x0 (ix2 p k) * x1 (ix2 k q) := by
  unfold Gen.k6_pay1
  simp only [shapeCast_self]
  exact matmul6_prod x0 x1 p q

/-! ## From the blocks to the array -/

theorem matmul6_hz : (![0, 0] : Fin 2 → Nat) = fun _ => 0 := funext fun a => by fin_cases a <;> rfl

/-- The product of a [10000, 512] array and a [512, 256] array, index by index. -/
abbrev matmul6_G (A : S10000x512.Idx → EReal) (B : S512x256.Idx → EReal) : S10000x256.Idx → EReal :=
  fun i => ∑ k : Fin 512, A (ix2 (i 0) k) * B (ix2 k (i 1))

/-- A block of 1000 rows of the product: when the left block holds rows `r * 1000 …` of `A` and the right block is
    all of `B`, the body's result at (p, q) is the product's entry (r * 1000 + p, q). -/
theorem matmul6_block (A : S10000x512.Idx → EReal) (B : S512x256.Idx → EReal) (x0 : Vec Ideal S1000x512 .bf16) (x1 : Vec Ideal S512x256 .bf16)
    (r : Nat) (hr : r < 10)
    (h0 : ∀ (p : Fin 1000) (k : Fin 512), x0 (ix2 p k) = A (ix2 (⟨r * 1000 + p.val, by have := p.isLt; omega⟩ : Fin 10000) k))
    (h1 : ∀ (k : Fin 512) (q : Fin 256), x1 (ix2 k q) = B (ix2 k q)) (p : Fin 1000) (q : Fin 256) :
    k6_pay1 (F := Ideal) x0 x1 (ix2 p q) = matmul6_G A B (ix2 (⟨r * 1000 + p.val, by have := p.isLt; omega⟩ : Fin 10000) q) := by
  rw [matmul6_pay]
  show _ = ∑ k : Fin 512, A (ix2 (⟨r * 1000 + p.val, by have := p.isLt; omega⟩ : Fin 10000) k) * B (ix2 k q)
  exact Finset.sum_congr rfl fun k _ => by rw [h0, h1]

/-- The block indices over the grid: the left operand's and the output's blocks are the point's 1000 rows, all
    columns; the right operand's block is the whole array at every point. -/
theorem matmul6_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

set_option maxHeartbeats 1600000 in
/-- What point `t` writes back is block `t` of the product of the two arrays as the region finds them. -/
theorem matmul6_flushed (V : (c : Dev nD) → (b : Ref sig .tc) → Buf (Elt Ideal) ((c : Thread nD τ).loc b)) (c : Dev nD) (t : Fin cfg6.N) :
    (dat6 (F := Ideal) V c).flushed 2 t
      = ((cfg6.win 2).blk t).view.read (Elt Ideal) (matmul6_G (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero matmul6_hz]
  simp only [View.ld_unit_zero (S := S1000x512) matmul6_hz, View.ld_unit_zero (S := S512x256) matmul6_hz]
  obtain ⟨e0, e1, e2, e3, e4, e5⟩ := matmul6_idx t
  have ht : t.val < 10 := t.isLt.trans_eq N_6
  refine funext fun (j : S1000x256.Idx) => ?_
  obtain ⟨p, q, rfl⟩ : ∃ (p : Fin 1000) (q : Fin 256), j = ix2 p q := ⟨j 0, j 1, eq_ix2 j⟩
  have hemb : ((cfg6.win 2).blk t).view.emb (ix2 p q)
      = (ix2 (⟨t.val * 1000 + p.val, by have := p.isLt; omega⟩ : Fin 10000) q : S10000x256.Idx) := by
    funext a; apply Fin.ext
    match a with
    | ⟨0, _⟩ => show win6_2.index t (0 : Fin 2) * 1000 + 1 * p.val = t.val * 1000 + p.val; omega
    | ⟨1, _⟩ => show win6_2.index t (1 : Fin 2) * 256 + 1 * q.val = q.val; omega
  show k6_pay1 (F := Ideal) (iblk6 V c 0 t) (iblk6 V c 1 t) (ix2 p q)
    = matmul6_G (V c (Pipeline.arrRef spec6 0)) (V c (Pipeline.arrRef spec6 1)) (((cfg6.win 2).blk t).view.emb (ix2 p q))
  refine (matmul6_block (V c (Pipeline.arrRef spec6 0)) (V c (Pipeline.arrRef spec6 1)) (iblk6 V c 0 t) (iblk6 V c 1 t) t.val ht ?_ ?_ p q).trans
    (congrArg (matmul6_G (V c (Pipeline.arrRef spec6 0)) (V c (Pipeline.arrRef spec6 1))) hemb.symm)
  · intro p k
    show V c (Pipeline.arrRef spec6 0) (((cfg6.win 0).blk t).view.emb (ix2 p k))
      = V c (Pipeline.arrRef spec6 0) (ix2 (⟨t.val * 1000 + p.val, by have := p.isLt; omega⟩ : Fin 10000) k : S10000x512.Idx)
    refine congrArg _ (funext fun a => Fin.ext ?_)
    match a with
    | ⟨0, _⟩ => show win6_0.index t (0 : Fin 2) * 1000 + 1 * p.val = t.val * 1000 + p.val; omega
    | ⟨1, _⟩ => show win6_0.index t (1 : Fin 2) * 512 + 1 * k.val = k.val; omega
  · intro k q
    show V c (Pipeline.arrRef spec6 1) (((cfg6.win 1).blk t).view.emb (ix2 k q))
      = V c (Pipeline.arrRef spec6 1) (ix2 k q : S512x256.Idx)
    refine congrArg _ (funext fun a => Fin.ext ?_)
    match a with
    | ⟨0, _⟩ => show win6_1.index t (0 : Fin 2) * 512 + 1 * k.val = k.val; omega
    | ⟨1, _⟩ => show win6_1.index t (1 : Fin 2) * 256 + 1 * q.val = q.val; omega

/-- An index of the array is in point `t`'s block iff each coordinate is in the block's range on its axis. -/
theorem matmul6_mem_blk (t : Fin cfg6.N) (i : S10000x256.Idx) :
    i ∈ ((cfg6.win 2).blk t).view.set ↔ ∀ a : Fin 2, win6_2.index t a * S1000x256.size a ≤ (i a).val ∧ (i a).val < win6_2.index t a * S1000x256.size a + S1000x256.size a := by
  show i ∈ ((View.whole main_v107).slice (win6_2.rect t)).set ↔ _
  rw [View.set_slice_whole, Rect.mem_set_unit]
  exact Iff.rfl

/-- Every index of the array is in the block of the point its row falls in. -/
theorem matmul6_cover (i : S10000x256.Idx) :
    ∃ t : Fin cfg6.N, (cfg6.win 2).flush t = true ∧ i ∈ ((cfg6.win 2).blk t).view.set := by
  have hi0 : (i 0).val < 10000 := (i 0).isLt
  have hi1 : (i 1).val < 256 := (i 1).isLt
  have hN : cfg6.N = 10 := N_6
  refine ⟨⟨(i 0).val / 1000, by rw [hN]; omega⟩, flush6_2 _, ?_⟩
  rw [matmul6_mem_blk]
  obtain ⟨e0, e1, e2, e3, e4, e5⟩ := matmul6_idx ⟨(i 0).val / 1000, by rw [hN]; omega⟩
  intro a
  match a with
  | ⟨0, _⟩ =>
    show win6_2.index _ (0 : Fin 2) * 1000 ≤ (i 0).val ∧ (i 0).val < win6_2.index _ (0 : Fin 2) * 1000 + 1000
    rw [e4]
    show (i 0).val / 1000 * 1000 ≤ (i 0).val ∧ (i 0).val < (i 0).val / 1000 * 1000 + 1000
    omega
  | ⟨1, _⟩ =>
    show win6_2.index _ (1 : Fin 2) * 256 ≤ (i 1).val ∧ (i 1).val < win6_2.index _ (1 : Fin 2) * 256 + 256
    rw [e5]
    omega

/-- THE ARRAY after the region is the product of the two arrays as the region finds them. -/
theorem matmul6_final_G (V : (c : Dev nD) → (b : Ref sig .tc) → Buf (Elt Ideal) ((c : Thread nD τ).loc b)) (c : Dev nD) :
    (dat6 (F := Ideal) V c).arrAt 2 cfg6.N = matmul6_G (V c (Pipeline.arrRef spec6 0)) (V c (Pipeline.arrRef spec6 1)) :=
  (dat6 (F := Ideal) V c).arrAt_eq_of_cover 2 (matmul6_G (V c (Pipeline.arrRef spec6 0)) (V c (Pipeline.arrRef spec6 1)))
    (fun t _ => matmul6_flushed V c t) matmul6_cover

/-- THE ARRAY after the region: entry (r, c) is the sum over k of the left array's (r, k) times the right array's (k, c). -/
theorem matmul6_final (V : (c : Dev nD) → (b : Ref sig .tc) → Buf (Elt Ideal) ((c : Thread nD τ).loc b)) (c : Dev nD)
    (A : S10000x512.Idx → EReal) (B : S512x256.Idx → EReal)
    (hA : V c (Pipeline.arrRef spec6 0) = A) (hB : V c (Pipeline.arrRef spec6 1) = B) :
    (dat6 (F := Ideal) V c).arrAt 2 cfg6.N
      = (fun i => ∑ k : Fin 512, A (ix2 (i 0) k) * B (ix2 k (i 1)) : S10000x256.Idx → EReal) := by
  subst hA hB
  exact matmul6_final_G V c

end Cert.KernelIdeal.RegionValue

end
-- ==== Proof.LibBlockSum.lean ====
/-
  Sums over array indices, re-indexed through coordinates.

  A rank-3 (rank-4) index set is the product of its coordinate ranges, so a sum over it is the iterated sum over the
  coordinates; and an axis of extent `T * B` cut into `T` blocks of `B` is summed block by block. Together these turn
  "the total over a whole array" into "the total, over the blocks that tile its leading axis, of each block's total" — the
  equation between a reference's one reduction over an array and a kernel's accumulation over a grid of row blocks.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `b` of block `t`, of `T` blocks of `B` rows: row `t * B + b` of the whole. -/
def blockRow {T B : Nat} (t : Fin T) (b : Fin B) : Fin (T * B) :=
  ⟨t.val * B + b.val, by
    have ht := t.isLt; have hb := b.isLt
    calc t.val * B + b.val < t.val * B + B := by omega
      _ = (t.val + 1) * B := by ring
      _ ≤ T * B := Nat.mul_le_mul_right B ht⟩

theorem blockRow_val {T B : Nat} (t : Fin T) (b : Fin B) : (blockRow t b).val = t.val * B + b.val := rfl

/-- The rows of an axis of extent `T * B` are the rows of its `T` blocks: a bijection. -/
def blockRowEquiv (T B : Nat) : Fin T × Fin B ≃ Fin (T * B) where
  toFun p := blockRow p.1 p.2
  invFun r := (⟨r.val / B, by
      have hr := r.isLt
      rcases Nat.eq_zero_or_pos B with hB | hB
      · subst hB; simp at hr
      · exact (Nat.div_lt_iff_lt_mul hB).mpr hr⟩,
    ⟨r.val % B, by
      have hr := r.isLt
      rcases Nat.eq_zero_or_pos B with hB | hB
      · subst hB; simp at hr
      · exact Nat.mod_lt _ hB⟩)
  left_inv p := by
    obtain ⟨t, b⟩ := p
    have hb := b.isLt
    have hB : 0 < B := by omega
    refine Prod.ext (Fin.ext ?_) (Fin.ext ?_)
    · show (t.val * B + b.val) / B = t.val
      rw [Nat.add_comm, Nat.add_mul_div_right _ _ hB, Nat.div_eq_of_lt hb, Nat.zero_add]
    · show (t.val * B + b.val) % B = b.val
      rw [Nat.add_comm, Nat.add_mul_mod_self_right, Nat.mod_eq_of_lt hb]
  right_inv r := by
    apply Fin.ext
    show r.val / B * B + r.val % B = r.val
    rw [Nat.mul_comm]; exact Nat.div_add_mod r.val B

/-- A sum over an axis of extent `T * B` is the sum over its `T` blocks of the sum over each block's `B` rows. -/
theorem sum_blockRows {M : Type*} [AddCommMonoid M] (T B : Nat) (f : Fin (T * B) → M) :
    ∑ r, f r = ∑ t : Fin T, ∑ b : Fin B, f (blockRow t b) := by
  rw [← Equiv.sum_comp (blockRowEquiv T B) f, Fintype.sum_prod_type]
  rfl

end Idealize.ShloMosaic.ValueIdx

end
-- ==== Proof.RegionStats7.lean ====
/-
  The statistics pass number three over a [10000, 256] array, read as mathematics over the extended reals.

  From four arrays — agg and h of shape [10000, 256], d of shape [10000, 1], b of shape [1, 256] — the pass forms
      g(r, q) = (agg(r, q) + h(r, q) * d(r, 0)) + b(0, q)
  and leaves three arrays: g itself ([10000, 256]), the column sums  Σ_r g(r, q)  ([1, 256]) and the column sums of squares
  Σ_r g(r, q) * g(r, q)  ([1, 256]). The rows are visited in ten blocks of 1000: block t holds rows 1000 t … 1000 t + 999. The
  first block starts the two running rows from zero, every later block adds its own column sums to what the block before
  left, so after block t the running rows hold the sums over the rows below 1000 (t + 1) — by induction on t — and after the
  tenth block the sums over all 10000 rows: addition of extended reals is commutative and associative, so the ten partial
  sums of 1000 rows are the one sum of 10000.
-/
import proofs.«136907_j29480655519935_1_alg».proof.Proof.Gen.KernelIdeal.Frame
import proofs.«136907_j29480655519935_1_alg».proof.Proof.LibBlockSum
import Idealize.ShloMosaic.Lib.Pipeline.Value
import Idealize.ShloMosaic.Lib.ValueLayout
import Idealize.ShloMosaic.Lib.Tactic
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

/-- g(r, q) = (agg(r, q) + h(r, q) * d(r, 0)) + b(0, q). -/
def gcnOf7 (agg h : S10000x256.Idx → EReal) (d : S10000x1.Idx → EReal) (b : S1x256.Idx → EReal) : S10000x256.Idx → EReal :=
  fun i => (agg i + h i * d (ix2 (i 0) 0)) + b (ix2 0 (i 1))

namespace Stats7

theorem g_ix2 (agg h : S10000x256.Idx → EReal) (d : S10000x1.Idx → EReal) (b : S1x256.Idx → EReal) (r : Fin 10000) (q : Fin 256) :
    gcnOf7 agg h d b (ix2 r q) = (agg (ix2 r q) + h (ix2 r q) * d (ix2 r (0 : Fin 1))) + b (ix2 (0 : Fin 1) q) := rfl

theorem hz : (![0, 0] : Fin 2 → Nat) = fun _ => 0 := funext fun a => by fin_cases a <;> rfl

/-! ## What one block's pass leaves in the three output blocks, as the arithmetic of the loaded blocks -/

section Pieces
variable {F : FTy → Type} [FloatOps F]

/-- First block: the stored block is g of the loaded blocks. -/
theorem out_A_4 (c : Dev nD) (i : grid7.Coords) (a1 : Memref sig .tc .vmem S1000x256 .f32) (h1 : a1.IsWhole) (a2 : Memref sig .tc .vmem S1000x256 .f32) (h2 : a2.IsWhole) (a3 : Memref sig .tc .vmem S1000x1 .f32) (h3 : a3.IsWhole) (a4 : Memref sig .tc .vmem S1x256 .f32) (h4 : a4.IsWhole) (a5 : Memref sig .tc .vmem S1000x256 .f32) (h5 : a5.IsWhole) (a6 : Memref sig .tc .vmem S1x256 .f32) (h6 : a6.IsWhole) (a7 : Memref sig .tc .vmem S1x256 .f32) (h7 : a7.IsWhole) (hc : cond7_0 i) (x0 x1 : Vec F S1000x256 .f32) (x2 : Vec F S1000x1 .f32) (x3 : Vec F S1x256 .f32) :
    out7_A_4 c i a1 h1 a2 h2 a3 h3 a4 h4 a5 h5 a6 h6 a7 h7 hc x0 x1 x2 x3 = k7_pay3 x0 x1 x2 x3 := by
  unfold out7_A_4
  rw [View.read_writes_eq_canon _ _ _ (cover7_A_4 c i a1 h1 a2 h2 a3 h3 a4 h4 a5 h5 a6 h6 a7 h7 hc x0 x1 x2 x3)]
  unfold kernelRun7_A
  dsimp only
  rw [View.canon_unit_zero hz]
  simp only [View.readAt_eq_ld, h1.read_unread, h2.read_unread, h3.read_unread, h4.read_unread,
    View.ld_unit_zero (S := S1000x256) hz, View.ld_unit_zero (S := S1000x1) hz, View.ld_unit_zero (S := S1x256) hz]

/-- First block: the running sum row is the zero row plus the block's column sums. -/
theorem out_A_5 (c : Dev nD) (i : grid7.Coords) (a1 : Memref sig .tc .vmem S1000x256 .f32) (h1 : a1.IsWhole) (a2 : Memref sig .tc .vmem S1000x256 .f32) (h2 : a2.IsWhole) (a3 : Memref sig .tc .vmem S1000x1 .f32) (h3 : a3.IsWhole) (a4 : Memref sig .tc .vmem S1x256 .f32) (h4 : a4.IsWhole) (a5 : Memref sig .tc .vmem S1000x256 .f32) (h5 : a5.IsWhole) (a6 : Memref sig .tc .vmem S1x256 .f32) (h6 : a6.IsWhole) (a7 : Memref sig .tc .vmem S1x256 .f32) (h7 : a7.IsWhole) (hc : cond7_0 i) (x0 x1 : Vec F S1000x256 .f32) (x2 : Vec F S1000x1 .f32) (x3 : Vec F S1x256 .f32) :
    out7_A_5 c i a1 h1 a2 h2 a3 h3 a4 h4 a5 h5 a6 h6 a7 h7 hc x0 x1 x2 x3 = k7_pay4 x0 x1 x2 x3 (k7_pay1 (F := F)) := by
  unfold out7_A_5
  rw [View.read_writes_eq_canon _ _ _ (cover7_A_5 c i a1 h1 a2 h2 a3 h3 a4 h4 a5 h5 a6 h6 a7 h7 hc x0 x1 x2 x3)]
  unfold kernelRun7_A
  dsimp only
  sl_unfold_words
  rw [View.canon_cons_unit_zero (S := S1x256) hz, View.readCov_unit_zero (S := S1x256) _ hz]
  simp only [View.readAt_eq_ld, h1.read_unread, h2.read_unread, h3.read_unread, h4.read_unread,
    View.ld_unit_zero (S := S1000x256) hz, View.ld_unit_zero (S := S1000x1) hz, View.ld_unit_zero (S := S1x256) hz]

/-- First block: the running sum-of-squares row is the zero row plus the block's column sums of squares. -/
theorem out_A_6 (c : Dev nD) (i : grid7.Coords) (a1 : Memref sig .tc .vmem S1000x256 .f32) (h1 : a1.IsWhole) (a2 : Memref sig .tc .vmem S1000x256 .f32) (h2 : a2.IsWhole) (a3 : Memref sig .tc .vmem S1000x1 .f32) (h3 : a3.IsWhole) (a4 : Memref sig .tc .vmem S1x256 .f32) (h4 : a4.IsWhole) (a5 : Memref sig .tc .vmem S1000x256 .f32) (h5 : a5.IsWhole) (a6 : Memref sig .tc .vmem S1x256 .f32) (h6 : a6.IsWhole) (a7 : Memref sig .tc .vmem S1x256 .f32) (h7 : a7.IsWhole) (hc : cond7_0 i) (x0 x1 : Vec F S1000x256 .f32) (x2 : Vec F S1000x1 .f32) (x3 : Vec F S1x256 .f32) :
    out7_A_6 c i a1 h1 a2 h2 a3 h3 a4 h4 a5 h5 a6 h6 a7 h7 hc x0 x1 x2 x3 = k7_pay5 x0 x1 x2 x3 (k7_pay2 (F := F)) := by
  unfold out7_A_6
  rw [View.read_writes_eq_canon _ _ _ (cover7_A_6 c i a1 h1 a2 h2 a3 h3 a4 h4 a5 h5 a6 h6 a7 h7 hc x0 x1 x2 x3)]
  unfold kernelRun7_A
  dsimp only
  sl_unfold_words
  rw [View.canon_cons_unit_zero (S := S1x256) hz, View.readCov_unit_zero (S := S1x256) _ hz]
  simp only [View.readAt_eq_ld, h1.read_unread, h2.read_unread, h3.read_unread, h4.read_unread,
    View.ld_unit_zero (S := S1000x256) hz, View.ld_unit_zero (S := S1000x1) hz, View.ld_unit_zero (S := S1x256) hz]

/-- A later block: the stored block is g of the loaded blocks. -/
theorem out_B_4 (c : Dev nD) (i : grid7.Coords) (a1 : Memref sig .tc .vmem S1000x256 .f32) (h1 : a1.IsWhole) (a2 : Memref sig .tc .vmem S1000x256 .f32) (h2 : a2.IsWhole) (a3 : Memref sig .tc .vmem S1000x1 .f32) (h3 : a3.IsWhole) (a4 : Memref sig .tc .vmem S1x256 .f32) (h4 : a4.IsWhole) (a5 : Memref sig .tc .vmem S1000x256 .f32) (h5 : a5.IsWhole) (a6 : Memref sig .tc .vmem S1x256 .f32) (h6 : a6.IsWhole) (a7 : Memref sig .tc .vmem S1x256 .f32) (h7 : a7.IsWhole) (hc : ¬cond7_0 i) (x0 x1 : Vec F S1000x256 .f32) (x2 : Vec F S1000x1 .f32) (x3 : Vec F S1x256 .f32) (xo5 xo6 : Vec F S1x256 .f32) :
    out7_B_4 c i a1 h1 a2 h2 a3 h3 a4 h4 a5 h5 a6 h6 a7 h7 hc x0 x1 x2 x3 xo5 xo6 = k7_pay3 x0 x1 x2 x3 := by
  unfold out7_B_4
  rw [View.read_writes_eq_canon _ _ _ (cover7_B_4 c i a1 h1 a2 h2 a3 h3 a4 h4 a5 h5 a6 h6 a7 h7 hc x0 x1 x2 x3 xo5 xo6)]
  unfold kernelRun7_B
  dsimp only
  rw [View.canon_unit_zero hz]
  simp only [View.readAt_eq_ld, h1.read_unread, h2.read_unread, h3.read_unread, h4.read_unread,
    View.ld_unit_zero (S := S1000x256) hz, View.ld_unit_zero (S := S1000x1) hz, View.ld_unit_zero (S := S1x256) hz]

/-- A later block: the running sum row is what was there plus the block's column sums. -/
theorem out_B_5 (c : Dev nD) (i : grid7.Coords) (a1 : Memref sig .tc .vmem S1000x256 .f32) (h1 : a1.IsWhole) (a2 : Memref sig .tc .vmem S1000x256 .f32) (h2 : a2.IsWhole) (a3 : Memref sig .tc .vmem S1000x1 .f32) (h3 : a3.IsWhole) (a4 : Memref sig .tc .vmem S1x256 .f32) (h4 : a4.IsWhole) (a5 : Memref sig .tc .vmem S1000x256 .f32) (h5 : a5.IsWhole) (a6 : Memref sig .tc .vmem S1x256 .f32) (h6 : a6.IsWhole) (a7 : Memref sig .tc .vmem S1x256 .f32) (h7 : a7.IsWhole) (hc : ¬cond7_0 i) (x0 x1 : Vec F S1000x256 .f32) (x2 : Vec F S1000x1 .f32) (x3 : Vec F S1x256 .f32) (xo5 xo6 : Vec F S1x256 .f32) :
    out7_B_5 c i a1 h1 a2 h2 a3 h3 a4 h4 a5 h5 a6 h6 a7 h7 hc x0 x1 x2 x3 xo5 xo6 = k7_pay4 x0 x1 x2 x3 xo5 := by
  unfold out7_B_5
  rw [View.read_writes_eq_canon _ _ _ (cover7_B_5 c i a1 h1 a2 h2 a3 h3 a4 h4 a5 h5 a6 h6 a7 h7 hc x0 x1 x2 x3 xo5 xo6)]
  unfold kernelRun7_B
  dsimp only
  rw [View.canon_unit_zero hz]
  simp only [View.readAt_eq_ld, h1.read_unread, h2.read_unread, h3.read_unread, h4.read_unread, h6.read_unread,
    View.ld_unit_zero (S := S1000x256) hz, View.ld_unit_zero (S := S1000x1) hz, View.ld_unit_zero (S := S1x256) hz]

/-- A later block: the running sum-of-squares row is what was there plus the block's column sums of squares. -/
theorem out_B_6 (c : Dev nD) (i : grid7.Coords) (a1 : Memref sig .tc .vmem S1000x256 .f32) (h1 : a1.IsWhole) (a2 : Memref sig .tc .vmem S1000x256 .f32) (h2 : a2.IsWhole) (a3 : Memref sig .tc .vmem S1000x1 .f32) (h3 : a3.IsWhole) (a4 : Memref sig .tc .vmem S1x256 .f32) (h4 : a4.IsWhole) (a5 : Memref sig .tc .vmem S1000x256 .f32) (h5 : a5.IsWhole) (a6 : Memref sig .tc .vmem S1x256 .f32) (h6 : a6.IsWhole) (a7 : Memref sig .tc .vmem S1x256 .f32) (h7 : a7.IsWhole) (hc : ¬cond7_0 i) (x0 x1 : Vec F S1000x256 .f32) (x2 : Vec F S1000x1 .f32) (x3 : Vec F S1x256 .f32) (xo5 xo6 : Vec F S1x256 .f32) :
    out7_B_6 c i a1 h1 a2 h2 a3 h3 a4 h4 a5 h5 a6 h6 a7 h7 hc x0 x1 x2 x3 xo5 xo6 = k7_pay5 x0 x1 x2 x3 xo6 := by
  unfold out7_B_6
  rw [View.read_writes_eq_canon _ _ _ (cover7_B_6 c i a1 h1 a2 h2 a3 h3 a4 h4 a5 h5 a6 h6 a7 h7 hc x0 x1 x2 x3 xo5 xo6)]
  unfold kernelRun7_B
  dsimp only
  rw [View.canon_unit_zero hz]
  simp only [View.readAt_eq_ld, h1.read_unread, h2.read_unread, h3.read_unread, h4.read_unread, h7.read_unread,
    View.ld_unit_zero (S := S1000x256) hz, View.ld_unit_zero (S := S1000x1) hz, View.ld_unit_zero (S := S1x256) hz]

end Pieces

/-! ## The block arithmetic at an index, over the extended reals -/

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column sum of a `[1000, 256]` block at column `q`: the sum over its 1000 rows. -/
theorem colsum_apply (src : FVec Ideal S1000x256 .f32) (hφ : FKind.Formats FTy.f32)
    (hacc : (0x00000000#32 : BitVec 32) = FKind.add.neutral FTy.f32 hφ) (q : Fin 256) :
    multiReduction (F := Ideal) .add [0] S256 src 0x00000000#32 reduces_S1000x256_S256 hφ hacc (ix1 q)
      = ∑ r : Fin 1000, src (ix2 r q) := by
  refine (Ideal.multiReduction_add_single src 0x00000000#32 reduces_S1000x256_S256 hφ hacc (ix1 q)).trans ?_
  refine Finset.sum_congr rfl fun r _ => congrArg src ?_
  funext a
  apply Fin.ext
  match a with
  | ⟨0, _⟩ => rfl
  | ⟨1, _⟩ => rfl

/-- The stored block at `(p, q)`: `(x0 + x1 * x2[p]) + x3[q]`. -/
theorem pay3_apply (x0 x1 : Vec Ideal S1000x256 .f32) (x2 : Vec Ideal S1000x1 .f32) (x3 : Vec Ideal S1x256 .f32)
    (p : Fin 1000) (q : Fin 256) :
    k7_pay3 (F := Ideal) x0 x1 x2 x3 (ix2 p q)
      = (x0 (ix2 p q) + x1 (ix2 p q) * x2 (ix2 p (0 : Fin 1))) + x3 (ix2 (0 : Fin 1) q) := by
  unfold k7_pay3
  simp only [shapeCast_self]
  show (x0 (ix2 p q) + x1 (ix2 p q) * broadcastTo S1000x256 x2 broadcasts_S1000x1_S1000x256 (ix2 p q))
      + broadcastTo S1000x256 x3 broadcasts_S1x256_S1000x256 (ix2 p q) = _
  rw [broadcastTo_a1_ab_apply x2 broadcasts_S1000x1_S1000x256 p q, broadcastTo_1b_ab_apply x3 broadcasts_S1x256_S1000x256 p q]

/-- The running column sum after a block: what was there plus the block's column sums. -/
theorem pay4_apply (x0 x1 : Vec Ideal S1000x256 .f32) (x2 : Vec Ideal S1000x1 .f32) (x3 : Vec Ideal S1x256 .f32)
    (acc : Vec Ideal S1x256 .f32) (u : Fin 1) (q : Fin 256) :
    k7_pay4 (F := Ideal) x0 x1 x2 x3 acc (ix2 u q)
      = acc (ix2 u q) + ∑ r : Fin 1000, k7_pay3 (F := Ideal) x0 x1 x2 x3 (ix2 r q) := by
  unfold k7_pay4
  simp only [shapeCast_self]
  show acc (ix2 u q) + shapeCast S1x256 _ shapeCasts_S256_S1x256 (ix2 u q) = _
  rw [shapeCast_a_1a_apply _ shapeCasts_S256_S1x256 u q]
  exact congrArg (acc (ix2 u q) + ·) (colsum_apply _ _ _ q)

/-- The running column sum of squares after a block: what was there plus the block's column sums of squares. -/
theorem pay5_apply (x0 x1 : Vec Ideal S1000x256 .f32) (x2 : Vec Ideal S1000x1 .f32) (x3 : Vec Ideal S1x256 .f32)
    (acc : Vec Ideal S1x256 .f32) (u : Fin 1) (q : Fin 256) :
    k7_pay5 (F := Ideal) x0 x1 x2 x3 acc (ix2 u q)
      = acc (ix2 u q) + ∑ r : Fin 1000, k7_pay3 (F := Ideal) x0 x1 x2 x3 (ix2 r q) * k7_pay3 (F := Ideal) x0 x1 x2 x3 (ix2 r q) := by
  unfold k7_pay5
  simp only [shapeCast_self]
  show acc (ix2 u q) + shapeCast S1x256 _ shapeCasts_S256_S1x256 (ix2 u q) = _
  rw [shapeCast_a_1a_apply _ shapeCasts_S256_S1x256 u q]
  exact congrArg (acc (ix2 u q) + ·) (colsum_apply _ _ _ q)

/-- The zero row the first block starts the running sums from. -/
theorem pay1_apply (j : S1x256.Idx) : k7_pay1 (F := Ideal) j = 0 := by
  unfold k7_pay1
  show Ideal.ofBits .f32 0x00000000#32 = 0
  exact Ideal.ofBits_zero_f32

theorem pay2_apply (j : S1x256.Idx) : k7_pay2 (F := Ideal) j = 0 := by
  unfold k7_pay2
  show Ideal.ofBits .f32 0x00000000#32 = 0
  exact Ideal.ofBits_zero_f32

/-! ## Where the blocks sit -/

/-- Row `p` of the block of 1000 rows number `t`: row `1000 t + p` of the 10000. -/
def rowOf (t : ℕ) (ht : t < 10) (p : Fin 1000) : Fin 10000 := ⟨t * 1000 + p.val, by have := p.isLt; omega⟩

/-- Where each window's block sits at point `t`: the row-blocked windows at block row `t`, the one-row windows at the origin. -/
theorem idx : ∀ t : Fin cfg7.N,
    win7_0.index t (0 : Fin 2) = t.val ∧ win7_0.index t (1 : Fin 2) = 0
  ∧ win7_1.index t (0 : Fin 2) = t.val ∧ win7_1.index t (1 : Fin 2) = 0
  ∧ win7_2.index t (0 : Fin 2) = t.val ∧ win7_2.index t (1 : Fin 2) = 0
  ∧ win7_3.index t (0 : Fin 2) = 0 ∧ win7_3.index t (1 : Fin 2) = 0
  ∧ win7_4.index t (0 : Fin 2) = t.val ∧ win7_4.index t (1 : Fin 2) = 0
  ∧ win7_5.index t (0 : Fin 2) = 0 ∧ win7_5.index t (1 : Fin 2) = 0
  ∧ win7_6.index t (0 : Fin 2) = 0 ∧ win7_6.index t (1 : Fin 2) = 0 :=
  (by decide +kernel : ∀ t : Fin grid7.N, _)

theorem mem_blk4 (t : Fin cfg7.N) (i : S10000x256.Idx) :
    i ∈ ((cfg7.win 4).blk t).view.set ↔ ∀ a : Fin 2, win7_4.index t a * S1000x256.size a ≤ (i a).val ∧ (i a).val < win7_4.index t a * S1000x256.size a + S1000x256.size a := by
  show i ∈ ((View.whole main_v138_0).slice (win7_4.rect t)).set ↔ _
  rw [View.set_slice_whole, Rect.mem_set_unit]
  exact Iff.rfl

theorem mem_blk5 (t : Fin cfg7.N) (i : S1x256.Idx) :
    i ∈ ((cfg7.win 5).blk t).view.set ↔ ∀ a : Fin 2, win7_5.index t a * S1x256.size a ≤ (i a).val ∧ (i a).val < win7_5.index t a * S1x256.size a + S1x256.size a := by
  show i ∈ ((View.whole main_v138_1).slice (win7_5.rect t)).set ↔ _
  rw [View.set_slice_whole, Rect.mem_set_unit]
  exact Iff.rfl

theorem mem_blk6 (t : Fin cfg7.N) (i : S1x256.Idx) :
    i ∈ ((cfg7.win 6).blk t).view.set ↔ ∀ a : Fin 2, win7_6.index t a * S1x256.size a ≤ (i a).val ∧ (i a).val < win7_6.index t a * S1x256.size a + S1x256.size a := by
  show i ∈ ((View.whole main_v138_2).slice (win7_6.rect t)).set ↔ _
  rw [View.set_slice_whole, Rect.mem_set_unit]
  exact Iff.rfl

/-- Every row of the 10000 lies in the block of the point `row / 1000`. -/
theorem cover4 (i : S10000x256.Idx) : ∃ t : Fin cfg7.N, (cfg7.win 4).flush t = true ∧ i ∈ ((cfg7.win 4).blk t).view.set := by
  have hN : cfg7.N = 10 := N_7
  have hi0 : (i 0).val < 10000 := (i 0).isLt
  have hi1 : (i 1).val < 256 := (i 1).isLt
  refine ⟨⟨(i 0).val / 1000, by rw [hN]; omega⟩, flush7_4 _, ?_⟩
  rw [mem_blk4]
  obtain ⟨-, -, -, -, -, -, -, -, e0, e1, -⟩ := idx ⟨(i 0).val / 1000, by rw [hN]; omega⟩
  intro a
  match a with
  | ⟨0, _⟩ =>
    show win7_4.index _ (0 : Fin 2) * 1000 ≤ (i 0).val ∧ (i 0).val < win7_4.index _ (0 : Fin 2) * 1000 + 1000
    rw [e0]; dsimp only; omega
  | ⟨1, _⟩ =>
    show win7_4.index _ (1 : Fin 2) * 256 ≤ (i 1).val ∧ (i 1).val < win7_4.index _ (1 : Fin 2) * 256 + 256
    rw [e1]; omega

/-- The last point's block of a one-row window is the whole row. -/
theorem cover5 (i : S1x256.Idx) : ∃ t : Fin cfg7.N, (cfg7.win 5).flush t = true ∧ i ∈ ((cfg7.win 5).blk t).view.set := by
  have hi0 : (i 0).val < 1 := (i 0).isLt
  have hi1 : (i 1).val < 256 := (i 1).isLt
  refine ⟨t7_9, (flush7_5 t7_9).mpr rfl, ?_⟩
  rw [mem_blk5]
  obtain ⟨-, -, -, -, -, -, -, -, -, -, e0, e1, -⟩ := idx t7_9
  intro a
  match a with
  | ⟨0, _⟩ =>
    show win7_5.index _ (0 : Fin 2) * 1 ≤ (i 0).val ∧ (i 0).val < win7_5.index _ (0 : Fin 2) * 1 + 1
    rw [e0]; omega
  | ⟨1, _⟩ =>
    show win7_5.index _ (1 : Fin 2) * 256 ≤ (i 1).val ∧ (i 1).val < win7_5.index _ (1 : Fin 2) * 256 + 256
    rw [e1]; omega

/-- The last point's block of a one-row window is the whole row. -/
theorem cover6 (i : S1x256.Idx) : ∃ t : Fin cfg7.N, (cfg7.win 6).flush t = true ∧ i ∈ ((cfg7.win 6).blk t).view.set := by
  have hi0 : (i 0).val < 1 := (i 0).isLt
  have hi1 : (i 1).val < 256 := (i 1).isLt
  refine ⟨t7_9, (flush7_6 t7_9).mpr rfl, ?_⟩
  rw [mem_blk6]
  obtain ⟨-, -, -, -, -, -, -, -, -, -, -, -, e0, e1⟩ := idx t7_9
  intro a
  match a with
  | ⟨0, _⟩ =>
    show win7_6.index _ (0 : Fin 2) * 1 ≤ (i 0).val ∧ (i 0).val < win7_6.index _ (0 : Fin 2) * 1 + 1
    rw [e0]; omega
  | ⟨1, _⟩ =>
    show win7_6.index _ (1 : Fin 2) * 256 ≤ (i 1).val ∧ (i 1).val < win7_6.index _ (1 : Fin 2) * 256 + 256
    rw [e1]; omega

/-! ## The loaded blocks, read off the arrays -/

section Arrays
variable (V : (c : Dev nD) → (b : Ref sig .tc) → Buf (Elt Ideal) ((c : Thread nD τ).loc b))

/-- Block `t` of agg at `(p, q)` is agg at row `1000 t + p`. -/
theorem iblk_0 (c : Dev nD) (t : Fin cfg7.N) (ht : t.val < 10) (p : Fin 1000) (q : Fin 256) :
    (iblk7 V c 0 t : S1000x256.Idx → EReal) (ix2 p q) = ((V c (Pipeline.arrRef spec7 0)) : S10000x256.Idx → EReal) (ix2 (rowOf t.val ht p) q) := by
  obtain ⟨e0, e1, -⟩ := idx t
  unfold iblk7
  rw [View.read_apply]
  refine congrArg (V c (Pipeline.arrRef spec7 0)) ?_
  funext a; apply Fin.ext
  match a with
  | ⟨0, _⟩ => show win7_0.index t (0 : Fin 2) * 1000 + 1 * p.val = t.val * 1000 + p.val; rw [e0]; omega
  | ⟨1, _⟩ => show win7_0.index t (1 : Fin 2) * 256 + 1 * q.val = q.val; rw [e1]; omega

/-- Block `t` of h at `(p, q)` is h at row `1000 t + p`. -/
theorem iblk_1 (c : Dev nD) (t : Fin cfg7.N) (ht : t.val < 10) (p : Fin 1000) (q : Fin 256) :
    (iblk7 V c 1 t : S1000x256.Idx → EReal) (ix2 p q) = ((V c (Pipeline.arrRef spec7 1)) : S10000x256.Idx → EReal) (ix2 (rowOf t.val ht p) q) := by
  obtain ⟨-, -, e0, e1, -⟩ := idx t
  unfold iblk7
  rw [View.read_apply]
  refine congrArg (V c (Pipeline.arrRef spec7 1)) ?_
  funext a; apply Fin.ext
  match a with
  | ⟨0, _⟩ => show win7_1.index t (0 : Fin 2) * 1000 + 1 * p.val = t.val * 1000 + p.val; rw [e0]; omega
  | ⟨1, _⟩ => show win7_1.index t (1 : Fin 2) * 256 + 1 * q.val = q.val; rw [e1]; omega

/-- Block `t` of d at `(p, 0)` is d at row `1000 t + p`. -/
theorem iblk_2 (c : Dev nD) (t : Fin cfg7.N) (ht : t.val < 10) (p : Fin 1000) :
    (iblk7 V c 2 t : S1000x1.Idx → EReal) (ix2 p (0 : Fin 1)) = ((V c (Pipeline.arrRef spec7 2)) : S10000x1.Idx → EReal) (ix2 (rowOf t.val ht p) (0 : Fin 1)) := by
  obtain ⟨-, -, -, -, e0, e1, -⟩ := idx t
  unfold iblk7
  rw [View.read_apply]
  refine congrArg (V c (Pipeline.arrRef spec7 2)) ?_
  funext a; apply Fin.ext
  match a with
  | ⟨0, _⟩ => show win7_2.index t (0 : Fin 2) * 1000 + 1 * p.val = t.val * 1000 + p.val; rw [e0]; omega
  | ⟨1, _⟩ => show win7_2.index t (1 : Fin 2) * 1 + 1 * 0 = 0; rw [e1]

/-- The one block of b is b. -/
theorem iblk_3 (c : Dev nD) (t : Fin cfg7.N) (q : Fin 256) :
    (iblk7 V c 3 t : S1x256.Idx → EReal) (ix2 (0 : Fin 1) q) = ((V c (Pipeline.arrRef spec7 3)) : S1x256.Idx → EReal) (ix2 (0 : Fin 1) q) := by
  obtain ⟨-, -, -, -, -, -, e0, e1, -⟩ := idx t
  unfold iblk7
  rw [View.read_apply]
  refine congrArg (V c (Pipeline.arrRef spec7 3)) ?_
  funext a; apply Fin.ext
  match a with
  | ⟨0, _⟩ => show win7_3.index t (0 : Fin 2) * 1 + 1 * 0 = 0; rw [e0]
  | ⟨1, _⟩ => show win7_3.index t (1 : Fin 2) * 256 + 1 * q.val = q.val; rw [e1]; omega

/-- g of the four arrays as the pass finds them. -/
def Gof (c : Dev nD) : S10000x256.Idx → EReal := (gcnOf7 (V c (Pipeline.arrRef spec7 0)) (V c (Pipeline.arrRef spec7 1)) (V c (Pipeline.arrRef spec7 2)) (V c (Pipeline.arrRef spec7 3)))

/-- Its square. -/
def Gsq (c : Dev nD) : S10000x256.Idx → EReal := fun i => Gof V c i * Gof V c i

/-- The column totals of a [10000, 256] array, as a [1, 256] row. -/
def colTotal (g : S10000x256.Idx → EReal) : S1x256.Idx → EReal := fun j => ∑ r : Fin 10000, g (ix2 r (j 1))

/-- The block a point stores, at `(p, q)`: g at row `1000 t + p`. -/
theorem pay3_blk (c : Dev nD) (t : Fin cfg7.N) (ht : t.val < 10) (p : Fin 1000) (q : Fin 256) :
    k7_pay3 (F := Ideal) (iblk7 V c 0 t) (iblk7 V c 1 t) (iblk7 V c 2 t) (iblk7 V c 3 t) (ix2 p q) = Gof V c (ix2 (rowOf t.val ht p) q) := by
  refine (pay3_apply (iblk7 V c 0 t) (iblk7 V c 1 t) (iblk7 V c 2 t) (iblk7 V c 3 t) p q).trans ?_
  rw [iblk_0 V c t ht p q, iblk_1 V c t ht p q, iblk_2 V c t ht p, iblk_3 V c t q]
  rfl

/-! ## The running rows after each block -/

/-- The column sum of g over the rows of block `s` (zero past the tenth block). -/
def blkSum (g : S10000x256.Idx → EReal) (q : Fin 256) (s : ℕ) : EReal :=
  if hs : s < 10 then ∑ p : Fin 1000, g (ix2 (rowOf s hs p) q) else 0

theorem colsum_blk (c : Dev nD) (t : Fin cfg7.N) (ht : t.val < 10) (q : Fin 256) :
    ∑ p : Fin 1000, k7_pay3 (F := Ideal) (iblk7 V c 0 t) (iblk7 V c 1 t) (iblk7 V c 2 t) (iblk7 V c 3 t) (ix2 p q) = blkSum (Gof V c) q t.val := by
  unfold blkSum
  rw [dif_pos ht]
  exact Finset.sum_congr rfl fun p _ => pay3_blk V c t ht p q

theorem colsumsq_blk (c : Dev nD) (t : Fin cfg7.N) (ht : t.val < 10) (q : Fin 256) :
    ∑ p : Fin 1000, k7_pay3 (F := Ideal) (iblk7 V c 0 t) (iblk7 V c 1 t) (iblk7 V c 2 t) (iblk7 V c 3 t) (ix2 p q) * k7_pay3 (F := Ideal) (iblk7 V c 0 t) (iblk7 V c 1 t) (iblk7 V c 2 t) (iblk7 V c 3 t) (ix2 p q)
      = blkSum (Gsq V c) q t.val := by
  unfold blkSum
  rw [dif_pos ht]
  refine Finset.sum_congr rfl fun p _ => ?_
  rw [pay3_blk V c t ht p q]
  rfl

/-- The three output blocks after the first point, as the block arithmetic. -/
theorem outs_zero (c : Dev nD) (hn : 0 < cfg7.N) :
    outsAt7 V c 0 hn = (k7_pay3 (iblk7 V c 0 ⟨0, hn⟩) (iblk7 V c 1 ⟨0, hn⟩) (iblk7 V c 2 ⟨0, hn⟩) (iblk7 V c 3 ⟨0, hn⟩), k7_pay4 (iblk7 V c 0 ⟨0, hn⟩) (iblk7 V c 1 ⟨0, hn⟩) (iblk7 V c 2 ⟨0, hn⟩) (iblk7 V c 3 ⟨0, hn⟩) (k7_pay1 (F := Ideal)), k7_pay5 (iblk7 V c 0 ⟨0, hn⟩) (iblk7 V c 1 ⟨0, hn⟩) (iblk7 V c 2 ⟨0, hn⟩) (iblk7 V c 3 ⟨0, hn⟩) (k7_pay2 (F := Ideal))) := by
  have e : outsAt7 V c 0 hn = _ := outsAt7_A V c ⟨0, hn⟩ (Nat.zero_mod _)
  rw [e, out_A_4, out_A_5, out_A_6]

/-- The three output blocks after a later point, over what the point before left. -/
theorem outs_succ (c : Dev nD) (n : ℕ) (hn : n + 1 < cfg7.N) :
    outsAt7 V c (n + 1) hn = (k7_pay3 (iblk7 V c 0 ⟨n + 1, hn⟩) (iblk7 V c 1 ⟨n + 1, hn⟩) (iblk7 V c 2 ⟨n + 1, hn⟩) (iblk7 V c 3 ⟨n + 1, hn⟩),
      k7_pay4 (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.1,
      k7_pay5 (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.2) := by
  have hN : cfg7.N = 10 := N_7
  have hB : ¬(⟨n + 1, hn⟩ : Fin cfg7.N).val % 10 = 0 := by dsimp only; omega
  have e : outsAt7 V c (n + 1) hn = _ := outsAt7_B V c ⟨n + 1, hn⟩ hB
  rw [e, out_B_4, out_B_5, out_B_6]
  rfl

/-- After point `n`: the stored block is g on block `n`'s rows, and the two running rows hold the column sums of g, and of
    its square, over the rows of blocks `0 … n`. By induction on the point. -/
theorem outsAt_eq (c : Dev nD) (n : ℕ) : ∀ (hn : n < cfg7.N),
    (outsAt7 V c n hn).1 = k7_pay3 (iblk7 V c 0 ⟨n, hn⟩) (iblk7 V c 1 ⟨n, hn⟩) (iblk7 V c 2 ⟨n, hn⟩) (iblk7 V c 3 ⟨n, hn⟩)
    ∧ (∀ (u : Fin 1) (q : Fin 256), (outsAt7 V c n hn).2.1 (ix2 u q) = ∑ s ∈ Finset.range (n + 1), blkSum (Gof V c) q s)
    ∧ (∀ (u : Fin 1) (q : Fin 256), (outsAt7 V c n hn).2.2 (ix2 u q) = ∑ s ∈ Finset.range (n + 1), blkSum (Gsq V c) q s) := by
  induction n with
  | zero =>
    intro hn
    rw [outs_zero V c hn]
    refine ⟨rfl, fun u q => ?_, fun u q => ?_⟩
    · refine (pay4_apply (iblk7 V c 0 ⟨0, hn⟩) (iblk7 V c 1 ⟨0, hn⟩) (iblk7 V c 2 ⟨0, hn⟩) (iblk7 V c 3 ⟨0, hn⟩) (k7_pay1 (F := Ideal)) u q).trans ?_
      rw [pay1_apply, zero_add, Finset.sum_range_one]
      exact colsum_blk V c ⟨0, hn⟩ (show (0 : ℕ) < 10 by decide) q
    · refine (pay5_apply (iblk7 V c 0 ⟨0, hn⟩) (iblk7 V c 1 ⟨0, hn⟩) (iblk7 V c 2 ⟨0, hn⟩) (iblk7 V c 3 ⟨0, hn⟩) (k7_pay2 (F := Ideal)) u q).trans ?_
      rw [pay2_apply, zero_add, Finset.sum_range_one]
      exact colsumsq_blk V c ⟨0, hn⟩ (show (0 : ℕ) < 10 by decide) q
  | succ n ih =>
    intro hn
    have hN : cfg7.N = 10 := N_7
    have ht : (⟨n + 1, hn⟩ : Fin cfg7.N).val < 10 := by dsimp only; omega
    obtain ⟨-, ih5, ih6⟩ := ih (Nat.lt_of_succ_lt hn)
    rw [outs_succ V c n hn]
    refine ⟨rfl, fun u q => ?_, fun u q => ?_⟩
    · refine (pay4_apply (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.1 u q).trans ?_
      rw [ih5 u q, colsum_blk V c ⟨n + 1, hn⟩ ht q, Finset.sum_range_succ (fun s => blkSum (Gof V c) q s) (n + 1)]
    · refine (pay5_apply (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.2 u q).trans ?_
      rw [ih6 u q, colsumsq_blk V c ⟨n + 1, hn⟩ ht q, Finset.sum_range_succ (fun s => blkSum (Gsq V c) q s) (n + 1)]

/-- The ten block sums are the sum over all 10000 rows. -/
theorem blkSum_total (g : S10000x256.Idx → EReal) (q : Fin 256) :
    ∑ s ∈ Finset.range (9 + 1), blkSum g q s = ∑ r : Fin 10000, g (ix2 r q) := by
  rw [Finset.sum_range (fun s => blkSum g q s)]
  refine Eq.trans ?_ (sum_blockRows 10 1000 (fun r : Fin (10 * 1000) => g (ix2 r q))).symm
  refine Finset.sum_congr rfl fun t _ => ?_
  unfold blkSum
  rw [dif_pos t.isLt]
  rfl

/-! ## What each point writes back, and the arrays after the pass -/

/-- What point `t` writes back to the [10000, 256] output: block `t` of g. -/
theorem flushed4 (c : Dev nD) (t : Fin cfg7.N) :
    (dat7 V c).flushed 4 t = ((cfg7.win 4).blk t).view.read (Elt Ideal) (Gof V c) := by
  have hN : cfg7.N = 10 := N_7
  have ht : t.val < 10 := by have := t.isLt; omega
  obtain ⟨-, -, -, -, -, -, -, -, e0, e1, -⟩ := idx t
  show (cfg7.win 4).cut (grid7.coords t) ((dat7 V c).after 4 t) = _
  rw [after7_4, (outsAt_eq V c t.val t.isLt).1]
  funext j
  obtain ⟨p, q, rfl⟩ : ∃ (p : Fin 1000) (q : Fin 256), j = ix2 p q := ⟨j 0, j 1, eq_ix2 j⟩
  refine (pay3_blk V c t ht p q).trans ?_
  rw [View.read_apply]
  refine congrArg (Gof V c) ?_
  funext a; apply Fin.ext
  match a with
  | ⟨0, _⟩ => show t.val * 1000 + p.val = win7_4.index t (0 : Fin 2) * 1000 + 1 * p.val; rw [e0]; omega
  | ⟨1, _⟩ => show q.val = win7_4.index t (1 : Fin 2) * 256 + 1 * q.val; rw [e1]; omega

/-- What the last point writes back to the sum row: the totals over all 10000 rows. -/
theorem flushed5 (c : Dev nD) (t : Fin cfg7.N) (hf : (cfg7.win 5).flush t = true) :
    (dat7 V c).flushed 5 t = ((cfg7.win 5).blk t).view.read (Elt Ideal) (colTotal (Gof V c)) := by
  have hN : cfg7.N = 10 := N_7
  have h9 : t.val = 9 := by have := (flush7_5 t).mp hf; have := t.isLt; omega
  obtain ⟨-, -, -, -, -, -, -, -, -, -, e0, e1, -⟩ := idx t
  show (cfg7.win 5).cut (grid7.coords t) ((dat7 V c).after 5 t) = _
  rw [after7_5]
  funext j
  obtain ⟨u, q, rfl⟩ : ∃ (u : Fin 1) (q : Fin 256), j = ix2 u q := ⟨j 0, j 1, eq_ix2 j⟩
  have hs : ∑ s ∈ Finset.range (t.val + 1), blkSum (Gof V c) q s = ∑ r : Fin 10000, Gof V c (ix2 r q) := by
    rw [h9]; exact blkSum_total _ q
  show (outsAt7 V c t.val t.isLt).2.1 (ix2 u q) = _
  rw [(outsAt_eq V c t.val t.isLt).2.1 u q, hs, View.read_apply]
  unfold colTotal
  refine Finset.sum_congr rfl fun r _ => congrArg (fun x : Fin 256 => Gof V c (ix2 r x)) (Fin.ext ?_)
  show q.val = win7_5.index t (1 : Fin 2) * 256 + 1 * q.val
  rw [e1]; omega

/-- What the last point writes back to the sum-of-squares row: the totals over all 10000 rows. -/
theorem flushed6 (c : Dev nD) (t : Fin cfg7.N) (hf : (cfg7.win 6).flush t = true) :
    (dat7 V c).flushed 6 t = ((cfg7.win 6).blk t).view.read (Elt Ideal) (colTotal (Gsq V c)) := by
  have hN : cfg7.N = 10 := N_7
  have h9 : t.val = 9 := by have := (flush7_6 t).mp hf; have := t.isLt; omega
  obtain ⟨-, -, -, -, -, -, -, -, -, -, -, -, e0, e1⟩ := idx t
  show (cfg7.win 6).cut (grid7.coords t) ((dat7 V c).after 6 t) = _
  rw [after7_6]
  funext j
  obtain ⟨u, q, rfl⟩ : ∃ (u : Fin 1) (q : Fin 256), j = ix2 u q := ⟨j 0, j 1, eq_ix2 j⟩
  have hs : ∑ s ∈ Finset.range (t.val + 1), blkSum (Gsq V c) q s = ∑ r : Fin 10000, Gsq V c (ix2 r q) := by
    rw [h9]; exact blkSum_total _ q
  show (outsAt7 V c t.val t.isLt).2.2 (ix2 u q) = _
  rw [(outsAt_eq V c t.val t.isLt).2.2 u q, hs, View.read_apply]
  unfold colTotal
  refine Finset.sum_congr rfl fun r _ => congrArg (fun x : Fin 256 => Gsq V c (ix2 r x)) (Fin.ext ?_)
  show q.val = win7_6.index t (1 : Fin 2) * 256 + 1 * q.val
  rw [e1]; omega

end Arrays

end Stats7

section Final
variable (V : (c : Dev nD) → (b : Ref sig .tc) → Buf (Elt Ideal) ((c : Thread nD τ).loc b)) (c : Dev nD)
  (agg h : S10000x256.Idx → EReal) (d : S10000x1.Idx → EReal) (b : S1x256.Idx → EReal)
  (h0 : V c (Pipeline.arrRef spec7 0) = agg) (h1 : V c (Pipeline.arrRef spec7 1) = h)
  (h2 : V c (Pipeline.arrRef spec7 2) = d) (h3 : V c (Pipeline.arrRef spec7 3) = b)
include h0 h1 h2 h3

/-- After the pass the [10000, 256] output holds g. -/
theorem stats7_gcn : ((dat7 (F := Ideal) V c).arrAt 4 cfg7.N : S10000x256.Idx → EReal) = gcnOf7 agg h d b := by
  subst h0 h1 h2 h3
  exact (dat7 V c).arrAt_eq_of_cover 4 (Stats7.Gof V c) (fun t _ => Stats7.flushed4 V c t) Stats7.cover4

/-- After the pass the sum row holds the column sums of g over all 10000 rows. -/
theorem stats7_sum : ((dat7 (F := Ideal) V c).arrAt 5 cfg7.N : S1x256.Idx → EReal)
    = fun j => ∑ r : Fin 10000, gcnOf7 agg h d b (ix2 r (j 1)) := by
  subst h0 h1 h2 h3
  exact (dat7 V c).arrAt_eq_of_cover 5 (Stats7.colTotal (Stats7.Gof V c)) (fun t hf => Stats7.flushed5 V c t hf) Stats7.cover5

/-- After the pass the sum-of-squares row holds the column sums of g * g over all 10000 rows. -/
theorem stats7_sumsq : ((dat7 (F := Ideal) V c).arrAt 6 cfg7.N : S1x256.Idx → EReal)
    = fun j => ∑ r : Fin 10000, gcnOf7 agg h d b (ix2 r (j 1)) * gcnOf7 agg h d b (ix2 r (j 1)) := by
  subst h0 h1 h2 h3
  exact (dat7 V c).arrAt_eq_of_cover 6 (Stats7.colTotal (Stats7.Gsq V c)) (fun t hf => Stats7.flushed6 V c t hf) Stats7.cover6

end Final

end Cert.KernelIdeal.RegionValue

end
-- ==== Proof.RegionNorm8.lean ====
/-
  The array a batch-norm + ReLU region leaves behind, index by index.

  The region normalises a [10000, 256] array x column by column with a mean row mu, a variance row var, a scale row g
  and a shift row be (each [1, 256]), ten row blocks of 1000 at a time:
      out (r, q) = max (((x (r, q) - mu (0, q)) * rsqrt (var (0, q) + eps)) * g (0, q) + be (0, q)) 0,
  eps the single-precision word 0x3727C5AC. The ten row blocks tile the array, so the array after the region is this
  function of the five arrays the region finds on entry, at every index.
-/
import proofs.«136907_j29480655519935_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-- The zero offsets of a whole-buffer load or store. -/
theorem norm8_hz : (![0, 0] : Fin 2 → Nat) = fun _ => 0 := funext fun a => by fin_cases a <;> rfl

/-- The normalised, scaled, shifted and clamped array, index by index. -/
abbrev normG8 (x : S10000x256.Idx → EReal) (mu var g be : S1x256.Idx → EReal) : S10000x256.Idx → EReal := fun i =>
  max (((x i - mu (ix2 (0 : Fin 1) (i 1))) * Ideal.rsqrt (var (ix2 (0 : Fin 1) (i 1)) + Ideal.ofBits .f32 0x3727C5AC#32))
    * g (ix2 (0 : Fin 1) (i 1)) + be (ix2 (0 : Fin 1) (i 1))) 0

/-- The body's arithmetic at one index of a row block: the pointwise operations read through, each row operand read at
    its one row. (The payload takes the variance row before the mean row.) -/
theorem norm8_pay (x : Vec Ideal S1000x256 .f32) (vr mu g be : Vec Ideal S1x256 .f32) (p : Fin 1000) (q : Fin 256) :
    k8_pay1 (F := Ideal) x vr mu g be (ix2 p q)
      = max (((x (ix2 p q) - mu (ix2 (0 : Fin 1) q)) * Ideal.rsqrt (vr (ix2 (0 : Fin 1) q) + Ideal.ofBits .f32 0x3727C5AC#32))
          * g (ix2 (0 : Fin 1) q) + be (ix2 (0 : Fin 1) q)) 0 := by
  unfold k8_pay1
  simp only [shapeCast_self]
  rw [truncf_apply, maximumf_apply, addf_apply, mulf_apply, mulf_apply, subf_apply, broadcast_apply,
    broadcastTo_1b_ab_apply, broadcastTo_1b_ab_apply, broadcastTo_1b_ab_apply, broadcastTo_1b_ab_apply]
  show max (((x (ix2 p q) - mu (ix2 (0 : Fin 1) q)) * Ideal.rsqrt (vr (ix2 (0 : Fin 1) q) + Ideal.ofBits .f32 0x3727C5AC#32))
      * g (ix2 (0 : Fin 1) q) + be (ix2 (0 : Fin 1) q)) (Ideal.ofBits .f32 0x00000000#32) = _
  rw [Ideal.ofBits_zero_f32]

/-- The same at a block index `j` sitting under the array index `i` (same column), the block of x read off the array X
    there and the four rows being the whole row arrays. -/
theorem norm8_point (x0 : Vec Ideal S1000x256 .f32) (x1 x2 x3 x4 : Vec Ideal S1x256 .f32)
    (X : S10000x256.Idx → EReal) (MU VR G BE : S1x256.Idx → EReal) (j : S1000x256.Idx) (i : S10000x256.Idx)
    (h0 : x0 j = X i) (h1 : x1 = MU) (h2 : x2 = VR) (h3 : x3 = G) (h4 : x4 = BE) (hq : (i 1).val = (j 1).val) :
    k8_pay1 (F := Ideal) x0 x2 x1 x3 x4 j = normG8 X MU VR G BE i := by
  subst h1 h2 h3 h4
  obtain ⟨p, q, rfl⟩ : ∃ (p : Fin 1000) (q : Fin 256), j = ix2 p q := ⟨j 0, j 1, eq_ix2 j⟩
  rw [norm8_pay, h0]
  have hi : i 1 = q := Fin.ext hq
  show _ = max (((X i - x1 (ix2 (0 : Fin 1) (i 1))) * Ideal.rsqrt (x2 (ix2 (0 : Fin 1) (i 1)) + Ideal.ofBits .f32 0x3727C5AC#32))
      * x3 (ix2 (0 : Fin 1) (i 1)) + x4 (ix2 (0 : Fin 1) (i 1))) 0
  rw [hi]

/-- The printed index maps, decided over the grid: the x window and the output window sit at row block `t`, column block
    0; the four row windows at block (0, 0) at every point. -/
theorem norm8_idx : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- A row window's block, at any point, is the whole row array. -/
theorem norm8_row1 (c : Dev nD) (t : Fin cfg8.N) :
    (iblk8 V c 1 t : Vec Ideal S1x256 .f32) = (V c (Pipeline.arrRef spec8 1) : S1x256.Idx → EReal) := by
  obtain ⟨_, _, e0, e1, _⟩ := norm8_idx t
  funext y
  show V c (Pipeline.arrRef spec8 1) (((cfg8.win 1).blk t).view.emb y) = V c (Pipeline.arrRef spec8 1) y
  congr 1
  funext a; apply Fin.ext
  match a with
  | ⟨0, _⟩ => show win8_1.index t (0 : Fin 2) * 1 + 1 * (y 0).val = (y 0).val; omega
  | ⟨1, _⟩ => show win8_1.index t (1 : Fin 2) * 256 + 1 * (y 1).val = (y 1).val; omega
theorem norm8_row2 (c : Dev nD) (t : Fin cfg8.N) :
    (iblk8 V c 2 t : Vec Ideal S1x256 .f32) = (V c (Pipeline.arrRef spec8 2) : S1x256.Idx → EReal) := by
  obtain ⟨_, _, _, _, e0, e1, _⟩ := norm8_idx t
  funext y
  show V c (Pipeline.arrRef spec8 2) (((cfg8.win 2).blk t).view.emb y) = V c (Pipeline.arrRef spec8 2) y
  congr 1
  funext a; apply Fin.ext
  match a with
  | ⟨0, _⟩ => show win8_2.index t (0 : Fin 2) * 1 + 1 * (y 0).val = (y 0).val; omega
  | ⟨1, _⟩ => show win8_2.index t (1 : Fin 2) * 256 + 1 * (y 1).val = (y 1).val; omega
theorem norm8_row3 (c : Dev nD) (t : Fin cfg8.N) :
    (iblk8 V c 3 t : Vec Ideal S1x256 .f32) = (V c (Pipeline.arrRef spec8 3) : S1x256.Idx → EReal) := by
  obtain ⟨_, _, _, _, _, _, e0, e1, _⟩ := norm8_idx t
  funext y
  show V c (Pipeline.arrRef spec8 3) (((cfg8.win 3).blk t).view.emb y) = V c (Pipeline.arrRef spec8 3) y
  congr 1
  funext a; apply Fin.ext
  match a with
  | ⟨0, _⟩ => show win8_3.index t (0 : Fin 2) * 1 + 1 * (y 0).val = (y 0).val; omega
  | ⟨1, _⟩ => show win8_3.index t (1 : Fin 2) * 256 + 1 * (y 1).val = (y 1).val; omega
theorem norm8_row4 (c : Dev nD) (t : Fin cfg8.N) :
    (iblk8 V c 4 t : Vec Ideal S1x256 .f32) = (V c (Pipeline.arrRef spec8 4) : S1x256.Idx → EReal) := by
  obtain ⟨_, _, _, _, _, _, _, _, e0, e1, _⟩ := norm8_idx t
  funext y
  show V c (Pipeline.arrRef spec8 4) (((cfg8.win 4).blk t).view.emb y) = V c (Pipeline.arrRef spec8 4) y
  congr 1
  funext a; apply Fin.ext
  match a with
  | ⟨0, _⟩ => show win8_4.index t (0 : Fin 2) * 1 + 1 * (y 0).val = (y 0).val; omega
  | ⟨1, _⟩ => show win8_4.index t (1 : Fin 2) * 256 + 1 * (y 1).val = (y 1).val; omega

/-- Under a block index `j`, the x window's block and the output window's block at point `t` sit over the same index of
    the array … -/
theorem norm8_emb0 (t : Fin cfg8.N) (j : S1000x256.Idx) :
    (((cfg8.win 0).blk t).view.emb j : S10000x256.Idx) = (((cfg8.win 5).blk t).view.emb j : S10000x256.Idx) := by
  obtain ⟨e0, e1, _, _, _, _, _, _, _, _, e10, e11⟩ := norm8_idx t
  funext a; apply Fin.ext
  match a with
  | ⟨0, _⟩ => show win8_0.index t (0 : Fin 2) * 1000 + 1 * (j 0).val = win8_5.index t (0 : Fin 2) * 1000 + 1 * (j 0).val; omega
  | ⟨1, _⟩ => show win8_0.index t (1 : Fin 2) * 256 + 1 * (j 1).val = win8_5.index t (1 : Fin 2) * 256 + 1 * (j 1).val; omega
/-- … whose column is `j`'s column. -/
theorem norm8_emb5 (t : Fin cfg8.N) (j : S1000x256.Idx) :
    ((((cfg8.win 5).blk t).view.emb j : S10000x256.Idx) 1).val = (j 1).val := by
  obtain ⟨e0, e1, _, _, _, _, _, _, _, _, e10, e11⟩ := norm8_idx t
  show win8_5.index t (1 : Fin 2) * 256 + 1 * (j 1).val = (j 1).val
  omega

/-- What point `t` writes back is row block `t` of the normalised array of the five arrays as the region finds them. -/
theorem norm8_flushed (c : Dev nD) (t : Fin cfg8.N) :
    (dat8 (F := Ideal) V c).flushed 5 t = ((cfg8.win 5).blk t).view.read (Elt Ideal)
      (normG8 (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 V c).after 5 t) = _
  rw [after8_5]
  unfold out8_5
  rw [View.canon_unit_zero norm8_hz]
  simp only [View.ld_unit_zero (S := S1000x256) norm8_hz, View.ld_unit_zero (S := S1x256) norm8_hz]
  funext j
  refine norm8_point (iblk8 V c 0 t) (iblk8 V c 1 t) (iblk8 V c 2 t) (iblk8 V c 3 t) (iblk8 V c 4 t)
    (V c (Pipeline.arrRef spec8 0)) (V c (Pipeline.arrRef spec8 1)) (V c (Pipeline.arrRef spec8 2))
    (V c (Pipeline.arrRef spec8 3)) (V c (Pipeline.arrRef spec8 4)) j (((cfg8.win 5).blk t).view.emb j)
    ?_ (norm8_row1 V c t) (norm8_row2 V c t) (norm8_row3 V c t) (norm8_row4 V c t) (norm8_emb5 t j)
  exact congrArg (V c (Pipeline.arrRef spec8 0) : S10000x256.Idx → EReal) (norm8_emb0 t j)

/-- An index of the array is in point `t`'s block iff each coordinate is in the block's range on its axis. -/
theorem norm8_mem_blk (t : Fin cfg8.N) (i : S10000x256.Idx) :
    i ∈ ((cfg8.win 5).blk t).view.set ↔ ∀ a : Fin 2, win8_5.index t a * S1000x256.size a ≤ (i a).val ∧ (i a).val < win8_5.index t a * S1000x256.size a + S1000x256.size a := by
  show i ∈ ((View.whole main_v151).slice (win8_5.rect t)).set ↔ _
  rw [View.set_slice_whole, Rect.mem_set_unit]
  exact Iff.rfl

/-- Every index of the array is in the block of the point its row falls under (row `r` under point `r / 1000`). -/
theorem norm8_cover (i : S10000x256.Idx) :
    ∃ t : Fin cfg8.N, (cfg8.win 5).flush t = true ∧ i ∈ ((cfg8.win 5).blk t).view.set := by
  have hi0 : (i 0).val < 10000 := (i 0).isLt
  have hi1 : (i 1).val < 256 := (i 1).isLt
  have hN : grid8.N = 10 := N_8
  let t : Fin cfg8.N := ⟨(i 0).val / 1000, by show _ < grid8.N; rw [hN]; omega⟩
  have ht : t.val = (i 0).val / 1000 := rfl
  obtain ⟨_, _, _, _, _, _, _, _, _, _, e10, e11⟩ := norm8_idx t
  refine ⟨t, flush8_5 t, ?_⟩
  rw [norm8_mem_blk]
  intro a
  match a with
  | ⟨0, _⟩ => show win8_5.index t (0 : Fin 2) * 1000 ≤ (i 0).val ∧ (i 0).val < win8_5.index t (0 : Fin 2) * 1000 + 1000; omega
  | ⟨1, _⟩ => show win8_5.index t (1 : Fin 2) * 256 ≤ (i 1).val ∧ (i 1).val < win8_5.index t (1 : Fin 2) * 256 + 256; omega

/-- THE ARRAY after the region: the normalised, scaled, shifted, clamped array of the five arrays the region finds on
    entry (named x, mu, var, g, be by the five equations), at every index. -/
theorem norm8_final (c : Dev nD) (x : S10000x256.Idx → EReal) (mu var g be : S1x256.Idx → EReal)
    (h0 : V c (Pipeline.arrRef spec8 0) = x) (h1 : V c (Pipeline.arrRef spec8 1) = mu)
    (h2 : V c (Pipeline.arrRef spec8 2) = var) (h3 : V c (Pipeline.arrRef spec8 3) = g)
    (h4 : V c (Pipeline.arrRef spec8 4) = be) :
    (dat8 (F := Ideal) V c).arrAt 5 cfg8.N
      = fun i => max (((x i - mu (ix2 (0 : Fin 1) (i 1))) * Ideal.rsqrt (var (ix2 (0 : Fin 1) (i 1)) + Ideal.ofBits .f32 0x3727C5AC#32))
          * g (ix2 (0 : Fin 1) (i 1)) + be (ix2 (0 : Fin 1) (i 1))) 0 := by
  subst h0 h1 h2 h3 h4
  exact (dat8 (F := Ideal) V c).arrAt_eq_of_cover 5
    (normG8 (V c (Pipeline.arrRef spec8 0)) (V c (Pipeline.arrRef spec8 1)) (V c (Pipeline.arrRef spec8 2))
      (V c (Pipeline.arrRef spec8 3)) (V c (Pipeline.arrRef spec8 4)))
    (fun t _ => norm8_flushed V c t) norm8_cover

end Cert.KernelIdeal.RegionValue

end
-- ==== Proof.RefNorm3.lean ====
/-
  The batch normalisation of the third layer of the reference, read at an index.

  Write g for the layer's array before normalisation (10000 rows, 256 columns), K for the real ten thousand and eps for
  the small positive literal added to the variance. Column by column the reference computes the mean
  m j = (∑ r, g r j) / K, the variance v j = (∑ r, (g r j - m j) * (g r j - m j)) / K, and the output
  max (((g i j - m j) * rsqrt (v j + eps)) * gamma j + beta j) 0.

  Three readings are proved. The mean at a column is the column's sum divided by K. The variance at a column, when every
  entry of g is a real number, is the mean of the squares minus the squared mean: over the reals
  (1/n) ∑ (x r - μ)² = (1/n) ∑ x r² - μ² with μ = (1/n) ∑ x r, because ∑ (x r - μ)² = ∑ x r² - 2 μ ∑ x r + n μ² and
  ∑ x r = n μ; the extended-real statement follows by pushing the coercion of the reals through the sums, the products
  and the exact division by the nonzero real K. The output at an index is the expression above in the mean and the
  variance of its column.
-/
import proofs.«136907_j29480655519935_1_alg».proof.Proof.RefRead
import Mathlib

noncomputable section

open scoped BigOperators

namespace Cert.ReferenceIdeal.NormRead

open Cert.ReferenceIdeal Cert.ReferenceIdeal.Gen Idealize.ShloMosaic Idealize.ShloMosaic.TcCoe Idealize.SL.Sem Idealize.ShloMosaic.StableHlo Idealize.ShloMosaic.ValueIdx

/-- Over the reals: the mean of the squared deviations from the mean is the mean of the squares minus the squared mean,
    for a family indexed by a finite type of `n` elements, every division written as the product with `1 / n`. -/
private theorem real_var_identity {ι : Type*} [Fintype ι] (x : ι → ℝ) (n : ℝ) (hn : n ≠ 0) (hcard : (Fintype.card ι : ℝ) = n) :
    (∑ r, (x r - (∑ s, x s) * (1 / n)) * (x r - (∑ s, x s) * (1 / n))) * (1 / n)
      = (∑ r, x r * x r) * (1 / n) - ((∑ s, x s) * (1 / n)) * ((∑ s, x s) * (1 / n)) := by
  set S : ℝ := ∑ s, x s with hS
  have h1 : ∑ r, (x r - S * (1 / n)) * (x r - S * (1 / n))
      = ∑ r, x r * x r - 2 * (S * (1 / n)) * S + n * ((S * (1 / n)) * (S * (1 / n))) := by
    have : ∀ r, (x r - S * (1 / n)) * (x r - S * (1 / n))
        = x r * x r - 2 * (S * (1 / n)) * x r + (S * (1 / n)) * (S * (1 / n)) := fun r => by ring
    simp only [this]
    rw [Finset.sum_add_distrib, Finset.sum_sub_distrib, ← Finset.mul_sum, Finset.sum_const, Finset.card_univ,
      nsmul_eq_mul, hcard]
  rw [h1]
  field_simp
  ring

/-- The coercion of the reals into the extended reals commutes with finite sums. -/
private theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x461C4000` is the real ten thousand. -/
private theorem ofBits_1e4 : Ideal.ofBits .f32 0x461C4000#32 = ((10000 : ℝ) : EReal) := by
  simp [Ideal.ofBits, Ideal.ieee, -EReal.coe_mul]; norm_num

/-- Over the extended reals, for real entries: the mean of the squared deviations from the mean is the mean of the
    squares minus the squared mean, the divisions being the exact division by the real `n`. -/
private theorem ereal_var_identity {ι : Type*} [Fintype ι] (g : ι → EReal) (hg : ∀ r, ∃ y : ℝ, g r = y) (n : ℝ) (hn : n ≠ 0)
    (hcard : (Fintype.card ι : ℝ) = n) :
    Ideal.div (∑ r, (g r - Ideal.div (∑ s, g s) (n : EReal)) * (g r - Ideal.div (∑ s, g s) (n : EReal))) (n : EReal)
      = Ideal.div (∑ r, g r * g r) (n : EReal) - Ideal.div (∑ s, g s) (n : EReal) * Ideal.div (∑ s, g s) (n : EReal) := by
  choose x hx using hg
  simp only [hx, Ideal.div_coe hn]
  simp only [← coe_sum, ← EReal.coe_mul, ← EReal.coe_sub]
  exact congrArg _ (real_var_identity x n hn hcard)

/-- The mean at a column: the column's sum divided by the literal ten thousand. -/
theorem mean3_apply (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 x4 x5 : (⟨S512, .f32⟩ : BufTy).Contents (Elt Ideal)) (x6 : (⟨S512x512, .f32⟩ : BufTy).Contents (Elt Ideal)) (x7 x8 x9 : (⟨S512, .f32⟩ : BufTy).Contents (Elt Ideal)) (x10 : (⟨S512x256, .f32⟩ : BufTy).Contents (Elt Ideal)) (x11 : (⟨S256, .f32⟩ : BufTy).Contents (Elt Ideal)) (j : S256.Idx) :
    Read.val_main_v176 (F := Ideal) x0 x1 x2 x3 x4 x5 x6 x7 x8 x9 x10 x11 j
      = Ideal.div (∑ r : Fin 10000, Read.val_main_v173 (F := Ideal) x0 x1 x2 x3 x4 x5 x6 x7 x8 x9 x10 x11 (ix2 (n0 := 10000) (n1 := 256) r (j 0))) (Ideal.ofBits .f32 0x461C4000#32) := by
  have e : ∀ k : Fin 10000, Read.idx_main_v174 j k = ix2 (n0 := 10000) (n1 := 256) k (j 0) := fun k => by
    funext a; match a with | ⟨0, _⟩ => rfl | ⟨1, _⟩ => rfl
  rw [Read.val_main_v176_apply, Read.val_main_v174_apply, Read.val_main_v175_apply, Read.val_main_cst_32_apply, Read.val_main_cst_33_apply]
  simp only [e, Ideal.hostDivf_def, Ideal.ofBits_def, Ideal.ofBits_zero_f32, zero_add]

/-- The variance at a column, for real entries: the mean of the squares minus the squared mean. -/
theorem var3_apply (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 x4 x5 : (⟨S512, .f32⟩ : BufTy).Contents (Elt Ideal)) (x6 : (⟨S512x512, .f32⟩ : BufTy).Contents (Elt Ideal)) (x7 x8 x9 : (⟨S512, .f32⟩ : BufTy).Contents (Elt Ideal)) (x10 : (⟨S512x256, .f32⟩ : BufTy).Contents (Elt Ideal)) (x11 : (⟨S256, .f32⟩ : BufTy).Contents (Elt Ideal))
    (hg : ∀ i, ∃ r : ℝ, (Read.val_main_v173 (F := Ideal) x0 x1 x2 x3 x4 x5 x6 x7 x8 x9 x10 x11 i : EReal) = (r : EReal)) (j : S256.Idx) :
    Read.val_main_v183 (F := Ideal) x0 x1 x2 x3 x4 x5 x6 x7 x8 x9 x10 x11 j
      = Ideal.div (∑ r : Fin 10000, Read.val_main_v173 (F := Ideal) x0 x1 x2 x3 x4 x5 x6 x7 x8 x9 x10 x11 (ix2 (n0 := 10000) (n1 := 256) r (j 0)) * Read.val_main_v173 (F := Ideal) x0 x1 x2 x3 x4 x5 x6 x7 x8 x9 x10 x11 (ix2 (n0 := 10000) (n1 := 256) r (j 0))) (Ideal.ofBits .f32 0x461C4000#32)
        - Ideal.div (∑ r : Fin 10000, Read.val_main_v173 (F := Ideal) x0 x1 x2 x3 x4 x5 x6 x7 x8 x9 x10 x11 (ix2 (n0 := 10000) (n1 := 256) r (j 0))) (Ideal.ofBits .f32 0x461C4000#32)
          * Ideal.div (∑ r : Fin 10000, Read.val_main_v173 (F := Ideal) x0 x1 x2 x3 x4 x5 x6 x7 x8 x9 x10 x11 (ix2 (n0 := 10000) (n1 := 256) r (j 0))) (Ideal.ofBits .f32 0x461C4000#32) := by
  have hsum : ∀ k : Fin 10000, Read.val_main_v180 (F := Ideal) x0 x1 x2 x3 x4 x5 x6 x7 x8 x9 x10 x11 (Read.idx_main_v181 j k)
      = FloatOps.mulf (F := Ideal) (φ := .f32) (FloatOps.subf (F := Ideal) (φ := .f32) (Read.val_main_v173 (F := Ideal) x0 x1 x2 x3 x4 x5 x6 x7 x8 x9 x10 x11 (ix2 (n0 := 10000) (n1 := 256) k (j 0))) (Read.val_main_v176 (F := Ideal) x0 x1 x2 x3 x4 x5 x6 x7 x8 x9 x10 x11 j))
          (FloatOps.subf (F := Ideal) (φ := .f32) (Read.val_main_v173 (F := Ideal) x0 x1 x2 x3 x4 x5 x6 x7 x8 x9 x10 x11 (ix2 (n0 := 10000) (n1 := 256) k (j 0))) (Read.val_main_v176 (F := Ideal) x0 x1 x2 x3 x4 x5 x6 x7 x8 x9 x10 x11 j)) := by
    intro k
    have e1 : Read.idx_main_v181 j k = ix2 (n0 := 10000) (n1 := 256) k (j 0) := by funext a; match a with | ⟨0, _⟩ => rfl | ⟨1, _⟩ => rfl
    have e2 : Read.idx_main_v177 (Read.idx_main_v178 (ix2 (n0 := 10000) (n1 := 256) k (j 0))) = j := by funext a; match a with | ⟨0, _⟩ => rfl
    rw [Read.val_main_v180_apply, Read.val_main_v179_apply, Read.val_main_v178_apply, Read.val_main_v177_apply, e1, e2]
  rw [Read.val_main_v183_apply, Read.val_main_v181_apply, Read.val_main_v182_apply, Read.val_main_cst_34_apply, Read.val_main_cst_35_apply]
  simp only [hsum, Ideal.hostDivf_def, Ideal.ofBits_def, Ideal.ofBits_zero_f32, zero_add, Ideal.mulf_def, Ideal.subf_def]
  rw [mean3_apply, ofBits_1e4]
  exact ereal_var_identity (fun r : Fin 10000 => Read.val_main_v173 (F := Ideal) x0 x1 x2 x3 x4 x5 x6 x7 x8 x9 x10 x11 (ix2 (n0 := 10000) (n1 := 256) r (j 0))) (fun r => hg _) 10000 (by norm_num) (by simp)

/-- The layer's output at an index: the entry minus its column's mean, times the reciprocal square root of the column's
    variance plus the small literal, times the column's scale, plus the column's shift, and the maximum of that and zero. -/
theorem out3_apply (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 x4 x5 : (⟨S512, .f32⟩ : BufTy).Contents (Elt Ideal)) (x6 : (⟨S512x512, .f32⟩ : BufTy).Contents (Elt Ideal)) (x7 x8 x9 : (⟨S512, .f32⟩ : BufTy).Contents (Elt Ideal)) (x10 : (⟨S512x256, .f32⟩ : BufTy).Contents (Elt Ideal)) (x11 : (⟨S256, .f32⟩ : BufTy).Contents (Elt Ideal)) (x12 x13 : (⟨S256, .f32⟩ : BufTy).Contents (Elt Ideal)) (i : S10000x256.Idx) :
    Read.val_main_v199 (F := Ideal) x0 x1 x2 x3 x4 x5 x6 x7 x8 x9 x10 x11 x12 x13 i
      = max ((((Read.val_main_v173 (F := Ideal) x0 x1 x2 x3 x4 x5 x6 x7 x8 x9 x10 x11 i - Read.val_main_v176 (F := Ideal) x0 x1 x2 x3 x4 x5 x6 x7 x8 x9 x10 x11 (ix1 (n := 256) (i 1)))
            * Ideal.rsqrt (Read.val_main_v183 (F := Ideal) x0 x1 x2 x3 x4 x5 x6 x7 x8 x9 x10 x11 (ix1 (n := 256) (i 1)) + Ideal.ofBits .f32 0x3727C5AC#32))
          * x12 (ix1 (n := 256) (i 1))) + x13 (ix1 (n := 256) (i 1))) 0 := by
  have e1 : Read.idx_main_v184 (Read.idx_main_v185 i) = ix1 (n := 256) (i 1) := by funext a; match a with | ⟨0, _⟩ => rfl
  have e2 : Read.idx_main_v190 (Read.idx_main_v191 i) = ix1 (n := 256) (i 1) := by funext a; match a with | ⟨0, _⟩ => rfl
  have e3 : Read.idx_main_v193 (Read.idx_main_v194 i) = ix1 (n := 256) (i 1) := by funext a; match a with | ⟨0, _⟩ => rfl
  have e4 : Read.idx_main_v196 (Read.idx_main_v197 i) = ix1 (n := 256) (i 1) := by funext a; match a with | ⟨0, _⟩ => rfl
  rw [Read.val_main_v199_apply, Read.val_main_v198_apply, Read.val_main_v197_apply, Read.val_main_v196_apply, Read.val_main_v195_apply,
    Read.val_main_v194_apply, Read.val_main_v193_apply, Read.val_main_v192_apply, Read.val_main_v191_apply, Read.val_main_v190_apply,
    Read.val_main_v189_apply, Read.val_main_v188_apply, Read.val_main_v187_apply, Read.val_main_cst_36_apply, Read.val_main_v186_apply,
    Read.val_main_v185_apply, Read.val_main_v184_apply, Read.val_main_call2_v0_apply, Read.val_main_call2_cst_apply,
    e1, e2, e3, e4]
  simp only [Ideal.maximumf_def, Ideal.addf_def, Ideal.mulf_def, Ideal.subf_def, Ideal.hostUnary_rsqrt_def,
    Ideal.ofBits_def, Ideal.ofBits_zero_f32]

end Cert.ReferenceIdeal.NormRead
-- ==== Proof.RegionMatmul3.lean ====
/- The array the second matrix-product region leaves. Its left operand is a [10000, 512] array x, read in ten blocks
   of 1000 rows; its right operand is a [512, 512] array w, read whole at every grid point; each point writes the
   1000 rows of the [10000, 512] output it computed. After the region the output's entry (r, c) is the sum over
   k < 512 of x(r, k) * w(k, c), at the extended-real values. -/
import proofs.«136907_j29480655519935_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

/-! ## The operand indices of the product at an output index and a contraction index -/

theorem matmul3_lhs0 (i : S1000x512.Idx) (u : dot_S1000x512_S512x512_S1000x512_1_0_0_1_n_n.contr.Idx) :
    (dot_S1000x512_S512x512_S1000x512_1_0_0_1_n_n.lhsIdx i u 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem matmul3_lhs1 (i : S1000x512.Idx) (u : dot_S1000x512_S512x512_S1000x512_1_0_0_1_n_n.contr.Idx) :
    (dot_S1000x512_S512x512_S1000x512_1_0_0_1_n_n.lhsIdx i u 1).val = (u ⟨0, by decide⟩).val :=
  dot_S1000x512_S512x512_S1000x512_1_0_0_1_n_n.lhsIdx_val_of_single rfl i u
theorem matmul3_rhs0 (i : S1000x512.Idx) (u : dot_S1000x512_S512x512_S1000x512_1_0_0_1_n_n.contr.Idx) :
    (dot_S1000x512_S512x512_S1000x512_1_0_0_1_n_n.rhsIdx i u 0).val = (u ⟨0, by decide⟩).val :=
  dot_S1000x512_S512x512_S1000x512_1_0_0_1_n_n.rhsIdx_val_of_single rfl i u
theorem matmul3_rhs1 (i : S1000x512.Idx) (u : dot_S1000x512_S512x512_S1000x512_1_0_0_1_n_n.contr.Idx) :
    (dot_S1000x512_S512x512_S1000x512_1_0_0_1_n_n.rhsIdx i u 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The product into a zero accumulator at an index of the block: the sum over the contraction axis of the products
    of the left operand's row and the right operand's column. -/
theorem matmul3_prod (x0 : FVec Ideal S1000x512 .bf16) (x1 : FVec Ideal S512x512 .bf16) (p : Fin 1000) (q : Fin 512) :
    FloatOps.matmul (F := Ideal) dot_S1000x512_S512x512_S1000x512_1_0_0_1_n_n none x0 x1 (constant (F := Ideal) S1000x512 .f32 0x00000000#32) (ix2 p q)
      = ∑ k : Fin 512, x0 (ix2 p k) * x1 (ix2 k q) := by
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 p q) ((contrEquiv1 dot_S1000x512_S512x512_S1000x512_1_0_0_1_n_n 512 rfl rfl).symm k) = ix2 p k := funext fun a => Fin.ext (by
    match a with
    | ⟨0, _⟩ => exact matmul3_lhs0 _ _
    | ⟨1, _⟩ => exact (matmul3_lhs1 _ _).trans hk)
  have er : dot_S1000x512_S512x512_S1000x512_1_0_0_1_n_n.rhsIdx (ix2 p q) ((contrEquiv1 dot_S1000x512_S512x512_S1000x512_1_0_0_1_n_n 512 rfl rfl).symm k) = ix2 k q := funext fun a => Fin.ext (by
    match a with
    | ⟨0, _⟩ => exact (matmul3_rhs0 _ _).trans hk
    | ⟨1, _⟩ => exact matmul3_rhs1 _ _)
  rw [el, er]

/-- The body's result at an index of the block. -/
theorem matmul3_pay (x0 : Vec Ideal S1000x512 .bf16) (x1 : Vec Ideal S512x512 .bf16) (p : Fin 1000) (q : Fin 512) :
    Gen.k3_pay1 (F := Ideal) x0 x1 (ix2 p q) = ∑ k : Fin 512, x0 (ix2 p k) * x1 (ix2 k q) := by
  unfold Gen.k3_pay1
  simp only [shapeCast_self]
  exact matmul3_prod x0 x1 p q

/-! ## From the blocks to the array -/

theorem matmul3_hz : (![0, 0] : Fin 2 → Nat) = fun _ => 0 := funext fun a => by fin_cases a <;> rfl

/-- The product of a [10000, 512] array and a [512, 512] array, index by index. -/
abbrev matmul3_G (A : S10000x512.Idx → EReal) (B : S512x512.Idx → EReal) : S10000x512.Idx → EReal :=
  fun i => ∑ k : Fin 512, A (ix2 (i 0) k) * B (ix2 k (i 1))

/-- A block of 1000 rows of the product: when the left block holds rows `r * 1000 …` of `A` and the right block is
    all of `B`, the body's result at (p, q) is the product's entry (r * 1000 + p, q). -/
theorem matmul3_block (A : S10000x512.Idx → EReal) (B : S512x512.Idx → EReal) (x0 : Vec Ideal S1000x512 .bf16) (x1 : Vec Ideal S512x512 .bf16)
    (r : Nat) (hr : r < 10)
    (h0 : ∀ (p : Fin 1000) (k : Fin 512), x0 (ix2 p k) = A (ix2 (⟨r * 1000 + p.val, by have := p.isLt; omega⟩ : Fin 10000) k))
    (h1 : ∀ (k : Fin 512) (q : Fin 512), x1 (ix2 k q) = B (ix2 k q)) (p : Fin 1000) (q : Fin 512) :
    k3_pay1 (F := Ideal) x0 x1 (ix2 p q) = matmul3_G A B (ix2 (⟨r * 1000 + p.val, by have := p.isLt; omega⟩ : Fin 10000) q) := by
  rw [matmul3_pay]
  show _ = ∑ k : Fin 512, A (ix2 (⟨r * 1000 + p.val, by have := p.isLt; omega⟩ : Fin 10000) k) * B (ix2 k q)
  exact Finset.sum_congr rfl fun k _ => by rw [h0, h1]

/-- The block indices over the grid: the left operand's and the output's blocks are the point's 1000 rows, all
    columns; the right operand's block is the whole array at every point. -/
theorem matmul3_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 1600000 in
/-- What point `t` writes back is block `t` of the product of the two arrays as the region finds them. -/
theorem matmul3_flushed (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (matmul3_G (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero matmul3_hz]
  simp only [View.ld_unit_zero (S := S1000x512) matmul3_hz, View.ld_unit_zero (S := S512x512) matmul3_hz]
  obtain ⟨e0, e1, e2, e3, e4, e5⟩ := matmul3_idx t
  have ht : t.val < 10 := t.isLt.trans_eq N_3
  refine funext fun (j : S1000x512.Idx) => ?_
  obtain ⟨p, q, rfl⟩ : ∃ (p : Fin 1000) (q : Fin 512), j = ix2 p q := ⟨j 0, j 1, eq_ix2 j⟩
  have hemb : ((cfg3.win 2).blk t).view.emb (ix2 p q)
      = (ix2 (⟨t.val * 1000 + p.val, by have := p.isLt; omega⟩ : Fin 10000) q : S10000x512.Idx) := by
    funext a; apply Fin.ext
    match a with
    | ⟨0, _⟩ => show win3_2.index t (0 : Fin 2) * 1000 + 1 * p.val = t.val * 1000 + p.val; omega
    | ⟨1, _⟩ => show win3_2.index t (1 : Fin 2) * 512 + 1 * q.val = q.val; omega
  show k3_pay1 (F := Ideal) (iblk3 V c 0 t) (iblk3 V c 1 t) (ix2 p q)
    = matmul3_G (V c (Pipeline.arrRef spec3 0)) (V c (Pipeline.arrRef spec3 1)) (((cfg3.win 2).blk t).view.emb (ix2 p q))
  refine (matmul3_block (V c (Pipeline.arrRef spec3 0)) (V c (Pipeline.arrRef spec3 1)) (iblk3 V c 0 t) (iblk3 V c 1 t) t.val ht ?_ ?_ p q).trans
    (congrArg (matmul3_G (V c (Pipeline.arrRef spec3 0)) (V c (Pipeline.arrRef spec3 1))) hemb.symm)
  · intro p k
    show V c (Pipeline.arrRef spec3 0) (((cfg3.win 0).blk t).view.emb (ix2 p k))
      = V c (Pipeline.arrRef spec3 0) (ix2 (⟨t.val * 1000 + p.val, by have := p.isLt; omega⟩ : Fin 10000) k : S10000x512.Idx)
    refine congrArg _ (funext fun a => Fin.ext ?_)
    match a with
    | ⟨0, _⟩ => show win3_0.index t (0 : Fin 2) * 1000 + 1 * p.val = t.val * 1000 + p.val; omega
    | ⟨1, _⟩ => show win3_0.index t (1 : Fin 2) * 512 + 1 * k.val = k.val; omega
  · intro k q
    show V c (Pipeline.arrRef spec3 1) (((cfg3.win 1).blk t).view.emb (ix2 k q))
      = V c (Pipeline.arrRef spec3 1) (ix2 k q : S512x512.Idx)
    refine congrArg _ (funext fun a => Fin.ext ?_)
    match a with
    | ⟨0, _⟩ => show win3_1.index t (0 : Fin 2) * 512 + 1 * k.val = k.val; omega
    | ⟨1, _⟩ => show win3_1.index t (1 : Fin 2) * 512 + 1 * q.val = q.val; omega

/-- An index of the array is in point `t`'s block iff each coordinate is in the block's range on its axis. -/
theorem matmul3_mem_blk (t : Fin cfg3.N) (i : S10000x512.Idx) :
    i ∈ ((cfg3.win 2).blk t).view.set ↔ ∀ a : Fin 2, win3_2.index t a * S1000x512.size a ≤ (i a).val ∧ (i a).val < win3_2.index t a * S1000x512.size a + S1000x512.size a := by
  show i ∈ ((View.whole main_v62).slice (win3_2.rect t)).set ↔ _
  rw [View.set_slice_whole, Rect.mem_set_unit]
  exact Iff.rfl

/-- Every index of the array is in the block of the point its row falls in. -/
theorem matmul3_cover (i : S10000x512.Idx) :
    ∃ t : Fin cfg3.N, (cfg3.win 2).flush t = true ∧ i ∈ ((cfg3.win 2).blk t).view.set := by
  have hi0 : (i 0).val < 10000 := (i 0).isLt
  have hi1 : (i 1).val < 512 := (i 1).isLt
  have hN : cfg3.N = 10 := N_3
  refine ⟨⟨(i 0).val / 1000, by rw [hN]; omega⟩, flush3_2 _, ?_⟩
  rw [matmul3_mem_blk]
  obtain ⟨e0, e1, e2, e3, e4, e5⟩ := matmul3_idx ⟨(i 0).val / 1000, by rw [hN]; omega⟩
  intro a
  match a with
  | ⟨0, _⟩ =>
    show win3_2.index _ (0 : Fin 2) * 1000 ≤ (i 0).val ∧ (i 0).val < win3_2.index _ (0 : Fin 2) * 1000 + 1000
    rw [e4]
    show (i 0).val / 1000 * 1000 ≤ (i 0).val ∧ (i 0).val < (i 0).val / 1000 * 1000 + 1000
    omega
  | ⟨1, _⟩ =>
    show win3_2.index _ (1 : Fin 2) * 512 ≤ (i 1).val ∧ (i 1).val < win3_2.index _ (1 : Fin 2) * 512 + 512
    rw [e5]
    omega

/-- THE ARRAY after the region is the product of the two arrays as the region finds them. -/
theorem matmul3_final_G (V : (c : Dev nD) → (b : Ref sig .tc) → Buf (Elt Ideal) ((c : Thread nD τ).loc b)) (c : Dev nD) :
    (dat3 (F := Ideal) V c).arrAt 2 cfg3.N = matmul3_G (V c (Pipeline.arrRef spec3 0)) (V c (Pipeline.arrRef spec3 1)) :=
  (dat3 (F := Ideal) V c).arrAt_eq_of_cover 2 (matmul3_G (V c (Pipeline.arrRef spec3 0)) (V c (Pipeline.arrRef spec3 1)))
    (fun t _ => matmul3_flushed V c t) matmul3_cover

/-- THE ARRAY after the region: entry (r, c) is the sum over k of the left array's (r, k) times the right array's (k, c). -/
theorem matmul3_final (V : (c : Dev nD) → (b : Ref sig .tc) → Buf (Elt Ideal) ((c : Thread nD τ).loc b)) (c : Dev nD)
    (A : S10000x512.Idx → EReal) (B : S512x512.Idx → EReal)
    (hA : V c (Pipeline.arrRef spec3 0) = A) (hB : V c (Pipeline.arrRef spec3 1) = B) :
    (dat3 (F := Ideal) V c).arrAt 2 cfg3.N
      = (fun i => ∑ k : Fin 512, A (ix2 (i 0) k) * B (ix2 k (i 1)) : S10000x512.Idx → EReal) := by
  subst hA hB
  exact matmul3_final_G V c

end Cert.KernelIdeal.RegionValue

end
-- ==== Proof.RegionStats4.lean ====
/-
  The statistics pass number two over a [10000, 512] array, read as mathematics over the extended reals.

  From four arrays — agg and h of shape [10000, 512], d of shape [10000, 1], b of shape [1, 512] — the pass forms
      g(r, q) = (agg(r, q) + h(r, q) * d(r, 0)) + b(0, q)
  and leaves three arrays: g itself ([10000, 512]), the column sums  Σ_r g(r, q)  ([1, 512]) and the column sums of squares
  Σ_r g(r, q) * g(r, q)  ([1, 512]). The rows are visited in ten blocks of 1000: block t holds rows 1000 t … 1000 t + 999. The
  first block starts the two running rows from zero, every later block adds its own column sums to what the block before
  left, so after block t the running rows hold the sums over the rows below 1000 (t + 1) — by induction on t — and after the
  tenth block the sums over all 10000 rows: addition of extended reals is commutative and associative, so the ten partial
  sums of 1000 rows are the one sum of 10000.
-/
import proofs.«136907_j29480655519935_1_alg».proof.Proof.Gen.KernelIdeal.Frame
import proofs.«136907_j29480655519935_1_alg».proof.Proof.LibBlockSum
import Idealize.ShloMosaic.Lib.Pipeline.Value
import Idealize.ShloMosaic.Lib.ValueLayout
import Idealize.ShloMosaic.Lib.Tactic
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

/-- g(r, q) = (agg(r, q) + h(r, q) * d(r, 0)) + b(0, q). -/
def gcnOf4 (agg h : S10000x512.Idx → EReal) (d : S10000x1.Idx → EReal) (b : S1x512.Idx → EReal) : S10000x512.Idx → EReal :=
  fun i => (agg i + h i * d (ix2 (i 0) 0)) + b (ix2 0 (i 1))

namespace Stats4

theorem g_ix2 (agg h : S10000x512.Idx → EReal) (d : S10000x1.Idx → EReal) (b : S1x512.Idx → EReal) (r : Fin 10000) (q : Fin 512) :
    gcnOf4 agg h d b (ix2 r q) = (agg (ix2 r q) + h (ix2 r q) * d (ix2 r (0 : Fin 1))) + b (ix2 (0 : Fin 1) q) := rfl

theorem hz : (![0, 0] : Fin 2 → Nat) = fun _ => 0 := funext fun a => by fin_cases a <;> rfl

/-! ## What one block's pass leaves in the three output blocks, as the arithmetic of the loaded blocks -/

section Pieces
variable {F : FTy → Type} [FloatOps F]

/-- First block: the stored block is g of the loaded blocks. -/
theorem out_A_4 (c : Dev nD) (i : grid4.Coords) (a1 : Memref sig .tc .vmem S1000x512 .f32) (h1 : a1.IsWhole) (a2 : Memref sig .tc .vmem S1000x512 .f32) (h2 : a2.IsWhole) (a3 : Memref sig .tc .vmem S1000x1 .f32) (h3 : a3.IsWhole) (a4 : Memref sig .tc .vmem S1x512 .f32) (h4 : a4.IsWhole) (a5 : Memref sig .tc .vmem S1000x512 .f32) (h5 : a5.IsWhole) (a6 : Memref sig .tc .vmem S1x512 .f32) (h6 : a6.IsWhole) (a7 : Memref sig .tc .vmem S1x512 .f32) (h7 : a7.IsWhole) (hc : cond4_0 i) (x0 x1 : Vec F S1000x512 .f32) (x2 : Vec F S1000x1 .f32) (x3 : Vec F S1x512 .f32) :
    out4_A_4 c i a1 h1 a2 h2 a3 h3 a4 h4 a5 h5 a6 h6 a7 h7 hc x0 x1 x2 x3 = k4_pay3 x0 x1 x2 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  rw [View.canon_unit_zero hz]
  simp only [View.readAt_eq_ld, h1.read_unread, h2.read_unread, h3.read_unread, h4.read_unread,
    View.ld_unit_zero (S := S1000x512) hz, View.ld_unit_zero (S := S1000x1) hz, View.ld_unit_zero (S := S1x512) hz]

/-- First block: the running sum row is the zero row plus the block's column sums. -/
theorem out_A_5 (c : Dev nD) (i : grid4.Coords) (a1 : Memref sig .tc .vmem S1000x512 .f32) (h1 : a1.IsWhole) (a2 : Memref sig .tc .vmem S1000x512 .f32) (h2 : a2.IsWhole) (a3 : Memref sig .tc .vmem S1000x1 .f32) (h3 : a3.IsWhole) (a4 : Memref sig .tc .vmem S1x512 .f32) (h4 : a4.IsWhole) (a5 : Memref sig .tc .vmem S1000x512 .f32) (h5 : a5.IsWhole) (a6 : Memref sig .tc .vmem S1x512 .f32) (h6 : a6.IsWhole) (a7 : Memref sig .tc .vmem S1x512 .f32) (h7 : a7.IsWhole) (hc : cond4_0 i) (x0 x1 : Vec F S1000x512 .f32) (x2 : Vec F S1000x1 .f32) (x3 : Vec F S1x512 .f32) :
    out4_A_5 c i a1 h1 a2 h2 a3 h3 a4 h4 a5 h5 a6 h6 a7 h7 hc x0 x1 x2 x3 = k4_pay4 x0 x1 x2 x3 (k4_pay1 (F := F)) := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  sl_unfold_words
  rw [View.canon_cons_unit_zero (S := S1x512) hz, View.readCov_unit_zero (S := S1x512) _ hz]
  simp only [View.readAt_eq_ld, h1.read_unread, h2.read_unread, h3.read_unread, h4.read_unread,
    View.ld_unit_zero (S := S1000x512) hz, View.ld_unit_zero (S := S1000x1) hz, View.ld_unit_zero (S := S1x512) hz]

/-- First block: the running sum-of-squares row is the zero row plus the block's column sums of squares. -/
theorem out_A_6 (c : Dev nD) (i : grid4.Coords) (a1 : Memref sig .tc .vmem S1000x512 .f32) (h1 : a1.IsWhole) (a2 : Memref sig .tc .vmem S1000x512 .f32) (h2 : a2.IsWhole) (a3 : Memref sig .tc .vmem S1000x1 .f32) (h3 : a3.IsWhole) (a4 : Memref sig .tc .vmem S1x512 .f32) (h4 : a4.IsWhole) (a5 : Memref sig .tc .vmem S1000x512 .f32) (h5 : a5.IsWhole) (a6 : Memref sig .tc .vmem S1x512 .f32) (h6 : a6.IsWhole) (a7 : Memref sig .tc .vmem S1x512 .f32) (h7 : a7.IsWhole) (hc : cond4_0 i) (x0 x1 : Vec F S1000x512 .f32) (x2 : Vec F S1000x1 .f32) (x3 : Vec F S1x512 .f32) :
    out4_A_6 c i a1 h1 a2 h2 a3 h3 a4 h4 a5 h5 a6 h6 a7 h7 hc x0 x1 x2 x3 = k4_pay5 x0 x1 x2 x3 (k4_pay2 (F := F)) := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  sl_unfold_words
  rw [View.canon_cons_unit_zero (S := S1x512) hz, View.readCov_unit_zero (S := S1x512) _ hz]
  simp only [View.readAt_eq_ld, h1.read_unread, h2.read_unread, h3.read_unread, h4.read_unread,
    View.ld_unit_zero (S := S1000x512) hz, View.ld_unit_zero (S := S1000x1) hz, View.ld_unit_zero (S := S1x512) hz]

/-- A later block: the stored block is g of the loaded blocks. -/
theorem out_B_4 (c : Dev nD) (i : grid4.Coords) (a1 : Memref sig .tc .vmem S1000x512 .f32) (h1 : a1.IsWhole) (a2 : Memref sig .tc .vmem S1000x512 .f32) (h2 : a2.IsWhole) (a3 : Memref sig .tc .vmem S1000x1 .f32) (h3 : a3.IsWhole) (a4 : Memref sig .tc .vmem S1x512 .f32) (h4 : a4.IsWhole) (a5 : Memref sig .tc .vmem S1000x512 .f32) (h5 : a5.IsWhole) (a6 : Memref sig .tc .vmem S1x512 .f32) (h6 : a6.IsWhole) (a7 : Memref sig .tc .vmem S1x512 .f32) (h7 : a7.IsWhole) (hc : ¬cond4_0 i) (x0 x1 : Vec F S1000x512 .f32) (x2 : Vec F S1000x1 .f32) (x3 : Vec F S1x512 .f32) (xo5 xo6 : Vec F S1x512 .f32) :
    out4_B_4 c i a1 h1 a2 h2 a3 h3 a4 h4 a5 h5 a6 h6 a7 h7 hc x0 x1 x2 x3 xo5 xo6 = k4_pay3 x0 x1 x2 x3 := by
  unfold out4_B_4
  rw [View.read_writes_eq_canon _ _ _ (cover4_B_4 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread,
    View.ld_unit_zero (S := S1000x512) hz, View.ld_unit_zero (S := S1000x1) hz, View.ld_unit_zero (S := S1x512) hz]

/-- A later block: the running sum row is what was there plus the block's column sums. -/
theorem out_B_5 (c : Dev nD) (i : grid4.Coords) (a1 : Memref sig .tc .vmem S1000x512 .f32) (h1 : a1.IsWhole) (a2 : Memref sig .tc .vmem S1000x512 .f32) (h2 : a2.IsWhole) (a3 : Memref sig .tc .vmem S1000x1 .f32) (h3 : a3.IsWhole) (a4 : Memref sig .tc .vmem S1x512 .f32) (h4 : a4.IsWhole) (a5 : Memref sig .tc .vmem S1000x512 .f32) (h5 : a5.IsWhole) (a6 : Memref sig .tc .vmem S1x512 .f32) (h6 : a6.IsWhole) (a7 : Memref sig .tc .vmem S1x512 .f32) (h7 : a7.IsWhole) (hc : ¬cond4_0 i) (x0 x1 : Vec F S1000x512 .f32) (x2 : Vec F S1000x1 .f32) (x3 : Vec F S1x512 .f32) (xo5 xo6 : Vec F S1x512 .f32) :
    out4_B_5 c i a1 h1 a2 h2 a3 h3 a4 h4 a5 h5 a6 h6 a7 h7 hc x0 x1 x2 x3 xo5 xo6 = k4_pay4 x0 x1 x2 x3 xo5 := by
  unfold out4_B_5
  rw [View.read_writes_eq_canon _ _ _ (cover4_B_5 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread, h6.read_unread,
    View.ld_unit_zero (S := S1000x512) hz, View.ld_unit_zero (S := S1000x1) hz, View.ld_unit_zero (S := S1x512) hz]

/-- A later block: the running sum-of-squares row is what was there plus the block's column sums of squares. -/
theorem out_B_6 (c : Dev nD) (i : grid4.Coords) (a1 : Memref sig .tc .vmem S1000x512 .f32) (h1 : a1.IsWhole) (a2 : Memref sig .tc .vmem S1000x512 .f32) (h2 : a2.IsWhole) (a3 : Memref sig .tc .vmem S1000x1 .f32) (h3 : a3.IsWhole) (a4 : Memref sig .tc .vmem S1x512 .f32) (h4 : a4.IsWhole) (a5 : Memref sig .tc .vmem S1000x512 .f32) (h5 : a5.IsWhole) (a6 : Memref sig .tc .vmem S1x512 .f32) (h6 : a6.IsWhole) (a7 : Memref sig .tc .vmem S1x512 .f32) (h7 : a7.IsWhole) (hc : ¬cond4_0 i) (x0 x1 : Vec F S1000x512 .f32) (x2 : Vec F S1000x1 .f32) (x3 : Vec F S1x512 .f32) (xo5 xo6 : Vec F S1x512 .f32) :
    out4_B_6 c i a1 h1 a2 h2 a3 h3 a4 h4 a5 h5 a6 h6 a7 h7 hc x0 x1 x2 x3 xo5 xo6 = k4_pay5 x0 x1 x2 x3 xo6 := by
  unfold out4_B_6
  rw [View.read_writes_eq_canon _ _ _ (cover4_B_6 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread, h7.read_unread,
    View.ld_unit_zero (S := S1000x512) hz, View.ld_unit_zero (S := S1000x1) hz, View.ld_unit_zero (S := S1x512) hz]

end Pieces

/-! ## The block arithmetic at an index, over the extended reals -/

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column sum of a `[1000, 512]` block at column `q`: the sum over its 1000 rows. -/
theorem colsum_apply (src : FVec Ideal S1000x512 .f32) (hφ : FKind.Formats FTy.f32)
    (hacc : (0x00000000#32 : BitVec 32) = FKind.add.neutral FTy.f32 hφ) (q : Fin 512) :
    multiReduction (F := Ideal) .add [0] S512 src 0x00000000#32 reduces_S1000x512_S512 hφ hacc (ix1 q)
      = ∑ r : Fin 1000, src (ix2 r q) := by
  refine (Ideal.multiReduction_add_single src 0x00000000#32 reduces_S1000x512_S512 hφ hacc (ix1 q)).trans ?_
  refine Finset.sum_congr rfl fun r _ => congrArg src ?_
  funext a
  apply Fin.ext
  match a with
  | ⟨0, _⟩ => rfl
  | ⟨1, _⟩ => rfl

/-- The stored block at `(p, q)`: `(x0 + x1 * x2[p]) + x3[q]`. -/
theorem pay3_apply (x0 x1 : Vec Ideal S1000x512 .f32) (x2 : Vec Ideal S1000x1 .f32) (x3 : Vec Ideal S1x512 .f32)
    (p : Fin 1000) (q : Fin 512) :
    k4_pay3 (F := Ideal) x0 x1 x2 x3 (ix2 p q)
      = (x0 (ix2 p q) + x1 (ix2 p q) * x2 (ix2 p (0 : Fin 1))) + x3 (ix2 (0 : Fin 1) q) := by
  unfold k4_pay3
  simp only [shapeCast_self]
  show (x0 (ix2 p q) + x1 (ix2 p q) * broadcastTo S1000x512 x2 broadcasts_S1000x1_S1000x512 (ix2 p q))
      + broadcastTo S1000x512 x3 broadcasts_S1x512_S1000x512 (ix2 p q) = _
  rw [broadcastTo_a1_ab_apply x2 broadcasts_S1000x1_S1000x512 p q, broadcastTo_1b_ab_apply x3 broadcasts_S1x512_S1000x512 p q]

/-- The running column sum after a block: what was there plus the block's column sums. -/
theorem pay4_apply (x0 x1 : Vec Ideal S1000x512 .f32) (x2 : Vec Ideal S1000x1 .f32) (x3 : Vec Ideal S1x512 .f32)
    (acc : Vec Ideal S1x512 .f32) (u : Fin 1) (q : Fin 512) :
    k4_pay4 (F := Ideal) x0 x1 x2 x3 acc (ix2 u q)
      = acc (ix2 u q) + ∑ r : Fin 1000, k4_pay3 (F := Ideal) x0 x1 x2 x3 (ix2 r q) := by
  unfold k4_pay4
  simp only [shapeCast_self]
  show acc (ix2 u q) + shapeCast S1x512 _ shapeCasts_S512_S1x512 (ix2 u q) = _
  rw [shapeCast_a_1a_apply _ shapeCasts_S512_S1x512 u q]
  exact congrArg (acc (ix2 u q) + ·) (colsum_apply _ _ _ q)

/-- The running column sum of squares after a block: what was there plus the block's column sums of squares. -/
theorem pay5_apply (x0 x1 : Vec Ideal S1000x512 .f32) (x2 : Vec Ideal S1000x1 .f32) (x3 : Vec Ideal S1x512 .f32)
    (acc : Vec Ideal S1x512 .f32) (u : Fin 1) (q : Fin 512) :
    k4_pay5 (F := Ideal) x0 x1 x2 x3 acc (ix2 u q)
      = acc (ix2 u q) + ∑ r : Fin 1000, k4_pay3 (F := Ideal) x0 x1 x2 x3 (ix2 r q) * k4_pay3 (F := Ideal) x0 x1 x2 x3 (ix2 r q) := by
  unfold k4_pay5
  simp only [shapeCast_self]
  show acc (ix2 u q) + shapeCast S1x512 _ shapeCasts_S512_S1x512 (ix2 u q) = _
  rw [shapeCast_a_1a_apply _ shapeCasts_S512_S1x512 u q]
  exact congrArg (acc (ix2 u q) + ·) (colsum_apply _ _ _ q)

/-- The zero row the first block starts the running sums from. -/
theorem pay1_apply (j : S1x512.Idx) : k4_pay1 (F := Ideal) j = 0 := by
  unfold k4_pay1
  show Ideal.ofBits .f32 0x00000000#32 = 0
  exact Ideal.ofBits_zero_f32

theorem pay2_apply (j : S1x512.Idx) : k4_pay2 (F := Ideal) j = 0 := by
  unfold k4_pay2
  show Ideal.ofBits .f32 0x00000000#32 = 0
  exact Ideal.ofBits_zero_f32

/-! ## Where the blocks sit -/

/-- Row `p` of the block of 1000 rows number `t`: row `1000 t + p` of the 10000. -/
def rowOf (t : ℕ) (ht : t < 10) (p : Fin 1000) : Fin 10000 := ⟨t * 1000 + p.val, by have := p.isLt; omega⟩

/-- Where each window's block sits at point `t`: the row-blocked windows at block row `t`, the one-row windows at the origin. -/
theorem idx : ∀ t : Fin cfg4.N,
    win4_0.index t (0 : Fin 2) = t.val ∧ win4_0.index t (1 : Fin 2) = 0
  ∧ win4_1.index t (0 : Fin 2) = t.val ∧ win4_1.index t (1 : Fin 2) = 0
  ∧ win4_2.index t (0 : Fin 2) = t.val ∧ win4_2.index t (1 : Fin 2) = 0
  ∧ win4_3.index t (0 : Fin 2) = 0 ∧ win4_3.index t (1 : Fin 2) = 0
  ∧ win4_4.index t (0 : Fin 2) = t.val ∧ win4_4.index t (1 : Fin 2) = 0
  ∧ win4_5.index t (0 : Fin 2) = 0 ∧ win4_5.index t (1 : Fin 2) = 0
  ∧ win4_6.index t (0 : Fin 2) = 0 ∧ win4_6.index t (1 : Fin 2) = 0 :=
  (by decide +kernel : ∀ t : Fin grid4.N, _)

theorem mem_blk4 (t : Fin cfg4.N) (i : S10000x512.Idx) :
    i ∈ ((cfg4.win 4).blk t).view.set ↔ ∀ a : Fin 2, win4_4.index t a * S1000x512.size a ≤ (i a).val ∧ (i a).val < win4_4.index t a * S1000x512.size a + S1000x512.size a := by
  show i ∈ ((View.whole main_v93_0).slice (win4_4.rect t)).set ↔ _
  rw [View.set_slice_whole, Rect.mem_set_unit]
  exact Iff.rfl

theorem mem_blk5 (t : Fin cfg4.N) (i : S1x512.Idx) :
    i ∈ ((cfg4.win 5).blk t).view.set ↔ ∀ a : Fin 2, win4_5.index t a * S1x512.size a ≤ (i a).val ∧ (i a).val < win4_5.index t a * S1x512.size a + S1x512.size a := by
  show i ∈ ((View.whole main_v93_1).slice (win4_5.rect t)).set ↔ _
  rw [View.set_slice_whole, Rect.mem_set_unit]
  exact Iff.rfl

theorem mem_blk6 (t : Fin cfg4.N) (i : S1x512.Idx) :
    i ∈ ((cfg4.win 6).blk t).view.set ↔ ∀ a : Fin 2, win4_6.index t a * S1x512.size a ≤ (i a).val ∧ (i a).val < win4_6.index t a * S1x512.size a + S1x512.size a := by
  show i ∈ ((View.whole main_v93_2).slice (win4_6.rect t)).set ↔ _
  rw [View.set_slice_whole, Rect.mem_set_unit]
  exact Iff.rfl

/-- Every row of the 10000 lies in the block of the point `row / 1000`. -/
theorem cover4 (i : S10000x512.Idx) : ∃ t : Fin cfg4.N, (cfg4.win 4).flush t = true ∧ i ∈ ((cfg4.win 4).blk t).view.set := by
  have hN : cfg4.N = 10 := N_4
  have hi0 : (i 0).val < 10000 := (i 0).isLt
  have hi1 : (i 1).val < 512 := (i 1).isLt
  refine ⟨⟨(i 0).val / 1000, by rw [hN]; omega⟩, flush4_4 _, ?_⟩
  rw [mem_blk4]
  obtain ⟨-, -, -, -, -, -, -, -, e0, e1, -⟩ := idx ⟨(i 0).val / 1000, by rw [hN]; omega⟩
  intro a
  match a with
  | ⟨0, _⟩ =>
    show win4_4.index _ (0 : Fin 2) * 1000 ≤ (i 0).val ∧ (i 0).val < win4_4.index _ (0 : Fin 2) * 1000 + 1000
    rw [e0]; dsimp only; omega
  | ⟨1, _⟩ =>
    show win4_4.index _ (1 : Fin 2) * 512 ≤ (i 1).val ∧ (i 1).val < win4_4.index _ (1 : Fin 2) * 512 + 512
    rw [e1]; omega

/-- The last point's block of a one-row window is the whole row. -/
theorem cover5 (i : S1x512.Idx) : ∃ t : Fin cfg4.N, (cfg4.win 5).flush t = true ∧ i ∈ ((cfg4.win 5).blk t).view.set := by
  have hi0 : (i 0).val < 1 := (i 0).isLt
  have hi1 : (i 1).val < 512 := (i 1).isLt
  refine ⟨t4_9, (flush4_5 t4_9).mpr rfl, ?_⟩
  rw [mem_blk5]
  obtain ⟨-, -, -, -, -, -, -, -, -, -, e0, e1, -⟩ := idx t4_9
  intro a
  match a with
  | ⟨0, _⟩ =>
    show win4_5.index _ (0 : Fin 2) * 1 ≤ (i 0).val ∧ (i 0).val < win4_5.index _ (0 : Fin 2) * 1 + 1
    rw [e0]; omega
  | ⟨1, _⟩ =>
    show win4_5.index _ (1 : Fin 2) * 512 ≤ (i 1).val ∧ (i 1).val < win4_5.index _ (1 : Fin 2) * 512 + 512
    rw [e1]; omega

/-- The last point's block of a one-row window is the whole row. -/
theorem cover6 (i : S1x512.Idx) : ∃ t : Fin cfg4.N, (cfg4.win 6).flush t = true ∧ i ∈ ((cfg4.win 6).blk t).view.set := by
  have hi0 : (i 0).val < 1 := (i 0).isLt
  have hi1 : (i 1).val < 512 := (i 1).isLt
  refine ⟨t4_9, (flush4_6 t4_9).mpr rfl, ?_⟩
  rw [mem_blk6]
  obtain ⟨-, -, -, -, -, -, -, -, -, -, -, -, e0, e1⟩ := idx t4_9
  intro a
  match a with
  | ⟨0, _⟩ =>
    show win4_6.index _ (0 : Fin 2) * 1 ≤ (i 0).val ∧ (i 0).val < win4_6.index _ (0 : Fin 2) * 1 + 1
    rw [e0]; omega
  | ⟨1, _⟩ =>
    show win4_6.index _ (1 : Fin 2) * 512 ≤ (i 1).val ∧ (i 1).val < win4_6.index _ (1 : Fin 2) * 512 + 512
    rw [e1]; omega

/-! ## The loaded blocks, read off the arrays -/

section Arrays
variable (V : (c : Dev nD) → (b : Ref sig .tc) → Buf (Elt Ideal) ((c : Thread nD τ).loc b))

/-- Block `t` of agg at `(p, q)` is agg at row `1000 t + p`. -/
theorem iblk_0 (c : Dev nD) (t : Fin cfg4.N) (ht : t.val < 10) (p : Fin 1000) (q : Fin 512) :
    (iblk4 V c 0 t : S1000x512.Idx → EReal) (ix2 p q) = ((V c (Pipeline.arrRef spec4 0)) : S10000x512.Idx → EReal) (ix2 (rowOf t.val ht p) q) := by
  obtain ⟨e0, e1, -⟩ := idx t
  unfold iblk4
  rw [View.read_apply]
  refine congrArg (V c (Pipeline.arrRef spec4 0)) ?_
  funext a; apply Fin.ext
  match a with
  | ⟨0, _⟩ => show win4_0.index t (0 : Fin 2) * 1000 + 1 * p.val = t.val * 1000 + p.val; rw [e0]; omega
  | ⟨1, _⟩ => show win4_0.index t (1 : Fin 2) * 512 + 1 * q.val = q.val; rw [e1]; omega

/-- Block `t` of h at `(p, q)` is h at row `1000 t + p`. -/
theorem iblk_1 (c : Dev nD) (t : Fin cfg4.N) (ht : t.val < 10) (p : Fin 1000) (q : Fin 512) :
    (iblk4 V c 1 t : S1000x512.Idx → EReal) (ix2 p q) = ((V c (Pipeline.arrRef spec4 1)) : S10000x512.Idx → EReal) (ix2 (rowOf t.val ht p) q) := by
  obtain ⟨-, -, e0, e1, -⟩ := idx t
  unfold iblk4
  rw [View.read_apply]
  refine congrArg (V c (Pipeline.arrRef spec4 1)) ?_
  funext a; apply Fin.ext
  match a with
  | ⟨0, _⟩ => show win4_1.index t (0 : Fin 2) * 1000 + 1 * p.val = t.val * 1000 + p.val; rw [e0]; omega
  | ⟨1, _⟩ => show win4_1.index t (1 : Fin 2) * 512 + 1 * q.val = q.val; rw [e1]; omega

/-- Block `t` of d at `(p, 0)` is d at row `1000 t + p`. -/
theorem iblk_2 (c : Dev nD) (t : Fin cfg4.N) (ht : t.val < 10) (p : Fin 1000) :
    (iblk4 V c 2 t : S1000x1.Idx → EReal) (ix2 p (0 : Fin 1)) = ((V c (Pipeline.arrRef spec4 2)) : S10000x1.Idx → EReal) (ix2 (rowOf t.val ht p) (0 : Fin 1)) := by
  obtain ⟨-, -, -, -, e0, e1, -⟩ := idx t
  unfold iblk4
  rw [View.read_apply]
  refine congrArg (V c (Pipeline.arrRef spec4 2)) ?_
  funext a; apply Fin.ext
  match a with
  | ⟨0, _⟩ => show win4_2.index t (0 : Fin 2) * 1000 + 1 * p.val = t.val * 1000 + p.val; rw [e0]; omega
  | ⟨1, _⟩ => show win4_2.index t (1 : Fin 2) * 1 + 1 * 0 = 0; rw [e1]

/-- The one block of b is b. -/
theorem iblk_3 (c : Dev nD) (t : Fin cfg4.N) (q : Fin 512) :
    (iblk4 V c 3 t : S1x512.Idx → EReal) (ix2 (0 : Fin 1) q) = ((V c (Pipeline.arrRef spec4 3)) : S1x512.Idx → EReal) (ix2 (0 : Fin 1) q) := by
  obtain ⟨-, -, -, -, -, -, e0, e1, -⟩ := idx t
  unfold iblk4
  rw [View.read_apply]
  refine congrArg (V c (Pipeline.arrRef spec4 3)) ?_
  funext a; apply Fin.ext
  match a with
  | ⟨0, _⟩ => show win4_3.index t (0 : Fin 2) * 1 + 1 * 0 = 0; rw [e0]
  | ⟨1, _⟩ => show win4_3.index t (1 : Fin 2) * 512 + 1 * q.val = q.val; rw [e1]; omega

/-- g of the four arrays as the pass finds them. -/
def Gof (c : Dev nD) : S10000x512.Idx → EReal := (gcnOf4 (V c (Pipeline.arrRef spec4 0)) (V c (Pipeline.arrRef spec4 1)) (V c (Pipeline.arrRef spec4 2)) (V c (Pipeline.arrRef spec4 3)))

/-- Its square. -/
def Gsq (c : Dev nD) : S10000x512.Idx → EReal := fun i => Gof V c i * Gof V c i

/-- The column totals of a [10000, 512] array, as a [1, 512] row. -/
def colTotal (g : S10000x512.Idx → EReal) : S1x512.Idx → EReal := fun j => ∑ r : Fin 10000, g (ix2 r (j 1))

/-- The block a point stores, at `(p, q)`: g at row `1000 t + p`. -/
theorem pay3_blk (c : Dev nD) (t : Fin cfg4.N) (ht : t.val < 10) (p : Fin 1000) (q : Fin 512) :
    k4_pay3 (F := Ideal) (iblk4 V c 0 t) (iblk4 V c 1 t) (iblk4 V c 2 t) (iblk4 V c 3 t) (ix2 p q) = Gof V c (ix2 (rowOf t.val ht p) q) := by
  refine (pay3_apply (iblk4 V c 0 t) (iblk4 V c 1 t) (iblk4 V c 2 t) (iblk4 V c 3 t) p q).trans ?_
  rw [iblk_0 V c t ht p q, iblk_1 V c t ht p q, iblk_2 V c t ht p, iblk_3 V c t q]
  rfl

/-! ## The running rows after each block -/

/-- The column sum of g over the rows of block `s` (zero past the tenth block). -/
def blkSum (g : S10000x512.Idx → EReal) (q : Fin 512) (s : ℕ) : EReal :=
  if hs : s < 10 then ∑ p : Fin 1000, g (ix2 (rowOf s hs p) q) else 0

theorem colsum_blk (c : Dev nD) (t : Fin cfg4.N) (ht : t.val < 10) (q : Fin 512) :
    ∑ p : Fin 1000, k4_pay3 (F := Ideal) (iblk4 V c 0 t) (iblk4 V c 1 t) (iblk4 V c 2 t) (iblk4 V c 3 t) (ix2 p q) = blkSum (Gof V c) q t.val := by
  unfold blkSum
  rw [dif_pos ht]
  exact Finset.sum_congr rfl fun p _ => pay3_blk V c t ht p q

theorem colsumsq_blk (c : Dev nD) (t : Fin cfg4.N) (ht : t.val < 10) (q : Fin 512) :
    ∑ p : Fin 1000, k4_pay3 (F := Ideal) (iblk4 V c 0 t) (iblk4 V c 1 t) (iblk4 V c 2 t) (iblk4 V c 3 t) (ix2 p q) * k4_pay3 (F := Ideal) (iblk4 V c 0 t) (iblk4 V c 1 t) (iblk4 V c 2 t) (iblk4 V c 3 t) (ix2 p q)
      = blkSum (Gsq V c) q t.val := by
  unfold blkSum
  rw [dif_pos ht]
  refine Finset.sum_congr rfl fun p _ => ?_
  rw [pay3_blk V c t ht p q]
  rfl

/-- The three output blocks after the first point, as the block arithmetic. -/
theorem outs_zero (c : Dev nD) (hn : 0 < cfg4.N) :
    outsAt4 V c 0 hn = (k4_pay3 (iblk4 V c 0 ⟨0, hn⟩) (iblk4 V c 1 ⟨0, hn⟩) (iblk4 V c 2 ⟨0, hn⟩) (iblk4 V c 3 ⟨0, hn⟩), k4_pay4 (iblk4 V c 0 ⟨0, hn⟩) (iblk4 V c 1 ⟨0, hn⟩) (iblk4 V c 2 ⟨0, hn⟩) (iblk4 V c 3 ⟨0, hn⟩) (k4_pay1 (F := Ideal)), k4_pay5 (iblk4 V c 0 ⟨0, hn⟩) (iblk4 V c 1 ⟨0, hn⟩) (iblk4 V c 2 ⟨0, hn⟩) (iblk4 V c 3 ⟨0, hn⟩) (k4_pay2 (F := Ideal))) := by
  have e : outsAt4 V c 0 hn = _ := outsAt4_A V c ⟨0, hn⟩ (Nat.zero_mod _)
  rw [e, out_A_4, out_A_5, out_A_6]

/-- The three output blocks after a later point, over what the point before left. -/
theorem outs_succ (c : Dev nD) (n : ℕ) (hn : n + 1 < cfg4.N) :
    outsAt4 V c (n + 1) hn = (k4_pay3 (iblk4 V c 0 ⟨n + 1, hn⟩) (iblk4 V c 1 ⟨n + 1, hn⟩) (iblk4 V c 2 ⟨n + 1, hn⟩) (iblk4 V c 3 ⟨n + 1, hn⟩),
      k4_pay4 (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.1,
      k4_pay5 (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2) := by
  have hN : cfg4.N = 10 := N_4
  have hB : ¬(⟨n + 1, hn⟩ : Fin cfg4.N).val % 10 = 0 := by dsimp only; omega
  have e : outsAt4 V c (n + 1) hn = _ := outsAt4_B V c ⟨n + 1, hn⟩ hB
  rw [e, out_B_4, out_B_5, out_B_6]
  rfl

/-- After point `n`: the stored block is g on block `n`'s rows, and the two running rows hold the column sums of g, and of
    its square, over the rows of blocks `0 … n`. By induction on the point. -/
theorem outsAt_eq (c : Dev nD) (n : ℕ) : ∀ (hn : n < cfg4.N),
    (outsAt4 V c n hn).1 = k4_pay3 (iblk4 V c 0 ⟨n, hn⟩) (iblk4 V c 1 ⟨n, hn⟩) (iblk4 V c 2 ⟨n, hn⟩) (iblk4 V c 3 ⟨n, hn⟩)
    ∧ (∀ (u : Fin 1) (q : Fin 512), (outsAt4 V c n hn).2.1 (ix2 u q) = ∑ s ∈ Finset.range (n + 1), blkSum (Gof V c) q s)
    ∧ (∀ (u : Fin 1) (q : Fin 512), (outsAt4 V c n hn).2.2 (ix2 u q) = ∑ s ∈ Finset.range (n + 1), blkSum (Gsq V c) q s) := by
  induction n with
  | zero =>
    intro hn
    rw [outs_zero V c hn]
    refine ⟨rfl, fun u q => ?_, fun u q => ?_⟩
    · refine (pay4_apply (iblk4 V c 0 ⟨0, hn⟩) (iblk4 V c 1 ⟨0, hn⟩) (iblk4 V c 2 ⟨0, hn⟩) (iblk4 V c 3 ⟨0, hn⟩) (k4_pay1 (F := Ideal)) u q).trans ?_
      rw [pay1_apply, zero_add, Finset.sum_range_one]
      exact colsum_blk V c ⟨0, hn⟩ (show (0 : ℕ) < 10 by decide) q
    · refine (pay5_apply (iblk4 V c 0 ⟨0, hn⟩) (iblk4 V c 1 ⟨0, hn⟩) (iblk4 V c 2 ⟨0, hn⟩) (iblk4 V c 3 ⟨0, hn⟩) (k4_pay2 (F := Ideal)) u q).trans ?_
      rw [pay2_apply, zero_add, Finset.sum_range_one]
      exact colsumsq_blk V c ⟨0, hn⟩ (show (0 : ℕ) < 10 by decide) q
  | succ n ih =>
    intro hn
    have hN : cfg4.N = 10 := N_4
    have ht : (⟨n + 1, hn⟩ : Fin cfg4.N).val < 10 := by dsimp only; omega
    obtain ⟨-, ih5, ih6⟩ := ih (Nat.lt_of_succ_lt hn)
    rw [outs_succ V c n hn]
    refine ⟨rfl, fun u q => ?_, fun u q => ?_⟩
    · refine (pay4_apply (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.1 u q).trans ?_
      rw [ih5 u q, colsum_blk V c ⟨n + 1, hn⟩ ht q, Finset.sum_range_succ (fun s => blkSum (Gof V c) q s) (n + 1)]
    · refine (pay5_apply (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2 u q).trans ?_
      rw [ih6 u q, colsumsq_blk V c ⟨n + 1, hn⟩ ht q, Finset.sum_range_succ (fun s => blkSum (Gsq V c) q s) (n + 1)]

/-- The ten block sums are the sum over all 10000 rows. -/
theorem blkSum_total (g : S10000x512.Idx → EReal) (q : Fin 512) :
    ∑ s ∈ Finset.range (9 + 1), blkSum g q s = ∑ r : Fin 10000, g (ix2 r q) := by
  rw [Finset.sum_range (fun s => blkSum g q s)]
  refine Eq.trans ?_ (sum_blockRows 10 1000 (fun r : Fin (10 * 1000) => g (ix2 r q))).symm
  refine Finset.sum_congr rfl fun t _ => ?_
  unfold blkSum
  rw [dif_pos t.isLt]
  rfl

/-! ## What each point writes back, and the arrays after the pass -/

/-- What point `t` writes back to the [10000, 512] output: block `t` of g. -/
theorem flushed4 (c : Dev nD) (t : Fin cfg4.N) :
    (dat4 V c).flushed 4 t = ((cfg4.win 4).blk t).view.read (Elt Ideal) (Gof V c) := by
  have hN : cfg4.N = 10 := N_4
  have ht : t.val < 10 := by have := t.isLt; omega
  obtain ⟨-, -, -, -, -, -, -, -, e0, e1, -⟩ := idx t
  show (cfg4.win 4).cut (grid4.coords t) ((dat4 V c).after 4 t) = _
  rw [after4_4, (outsAt_eq V c t.val t.isLt).1]
  funext j
  obtain ⟨p, q, rfl⟩ : ∃ (p : Fin 1000) (q : Fin 512), j = ix2 p q := ⟨j 0, j 1, eq_ix2 j⟩
  refine (pay3_blk V c t ht p q).trans ?_
  rw [View.read_apply]
  refine congrArg (Gof V c) ?_
  funext a; apply Fin.ext
  match a with
  | ⟨0, _⟩ => show t.val * 1000 + p.val = win4_4.index t (0 : Fin 2) * 1000 + 1 * p.val; rw [e0]; omega
  | ⟨1, _⟩ => show q.val = win4_4.index t (1 : Fin 2) * 512 + 1 * q.val; rw [e1]; omega

/-- What the last point writes back to the sum row: the totals over all 10000 rows. -/
theorem flushed5 (c : Dev nD) (t : Fin cfg4.N) (hf : (cfg4.win 5).flush t = true) :
    (dat4 V c).flushed 5 t = ((cfg4.win 5).blk t).view.read (Elt Ideal) (colTotal (Gof V c)) := by
  have hN : cfg4.N = 10 := N_4
  have h9 : t.val = 9 := by have := (flush4_5 t).mp hf; have := t.isLt; omega
  obtain ⟨-, -, -, -, -, -, -, -, -, -, e0, e1, -⟩ := idx t
  show (cfg4.win 5).cut (grid4.coords t) ((dat4 V c).after 5 t) = _
  rw [after4_5]
  funext j
  obtain ⟨u, q, rfl⟩ : ∃ (u : Fin 1) (q : Fin 512), j = ix2 u q := ⟨j 0, j 1, eq_ix2 j⟩
  have hs : ∑ s ∈ Finset.range (t.val + 1), blkSum (Gof V c) q s = ∑ r : Fin 10000, Gof V c (ix2 r q) := by
    rw [h9]; exact blkSum_total _ q
  show (outsAt4 V c t.val t.isLt).2.1 (ix2 u q) = _
  rw [(outsAt_eq V c t.val t.isLt).2.1 u q, hs, View.read_apply]
  unfold colTotal
  refine Finset.sum_congr rfl fun r _ => congrArg (fun x : Fin 512 => Gof V c (ix2 r x)) (Fin.ext ?_)
  show q.val = win4_5.index t (1 : Fin 2) * 512 + 1 * q.val
  rw [e1]; omega

/-- What the last point writes back to the sum-of-squares row: the totals over all 10000 rows. -/
theorem flushed6 (c : Dev nD) (t : Fin cfg4.N) (hf : (cfg4.win 6).flush t = true) :
    (dat4 V c).flushed 6 t = ((cfg4.win 6).blk t).view.read (Elt Ideal) (colTotal (Gsq V c)) := by
  have hN : cfg4.N = 10 := N_4
  have h9 : t.val = 9 := by have := (flush4_6 t).mp hf; have := t.isLt; omega
  obtain ⟨-, -, -, -, -, -, -, -, -, -, -, -, e0, e1⟩ := idx t
  show (cfg4.win 6).cut (grid4.coords t) ((dat4 V c).after 6 t) = _
  rw [after4_6]
  funext j
  obtain ⟨u, q, rfl⟩ : ∃ (u : Fin 1) (q : Fin 512), j = ix2 u q := ⟨j 0, j 1, eq_ix2 j⟩
  have hs : ∑ s ∈ Finset.range (t.val + 1), blkSum (Gsq V c) q s = ∑ r : Fin 10000, Gsq V c (ix2 r q) := by
    rw [h9]; exact blkSum_total _ q
  show (outsAt4 V c t.val t.isLt).2.2 (ix2 u q) = _
  rw [(outsAt_eq V c t.val t.isLt).2.2 u q, hs, View.read_apply]
  unfold colTotal
  refine Finset.sum_congr rfl fun r _ => congrArg (fun x : Fin 512 => Gsq V c (ix2 r x)) (Fin.ext ?_)
  show q.val = win4_6.index t (1 : Fin 2) * 512 + 1 * q.val
  rw [e1]; omega

end Arrays

end Stats4

section Final
variable (V : (c : Dev nD) → (b : Ref sig .tc) → Buf (Elt Ideal) ((c : Thread nD τ).loc b)) (c : Dev nD)
  (agg h : S10000x512.Idx → EReal) (d : S10000x1.Idx → EReal) (b : S1x512.Idx → EReal)
  (h0 : V c (Pipeline.arrRef spec4 0) = agg) (h1 : V c (Pipeline.arrRef spec4 1) = h)
  (h2 : V c (Pipeline.arrRef spec4 2) = d) (h3 : V c (Pipeline.arrRef spec4 3) = b)
include h0 h1 h2 h3

/-- After the pass the [10000, 512] output holds g. -/
theorem stats4_gcn : ((dat4 (F := Ideal) V c).arrAt 4 cfg4.N : S10000x512.Idx → EReal) = gcnOf4 agg h d b := by
  subst h0 h1 h2 h3
  exact (dat4 V c).arrAt_eq_of_cover 4 (Stats4.Gof V c) (fun t _ => Stats4.flushed4 V c t) Stats4.cover4

/-- After the pass the sum row holds the column sums of g over all 10000 rows. -/
theorem stats4_sum : ((dat4 (F := Ideal) V c).arrAt 5 cfg4.N : S1x512.Idx → EReal)
    = fun j => ∑ r : Fin 10000, gcnOf4 agg h d b (ix2 r (j 1)) := by
  subst h0 h1 h2 h3
  exact (dat4 V c).arrAt_eq_of_cover 5 (Stats4.colTotal (Stats4.Gof V c)) (fun t hf => Stats4.flushed5 V c t hf) Stats4.cover5

/-- After the pass the sum-of-squares row holds the column sums of g * g over all 10000 rows. -/
theorem stats4_sumsq : ((dat4 (F := Ideal) V c).arrAt 6 cfg4.N : S1x512.Idx → EReal)
    = fun j => ∑ r : Fin 10000, gcnOf4 agg h d b (ix2 r (j 1)) * gcnOf4 agg h d b (ix2 r (j 1)) := by
  subst h0 h1 h2 h3
  exact (dat4 V c).arrAt_eq_of_cover 6 (Stats4.colTotal (Stats4.Gsq V c)) (fun t hf => Stats4.flushed6 V c t hf) Stats4.cover6

end Final

end Cert.KernelIdeal.RegionValue

end
-- ==== Proof.RegionNorm5.lean ====
/-
  The array a batch-norm + ReLU region leaves behind, index by index.

  The region normalises a [10000, 512] array x column by column with a mean row mu, a variance row var, a scale row g
  and a shift row be (each [1, 512]), ten row blocks of 1000 at a time:
      out (r, q) = max (((x (r, q) - mu (0, q)) * rsqrt (var (0, q) + eps)) * g (0, q) + be (0, q)) 0,
  eps the single-precision word 0x3727C5AC. The ten row blocks tile the array, so the array after the region is this
  function of the five arrays the region finds on entry, at every index.
-/
import proofs.«136907_j29480655519935_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-- The zero offsets of a whole-buffer load or store. -/
theorem norm5_hz : (![0, 0] : Fin 2 → Nat) = fun _ => 0 := funext fun a => by fin_cases a <;> rfl

/-- The normalised, scaled, shifted and clamped array, index by index. -/
abbrev normG5 (x : S10000x512.Idx → EReal) (mu var g be : S1x512.Idx → EReal) : S10000x512.Idx → EReal := fun i =>
  max (((x i - mu (ix2 (0 : Fin 1) (i 1))) * Ideal.rsqrt (var (ix2 (0 : Fin 1) (i 1)) + Ideal.ofBits .f32 0x3727C5AC#32))
    * g (ix2 (0 : Fin 1) (i 1)) + be (ix2 (0 : Fin 1) (i 1))) 0

/-- The body's arithmetic at one index of a row block: the pointwise operations read through, each row operand read at
    its one row. (The payload takes the variance row before the mean row.) -/
theorem norm5_pay (x : Vec Ideal S1000x512 .f32) (vr mu g be : Vec Ideal S1x512 .f32) (p : Fin 1000) (q : Fin 512) :
    k5_pay1 (F := Ideal) x vr mu g be (ix2 p q)
      = max (((x (ix2 p q) - mu (ix2 (0 : Fin 1) q)) * Ideal.rsqrt (vr (ix2 (0 : Fin 1) q) + Ideal.ofBits .f32 0x3727C5AC#32))
          * g (ix2 (0 : Fin 1) q) + be (ix2 (0 : Fin 1) q)) 0 := by
  unfold k5_pay1
  simp only [shapeCast_self]
  rw [truncf_apply, maximumf_apply, addf_apply, mulf_apply, mulf_apply, subf_apply, broadcast_apply,
    broadcastTo_1b_ab_apply, broadcastTo_1b_ab_apply, broadcastTo_1b_ab_apply, broadcastTo_1b_ab_apply]
  show max (((x (ix2 p q) - mu (ix2 (0 : Fin 1) q)) * Ideal.rsqrt (vr (ix2 (0 : Fin 1) q) + Ideal.ofBits .f32 0x3727C5AC#32))
      * g (ix2 (0 : Fin 1) q) + be (ix2 (0 : Fin 1) q)) (Ideal.ofBits .f32 0x00000000#32) = _
  rw [Ideal.ofBits_zero_f32]

/-- The same at a block index `j` sitting under the array index `i` (same column), the block of x read off the array X
    there and the four rows being the whole row arrays. -/
theorem norm5_point (x0 : Vec Ideal S1000x512 .f32) (x1 x2 x3 x4 : Vec Ideal S1x512 .f32)
    (X : S10000x512.Idx → EReal) (MU VR G BE : S1x512.Idx → EReal) (j : S1000x512.Idx) (i : S10000x512.Idx)
    (h0 : x0 j = X i) (h1 : x1 = MU) (h2 : x2 = VR) (h3 : x3 = G) (h4 : x4 = BE) (hq : (i 1).val = (j 1).val) :
    k5_pay1 (F := Ideal) x0 x2 x1 x3 x4 j = normG5 X MU VR G BE i := by
  subst h1 h2 h3 h4
  obtain ⟨p, q, rfl⟩ : ∃ (p : Fin 1000) (q : Fin 512), j = ix2 p q := ⟨j 0, j 1, eq_ix2 j⟩
  rw [norm5_pay, h0]
  have hi : i 1 = q := Fin.ext hq
  show _ = max (((X i - x1 (ix2 (0 : Fin 1) (i 1))) * Ideal.rsqrt (x2 (ix2 (0 : Fin 1) (i 1)) + Ideal.ofBits .f32 0x3727C5AC#32))
      * x3 (ix2 (0 : Fin 1) (i 1)) + x4 (ix2 (0 : Fin 1) (i 1))) 0
  rw [hi]

/-- The printed index maps, decided over the grid: the x window and the output window sit at row block `t`, column block
    0; the four row windows at block (0, 0) at every point. -/
theorem norm5_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- A row window's block, at any point, is the whole row array. -/
theorem norm5_row1 (c : Dev nD) (t : Fin cfg5.N) :
    (iblk5 V c 1 t : Vec Ideal S1x512 .f32) = (V c (Pipeline.arrRef spec5 1) : S1x512.Idx → EReal) := by
  obtain ⟨_, _, e0, e1, _⟩ := norm5_idx t
  funext y
  show V c (Pipeline.arrRef spec5 1) (((cfg5.win 1).blk t).view.emb y) = V c (Pipeline.arrRef spec5 1) y
  congr 1
  funext a; apply Fin.ext
  match a with
  | ⟨0, _⟩ => show win5_1.index t (0 : Fin 2) * 1 + 1 * (y 0).val = (y 0).val; omega
  | ⟨1, _⟩ => show win5_1.index t (1 : Fin 2) * 512 + 1 * (y 1).val = (y 1).val; omega
theorem norm5_row2 (c : Dev nD) (t : Fin cfg5.N) :
    (iblk5 V c 2 t : Vec Ideal S1x512 .f32) = (V c (Pipeline.arrRef spec5 2) : S1x512.Idx → EReal) := by
  obtain ⟨_, _, _, _, e0, e1, _⟩ := norm5_idx t
  funext y
  show V c (Pipeline.arrRef spec5 2) (((cfg5.win 2).blk t).view.emb y) = V c (Pipeline.arrRef spec5 2) y
  congr 1
  funext a; apply Fin.ext
  match a with
  | ⟨0, _⟩ => show win5_2.index t (0 : Fin 2) * 1 + 1 * (y 0).val = (y 0).val; omega
  | ⟨1, _⟩ => show win5_2.index t (1 : Fin 2) * 512 + 1 * (y 1).val = (y 1).val; omega
theorem norm5_row3 (c : Dev nD) (t : Fin cfg5.N) :
    (iblk5 V c 3 t : Vec Ideal S1x512 .f32) = (V c (Pipeline.arrRef spec5 3) : S1x512.Idx → EReal) := by
  obtain ⟨_, _, _, _, _, _, e0, e1, _⟩ := norm5_idx t
  funext y
  show V c (Pipeline.arrRef spec5 3) (((cfg5.win 3).blk t).view.emb y) = V c (Pipeline.arrRef spec5 3) y
  congr 1
  funext a; apply Fin.ext
  match a with
  | ⟨0, _⟩ => show win5_3.index t (0 : Fin 2) * 1 + 1 * (y 0).val = (y 0).val; omega
  | ⟨1, _⟩ => show win5_3.index t (1 : Fin 2) * 512 + 1 * (y 1).val = (y 1).val; omega
theorem norm5_row4 (c : Dev nD) (t : Fin cfg5.N) :
    (iblk5 V c 4 t : Vec Ideal S1x512 .f32) = (V c (Pipeline.arrRef spec5 4) : S1x512.Idx → EReal) := by
  obtain ⟨_, _, _, _, _, _, _, _, e0, e1, _⟩ := norm5_idx t
  funext y
  show V c (Pipeline.arrRef spec5 4) (((cfg5.win 4).blk t).view.emb y) = V c (Pipeline.arrRef spec5 4) y
  congr 1
  funext a; apply Fin.ext
  match a with
  | ⟨0, _⟩ => show win5_4.index t (0 : Fin 2) * 1 + 1 * (y 0).val = (y 0).val; omega
  | ⟨1, _⟩ => show win5_4.index t (1 : Fin 2) * 512 + 1 * (y 1).val = (y 1).val; omega

/-- Under a block index `j`, the x window's block and the output window's block at point `t` sit over the same index of
    the array … -/
theorem norm5_emb0 (t : Fin cfg5.N) (j : S1000x512.Idx) :
    (((cfg5.win 0).blk t).view.emb j : S10000x512.Idx) = (((cfg5.win 5).blk t).view.emb j : S10000x512.Idx) := by
  obtain ⟨e0, e1, _, _, _, _, _, _, _, _, e10, e11⟩ := norm5_idx t
  funext a; apply Fin.ext
  match a with
  | ⟨0, _⟩ => show win5_0.index t (0 : Fin 2) * 1000 + 1 * (j 0).val = win5_5.index t (0 : Fin 2) * 1000 + 1 * (j 0).val; omega
  | ⟨1, _⟩ => show win5_0.index t (1 : Fin 2) * 512 + 1 * (j 1).val = win5_5.index t (1 : Fin 2) * 512 + 1 * (j 1).val; omega
/-- … whose column is `j`'s column. -/
theorem norm5_emb5 (t : Fin cfg5.N) (j : S1000x512.Idx) :
    ((((cfg5.win 5).blk t).view.emb j : S10000x512.Idx) 1).val = (j 1).val := by
  obtain ⟨e0, e1, _, _, _, _, _, _, _, _, e10, e11⟩ := norm5_idx t
  show win5_5.index t (1 : Fin 2) * 512 + 1 * (j 1).val = (j 1).val
  omega

/-- What point `t` writes back is row block `t` of the normalised array of the five arrays as the region finds them. -/
theorem norm5_flushed (c : Dev nD) (t : Fin cfg5.N) :
    (dat5 (F := Ideal) V c).flushed 5 t = ((cfg5.win 5).blk t).view.read (Elt Ideal)
      (normG5 (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero norm5_hz]
  simp only [View.ld_unit_zero (S := S1000x512) norm5_hz, View.ld_unit_zero (S := S1x512) norm5_hz]
  funext j
  refine norm5_point (iblk5 V c 0 t) (iblk5 V c 1 t) (iblk5 V c 2 t) (iblk5 V c 3 t) (iblk5 V c 4 t)
    (V c (Pipeline.arrRef spec5 0)) (V c (Pipeline.arrRef spec5 1)) (V c (Pipeline.arrRef spec5 2))
    (V c (Pipeline.arrRef spec5 3)) (V c (Pipeline.arrRef spec5 4)) j (((cfg5.win 5).blk t).view.emb j)
    ?_ (norm5_row1 V c t) (norm5_row2 V c t) (norm5_row3 V c t) (norm5_row4 V c t) (norm5_emb5 t j)
  exact congrArg (V c (Pipeline.arrRef spec5 0) : S10000x512.Idx → EReal) (norm5_emb0 t j)

/-- An index of the array is in point `t`'s block iff each coordinate is in the block's range on its axis. -/
theorem norm5_mem_blk (t : Fin cfg5.N) (i : S10000x512.Idx) :
    i ∈ ((cfg5.win 5).blk t).view.set ↔ ∀ a : Fin 2, win5_5.index t a * S1000x512.size a ≤ (i a).val ∧ (i a).val < win5_5.index t a * S1000x512.size a + S1000x512.size a := by
  show i ∈ ((View.whole main_v106).slice (win5_5.rect t)).set ↔ _
  rw [View.set_slice_whole, Rect.mem_set_unit]
  exact Iff.rfl

/-- Every index of the array is in the block of the point its row falls under (row `r` under point `r / 1000`). -/
theorem norm5_cover (i : S10000x512.Idx) :
    ∃ t : Fin cfg5.N, (cfg5.win 5).flush t = true ∧ i ∈ ((cfg5.win 5).blk t).view.set := by
  have hi0 : (i 0).val < 10000 := (i 0).isLt
  have hi1 : (i 1).val < 512 := (i 1).isLt
  have hN : grid5.N = 10 := N_5
  let t : Fin cfg5.N := ⟨(i 0).val / 1000, by show _ < grid5.N; rw [hN]; omega⟩
  have ht : t.val = (i 0).val / 1000 := rfl
  obtain ⟨_, _, _, _, _, _, _, _, _, _, e10, e11⟩ := norm5_idx t
  refine ⟨t, flush5_5 t, ?_⟩
  rw [norm5_mem_blk]
  intro a
  match a with
  | ⟨0, _⟩ => show win5_5.index t (0 : Fin 2) * 1000 ≤ (i 0).val ∧ (i 0).val < win5_5.index t (0 : Fin 2) * 1000 + 1000; omega
  | ⟨1, _⟩ => show win5_5.index t (1 : Fin 2) * 512 ≤ (i 1).val ∧ (i 1).val < win5_5.index t (1 : Fin 2) * 512 + 512; omega

/-- THE ARRAY after the region: the normalised, scaled, shifted, clamped array of the five arrays the region finds on
    entry (named x, mu, var, g, be by the five equations), at every index. -/
theorem norm5_final (c : Dev nD) (x : S10000x512.Idx → EReal) (mu var g be : S1x512.Idx → EReal)
    (h0 : V c (Pipeline.arrRef spec5 0) = x) (h1 : V c (Pipeline.arrRef spec5 1) = mu)
    (h2 : V c (Pipeline.arrRef spec5 2) = var) (h3 : V c (Pipeline.arrRef spec5 3) = g)
    (h4 : V c (Pipeline.arrRef spec5 4) = be) :
    (dat5 (F := Ideal) V c).arrAt 5 cfg5.N
      = fun i => max (((x i - mu (ix2 (0 : Fin 1) (i 1))) * Ideal.rsqrt (var (ix2 (0 : Fin 1) (i 1)) + Ideal.ofBits .f32 0x3727C5AC#32))
          * g (ix2 (0 : Fin 1) (i 1)) + be (ix2 (0 : Fin 1) (i 1))) 0 := by
  subst h0 h1 h2 h3 h4
  exact (dat5 (F := Ideal) V c).arrAt_eq_of_cover 5
    (normG5 (V c (Pipeline.arrRef spec5 0)) (V c (Pipeline.arrRef spec5 1)) (V c (Pipeline.arrRef spec5 2))
      (V c (Pipeline.arrRef spec5 3)) (V c (Pipeline.arrRef spec5 4)))
    (fun t _ => norm5_flushed V c t) norm5_cover

end Cert.KernelIdeal.RegionValue

end
-- ==== Proof.RefNorm1.lean ====
/-
  The batch normalisation of the first layer of the reference, read at an index.

  Write g for the layer's array before normalisation (10000 rows, 512 columns), K for the real ten thousand and eps for
  the small positive literal added to the variance. Column by column the reference computes the mean
  m j = (∑ r, g r j) / K, the variance v j = (∑ r, (g r j - m j) * (g r j - m j)) / K, and the output
  max (((g i j - m j) * rsqrt (v j + eps)) * gamma j + beta j) 0.

  Three readings are proved. The mean at a column is the column's sum divided by K. The variance at a column, when every
  entry of g is a real number, is the mean of the squares minus the squared mean: over the reals
  (1/n) ∑ (x r - μ)² = (1/n) ∑ x r² - μ² with μ = (1/n) ∑ x r, because ∑ (x r - μ)² = ∑ x r² - 2 μ ∑ x r + n μ² and
  ∑ x r = n μ; the extended-real statement follows by pushing the coercion of the reals through the sums, the products
  and the exact division by the nonzero real K. The output at an index is the expression above in the mean and the
  variance of its column.
-/
import proofs.«136907_j29480655519935_1_alg».proof.Proof.RefRead
import Mathlib

noncomputable section

open scoped BigOperators

namespace Cert.ReferenceIdeal.NormRead

open Cert.ReferenceIdeal Cert.ReferenceIdeal.Gen Idealize.ShloMosaic Idealize.ShloMosaic.TcCoe Idealize.SL.Sem Idealize.ShloMosaic.StableHlo Idealize.ShloMosaic.ValueIdx

/-- Over the reals: the mean of the squared deviations from the mean is the mean of the squares minus the squared mean,
    for a family indexed by a finite type of `n` elements, every division written as the product with `1 / n`. -/
theorem real_var_identity {ι : Type*} [Fintype ι] (x : ι → ℝ) (n : ℝ) (hn : n ≠ 0) (hcard : (Fintype.card ι : ℝ) = n) :
    (∑ r, (x r - (∑ s, x s) * (1 / n)) * (x r - (∑ s, x s) * (1 / n))) * (1 / n)
      = (∑ r, x r * x r) * (1 / n) - ((∑ s, x s) * (1 / n)) * ((∑ s, x s) * (1 / n)) := by
  set S : ℝ := ∑ s, x s with hS
  have h1 : ∑ r, (x r - S * (1 / n)) * (x r - S * (1 / n))
      = ∑ r, x r * x r - 2 * (S * (1 / n)) * S + n * ((S * (1 / n)) * (S * (1 / n))) := by
    have : ∀ r, (x r - S * (1 / n)) * (x r - S * (1 / n))
        = x r * x r - 2 * (S * (1 / n)) * x r + (S * (1 / n)) * (S * (1 / n)) := fun r => by ring
    simp only [this]
    rw [Finset.sum_add_distrib, Finset.sum_sub_distrib, ← Finset.mul_sum, Finset.sum_const, Finset.card_univ,
      nsmul_eq_mul, hcard]
  rw [h1]
  field_simp
  ring

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x461C4000` is the real ten thousand. -/
theorem ofBits_1e4 : Ideal.ofBits .f32 0x461C4000#32 = ((10000 : ℝ) : EReal) := by
  simp [Ideal.ofBits, Ideal.ieee, -EReal.coe_mul]; norm_num

/-- Over the extended reals, for real entries: the mean of the squared deviations from the mean is the mean of the
    squares minus the squared mean, the divisions being the exact division by the real `n`. -/
theorem ereal_var_identity {ι : Type*} [Fintype ι] (g : ι → EReal) (hg : ∀ r, ∃ y : ℝ, g r = y) (n : ℝ) (hn : n ≠ 0)
    (hcard : (Fintype.card ι : ℝ) = n) :
    Ideal.div (∑ r, (g r - Ideal.div (∑ s, g s) (n : EReal)) * (g r - Ideal.div (∑ s, g s) (n : EReal))) (n : EReal)
      = Ideal.div (∑ r, g r * g r) (n : EReal) - Ideal.div (∑ s, g s) (n : EReal) * Ideal.div (∑ s, g s) (n : EReal) := by
  choose x hx using hg
  simp only [hx, Ideal.div_coe hn]
  simp only [← coe_sum, ← EReal.coe_mul, ← EReal.coe_sub]
  exact congrArg _ (real_var_identity x n hn hcard)

/-- The mean at a column: the column's sum divided by the literal ten thousand. -/
theorem mean1_apply (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (j : S512.Idx) :
    Read.val_main_v50 (F := Ideal) x0 x1 x2 x3 j
      = Ideal.div (∑ r : Fin 10000, Read.val_main_v47 (F := Ideal) x0 x1 x2 x3 (ix2 (n0 := 10000) (n1 := 512) r (j 0))) (Ideal.ofBits .f32 0x461C4000#32) := by
  have e : ∀ k : Fin 10000, Read.idx_main_v48 j k = ix2 (n0 := 10000) (n1 := 512) k (j 0) := fun k => by
    funext a; match a with | ⟨0, _⟩ => rfl | ⟨1, _⟩ => rfl
  rw [Read.val_main_v50_apply, Read.val_main_v48_apply, Read.val_main_v49_apply, Read.val_main_cst_8_apply, Read.val_main_cst_9_apply]
  simp only [e, Ideal.hostDivf_def, Ideal.ofBits_def, Ideal.ofBits_zero_f32, zero_add]

/-- The variance at a column, for real entries: the mean of the squares minus the squared mean. -/
theorem var1_apply (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal))
    (hg : ∀ i, ∃ r : ℝ, (Read.val_main_v47 (F := Ideal) x0 x1 x2 x3 i : EReal) = (r : EReal)) (j : S512.Idx) :
    Read.val_main_v57 (F := Ideal) x0 x1 x2 x3 j
      = Ideal.div (∑ r : Fin 10000, Read.val_main_v47 (F := Ideal) x0 x1 x2 x3 (ix2 (n0 := 10000) (n1 := 512) r (j 0)) * Read.val_main_v47 (F := Ideal) x0 x1 x2 x3 (ix2 (n0 := 10000) (n1 := 512) r (j 0))) (Ideal.ofBits .f32 0x461C4000#32)
        - Ideal.div (∑ r : Fin 10000, Read.val_main_v47 (F := Ideal) x0 x1 x2 x3 (ix2 (n0 := 10000) (n1 := 512) r (j 0))) (Ideal.ofBits .f32 0x461C4000#32)
          * Ideal.div (∑ r : Fin 10000, Read.val_main_v47 (F := Ideal) x0 x1 x2 x3 (ix2 (n0 := 10000) (n1 := 512) r (j 0))) (Ideal.ofBits .f32 0x461C4000#32) := by
  have hsum : ∀ k : Fin 10000, Read.val_main_v54 (F := Ideal) x0 x1 x2 x3 (Read.idx_main_v55 j k)
      = FloatOps.mulf (F := Ideal) (φ := .f32) (FloatOps.subf (F := Ideal) (φ := .f32) (Read.val_main_v47 (F := Ideal) x0 x1 x2 x3 (ix2 (n0 := 10000) (n1 := 512) k (j 0))) (Read.val_main_v50 (F := Ideal) x0 x1 x2 x3 j))
          (FloatOps.subf (F := Ideal) (φ := .f32) (Read.val_main_v47 (F := Ideal) x0 x1 x2 x3 (ix2 (n0 := 10000) (n1 := 512) k (j 0))) (Read.val_main_v50 (F := Ideal) x0 x1 x2 x3 j)) := by
    intro k
    have e1 : Read.idx_main_v55 j k = ix2 (n0 := 10000) (n1 := 512) k (j 0) := by funext a; match a with | ⟨0, _⟩ => rfl | ⟨1, _⟩ => rfl
    have e2 : Read.idx_main_v51 (Read.idx_main_v52 (ix2 (n0 := 10000) (n1 := 512) k (j 0))) = j := by funext a; match a with | ⟨0, _⟩ => rfl
    rw [Read.val_main_v54_apply, Read.val_main_v53_apply, Read.val_main_v52_apply, Read.val_main_v51_apply, e1, e2]
  rw [Read.val_main_v57_apply, Read.val_main_v55_apply, Read.val_main_v56_apply, Read.val_main_cst_10_apply, Read.val_main_cst_11_apply]
  simp only [hsum, Ideal.hostDivf_def, Ideal.ofBits_def, Ideal.ofBits_zero_f32, zero_add, Ideal.mulf_def, Ideal.subf_def]
  rw [mean1_apply, ofBits_1e4]
  exact ereal_var_identity (fun r : Fin 10000 => Read.val_main_v47 (F := Ideal) x0 x1 x2 x3 (ix2 (n0 := 10000) (n1 := 512) r (j 0))) (fun r => hg _) 10000 (by norm_num) (by simp)

/-- The layer's output at an index: the entry minus its column's mean, times the reciprocal square root of the column's
    variance plus the small literal, times the column's scale, plus the column's shift, and the maximum of that and zero. -/
theorem out1_apply (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 x5 : (⟨S512, .f32⟩ : BufTy).Contents (Elt Ideal)) (i : S10000x512.Idx) :
    Read.val_main_v73 (F := Ideal) x0 x1 x2 x3 x4 x5 i
      = max ((((Read.val_main_v47 (F := Ideal) x0 x1 x2 x3 i - Read.val_main_v50 (F := Ideal) x0 x1 x2 x3 (ix1 (n := 512) (i 1)))
            * Ideal.rsqrt (Read.val_main_v57 (F := Ideal) x0 x1 x2 x3 (ix1 (n := 512) (i 1)) + Ideal.ofBits .f32 0x3727C5AC#32))
          * x4 (ix1 (n := 512) (i 1))) + x5 (ix1 (n := 512) (i 1))) 0 := by
  have e1 : Read.idx_main_v58 (Read.idx_main_v59 i) = ix1 (n := 512) (i 1) := by funext a; match a with | ⟨0, _⟩ => rfl
  have e2 : Read.idx_main_v64 (Read.idx_main_v65 i) = ix1 (n := 512) (i 1) := by funext a; match a with | ⟨0, _⟩ => rfl
  have e3 : Read.idx_main_v67 (Read.idx_main_v68 i) = ix1 (n := 512) (i 1) := by funext a; match a with | ⟨0, _⟩ => rfl
  have e4 : Read.idx_main_v70 (Read.idx_main_v71 i) = ix1 (n := 512) (i 1) := by funext a; match a with | ⟨0, _⟩ => rfl
  rw [Read.val_main_v73_apply, Read.val_main_v72_apply, Read.val_main_v71_apply, Read.val_main_v70_apply, Read.val_main_v69_apply,
    Read.val_main_v68_apply, Read.val_main_v67_apply, Read.val_main_v66_apply, Read.val_main_v65_apply, Read.val_main_v64_apply,
    Read.val_main_v63_apply, Read.val_main_v62_apply, Read.val_main_v61_apply, Read.val_main_cst_12_apply, Read.val_main_v60_apply,
    Read.val_main_v59_apply, Read.val_main_v58_apply, Read.val_main_call0_v0_apply, Read.val_main_call0_cst_apply,
    e1, e2, e3, e4]
  simp only [Ideal.maximumf_def, Ideal.addf_def, Ideal.mulf_def, Ideal.subf_def, Ideal.hostUnary_rsqrt_def,
    Ideal.ofBits_def, Ideal.ofBits_zero_f32]

end Cert.ReferenceIdeal.NormRead
-- ==== Proof.RegionMatmul0.lean ====
/- The array the first matrix-product region leaves. Its left operand is a [10000, 512] array x, read in ten blocks
   of 1000 rows; its right operand is a [512, 512] array w, read whole at every grid point; each point writes the
   1000 rows of the [10000, 512] output it computed. After the region the output's entry (r, c) is the sum over
   k < 512 of x(r, k) * w(k, c), at the extended-real values. -/
import proofs.«136907_j29480655519935_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

/-! ## The operand indices of the product at an output index and a contraction index -/

theorem matmul0_lhs0 (i : S1000x512.Idx) (u : dot_S1000x512_S512x512_S1000x512_1_0_0_1_n_n.contr.Idx) :
    (dot_S1000x512_S512x512_S1000x512_1_0_0_1_n_n.lhsIdx i u 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem matmul0_lhs1 (i : S1000x512.Idx) (u : dot_S1000x512_S512x512_S1000x512_1_0_0_1_n_n.contr.Idx) :
    (dot_S1000x512_S512x512_S1000x512_1_0_0_1_n_n.lhsIdx i u 1).val = (u ⟨0, by decide⟩).val :=
  dot_S1000x512_S512x512_S1000x512_1_0_0_1_n_n.lhsIdx_val_of_single rfl i u
theorem matmul0_rhs0 (i : S1000x512.Idx) (u : dot_S1000x512_S512x512_S1000x512_1_0_0_1_n_n.contr.Idx) :
    (dot_S1000x512_S512x512_S1000x512_1_0_0_1_n_n.rhsIdx i u 0).val = (u ⟨0, by decide⟩).val :=
  dot_S1000x512_S512x512_S1000x512_1_0_0_1_n_n.rhsIdx_val_of_single rfl i u
theorem matmul0_rhs1 (i : S1000x512.Idx) (u : dot_S1000x512_S512x512_S1000x512_1_0_0_1_n_n.contr.Idx) :
    (dot_S1000x512_S512x512_S1000x512_1_0_0_1_n_n.rhsIdx i u 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The product into a zero accumulator at an index of the block: the sum over the contraction axis of the products
    of the left operand's row and the right operand's column. -/
theorem matmul0_prod (x0 : FVec Ideal S1000x512 .bf16) (x1 : FVec Ideal S512x512 .bf16) (p : Fin 1000) (q : Fin 512) :
    FloatOps.matmul (F := Ideal) dot_S1000x512_S512x512_S1000x512_1_0_0_1_n_n none x0 x1 (constant (F := Ideal) S1000x512 .f32 0x00000000#32) (ix2 p q)
      = ∑ k : Fin 512, x0 (ix2 p k) * x1 (ix2 k q) := by
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 p q) ((contrEquiv1 dot_S1000x512_S512x512_S1000x512_1_0_0_1_n_n 512 rfl rfl).symm k) = ix2 p k := funext fun a => Fin.ext (by
    match a with
    | ⟨0, _⟩ => exact matmul0_lhs0 _ _
    | ⟨1, _⟩ => exact (matmul0_lhs1 _ _).trans hk)
  have er : dot_S1000x512_S512x512_S1000x512_1_0_0_1_n_n.rhsIdx (ix2 p q) ((contrEquiv1 dot_S1000x512_S512x512_S1000x512_1_0_0_1_n_n 512 rfl rfl).symm k) = ix2 k q := funext fun a => Fin.ext (by
    match a with
    | ⟨0, _⟩ => exact (matmul0_rhs0 _ _).trans hk
    | ⟨1, _⟩ => exact matmul0_rhs1 _ _)
  rw [el, er]

/-- The body's result at an index of the block. -/
theorem matmul0_pay (x0 : Vec Ideal S1000x512 .bf16) (x1 : Vec Ideal S512x512 .bf16) (p : Fin 1000) (q : Fin 512) :
    Gen.k0_pay1 (F := Ideal) x0 x1 (ix2 p q) = ∑ k : Fin 512, x0 (ix2 p k) * x1 (ix2 k q) := by
  unfold Gen.k0_pay1
  simp only [shapeCast_self]
  exact matmul0_prod x0 x1 p q

/-! ## From the blocks to the array -/

theorem matmul0_hz : (![0, 0] : Fin 2 → Nat) = fun _ => 0 := funext fun a => by fin_cases a <;> rfl

/-- The product of a [10000, 512] array and a [512, 512] array, index by index. -/
abbrev matmul0_G (A : S10000x512.Idx → EReal) (B : S512x512.Idx → EReal) : S10000x512.Idx → EReal :=
  fun i => ∑ k : Fin 512, A (ix2 (i 0) k) * B (ix2 k (i 1))

/-- A block of 1000 rows of the product: when the left block holds rows `r * 1000 …` of `A` and the right block is
    all of `B`, the body's result at (p, q) is the product's entry (r * 1000 + p, q). -/
theorem matmul0_block (A : S10000x512.Idx → EReal) (B : S512x512.Idx → EReal) (x0 : Vec Ideal S1000x512 .bf16) (x1 : Vec Ideal S512x512 .bf16)
    (r : Nat) (hr : r < 10)
    (h0 : ∀ (p : Fin 1000) (k : Fin 512), x0 (ix2 p k) = A (ix2 (⟨r * 1000 + p.val, by have := p.isLt; omega⟩ : Fin 10000) k))
    (h1 : ∀ (k : Fin 512) (q : Fin 512), x1 (ix2 k q) = B (ix2 k q)) (p : Fin 1000) (q : Fin 512) :
    k0_pay1 (F := Ideal) x0 x1 (ix2 p q) = matmul0_G A B (ix2 (⟨r * 1000 + p.val, by have := p.isLt; omega⟩ : Fin 10000) q) := by
  rw [matmul0_pay]
  show _ = ∑ k : Fin 512, A (ix2 (⟨r * 1000 + p.val, by have := p.isLt; omega⟩ : Fin 10000) k) * B (ix2 k q)
  exact Finset.sum_congr rfl fun k _ => by rw [h0, h1]

/-- The block indices over the grid: the left operand's and the output's blocks are the point's 1000 rows, all
    columns; the right operand's block is the whole array at every point. -/
theorem matmul0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 1600000 in
/-- What point `t` writes back is block `t` of the product of the two arrays as the region finds them. -/
theorem matmul0_flushed (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (matmul0_G (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero matmul0_hz]
  simp only [View.ld_unit_zero (S := S1000x512) matmul0_hz, View.ld_unit_zero (S := S512x512) matmul0_hz]
  obtain ⟨e0, e1, e2, e3, e4, e5⟩ := matmul0_idx t
  have ht : t.val < 10 := t.isLt.trans_eq N_0
  refine funext fun (j : S1000x512.Idx) => ?_
  obtain ⟨p, q, rfl⟩ : ∃ (p : Fin 1000) (q : Fin 512), j = ix2 p q := ⟨j 0, j 1, eq_ix2 j⟩
  have hemb : ((cfg0.win 2).blk t).view.emb (ix2 p q)
      = (ix2 (⟨t.val * 1000 + p.val, by have := p.isLt; omega⟩ : Fin 10000) q : S10000x512.Idx) := by
    funext a; apply Fin.ext
    match a with
    | ⟨0, _⟩ => show win0_2.index t (0 : Fin 2) * 1000 + 1 * p.val = t.val * 1000 + p.val; omega
    | ⟨1, _⟩ => show win0_2.index t (1 : Fin 2) * 512 + 1 * q.val = q.val; omega
  show k0_pay1 (F := Ideal) (iblk0 V c 0 t) (iblk0 V c 1 t) (ix2 p q)
    = matmul0_G (V c (Pipeline.arrRef spec0 0)) (V c (Pipeline.arrRef spec0 1)) (((cfg0.win 2).blk t).view.emb (ix2 p q))
  refine (matmul0_block (V c (Pipeline.arrRef spec0 0)) (V c (Pipeline.arrRef spec0 1)) (iblk0 V c 0 t) (iblk0 V c 1 t) t.val ht ?_ ?_ p q).trans
    (congrArg (matmul0_G (V c (Pipeline.arrRef spec0 0)) (V c (Pipeline.arrRef spec0 1))) hemb.symm)
  · intro p k
    show V c (Pipeline.arrRef spec0 0) (((cfg0.win 0).blk t).view.emb (ix2 p k))
      = V c (Pipeline.arrRef spec0 0) (ix2 (⟨t.val * 1000 + p.val, by have := p.isLt; omega⟩ : Fin 10000) k : S10000x512.Idx)
    refine congrArg _ (funext fun a => Fin.ext ?_)
    match a with
    | ⟨0, _⟩ => show win0_0.index t (0 : Fin 2) * 1000 + 1 * p.val = t.val * 1000 + p.val; omega
    | ⟨1, _⟩ => show win0_0.index t (1 : Fin 2) * 512 + 1 * k.val = k.val; omega
  · intro k q
    show V c (Pipeline.arrRef spec0 1) (((cfg0.win 1).blk t).view.emb (ix2 k q))
      = V c (Pipeline.arrRef spec0 1) (ix2 k q : S512x512.Idx)
    refine congrArg _ (funext fun a => Fin.ext ?_)
    match a with
    | ⟨0, _⟩ => show win0_1.index t (0 : Fin 2) * 512 + 1 * k.val = k.val; omega
    | ⟨1, _⟩ => show win0_1.index t (1 : Fin 2) * 512 + 1 * q.val = q.val; omega

/-- An index of the array is in point `t`'s block iff each coordinate is in the block's range on its axis. -/
theorem matmul0_mem_blk (t : Fin cfg0.N) (i : S10000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v17).slice (win0_2.rect t)).set ↔ _
  rw [View.set_slice_whole, Rect.mem_set_unit]
  exact Iff.rfl

/-- Every index of the array is in the block of the point its row falls in. -/
theorem matmul0_cover (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 10 := N_0
  refine ⟨⟨(i 0).val / 1000, by rw [hN]; omega⟩, flush0_2 _, ?_⟩
  rw [matmul0_mem_blk]
  obtain ⟨e0, e1, e2, e3, e4, e5⟩ := matmul0_idx ⟨(i 0).val / 1000, by rw [hN]; omega⟩
  intro a
  match a with
  | ⟨0, _⟩ =>
    show win0_2.index _ (0 : Fin 2) * 1000 ≤ (i 0).val ∧ (i 0).val < win0_2.index _ (0 : Fin 2) * 1000 + 1000
    rw [e4]
    show (i 0).val / 1000 * 1000 ≤ (i 0).val ∧ (i 0).val < (i 0).val / 1000 * 1000 + 1000
    omega
  | ⟨1, _⟩ =>
    show win0_2.index _ (1 : Fin 2) * 512 ≤ (i 1).val ∧ (i 1).val < win0_2.index _ (1 : Fin 2) * 512 + 512
    rw [e5]
    omega

/-- THE ARRAY after the region is the product of the two arrays as the region finds them. -/
theorem matmul0_final_G (V : (c : Dev nD) → (b : Ref sig .tc) → Buf (Elt Ideal) ((c : Thread nD τ).loc b)) (c : Dev nD) :
    (dat0 (F := Ideal) V c).arrAt 2 cfg0.N = matmul0_G (V c (Pipeline.arrRef spec0 0)) (V c (Pipeline.arrRef spec0 1)) :=
  (dat0 (F := Ideal) V c).arrAt_eq_of_cover 2 (matmul0_G (V c (Pipeline.arrRef spec0 0)) (V c (Pipeline.arrRef spec0 1)))
    (fun t _ => matmul0_flushed V c t) matmul0_cover

/-- THE ARRAY after the region: entry (r, c) is the sum over k of the left array's (r, k) times the right array's (k, c). -/
theorem matmul0_final (V : (c : Dev nD) → (b : Ref sig .tc) → Buf (Elt Ideal) ((c : Thread nD τ).loc b)) (c : Dev nD)
    (A : S10000x512.Idx → EReal) (B : S512x512.Idx → EReal)
    (hA : V c (Pipeline.arrRef spec0 0) = A) (hB : V c (Pipeline.arrRef spec0 1) = B) :
    (dat0 (F := Ideal) V c).arrAt 2 cfg0.N
      = (fun i => ∑ k : Fin 512, A (ix2 (i 0) k) * B (ix2 k (i 1)) : S10000x512.Idx → EReal) := by
  subst hA hB
  exact matmul0_final_G V c

end Cert.KernelIdeal.RegionValue

end
-- ==== Proof.RegionStats1.lean ====
/-
  The statistics pass number one over a [10000, 512] array, read as mathematics over the extended reals.

  From four arrays — agg and h of shape [10000, 512], d of shape [10000, 1], b of shape [1, 512] — the pass forms
      g(r, q) = (agg(r, q) + h(r, q) * d(r, 0)) + b(0, q)
  and leaves three arrays: g itself ([10000, 512]), the column sums  Σ_r g(r, q)  ([1, 512]) and the column sums of squares
  Σ_r g(r, q) * g(r, q)  ([1, 512]). The rows are visited in ten blocks of 1000: block t holds rows 1000 t … 1000 t + 999. The
  first block starts the two running rows from zero, every later block adds its own column sums to what the block before
  left, so after block t the running rows hold the sums over the rows below 1000 (t + 1) — by induction on t — and after the
  tenth block the sums over all 10000 rows: addition of extended reals is commutative and associative, so the ten partial
  sums of 1000 rows are the one sum of 10000.
-/
import proofs.«136907_j29480655519935_1_alg».proof.Proof.Gen.KernelIdeal.Frame
import proofs.«136907_j29480655519935_1_alg».proof.Proof.LibBlockSum
import Idealize.ShloMosaic.Lib.Pipeline.Value
import Idealize.ShloMosaic.Lib.ValueLayout
import Idealize.ShloMosaic.Lib.Tactic
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

/-- g(r, q) = (agg(r, q) + h(r, q) * d(r, 0)) + b(0, q). -/
def gcnOf (agg h : S10000x512.Idx → EReal) (d : S10000x1.Idx → EReal) (b : S1x512.Idx → EReal) : S10000x512.Idx → EReal :=
  fun i => (agg i + h i * d (ix2 (i 0) 0)) + b (ix2 0 (i 1))

namespace Stats1

theorem g_ix2 (agg h : S10000x512.Idx → EReal) (d : S10000x1.Idx → EReal) (b : S1x512.Idx → EReal) (r : Fin 10000) (q : Fin 512) :
    gcnOf agg h d b (ix2 r q) = (agg (ix2 r q) + h (ix2 r q) * d (ix2 r (0 : Fin 1))) + b (ix2 (0 : Fin 1) q) := rfl

theorem hz : (![0, 0] : Fin 2 → Nat) = fun _ => 0 := funext fun a => by fin_cases a <;> rfl

/-! ## What one block's pass leaves in the three output blocks, as the arithmetic of the loaded blocks -/

section Pieces
variable {F : FTy → Type} [FloatOps F]

/-- First block: the stored block is g of the loaded blocks. -/
theorem out_A_4 (c : Dev nD) (i : grid1.Coords) (a1 : Memref sig .tc .vmem S1000x512 .f32) (h1 : a1.IsWhole) (a2 : Memref sig .tc .vmem S1000x512 .f32) (h2 : a2.IsWhole) (a3 : Memref sig .tc .vmem S1000x1 .f32) (h3 : a3.IsWhole) (a4 : Memref sig .tc .vmem S1x512 .f32) (h4 : a4.IsWhole) (a5 : Memref sig .tc .vmem S1000x512 .f32) (h5 : a5.IsWhole) (a6 : Memref sig .tc .vmem S1x512 .f32) (h6 : a6.IsWhole) (a7 : Memref sig .tc .vmem S1x512 .f32) (h7 : a7.IsWhole) (hc : cond1_0 i) (x0 x1 : Vec F S1000x512 .f32) (x2 : Vec F S1000x1 .f32) (x3 : Vec F S1x512 .f32) :
    out1_A_4 c i a1 h1 a2 h2 a3 h3 a4 h4 a5 h5 a6 h6 a7 h7 hc x0 x1 x2 x3 = k1_pay3 x0 x1 x2 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  rw [View.canon_unit_zero hz]
  simp only [View.readAt_eq_ld, h1.read_unread, h2.read_unread, h3.read_unread, h4.read_unread,
    View.ld_unit_zero (S := S1000x512) hz, View.ld_unit_zero (S := S1000x1) hz, View.ld_unit_zero (S := S1x512) hz]

/-- First block: the running sum row is the zero row plus the block's column sums. -/
theorem out_A_5 (c : Dev nD) (i : grid1.Coords) (a1 : Memref sig .tc .vmem S1000x512 .f32) (h1 : a1.IsWhole) (a2 : Memref sig .tc .vmem S1000x512 .f32) (h2 : a2.IsWhole) (a3 : Memref sig .tc .vmem S1000x1 .f32) (h3 : a3.IsWhole) (a4 : Memref sig .tc .vmem S1x512 .f32) (h4 : a4.IsWhole) (a5 : Memref sig .tc .vmem S1000x512 .f32) (h5 : a5.IsWhole) (a6 : Memref sig .tc .vmem S1x512 .f32) (h6 : a6.IsWhole) (a7 : Memref sig .tc .vmem S1x512 .f32) (h7 : a7.IsWhole) (hc : cond1_0 i) (x0 x1 : Vec F S1000x512 .f32) (x2 : Vec F S1000x1 .f32) (x3 : Vec F S1x512 .f32) :
    out1_A_5 c i a1 h1 a2 h2 a3 h3 a4 h4 a5 h5 a6 h6 a7 h7 hc x0 x1 x2 x3 = k1_pay4 x0 x1 x2 x3 (k1_pay1 (F := F)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x512) hz, View.readCov_unit_zero (S := S1x512) _ hz]
  simp only [View.readAt_eq_ld, h1.read_unread, h2.read_unread, h3.read_unread, h4.read_unread,
    View.ld_unit_zero (S := S1000x512) hz, View.ld_unit_zero (S := S1000x1) hz, View.ld_unit_zero (S := S1x512) hz]

/-- First block: the running sum-of-squares row is the zero row plus the block's column sums of squares. -/
theorem out_A_6 (c : Dev nD) (i : grid1.Coords) (a1 : Memref sig .tc .vmem S1000x512 .f32) (h1 : a1.IsWhole) (a2 : Memref sig .tc .vmem S1000x512 .f32) (h2 : a2.IsWhole) (a3 : Memref sig .tc .vmem S1000x1 .f32) (h3 : a3.IsWhole) (a4 : Memref sig .tc .vmem S1x512 .f32) (h4 : a4.IsWhole) (a5 : Memref sig .tc .vmem S1000x512 .f32) (h5 : a5.IsWhole) (a6 : Memref sig .tc .vmem S1x512 .f32) (h6 : a6.IsWhole) (a7 : Memref sig .tc .vmem S1x512 .f32) (h7 : a7.IsWhole) (hc : cond1_0 i) (x0 x1 : Vec F S1000x512 .f32) (x2 : Vec F S1000x1 .f32) (x3 : Vec F S1x512 .f32) :
    out1_A_6 c i a1 h1 a2 h2 a3 h3 a4 h4 a5 h5 a6 h6 a7 h7 hc x0 x1 x2 x3 = k1_pay5 x0 x1 x2 x3 (k1_pay2 (F := F)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x512) hz, View.readCov_unit_zero (S := S1x512) _ hz]
  simp only [View.readAt_eq_ld, h1.read_unread, h2.read_unread, h3.read_unread, h4.read_unread,
    View.ld_unit_zero (S := S1000x512) hz, View.ld_unit_zero (S := S1000x1) hz, View.ld_unit_zero (S := S1x512) hz]

/-- A later block: the stored block is g of the loaded blocks. -/
theorem out_B_4 (c : Dev nD) (i : grid1.Coords) (a1 : Memref sig .tc .vmem S1000x512 .f32) (h1 : a1.IsWhole) (a2 : Memref sig .tc .vmem S1000x512 .f32) (h2 : a2.IsWhole) (a3 : Memref sig .tc .vmem S1000x1 .f32) (h3 : a3.IsWhole) (a4 : Memref sig .tc .vmem S1x512 .f32) (h4 : a4.IsWhole) (a5 : Memref sig .tc .vmem S1000x512 .f32) (h5 : a5.IsWhole) (a6 : Memref sig .tc .vmem S1x512 .f32) (h6 : a6.IsWhole) (a7 : Memref sig .tc .vmem S1x512 .f32) (h7 : a7.IsWhole) (hc : ¬cond1_0 i) (x0 x1 : Vec F S1000x512 .f32) (x2 : Vec F S1000x1 .f32) (x3 : Vec F S1x512 .f32) (xo5 xo6 : Vec F S1x512 .f32) :
    out1_B_4 c i a1 h1 a2 h2 a3 h3 a4 h4 a5 h5 a6 h6 a7 h7 hc x0 x1 x2 x3 xo5 xo6 = k1_pay3 x0 x1 x2 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread,
    View.ld_unit_zero (S := S1000x512) hz, View.ld_unit_zero (S := S1000x1) hz, View.ld_unit_zero (S := S1x512) hz]

/-- A later block: the running sum row is what was there plus the block's column sums. -/
theorem out_B_5 (c : Dev nD) (i : grid1.Coords) (a1 : Memref sig .tc .vmem S1000x512 .f32) (h1 : a1.IsWhole) (a2 : Memref sig .tc .vmem S1000x512 .f32) (h2 : a2.IsWhole) (a3 : Memref sig .tc .vmem S1000x1 .f32) (h3 : a3.IsWhole) (a4 : Memref sig .tc .vmem S1x512 .f32) (h4 : a4.IsWhole) (a5 : Memref sig .tc .vmem S1000x512 .f32) (h5 : a5.IsWhole) (a6 : Memref sig .tc .vmem S1x512 .f32) (h6 : a6.IsWhole) (a7 : Memref sig .tc .vmem S1x512 .f32) (h7 : a7.IsWhole) (hc : ¬cond1_0 i) (x0 x1 : Vec F S1000x512 .f32) (x2 : Vec F S1000x1 .f32) (x3 : Vec F S1x512 .f32) (xo5 xo6 : Vec F S1x512 .f32) :
    out1_B_5 c i a1 h1 a2 h2 a3 h3 a4 h4 a5 h5 a6 h6 a7 h7 hc x0 x1 x2 x3 xo5 xo6 = k1_pay4 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread, h6.read_unread,
    View.ld_unit_zero (S := S1000x512) hz, View.ld_unit_zero (S := S1000x1) hz, View.ld_unit_zero (S := S1x512) hz]

/-- A later block: the running sum-of-squares row is what was there plus the block's column sums of squares. -/
theorem out_B_6 (c : Dev nD) (i : grid1.Coords) (a1 : Memref sig .tc .vmem S1000x512 .f32) (h1 : a1.IsWhole) (a2 : Memref sig .tc .vmem S1000x512 .f32) (h2 : a2.IsWhole) (a3 : Memref sig .tc .vmem S1000x1 .f32) (h3 : a3.IsWhole) (a4 : Memref sig .tc .vmem S1x512 .f32) (h4 : a4.IsWhole) (a5 : Memref sig .tc .vmem S1000x512 .f32) (h5 : a5.IsWhole) (a6 : Memref sig .tc .vmem S1x512 .f32) (h6 : a6.IsWhole) (a7 : Memref sig .tc .vmem S1x512 .f32) (h7 : a7.IsWhole) (hc : ¬cond1_0 i) (x0 x1 : Vec F S1000x512 .f32) (x2 : Vec F S1000x1 .f32) (x3 : Vec F S1x512 .f32) (xo5 xo6 : Vec F S1x512 .f32) :
    out1_B_6 c i a1 h1 a2 h2 a3 h3 a4 h4 a5 h5 a6 h6 a7 h7 hc x0 x1 x2 x3 xo5 xo6 = k1_pay5 x0 x1 x2 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread, h7.read_unread,
    View.ld_unit_zero (S := S1000x512) hz, View.ld_unit_zero (S := S1000x1) hz, View.ld_unit_zero (S := S1x512) hz]

end Pieces

/-! ## The block arithmetic at an index, over the extended reals -/

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column sum of a `[1000, 512]` block at column `q`: the sum over its 1000 rows. -/
theorem colsum_apply (src : FVec Ideal S1000x512 .f32) (hφ : FKind.Formats FTy.f32)
    (hacc : (0x00000000#32 : BitVec 32) = FKind.add.neutral FTy.f32 hφ) (q : Fin 512) :
    multiReduction (F := Ideal) .add [0] S512 src 0x00000000#32 reduces_S1000x512_S512 hφ hacc (ix1 q)
      = ∑ r : Fin 1000, src (ix2 r q) := by
  refine (Ideal.multiReduction_add_single src 0x00000000#32 reduces_S1000x512_S512 hφ hacc (ix1 q)).trans ?_
  refine Finset.sum_congr rfl fun r _ => congrArg src ?_
  funext a
  apply Fin.ext
  match a with
  | ⟨0, _⟩ => rfl
  | ⟨1, _⟩ => rfl

/-- The stored block at `(p, q)`: `(x0 + x1 * x2[p]) + x3[q]`. -/
theorem pay3_apply (x0 x1 : Vec Ideal S1000x512 .f32) (x2 : Vec Ideal S1000x1 .f32) (x3 : Vec Ideal S1x512 .f32)
    (p : Fin 1000) (q : Fin 512) :
    k1_pay3 (F := Ideal) x0 x1 x2 x3 (ix2 p q)
      = (x0 (ix2 p q) + x1 (ix2 p q) * x2 (ix2 p (0 : Fin 1))) + x3 (ix2 (0 : Fin 1) q) := by
  unfold k1_pay3
  simp only [shapeCast_self]
  show (x0 (ix2 p q) + x1 (ix2 p q) * broadcastTo S1000x512 x2 broadcasts_S1000x1_S1000x512 (ix2 p q))
      + broadcastTo S1000x512 x3 broadcasts_S1x512_S1000x512 (ix2 p q) = _
  rw [broadcastTo_a1_ab_apply x2 broadcasts_S1000x1_S1000x512 p q, broadcastTo_1b_ab_apply x3 broadcasts_S1x512_S1000x512 p q]

/-- The running column sum after a block: what was there plus the block's column sums. -/
theorem pay4_apply (x0 x1 : Vec Ideal S1000x512 .f32) (x2 : Vec Ideal S1000x1 .f32) (x3 : Vec Ideal S1x512 .f32)
    (acc : Vec Ideal S1x512 .f32) (u : Fin 1) (q : Fin 512) :
    k1_pay4 (F := Ideal) x0 x1 x2 x3 acc (ix2 u q)
      = acc (ix2 u q) + ∑ r : Fin 1000, k1_pay3 (F := Ideal) x0 x1 x2 x3 (ix2 r q) := by
  unfold k1_pay4
  simp only [shapeCast_self]
  show acc (ix2 u q) + shapeCast S1x512 _ shapeCasts_S512_S1x512 (ix2 u q) = _
  rw [shapeCast_a_1a_apply _ shapeCasts_S512_S1x512 u q]
  exact congrArg (acc (ix2 u q) + ·) (colsum_apply _ _ _ q)

/-- The running column sum of squares after a block: what was there plus the block's column sums of squares. -/
theorem pay5_apply (x0 x1 : Vec Ideal S1000x512 .f32) (x2 : Vec Ideal S1000x1 .f32) (x3 : Vec Ideal S1x512 .f32)
    (acc : Vec Ideal S1x512 .f32) (u : Fin 1) (q : Fin 512) :
    k1_pay5 (F := Ideal) x0 x1 x2 x3 acc (ix2 u q)
      = acc (ix2 u q) + ∑ r : Fin 1000, k1_pay3 (F := Ideal) x0 x1 x2 x3 (ix2 r q) * k1_pay3 (F := Ideal) x0 x1 x2 x3 (ix2 r q) := by
  unfold k1_pay5
  simp only [shapeCast_self]
  show acc (ix2 u q) + shapeCast S1x512 _ shapeCasts_S512_S1x512 (ix2 u q) = _
  rw [shapeCast_a_1a_apply _ shapeCasts_S512_S1x512 u q]
  exact congrArg (acc (ix2 u q) + ·) (colsum_apply _ _ _ q)

/-- The zero row the first block starts the running sums from. -/
theorem pay1_apply (j : S1x512.Idx) : k1_pay1 (F := Ideal) j = 0 := by
  unfold k1_pay1
  show Ideal.ofBits .f32 0x00000000#32 = 0
  exact Ideal.ofBits_zero_f32

theorem pay2_apply (j : S1x512.Idx) : k1_pay2 (F := Ideal) j = 0 := by
  unfold k1_pay2
  show Ideal.ofBits .f32 0x00000000#32 = 0
  exact Ideal.ofBits_zero_f32

/-! ## Where the blocks sit -/

/-- Row `p` of the block of 1000 rows number `t`: row `1000 t + p` of the 10000. -/
def rowOf (t : ℕ) (ht : t < 10) (p : Fin 1000) : Fin 10000 := ⟨t * 1000 + p.val, by have := p.isLt; omega⟩

/-- Where each window's block sits at point `t`: the row-blocked windows at block row `t`, the one-row windows at the origin. -/
theorem idx : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_3.index t (0 : Fin 2) = 0 ∧ win1_3.index t (1 : Fin 2) = 0
  ∧ win1_4.index t (0 : Fin 2) = t.val ∧ win1_4.index t (1 : Fin 2) = 0
  ∧ win1_5.index t (0 : Fin 2) = 0 ∧ win1_5.index t (1 : Fin 2) = 0
  ∧ win1_6.index t (0 : Fin 2) = 0 ∧ win1_6.index t (1 : Fin 2) = 0 :=
  (by decide +kernel : ∀ t : Fin grid1.N, _)

theorem mem_blk4 (t : Fin cfg1.N) (i : S10000x512.Idx) :
    i ∈ ((cfg1.win 4).blk t).view.set ↔ ∀ a : Fin 2, win1_4.index t a * S1000x512.size a ≤ (i a).val ∧ (i a).val < win1_4.index t a * S1000x512.size a + S1000x512.size a := by
  show i ∈ ((View.whole main_v48_0).slice (win1_4.rect t)).set ↔ _
  rw [View.set_slice_whole, Rect.mem_set_unit]
  exact Iff.rfl

theorem mem_blk5 (t : Fin cfg1.N) (i : S1x512.Idx) :
    i ∈ ((cfg1.win 5).blk t).view.set ↔ ∀ a : Fin 2, win1_5.index t a * S1x512.size a ≤ (i a).val ∧ (i a).val < win1_5.index t a * S1x512.size a + S1x512.size a := by
  show i ∈ ((View.whole main_v48_1).slice (win1_5.rect t)).set ↔ _
  rw [View.set_slice_whole, Rect.mem_set_unit]
  exact Iff.rfl

theorem mem_blk6 (t : Fin cfg1.N) (i : S1x512.Idx) :
    i ∈ ((cfg1.win 6).blk t).view.set ↔ ∀ a : Fin 2, win1_6.index t a * S1x512.size a ≤ (i a).val ∧ (i a).val < win1_6.index t a * S1x512.size a + S1x512.size a := by
  show i ∈ ((View.whole main_v48_2).slice (win1_6.rect t)).set ↔ _
  rw [View.set_slice_whole, Rect.mem_set_unit]
  exact Iff.rfl

/-- Every row of the 10000 lies in the block of the point `row / 1000`. -/
theorem cover4 (i : S10000x512.Idx) : ∃ t : Fin cfg1.N, (cfg1.win 4).flush t = true ∧ i ∈ ((cfg1.win 4).blk t).view.set := by
  have hN : cfg1.N = 10 := N_1
  have hi0 : (i 0).val < 10000 := (i 0).isLt
  have hi1 : (i 1).val < 512 := (i 1).isLt
  refine ⟨⟨(i 0).val / 1000, by rw [hN]; omega⟩, flush1_4 _, ?_⟩
  rw [mem_blk4]
  obtain ⟨-, -, -, -, -, -, -, -, e0, e1, -⟩ := idx ⟨(i 0).val / 1000, by rw [hN]; omega⟩
  intro a
  match a with
  | ⟨0, _⟩ =>
    show win1_4.index _ (0 : Fin 2) * 1000 ≤ (i 0).val ∧ (i 0).val < win1_4.index _ (0 : Fin 2) * 1000 + 1000
    rw [e0]; dsimp only; omega
  | ⟨1, _⟩ =>
    show win1_4.index _ (1 : Fin 2) * 512 ≤ (i 1).val ∧ (i 1).val < win1_4.index _ (1 : Fin 2) * 512 + 512
    rw [e1]; omega

/-- The last point's block of a one-row window is the whole row. -/
theorem cover5 (i : S1x512.Idx) : ∃ t : Fin cfg1.N, (cfg1.win 5).flush t = true ∧ i ∈ ((cfg1.win 5).blk t).view.set := by
  have hi0 : (i 0).val < 1 := (i 0).isLt
  have hi1 : (i 1).val < 512 := (i 1).isLt
  refine ⟨t1_9, (flush1_5 t1_9).mpr rfl, ?_⟩
  rw [mem_blk5]
  obtain ⟨-, -, -, -, -, -, -, -, -, -, e0, e1, -⟩ := idx t1_9
  intro a
  match a with
  | ⟨0, _⟩ =>
    show win1_5.index _ (0 : Fin 2) * 1 ≤ (i 0).val ∧ (i 0).val < win1_5.index _ (0 : Fin 2) * 1 + 1
    rw [e0]; omega
  | ⟨1, _⟩ =>
    show win1_5.index _ (1 : Fin 2) * 512 ≤ (i 1).val ∧ (i 1).val < win1_5.index _ (1 : Fin 2) * 512 + 512
    rw [e1]; omega

/-- The last point's block of a one-row window is the whole row. -/
theorem cover6 (i : S1x512.Idx) : ∃ t : Fin cfg1.N, (cfg1.win 6).flush t = true ∧ i ∈ ((cfg1.win 6).blk t).view.set := by
  have hi0 : (i 0).val < 1 := (i 0).isLt
  have hi1 : (i 1).val < 512 := (i 1).isLt
  refine ⟨t1_9, (flush1_6 t1_9).mpr rfl, ?_⟩
  rw [mem_blk6]
  obtain ⟨-, -, -, -, -, -, -, -, -, -, -, -, e0, e1⟩ := idx t1_9
  intro a
  match a with
  | ⟨0, _⟩ =>
    show win1_6.index _ (0 : Fin 2) * 1 ≤ (i 0).val ∧ (i 0).val < win1_6.index _ (0 : Fin 2) * 1 + 1
    rw [e0]; omega
  | ⟨1, _⟩ =>
    show win1_6.index _ (1 : Fin 2) * 512 ≤ (i 1).val ∧ (i 1).val < win1_6.index _ (1 : Fin 2) * 512 + 512
    rw [e1]; omega

/-! ## The loaded blocks, read off the arrays -/

section Arrays
variable (V : (c : Dev nD) → (b : Ref sig .tc) → Buf (Elt Ideal) ((c : Thread nD τ).loc b))

/-- Block `t` of agg at `(p, q)` is agg at row `1000 t + p`. -/
theorem iblk_0 (c : Dev nD) (t : Fin cfg1.N) (ht : t.val < 10) (p : Fin 1000) (q : Fin 512) :
    (iblk1 V c 0 t : S1000x512.Idx → EReal) (ix2 p q) = ((V c (Pipeline.arrRef spec1 0)) : S10000x512.Idx → EReal) (ix2 (rowOf t.val ht p) q) := by
  obtain ⟨e0, e1, -⟩ := idx t
  unfold iblk1
  rw [View.read_apply]
  refine congrArg (V c (Pipeline.arrRef spec1 0)) ?_
  funext a; apply Fin.ext
  match a with
  | ⟨0, _⟩ => show win1_0.index t (0 : Fin 2) * 1000 + 1 * p.val = t.val * 1000 + p.val; rw [e0]; omega
  | ⟨1, _⟩ => show win1_0.index t (1 : Fin 2) * 512 + 1 * q.val = q.val; rw [e1]; omega

/-- Block `t` of h at `(p, q)` is h at row `1000 t + p`. -/
theorem iblk_1 (c : Dev nD) (t : Fin cfg1.N) (ht : t.val < 10) (p : Fin 1000) (q : Fin 512) :
    (iblk1 V c 1 t : S1000x512.Idx → EReal) (ix2 p q) = ((V c (Pipeline.arrRef spec1 1)) : S10000x512.Idx → EReal) (ix2 (rowOf t.val ht p) q) := by
  obtain ⟨-, -, e0, e1, -⟩ := idx t
  unfold iblk1
  rw [View.read_apply]
  refine congrArg (V c (Pipeline.arrRef spec1 1)) ?_
  funext a; apply Fin.ext
  match a with
  | ⟨0, _⟩ => show win1_1.index t (0 : Fin 2) * 1000 + 1 * p.val = t.val * 1000 + p.val; rw [e0]; omega
  | ⟨1, _⟩ => show win1_1.index t (1 : Fin 2) * 512 + 1 * q.val = q.val; rw [e1]; omega

/-- Block `t` of d at `(p, 0)` is d at row `1000 t + p`. -/
theorem iblk_2 (c : Dev nD) (t : Fin cfg1.N) (ht : t.val < 10) (p : Fin 1000) :
    (iblk1 V c 2 t : S1000x1.Idx → EReal) (ix2 p (0 : Fin 1)) = ((V c (Pipeline.arrRef spec1 2)) : S10000x1.Idx → EReal) (ix2 (rowOf t.val ht p) (0 : Fin 1)) := by
  obtain ⟨-, -, -, -, e0, e1, -⟩ := idx t
  unfold iblk1
  rw [View.read_apply]
  refine congrArg (V c (Pipeline.arrRef spec1 2)) ?_
  funext a; apply Fin.ext
  match a with
  | ⟨0, _⟩ => show win1_2.index t (0 : Fin 2) * 1000 + 1 * p.val = t.val * 1000 + p.val; rw [e0]; omega
  | ⟨1, _⟩ => show win1_2.index t (1 : Fin 2) * 1 + 1 * 0 = 0; rw [e1]

/-- The one block of b is b. -/
theorem iblk_3 (c : Dev nD) (t : Fin cfg1.N) (q : Fin 512) :
    (iblk1 V c 3 t : S1x512.Idx → EReal) (ix2 (0 : Fin 1) q) = ((V c (Pipeline.arrRef spec1 3)) : S1x512.Idx → EReal) (ix2 (0 : Fin 1) q) := by
  obtain ⟨-, -, -, -, -, -, e0, e1, -⟩ := idx t
  unfold iblk1
  rw [View.read_apply]
  refine congrArg (V c (Pipeline.arrRef spec1 3)) ?_
  funext a; apply Fin.ext
  match a with
  | ⟨0, _⟩ => show win1_3.index t (0 : Fin 2) * 1 + 1 * 0 = 0; rw [e0]
  | ⟨1, _⟩ => show win1_3.index t (1 : Fin 2) * 512 + 1 * q.val = q.val; rw [e1]; omega

/-- g of the four arrays as the pass finds them. -/
def Gof (c : Dev nD) : S10000x512.Idx → EReal := (gcnOf (V c (Pipeline.arrRef spec1 0)) (V c (Pipeline.arrRef spec1 1)) (V c (Pipeline.arrRef spec1 2)) (V c (Pipeline.arrRef spec1 3)))

/-- Its square. -/
def Gsq (c : Dev nD) : S10000x512.Idx → EReal := fun i => Gof V c i * Gof V c i

/-- The column totals of a [10000, 512] array, as a [1, 512] row. -/
def colTotal (g : S10000x512.Idx → EReal) : S1x512.Idx → EReal := fun j => ∑ r : Fin 10000, g (ix2 r (j 1))

/-- The block a point stores, at `(p, q)`: g at row `1000 t + p`. -/
theorem pay3_blk (c : Dev nD) (t : Fin cfg1.N) (ht : t.val < 10) (p : Fin 1000) (q : Fin 512) :
    k1_pay3 (F := Ideal) (iblk1 V c 0 t) (iblk1 V c 1 t) (iblk1 V c 2 t) (iblk1 V c 3 t) (ix2 p q) = Gof V c (ix2 (rowOf t.val ht p) q) := by
  refine (pay3_apply (iblk1 V c 0 t) (iblk1 V c 1 t) (iblk1 V c 2 t) (iblk1 V c 3 t) p q).trans ?_
  rw [iblk_0 V c t ht p q, iblk_1 V c t ht p q, iblk_2 V c t ht p, iblk_3 V c t q]
  rfl

/-! ## The running rows after each block -/

/-- The column sum of g over the rows of block `s` (zero past the tenth block). -/
def blkSum (g : S10000x512.Idx → EReal) (q : Fin 512) (s : ℕ) : EReal :=
  if hs : s < 10 then ∑ p : Fin 1000, g (ix2 (rowOf s hs p) q) else 0

theorem colsum_blk (c : Dev nD) (t : Fin cfg1.N) (ht : t.val < 10) (q : Fin 512) :
    ∑ p : Fin 1000, k1_pay3 (F := Ideal) (iblk1 V c 0 t) (iblk1 V c 1 t) (iblk1 V c 2 t) (iblk1 V c 3 t) (ix2 p q) = blkSum (Gof V c) q t.val := by
  unfold blkSum
  rw [dif_pos ht]
  exact Finset.sum_congr rfl fun p _ => pay3_blk V c t ht p q

theorem colsumsq_blk (c : Dev nD) (t : Fin cfg1.N) (ht : t.val < 10) (q : Fin 512) :
    ∑ p : Fin 1000, k1_pay3 (F := Ideal) (iblk1 V c 0 t) (iblk1 V c 1 t) (iblk1 V c 2 t) (iblk1 V c 3 t) (ix2 p q) * k1_pay3 (F := Ideal) (iblk1 V c 0 t) (iblk1 V c 1 t) (iblk1 V c 2 t) (iblk1 V c 3 t) (ix2 p q)
      = blkSum (Gsq V c) q t.val := by
  unfold blkSum
  rw [dif_pos ht]
  refine Finset.sum_congr rfl fun p _ => ?_
  rw [pay3_blk V c t ht p q]
  rfl

/-- The three output blocks after the first point, as the block arithmetic. -/
theorem outs_zero (c : Dev nD) (hn : 0 < cfg1.N) :
    outsAt1 V c 0 hn = (k1_pay3 (iblk1 V c 0 ⟨0, hn⟩) (iblk1 V c 1 ⟨0, hn⟩) (iblk1 V c 2 ⟨0, hn⟩) (iblk1 V c 3 ⟨0, hn⟩), k1_pay4 (iblk1 V c 0 ⟨0, hn⟩) (iblk1 V c 1 ⟨0, hn⟩) (iblk1 V c 2 ⟨0, hn⟩) (iblk1 V c 3 ⟨0, hn⟩) (k1_pay1 (F := Ideal)), k1_pay5 (iblk1 V c 0 ⟨0, hn⟩) (iblk1 V c 1 ⟨0, hn⟩) (iblk1 V c 2 ⟨0, hn⟩) (iblk1 V c 3 ⟨0, hn⟩) (k1_pay2 (F := Ideal))) := by
  have e : outsAt1 V c 0 hn = _ := outsAt1_A V c ⟨0, hn⟩ (Nat.zero_mod _)
  rw [e, out_A_4, out_A_5, out_A_6]

/-- The three output blocks after a later point, over what the point before left. -/
theorem outs_succ (c : Dev nD) (n : ℕ) (hn : n + 1 < cfg1.N) :
    outsAt1 V c (n + 1) hn = (k1_pay3 (iblk1 V c 0 ⟨n + 1, hn⟩) (iblk1 V c 1 ⟨n + 1, hn⟩) (iblk1 V c 2 ⟨n + 1, hn⟩) (iblk1 V c 3 ⟨n + 1, hn⟩),
      k1_pay4 (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.1,
      k1_pay5 (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2) := by
  have hN : cfg1.N = 10 := N_1
  have hB : ¬(⟨n + 1, hn⟩ : Fin cfg1.N).val % 10 = 0 := by dsimp only; omega
  have e : outsAt1 V c (n + 1) hn = _ := outsAt1_B V c ⟨n + 1, hn⟩ hB
  rw [e, out_B_4, out_B_5, out_B_6]
  rfl

/-- After point `n`: the stored block is g on block `n`'s rows, and the two running rows hold the column sums of g, and of
    its square, over the rows of blocks `0 … n`. By induction on the point. -/
theorem outsAt_eq (c : Dev nD) (n : ℕ) : ∀ (hn : n < cfg1.N),
    (outsAt1 V c n hn).1 = k1_pay3 (iblk1 V c 0 ⟨n, hn⟩) (iblk1 V c 1 ⟨n, hn⟩) (iblk1 V c 2 ⟨n, hn⟩) (iblk1 V c 3 ⟨n, hn⟩)
    ∧ (∀ (u : Fin 1) (q : Fin 512), (outsAt1 V c n hn).2.1 (ix2 u q) = ∑ s ∈ Finset.range (n + 1), blkSum (Gof V c) q s)
    ∧ (∀ (u : Fin 1) (q : Fin 512), (outsAt1 V c n hn).2.2 (ix2 u q) = ∑ s ∈ Finset.range (n + 1), blkSum (Gsq V c) q s) := by
  induction n with
  | zero =>
    intro hn
    rw [outs_zero V c hn]
    refine ⟨rfl, fun u q => ?_, fun u q => ?_⟩
    · refine (pay4_apply (iblk1 V c 0 ⟨0, hn⟩) (iblk1 V c 1 ⟨0, hn⟩) (iblk1 V c 2 ⟨0, hn⟩) (iblk1 V c 3 ⟨0, hn⟩) (k1_pay1 (F := Ideal)) u q).trans ?_
      rw [pay1_apply, zero_add, Finset.sum_range_one]
      exact colsum_blk V c ⟨0, hn⟩ (show (0 : ℕ) < 10 by decide) q
    · refine (pay5_apply (iblk1 V c 0 ⟨0, hn⟩) (iblk1 V c 1 ⟨0, hn⟩) (iblk1 V c 2 ⟨0, hn⟩) (iblk1 V c 3 ⟨0, hn⟩) (k1_pay2 (F := Ideal)) u q).trans ?_
      rw [pay2_apply, zero_add, Finset.sum_range_one]
      exact colsumsq_blk V c ⟨0, hn⟩ (show (0 : ℕ) < 10 by decide) q
  | succ n ih =>
    intro hn
    have hN : cfg1.N = 10 := N_1
    have ht : (⟨n + 1, hn⟩ : Fin cfg1.N).val < 10 := by dsimp only; omega
    obtain ⟨-, ih5, ih6⟩ := ih (Nat.lt_of_succ_lt hn)
    rw [outs_succ V c n hn]
    refine ⟨rfl, fun u q => ?_, fun u q => ?_⟩
    · refine (pay4_apply (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.1 u q).trans ?_
      rw [ih5 u q, colsum_blk V c ⟨n + 1, hn⟩ ht q, Finset.sum_range_succ (fun s => blkSum (Gof V c) q s) (n + 1)]
    · refine (pay5_apply (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2 u q).trans ?_
      rw [ih6 u q, colsumsq_blk V c ⟨n + 1, hn⟩ ht q, Finset.sum_range_succ (fun s => blkSum (Gsq V c) q s) (n + 1)]

/-- The ten block sums are the sum over all 10000 rows. -/
theorem blkSum_total (g : S10000x512.Idx → EReal) (q : Fin 512) :
    ∑ s ∈ Finset.range (9 + 1), blkSum g q s = ∑ r : Fin 10000, g (ix2 r q) := by
  rw [Finset.sum_range (fun s => blkSum g q s)]
  refine Eq.trans ?_ (sum_blockRows 10 1000 (fun r : Fin (10 * 1000) => g (ix2 r q))).symm
  refine Finset.sum_congr rfl fun t _ => ?_
  unfold blkSum
  rw [dif_pos t.isLt]
  rfl

/-! ## What each point writes back, and the arrays after the pass -/

/-- What point `t` writes back to the [10000, 512] output: block `t` of g. -/
theorem flushed4 (c : Dev nD) (t : Fin cfg1.N) :
    (dat1 V c).flushed 4 t = ((cfg1.win 4).blk t).view.read (Elt Ideal) (Gof V c) := by
  have hN : cfg1.N = 10 := N_1
  have ht : t.val < 10 := by have := t.isLt; omega
  obtain ⟨-, -, -, -, -, -, -, -, e0, e1, -⟩ := idx t
  show (cfg1.win 4).cut (grid1.coords t) ((dat1 V c).after 4 t) = _
  rw [after1_4, (outsAt_eq V c t.val t.isLt).1]
  funext j
  obtain ⟨p, q, rfl⟩ : ∃ (p : Fin 1000) (q : Fin 512), j = ix2 p q := ⟨j 0, j 1, eq_ix2 j⟩
  refine (pay3_blk V c t ht p q).trans ?_
  rw [View.read_apply]
  refine congrArg (Gof V c) ?_
  funext a; apply Fin.ext
  match a with
  | ⟨0, _⟩ => show t.val * 1000 + p.val = win1_4.index t (0 : Fin 2) * 1000 + 1 * p.val; rw [e0]; omega
  | ⟨1, _⟩ => show q.val = win1_4.index t (1 : Fin 2) * 512 + 1 * q.val; rw [e1]; omega

/-- What the last point writes back to the sum row: the totals over all 10000 rows. -/
theorem flushed5 (c : Dev nD) (t : Fin cfg1.N) (hf : (cfg1.win 5).flush t = true) :
    (dat1 V c).flushed 5 t = ((cfg1.win 5).blk t).view.read (Elt Ideal) (colTotal (Gof V c)) := by
  have hN : cfg1.N = 10 := N_1
  have h9 : t.val = 9 := by have := (flush1_5 t).mp hf; have := t.isLt; omega
  obtain ⟨-, -, -, -, -, -, -, -, -, -, e0, e1, -⟩ := idx t
  show (cfg1.win 5).cut (grid1.coords t) ((dat1 V c).after 5 t) = _
  rw [after1_5]
  funext j
  obtain ⟨u, q, rfl⟩ : ∃ (u : Fin 1) (q : Fin 512), j = ix2 u q := ⟨j 0, j 1, eq_ix2 j⟩
  have hs : ∑ s ∈ Finset.range (t.val + 1), blkSum (Gof V c) q s = ∑ r : Fin 10000, Gof V c (ix2 r q) := by
    rw [h9]; exact blkSum_total _ q
  show (outsAt1 V c t.val t.isLt).2.1 (ix2 u q) = _
  rw [(outsAt_eq V c t.val t.isLt).2.1 u q, hs, View.read_apply]
  unfold colTotal
  refine Finset.sum_congr rfl fun r _ => congrArg (fun x : Fin 512 => Gof V c (ix2 r x)) (Fin.ext ?_)
  show q.val = win1_5.index t (1 : Fin 2) * 512 + 1 * q.val
  rw [e1]; omega

/-- What the last point writes back to the sum-of-squares row: the totals over all 10000 rows. -/
theorem flushed6 (c : Dev nD) (t : Fin cfg1.N) (hf : (cfg1.win 6).flush t = true) :
    (dat1 V c).flushed 6 t = ((cfg1.win 6).blk t).view.read (Elt Ideal) (colTotal (Gsq V c)) := by
  have hN : cfg1.N = 10 := N_1
  have h9 : t.val = 9 := by have := (flush1_6 t).mp hf; have := t.isLt; omega
  obtain ⟨-, -, -, -, -, -, -, -, -, -, -, -, e0, e1⟩ := idx t
  show (cfg1.win 6).cut (grid1.coords t) ((dat1 V c).after 6 t) = _
  rw [after1_6]
  funext j
  obtain ⟨u, q, rfl⟩ : ∃ (u : Fin 1) (q : Fin 512), j = ix2 u q := ⟨j 0, j 1, eq_ix2 j⟩
  have hs : ∑ s ∈ Finset.range (t.val + 1), blkSum (Gsq V c) q s = ∑ r : Fin 10000, Gsq V c (ix2 r q) := by
    rw [h9]; exact blkSum_total _ q
  show (outsAt1 V c t.val t.isLt).2.2 (ix2 u q) = _
  rw [(outsAt_eq V c t.val t.isLt).2.2 u q, hs, View.read_apply]
  unfold colTotal
  refine Finset.sum_congr rfl fun r _ => congrArg (fun x : Fin 512 => Gsq V c (ix2 r x)) (Fin.ext ?_)
  show q.val = win1_6.index t (1 : Fin 2) * 512 + 1 * q.val
  rw [e1]; omega

end Arrays

end Stats1

section Final
variable (V : (c : Dev nD) → (b : Ref sig .tc) → Buf (Elt Ideal) ((c : Thread nD τ).loc b)) (c : Dev nD)
  (agg h : S10000x512.Idx → EReal) (d : S10000x1.Idx → EReal) (b : S1x512.Idx → EReal)
  (h0 : V c (Pipeline.arrRef spec1 0) = agg) (h1 : V c (Pipeline.arrRef spec1 1) = h)
  (h2 : V c (Pipeline.arrRef spec1 2) = d) (h3 : V c (Pipeline.arrRef spec1 3) = b)
include h0 h1 h2 h3

/-- After the pass the [10000, 512] output holds g. -/
theorem stats1_gcn : ((dat1 (F := Ideal) V c).arrAt 4 cfg1.N : S10000x512.Idx → EReal) = gcnOf agg h d b := by
  subst h0 h1 h2 h3
  exact (dat1 V c).arrAt_eq_of_cover 4 (Stats1.Gof V c) (fun t _ => Stats1.flushed4 V c t) Stats1.cover4

/-- After the pass the sum row holds the column sums of g over all 10000 rows. -/
theorem stats1_sum : ((dat1 (F := Ideal) V c).arrAt 5 cfg1.N : S1x512.Idx → EReal)
    = fun j => ∑ r : Fin 10000, gcnOf agg h d b (ix2 r (j 1)) := by
  subst h0 h1 h2 h3
  exact (dat1 V c).arrAt_eq_of_cover 5 (Stats1.colTotal (Stats1.Gof V c)) (fun t hf => Stats1.flushed5 V c t hf) Stats1.cover5

/-- After the pass the sum-of-squares row holds the column sums of g * g over all 10000 rows. -/
theorem stats1_sumsq : ((dat1 (F := Ideal) V c).arrAt 6 cfg1.N : S1x512.Idx → EReal)
    = fun j => ∑ r : Fin 10000, gcnOf agg h d b (ix2 r (j 1)) * gcnOf agg h d b (ix2 r (j 1)) := by
  subst h0 h1 h2 h3
  exact (dat1 V c).arrAt_eq_of_cover 6 (Stats1.colTotal (Stats1.Gsq V c)) (fun t hf => Stats1.flushed6 V c t hf) Stats1.cover6

end Final

end Cert.KernelIdeal.RegionValue

end
-- ==== Proof.RegionNorm2.lean ====
/-
  The array a batch-norm + ReLU region leaves behind, index by index.

  The region normalises a [10000, 512] array x column by column with a mean row mu, a variance row var, a scale row g
  and a shift row be (each [1, 512]), ten row blocks of 1000 at a time:
      out (r, q) = max (((x (r, q) - mu (0, q)) * rsqrt (var (0, q) + eps)) * g (0, q) + be (0, q)) 0,
  eps the single-precision word 0x3727C5AC. The ten row blocks tile the array, so the array after the region is this
  function of the five arrays the region finds on entry, at every index.
-/
import proofs.«136907_j29480655519935_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-- The zero offsets of a whole-buffer load or store. -/
theorem norm2_hz : (![0, 0] : Fin 2 → Nat) = fun _ => 0 := funext fun a => by fin_cases a <;> rfl

/-- The normalised, scaled, shifted and clamped array, index by index. -/
abbrev normG2 (x : S10000x512.Idx → EReal) (mu var g be : S1x512.Idx → EReal) : S10000x512.Idx → EReal := fun i =>
  max (((x i - mu (ix2 (0 : Fin 1) (i 1))) * Ideal.rsqrt (var (ix2 (0 : Fin 1) (i 1)) + Ideal.ofBits .f32 0x3727C5AC#32))
    * g (ix2 (0 : Fin 1) (i 1)) + be (ix2 (0 : Fin 1) (i 1))) 0

/-- The body's arithmetic at one index of a row block: the pointwise operations read through, each row operand read at
    its one row. (The payload takes the variance row before the mean row.) -/
theorem norm2_pay (x : Vec Ideal S1000x512 .f32) (vr mu g be : Vec Ideal S1x512 .f32) (p : Fin 1000) (q : Fin 512) :
    k2_pay1 (F := Ideal) x vr mu g be (ix2 p q)
      = max (((x (ix2 p q) - mu (ix2 (0 : Fin 1) q)) * Ideal.rsqrt (vr (ix2 (0 : Fin 1) q) + Ideal.ofBits .f32 0x3727C5AC#32))
          * g (ix2 (0 : Fin 1) q) + be (ix2 (0 : Fin 1) q)) 0 := by
  unfold k2_pay1
  simp only [shapeCast_self]
  rw [truncf_apply, maximumf_apply, addf_apply, mulf_apply, mulf_apply, subf_apply, broadcast_apply,
    broadcastTo_1b_ab_apply, broadcastTo_1b_ab_apply, broadcastTo_1b_ab_apply, broadcastTo_1b_ab_apply]
  show max (((x (ix2 p q) - mu (ix2 (0 : Fin 1) q)) * Ideal.rsqrt (vr (ix2 (0 : Fin 1) q) + Ideal.ofBits .f32 0x3727C5AC#32))
      * g (ix2 (0 : Fin 1) q) + be (ix2 (0 : Fin 1) q)) (Ideal.ofBits .f32 0x00000000#32) = _
  rw [Ideal.ofBits_zero_f32]

/-- The same at a block index `j` sitting under the array index `i` (same column), the block of x read off the array X
    there and the four rows being the whole row arrays. -/
theorem norm2_point (x0 : Vec Ideal S1000x512 .f32) (x1 x2 x3 x4 : Vec Ideal S1x512 .f32)
    (X : S10000x512.Idx → EReal) (MU VR G BE : S1x512.Idx → EReal) (j : S1000x512.Idx) (i : S10000x512.Idx)
    (h0 : x0 j = X i) (h1 : x1 = MU) (h2 : x2 = VR) (h3 : x3 = G) (h4 : x4 = BE) (hq : (i 1).val = (j 1).val) :
    k2_pay1 (F := Ideal) x0 x2 x1 x3 x4 j = normG2 X MU VR G BE i := by
  subst h1 h2 h3 h4
  obtain ⟨p, q, rfl⟩ : ∃ (p : Fin 1000) (q : Fin 512), j = ix2 p q := ⟨j 0, j 1, eq_ix2 j⟩
  rw [norm2_pay, h0]
  have hi : i 1 = q := Fin.ext hq
  show _ = max (((X i - x1 (ix2 (0 : Fin 1) (i 1))) * Ideal.rsqrt (x2 (ix2 (0 : Fin 1) (i 1)) + Ideal.ofBits .f32 0x3727C5AC#32))
      * x3 (ix2 (0 : Fin 1) (i 1)) + x4 (ix2 (0 : Fin 1) (i 1))) 0
  rw [hi]

/-- The printed index maps, decided over the grid: the x window and the output window sit at row block `t`, column block
    0; the four row windows at block (0, 0) at every point. -/
theorem norm2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A row window's block, at any point, is the whole row array. -/
theorem norm2_row1 (c : Dev nD) (t : Fin cfg2.N) :
    (iblk2 V c 1 t : Vec Ideal S1x512 .f32) = (V c (Pipeline.arrRef spec2 1) : S1x512.Idx → EReal) := by
  obtain ⟨_, _, e0, e1, _⟩ := norm2_idx t
  funext y
  show V c (Pipeline.arrRef spec2 1) (((cfg2.win 1).blk t).view.emb y) = V c (Pipeline.arrRef spec2 1) y
  congr 1
  funext a; apply Fin.ext
  match a with
  | ⟨0, _⟩ => show win2_1.index t (0 : Fin 2) * 1 + 1 * (y 0).val = (y 0).val; omega
  | ⟨1, _⟩ => show win2_1.index t (1 : Fin 2) * 512 + 1 * (y 1).val = (y 1).val; omega
theorem norm2_row2 (c : Dev nD) (t : Fin cfg2.N) :
    (iblk2 V c 2 t : Vec Ideal S1x512 .f32) = (V c (Pipeline.arrRef spec2 2) : S1x512.Idx → EReal) := by
  obtain ⟨_, _, _, _, e0, e1, _⟩ := norm2_idx t
  funext y
  show V c (Pipeline.arrRef spec2 2) (((cfg2.win 2).blk t).view.emb y) = V c (Pipeline.arrRef spec2 2) y
  congr 1
  funext a; apply Fin.ext
  match a with
  | ⟨0, _⟩ => show win2_2.index t (0 : Fin 2) * 1 + 1 * (y 0).val = (y 0).val; omega
  | ⟨1, _⟩ => show win2_2.index t (1 : Fin 2) * 512 + 1 * (y 1).val = (y 1).val; omega
theorem norm2_row3 (c : Dev nD) (t : Fin cfg2.N) :
    (iblk2 V c 3 t : Vec Ideal S1x512 .f32) = (V c (Pipeline.arrRef spec2 3) : S1x512.Idx → EReal) := by
  obtain ⟨_, _, _, _, _, _, e0, e1, _⟩ := norm2_idx t
  funext y
  show V c (Pipeline.arrRef spec2 3) (((cfg2.win 3).blk t).view.emb y) = V c (Pipeline.arrRef spec2 3) y
  congr 1
  funext a; apply Fin.ext
  match a with
  | ⟨0, _⟩ => show win2_3.index t (0 : Fin 2) * 1 + 1 * (y 0).val = (y 0).val; omega
  | ⟨1, _⟩ => show win2_3.index t (1 : Fin 2) * 512 + 1 * (y 1).val = (y 1).val; omega
theorem norm2_row4 (c : Dev nD) (t : Fin cfg2.N) :
    (iblk2 V c 4 t : Vec Ideal S1x512 .f32) = (V c (Pipeline.arrRef spec2 4) : S1x512.Idx → EReal) := by
  obtain ⟨_, _, _, _, _, _, _, _, e0, e1, _⟩ := norm2_idx t
  funext y
  show V c (Pipeline.arrRef spec2 4) (((cfg2.win 4).blk t).view.emb y) = V c (Pipeline.arrRef spec2 4) y
  congr 1
  funext a; apply Fin.ext
  match a with
  | ⟨0, _⟩ => show win2_4.index t (0 : Fin 2) * 1 + 1 * (y 0).val = (y 0).val; omega
  | ⟨1, _⟩ => show win2_4.index t (1 : Fin 2) * 512 + 1 * (y 1).val = (y 1).val; omega

/-- Under a block index `j`, the x window's block and the output window's block at point `t` sit over the same index of
    the array … -/
theorem norm2_emb0 (t : Fin cfg2.N) (j : S1000x512.Idx) :
    (((cfg2.win 0).blk t).view.emb j : S10000x512.Idx) = (((cfg2.win 5).blk t).view.emb j : S10000x512.Idx) := by
  obtain ⟨e0, e1, _, _, _, _, _, _, _, _, e10, e11⟩ := norm2_idx t
  funext a; apply Fin.ext
  match a with
  | ⟨0, _⟩ => show win2_0.index t (0 : Fin 2) * 1000 + 1 * (j 0).val = win2_5.index t (0 : Fin 2) * 1000 + 1 * (j 0).val; omega
  | ⟨1, _⟩ => show win2_0.index t (1 : Fin 2) * 512 + 1 * (j 1).val = win2_5.index t (1 : Fin 2) * 512 + 1 * (j 1).val; omega
/-- … whose column is `j`'s column. -/
theorem norm2_emb5 (t : Fin cfg2.N) (j : S1000x512.Idx) :
    ((((cfg2.win 5).blk t).view.emb j : S10000x512.Idx) 1).val = (j 1).val := by
  obtain ⟨e0, e1, _, _, _, _, _, _, _, _, e10, e11⟩ := norm2_idx t
  show win2_5.index t (1 : Fin 2) * 512 + 1 * (j 1).val = (j 1).val
  omega

/-- What point `t` writes back is row block `t` of the normalised array of the five arrays as the region finds them. -/
theorem norm2_flushed (c : Dev nD) (t : Fin cfg2.N) :
    (dat2 (F := Ideal) V c).flushed 5 t = ((cfg2.win 5).blk t).view.read (Elt Ideal)
      (normG2 (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero norm2_hz]
  simp only [View.ld_unit_zero (S := S1000x512) norm2_hz, View.ld_unit_zero (S := S1x512) norm2_hz]
  funext j
  refine norm2_point (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4)) j (((cfg2.win 5).blk t).view.emb j)
    ?_ (norm2_row1 V c t) (norm2_row2 V c t) (norm2_row3 V c t) (norm2_row4 V c t) (norm2_emb5 t j)
  exact congrArg (V c (Pipeline.arrRef spec2 0) : S10000x512.Idx → EReal) (norm2_emb0 t j)

/-- An index of the array is in point `t`'s block iff each coordinate is in the block's range on its axis. -/
theorem norm2_mem_blk (t : Fin cfg2.N) (i : S10000x512.Idx) :
    i ∈ ((cfg2.win 5).blk t).view.set ↔ ∀ a : Fin 2, win2_5.index t a * S1000x512.size a ≤ (i a).val ∧ (i a).val < win2_5.index t a * S1000x512.size a + S1000x512.size a := by
  show i ∈ ((View.whole main_v61).slice (win2_5.rect t)).set ↔ _
  rw [View.set_slice_whole, Rect.mem_set_unit]
  exact Iff.rfl

/-- Every index of the array is in the block of the point its row falls under (row `r` under point `r / 1000`). -/
theorem norm2_cover (i : S10000x512.Idx) :
    ∃ t : Fin cfg2.N, (cfg2.win 5).flush t = true ∧ i ∈ ((cfg2.win 5).blk t).view.set := by
  have hi0 : (i 0).val < 10000 := (i 0).isLt
  have hi1 : (i 1).val < 512 := (i 1).isLt
  have hN : grid2.N = 10 := N_2
  let t : Fin cfg2.N := ⟨(i 0).val / 1000, by show _ < grid2.N; rw [hN]; omega⟩
  have ht : t.val = (i 0).val / 1000 := rfl
  obtain ⟨_, _, _, _, _, _, _, _, _, _, e10, e11⟩ := norm2_idx t
  refine ⟨t, flush2_5 t, ?_⟩
  rw [norm2_mem_blk]
  intro a
  match a with
  | ⟨0, _⟩ => show win2_5.index t (0 : Fin 2) * 1000 ≤ (i 0).val ∧ (i 0).val < win2_5.index t (0 : Fin 2) * 1000 + 1000; omega
  | ⟨1, _⟩ => show win2_5.index t (1 : Fin 2) * 512 ≤ (i 1).val ∧ (i 1).val < win2_5.index t (1 : Fin 2) * 512 + 512; omega

/-- THE ARRAY after the region: the normalised, scaled, shifted, clamped array of the five arrays the region finds on
    entry (named x, mu, var, g, be by the five equations), at every index. -/
theorem norm2_final (c : Dev nD) (x : S10000x512.Idx → EReal) (mu var g be : S1x512.Idx → EReal)
    (h0 : V c (Pipeline.arrRef spec2 0) = x) (h1 : V c (Pipeline.arrRef spec2 1) = mu)
    (h2 : V c (Pipeline.arrRef spec2 2) = var) (h3 : V c (Pipeline.arrRef spec2 3) = g)
    (h4 : V c (Pipeline.arrRef spec2 4) = be) :
    (dat2 (F := Ideal) V c).arrAt 5 cfg2.N
      = fun i => max (((x i - mu (ix2 (0 : Fin 1) (i 1))) * Ideal.rsqrt (var (ix2 (0 : Fin 1) (i 1)) + Ideal.ofBits .f32 0x3727C5AC#32))
          * g (ix2 (0 : Fin 1) (i 1)) + be (ix2 (0 : Fin 1) (i 1))) 0 := by
  subst h0 h1 h2 h3 h4
  exact (dat2 (F := Ideal) V c).arrAt_eq_of_cover 5
    (normG2 (V c (Pipeline.arrRef spec2 0)) (V c (Pipeline.arrRef spec2 1)) (V c (Pipeline.arrRef spec2 2))
      (V c (Pipeline.arrRef spec2 3)) (V c (Pipeline.arrRef spec2 4)))
    (fun t _ => norm2_flushed V c t) norm2_cover

end Cert.KernelIdeal.RegionValue

end
-- ==== Proof.ChainL1.lean ====
/-
  The first layer of the kernel program against the reference, buffer by buffer: the linear transform (a matrix product
  accumulated row block by row block) is the reference's contraction; the aggregation over the edges is the same host
  operations on the same operands; the pre-normalisation array, its column sums and sums of squares give the reference's
  column means and — every entry being real — its column variances (the mean of the squares minus the squared mean is
  the mean of the squared deviations); the normalised, rectified output is the reference's.
-/
import proofs.«136907_j29480655519935_1_alg».proof.Proof.Gen.KernelIdeal.Frame
import proofs.«136907_j29480655519935_1_alg».proof.Proof.RefRead
import proofs.«136907_j29480655519935_1_alg».proof.Proof.Carry
import proofs.«136907_j29480655519935_1_alg».proof.Proof.ChainBase
import proofs.«136907_j29480655519935_1_alg».proof.Proof.HostStretch
import proofs.«136907_j29480655519935_1_alg».proof.Proof.RegionMatmul0
import proofs.«136907_j29480655519935_1_alg».proof.Proof.RegionStats1
import proofs.«136907_j29480655519935_1_alg».proof.Proof.RegionNorm2
import proofs.«136907_j29480655519935_1_alg».proof.Proof.RefNorm1
set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

open Cert.KernelIdeal.RegionValue Cert.KernelIdeal.HostValue

/-! ## The layer's linear transform -/

theorem hlin1  : W2 (F := Ideal) m ρ c (Proc.devRef .tc main_v17) = Cert.ReferenceIdeal.Read.val_main_v11 (F := Ideal) (m ((c : Thread nD τ).loc main_arg0)) (m ((c : Thread nD τ).loc main_arg2)) := by
  refine (W2_arr m ρ c 2).trans ?_
  refine (matmul0_final (V1 m ρ) c (m ((c : Thread nD τ).loc main_arg0)) (m ((c : Thread nD τ).loc main_arg2)) (w1_v12 m ρ c) (w1_v13 m ρ c)).trans ?_
  funext i
  refine Eq.trans ?_ (Cert.ReferenceIdeal.Read.val_main_v11_apply (m ((c : Thread nD τ).loc main_arg0)) (m ((c : Thread nD τ).loc main_arg2)) i).symm
  refine Finset.sum_congr rfl fun k _ => ?_
  have el : (ix2 (i 0) k : S10000x512.Idx) = Cert.ReferenceIdeal.Read.lidx_main_v11 i k := funext fun a => Fin.ext (by match a with | ⟨0, _⟩ => rfl | ⟨1, _⟩ => rfl)
  have er : (ix2 k (i 1) : S512x512.Idx) = Cert.ReferenceIdeal.Read.ridx_main_v11 i k := funext fun a => Fin.ext (by match a with | ⟨0, _⟩ => rfl | ⟨1, _⟩ => rfl)
  rw [el, er]

/-! ## The aggregation over the edges: the same host operations on both sides -/

set_option maxHeartbeats 4000000 in
theorem agg_of1 (Fv : Valuation τ sig (Elt Ideal)) (X : (⟨Cert.ReferenceIdeal.S10000x512, .f32⟩ : BufTy).Contents (Elt Ideal)) (Wt : (⟨Cert.ReferenceIdeal.S512x512, .f32⟩ : BufTy).Contents (Elt Ideal))
    (hsrc : Fv (Proc.devRef .tc main_v1) = Cert.ReferenceIdeal.Read.val_main_v1 (F := Ideal) (m ((c : Thread nD τ).loc main_arg1)))
    (hdst : Fv (Proc.devRef .tc main_v3) = Cert.ReferenceIdeal.Read.val_main_v3 (F := Ideal) (m ((c : Thread nD τ).loc main_arg1)))
    (hdis : Fv (Proc.devRef .tc main_v10) = Cert.ReferenceIdeal.Read.val_main_v10 (F := Ideal) (m ((c : Thread nD τ).loc main_arg1)))
    (hlin : Fv (Proc.devRef .tc main_v17) = Cert.ReferenceIdeal.Read.val_main_v11 (F := Ideal) X Wt) :
    StableHlo.after (hostOps1 (F := Ideal)) Fv (Proc.devRef .tc main_v45) = Cert.ReferenceIdeal.Read.val_main_v39 (F := Ideal) X (m ((c : Thread nD τ).loc main_arg1)) Wt := by
  after_results_simp
  rw [hsrc, hdst, hdis, hlin]
  rfl

theorem agg1  : W3 (F := Ideal) m ρ c (Proc.devRef .tc main_v45) = Cert.ReferenceIdeal.Read.val_main_v39 (F := Ideal) (m ((c : Thread nD τ).loc main_arg0)) (m ((c : Thread nD τ).loc main_arg1)) (m ((c : Thread nD τ).loc main_arg2)) :=
  agg_of1 m c (W2 (F := Ideal) m ρ c) (m ((c : Thread nD τ).loc main_arg0)) (m ((c : Thread nD τ).loc main_arg2))
    ((keep_main_v1_2_1 m ρ c).trans (w1_src m ρ c)) ((keep_main_v3_2_1 m ρ c).trans (w1_dst m ρ c))
    ((keep_main_v10_2_1 m ρ c).trans (w1_dis m ρ c)) (hlin1 m ρ c )

theorem dsq1 : W3 (F := Ideal) m ρ c (Proc.devRef .tc main_v46) = (fun i => Cert.ReferenceIdeal.Read.val_main_v40 (F := Ideal) (m ((c : Thread nD τ).loc main_arg1)) (ix1 (i 0)) : S10000x1.Idx → EReal) := by
  refine (d2_l1 (W2 (F := Ideal) m ρ c)).trans ?_
  rw [(keep_main_v11_2_1 m ρ c).trans (w1_dis2 m ρ c)]
  rfl

theorem bias1 : W3 (F := Ideal) m ρ c (Proc.devRef .tc main_v47) = (fun i => (m ((c : Thread nD τ).loc main_arg3)) (ix1 (i 1)) : S1x512.Idx → EReal) := by
  refine (b_l1 (W2 (F := Ideal) m ρ c)).trans ?_
  rw [keep_main_arg3_2_0 m ρ c]
  rfl

/-! ## The pre-normalisation array and its column sums -/

/-- The kernel's sum  aggregate + (transform · squared inverse root degree) + bias  is the reference's pre-normalisation
    array, entry by entry: the reference broadcasts the squared inverse root degree along the columns and the bias along the rows. -/
theorem gcn_bridge1 (X : (⟨Cert.ReferenceIdeal.S10000x512, .f32⟩ : BufTy).Contents (Elt Ideal)) (A1 : (⟨Cert.ReferenceIdeal.S2x160000, .i32⟩ : BufTy).Contents (Elt Ideal)) (Wt : (⟨Cert.ReferenceIdeal.S512x512, .f32⟩ : BufTy).Contents (Elt Ideal)) (Bv : (⟨Cert.ReferenceIdeal.S512, .f32⟩ : BufTy).Contents (Elt Ideal)) :
    gcnOf (Cert.ReferenceIdeal.Read.val_main_v39 (F := Ideal) X A1 Wt) (Cert.ReferenceIdeal.Read.val_main_v11 (F := Ideal) X Wt)
      (fun i => Cert.ReferenceIdeal.Read.val_main_v40 (F := Ideal) A1 (ix1 (i 0)) : S10000x1.Idx → EReal) (fun i => Bv (ix1 (i 1)) : S1x512.Idx → EReal)
      = Cert.ReferenceIdeal.Read.val_main_v47 (F := Ideal) X A1 Wt Bv := by
  funext i
  rw [Cert.ReferenceIdeal.Read.val_main_v47_apply, Cert.ReferenceIdeal.Read.val_main_v44_apply, Cert.ReferenceIdeal.Read.val_main_v43_apply, Cert.ReferenceIdeal.Read.val_main_v42_apply, Cert.ReferenceIdeal.Read.val_main_v41_apply,
    Cert.ReferenceIdeal.Read.val_main_v46_apply, Cert.ReferenceIdeal.Read.val_main_v45_apply]
  have e1 : Cert.ReferenceIdeal.Read.idx_main_v41 (Cert.ReferenceIdeal.Read.idx_main_v42 i) = ix1 (i 0) := funext fun a => Fin.ext (by match a with | ⟨0, _⟩ => rfl)
  have e2 : Cert.ReferenceIdeal.Read.idx_main_v45 (Cert.ReferenceIdeal.Read.idx_main_v46 i) = ix1 (i 1) := funext fun a => Fin.ext (by match a with | ⟨0, _⟩ => rfl)
  rw [e1, e2]
  rfl

theorem gcn1  : W4 (F := Ideal) m ρ c (Proc.devRef .tc main_v48_0) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) :=
  ((W4_arr m ρ c 4).trans (stats1_gcn (V3 m ρ) c _ _ _ _ (agg1 m ρ c ) ((keep_main_v17_3_2 m ρ c).trans (hlin1 m ρ c )) (dsq1 m ρ c) (bias1 m ρ c))).trans (gcn_bridge1 (m ((c : Thread nD τ).loc main_arg0)) (m ((c : Thread nD τ).loc main_arg1)) (m ((c : Thread nD τ).loc main_arg2)) (m ((c : Thread nD τ).loc main_arg3)))

theorem colsum1  : W4 (F := Ideal) m ρ c (Proc.devRef .tc main_v48_1) = (fun j => ∑ r : Fin 10000, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (ix2 r (j 1)) : S1x512.Idx → EReal) := by
  refine ((W4_arr m ρ c 5).trans (stats1_sum (V3 m ρ) c _ _ _ _ (agg1 m ρ c ) ((keep_main_v17_3_2 m ρ c).trans (hlin1 m ρ c )) (dsq1 m ρ c) (bias1 m ρ c))).trans ?_
  rw [gcn_bridge1 (m ((c : Thread nD τ).loc main_arg0)) (m ((c : Thread nD τ).loc main_arg1)) (m ((c : Thread nD τ).loc main_arg2)) (m ((c : Thread nD τ).loc main_arg3))]
  rfl

theorem colsumsq1  : W4 (F := Ideal) m ρ c (Proc.devRef .tc main_v48_2) = (fun j => ∑ r : Fin 10000, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (ix2 r (j 1)) * Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (ix2 r (j 1)) : S1x512.Idx → EReal) := by
  refine ((W4_arr m ρ c 6).trans (stats1_sumsq (V3 m ρ) c _ _ _ _ (agg1 m ρ c ) ((keep_main_v17_3_2 m ρ c).trans (hlin1 m ρ c )) (dsq1 m ρ c) (bias1 m ρ c))).trans ?_
  rw [gcn_bridge1 (m ((c : Thread nD τ).loc main_arg0)) (m ((c : Thread nD τ).loc main_arg1)) (m ((c : Thread nD τ).loc main_arg2)) (m ((c : Thread nD τ).loc main_arg3))]
  rfl

/-! ## The column means and variances -/

theorem mean1  : W5 (F := Ideal) m ρ c (Proc.devRef .tc main_v57) = (fun j => Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (ix1 (j 1)) : S1x512.Idx → EReal) := by
  refine (mean_l1 (W4 (F := Ideal) m ρ c)).trans ?_
  funext j
  rw [colsum1 m ρ c ]
  exact (Cert.ReferenceIdeal.NormRead.mean1_apply (m ((c : Thread nD τ).loc main_arg0)) (m ((c : Thread nD τ).loc main_arg1)) (m ((c : Thread nD τ).loc main_arg2)) (m ((c : Thread nD τ).loc main_arg3)) (ix1 (j 1))).symm

theorem var1  (hg : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) : W5 (F := Ideal) m ρ c (Proc.devRef .tc main_v58) = (fun j => Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (ix1 (j 1)) : S1x512.Idx → EReal) := by
  refine (var_l1 (W4 (F := Ideal) m ρ c)).trans ?_
  funext j
  rw [colsum1 m ρ c , colsumsq1 m ρ c ]
  exact (Cert.ReferenceIdeal.NormRead.var1_apply (m ((c : Thread nD τ).loc main_arg0)) (m ((c : Thread nD τ).loc main_arg1)) (m ((c : Thread nD τ).loc main_arg2)) (m ((c : Thread nD τ).loc main_arg3)) hg (ix1 (j 1))).symm

theorem scale1 : W5 (F := Ideal) m ρ c (Proc.devRef .tc main_v59) = (fun j => (m ((c : Thread nD τ).loc main_arg4)) (ix1 (j 1)) : S1x512.Idx → EReal) := by
  refine (g_l1 (W4 (F := Ideal) m ρ c)).trans ?_
  rw [keep_main_arg4_4_0 m ρ c]
  rfl

theorem shift1 : W5 (F := Ideal) m ρ c (Proc.devRef .tc main_v60) = (fun j => (m ((c : Thread nD τ).loc main_arg5)) (ix1 (j 1)) : S1x512.Idx → EReal) := by
  refine (be_l1 (W4 (F := Ideal) m ρ c)).trans ?_
  rw [keep_main_arg5_4_0 m ρ c]
  rfl

/-! ## The normalised, rectified output -/

theorem out1  (hg : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) : W6 (F := Ideal) m ρ c (Proc.devRef .tc main_v61) = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 5).trans ?_
  refine (norm2_final (V5 m ρ) c _ _ _ _ _ ((keep_main_v48_0_5_4 m ρ c).trans (gcn1 m ρ c ))
    (mean1 m ρ c ) (var1 m ρ c  hg) (scale1 m ρ c) (shift1 m ρ c)).trans ?_
  funext i
  exact (Cert.ReferenceIdeal.NormRead.out1_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i).symm

end Cert.KernelIdeal.Chain

end
-- ==== Proof.ChainL2.lean ====
/-
  The second layer of the kernel program against the reference: the same chain as the first layer, with the first
  layer's output in place of the node features (the reference's second layer is its first layer's operations applied to
  that output).
-/
import proofs.«136907_j29480655519935_1_alg».proof.Proof.Gen.KernelIdeal.Frame
import proofs.«136907_j29480655519935_1_alg».proof.Proof.RefRead
import proofs.«136907_j29480655519935_1_alg».proof.Proof.Carry
import proofs.«136907_j29480655519935_1_alg».proof.Proof.ChainBase
import proofs.«136907_j29480655519935_1_alg».proof.Proof.HostStretch
import proofs.«136907_j29480655519935_1_alg».proof.Proof.RegionMatmul3
import proofs.«136907_j29480655519935_1_alg».proof.Proof.RegionStats4
import proofs.«136907_j29480655519935_1_alg».proof.Proof.RegionNorm5
import proofs.«136907_j29480655519935_1_alg».proof.Proof.RefNorm1
import proofs.«136907_j29480655519935_1_alg».proof.Proof.ChainL1
set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

open Cert.KernelIdeal.RegionValue Cert.KernelIdeal.HostValue

/-! ## The layer's linear transform -/

theorem hlin2 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) : W7 (F := Ideal) m ρ c (Proc.devRef .tc main_v62) = Cert.ReferenceIdeal.Read.val_main_v11 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  refine (W7_arr m ρ c 2).trans ?_
  refine (matmul3_final (V6 m ρ) c (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (out1 m ρ c hg1) ((keep_main_v14_6_1 m ρ c).trans (w1_v14 m ρ c))).trans ?_
  funext i
  refine Eq.trans ?_ (Cert.ReferenceIdeal.Read.val_main_v11_apply (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) i).symm
  refine Finset.sum_congr rfl fun k _ => ?_
  have el : (ix2 (i 0) k : S10000x512.Idx) = Cert.ReferenceIdeal.Read.lidx_main_v11 i k := funext fun a => Fin.ext (by match a with | ⟨0, _⟩ => rfl | ⟨1, _⟩ => rfl)
  have er : (ix2 k (i 1) : S512x512.Idx) = Cert.ReferenceIdeal.Read.ridx_main_v11 i k := funext fun a => Fin.ext (by match a with | ⟨0, _⟩ => rfl | ⟨1, _⟩ => rfl)
  rw [el, er]

/-! ## The aggregation over the edges: the same host operations on both sides -/

set_option maxHeartbeats 4000000 in
theorem agg_of2 (Fv : Valuation τ sig (Elt Ideal)) (X : (⟨Cert.ReferenceIdeal.S10000x512, .f32⟩ : BufTy).Contents (Elt Ideal)) (Wt : (⟨Cert.ReferenceIdeal.S512x512, .f32⟩ : BufTy).Contents (Elt Ideal))
    (hsrc : Fv (Proc.devRef .tc main_v1) = Cert.ReferenceIdeal.Read.val_main_v1 (F := Ideal) (m ((c : Thread nD τ).loc main_arg1)))
    (hdst : Fv (Proc.devRef .tc main_v3) = Cert.ReferenceIdeal.Read.val_main_v3 (F := Ideal) (m ((c : Thread nD τ).loc main_arg1)))
    (hdis : Fv (Proc.devRef .tc main_v10) = Cert.ReferenceIdeal.Read.val_main_v10 (F := Ideal) (m ((c : Thread nD τ).loc main_arg1)))
    (hlin : Fv (Proc.devRef .tc main_v62) = Cert.ReferenceIdeal.Read.val_main_v11 (F := Ideal) X Wt) :
    StableHlo.after (hostOps4 (F := Ideal)) Fv (Proc.devRef .tc main_v90) = Cert.ReferenceIdeal.Read.val_main_v39 (F := Ideal) X (m ((c : Thread nD τ).loc main_arg1)) Wt := by
  after_results_simp
  rw [hsrc, hdst, hdis, hlin]
  rfl

theorem agg2 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) : W8 (F := Ideal) m ρ c (Proc.devRef .tc main_v90) = Cert.ReferenceIdeal.Read.val_main_v39 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) :=
  agg_of2 m c (W7 (F := Ideal) m ρ c) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))
    ((keep_main_v1_7_1 m ρ c).trans (w1_src m ρ c)) ((keep_main_v3_7_1 m ρ c).trans (w1_dst m ρ c))
    ((keep_main_v10_7_1 m ρ c).trans (w1_dis m ρ c)) (hlin2 m ρ c hg1)

theorem dsq2 : W8 (F := Ideal) m ρ c (Proc.devRef .tc main_v91) = (fun i => Cert.ReferenceIdeal.Read.val_main_v40 (F := Ideal) (m ((c : Thread nD τ).loc main_arg1)) (ix1 (i 0)) : S10000x1.Idx → EReal) := by
  refine (d2_l2 (W7 (F := Ideal) m ρ c)).trans ?_
  rw [(keep_main_v11_7_1 m ρ c).trans (w1_dis2 m ρ c)]
  rfl

theorem bias2 : W8 (F := Ideal) m ρ c (Proc.devRef .tc main_v92) = (fun i => (m ((c : Thread nD τ).loc main_arg7)) (ix1 (i 1)) : S1x512.Idx → EReal) := by
  refine (b_l2 (W7 (F := Ideal) m ρ c)).trans ?_
  rw [keep_main_arg7_7_0 m ρ c]
  rfl

/-! ## The pre-normalisation array and its column sums -/

/-- The kernel's sum  aggregate + (transform · squared inverse root degree) + bias  is the reference's pre-normalisation
    array, entry by entry: the reference broadcasts the squared inverse root degree along the columns and the bias along the rows. -/
theorem gcn_bridge2 (X : (⟨Cert.ReferenceIdeal.S10000x512, .f32⟩ : BufTy).Contents (Elt Ideal)) (A1 : (⟨Cert.ReferenceIdeal.S2x160000, .i32⟩ : BufTy).Contents (Elt Ideal)) (Wt : (⟨Cert.ReferenceIdeal.S512x512, .f32⟩ : BufTy).Contents (Elt Ideal)) (Bv : (⟨Cert.ReferenceIdeal.S512, .f32⟩ : BufTy).Contents (Elt Ideal)) :
    gcnOf4 (Cert.ReferenceIdeal.Read.val_main_v39 (F := Ideal) X A1 Wt) (Cert.ReferenceIdeal.Read.val_main_v11 (F := Ideal) X Wt)
      (fun i => Cert.ReferenceIdeal.Read.val_main_v40 (F := Ideal) A1 (ix1 (i 0)) : S10000x1.Idx → EReal) (fun i => Bv (ix1 (i 1)) : S1x512.Idx → EReal)
      = Cert.ReferenceIdeal.Read.val_main_v47 (F := Ideal) X A1 Wt Bv := by
  funext i
  rw [Cert.ReferenceIdeal.Read.val_main_v47_apply, Cert.ReferenceIdeal.Read.val_main_v44_apply, Cert.ReferenceIdeal.Read.val_main_v43_apply, Cert.ReferenceIdeal.Read.val_main_v42_apply, Cert.ReferenceIdeal.Read.val_main_v41_apply,
    Cert.ReferenceIdeal.Read.val_main_v46_apply, Cert.ReferenceIdeal.Read.val_main_v45_apply]
  have e1 : Cert.ReferenceIdeal.Read.idx_main_v41 (Cert.ReferenceIdeal.Read.idx_main_v42 i) = ix1 (i 0) := funext fun a => Fin.ext (by match a with | ⟨0, _⟩ => rfl)
  have e2 : Cert.ReferenceIdeal.Read.idx_main_v45 (Cert.ReferenceIdeal.Read.idx_main_v46 i) = ix1 (i 1) := funext fun a => Fin.ext (by match a with | ⟨0, _⟩ => rfl)
  rw [e1, e2]
  rfl

theorem gcn2 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) : W9 (F := Ideal) m ρ c (Proc.devRef .tc main_v93_0) = Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) :=
  ((W9_arr m ρ c 4).trans (stats4_gcn (V8 m ρ) c _ _ _ _ (agg2 m ρ c hg1) ((keep_main_v62_8_7 m ρ c).trans (hlin2 m ρ c hg1)) (dsq2 m ρ c) (bias2 m ρ c))).trans (gcn_bridge2 (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)))

theorem colsum2 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) : W9 (F := Ideal) m ρ c (Proc.devRef .tc main_v93_1) = (fun j => ∑ r : Fin 10000, Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (ix2 r (j 1)) : S1x512.Idx → EReal) := by
  refine ((W9_arr m ρ c 5).trans (stats4_sum (V8 m ρ) c _ _ _ _ (agg2 m ρ c hg1) ((keep_main_v62_8_7 m ρ c).trans (hlin2 m ρ c hg1)) (dsq2 m ρ c) (bias2 m ρ c))).trans ?_
  rw [gcn_bridge2 (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7))]
  rfl

theorem colsumsq2 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) : W9 (F := Ideal) m ρ c (Proc.devRef .tc main_v93_2) = (fun j => ∑ r : Fin 10000, Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (ix2 r (j 1)) * Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (ix2 r (j 1)) : S1x512.Idx → EReal) := by
  refine ((W9_arr m ρ c 6).trans (stats4_sumsq (V8 m ρ) c _ _ _ _ (agg2 m ρ c hg1) ((keep_main_v62_8_7 m ρ c).trans (hlin2 m ρ c hg1)) (dsq2 m ρ c) (bias2 m ρ c))).trans ?_
  rw [gcn_bridge2 (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7))]
  rfl

/-! ## The column means and variances -/

theorem mean2 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) : W10 (F := Ideal) m ρ c (Proc.devRef .tc main_v102) = (fun j => Cert.ReferenceIdeal.Read.val_main_v50 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (ix1 (j 1)) : S1x512.Idx → EReal) := by
  refine (mean_l2 (W9 (F := Ideal) m ρ c)).trans ?_
  funext j
  rw [colsum2 m ρ c hg1]
  exact (Cert.ReferenceIdeal.NormRead.mean1_apply (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (ix1 (j 1))).symm

theorem var2 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) (hg : ∀ i, ∃ r : ℝ, Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) i = (r : EReal)) : W10 (F := Ideal) m ρ c (Proc.devRef .tc main_v103) = (fun j => Cert.ReferenceIdeal.Read.val_main_v57 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (ix1 (j 1)) : S1x512.Idx → EReal) := by
  refine (var_l2 (W9 (F := Ideal) m ρ c)).trans ?_
  funext j
  rw [colsum2 m ρ c hg1, colsumsq2 m ρ c hg1]
  exact (Cert.ReferenceIdeal.NormRead.var1_apply (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) hg (ix1 (j 1))).symm

theorem scale2 : W10 (F := Ideal) m ρ c (Proc.devRef .tc main_v104) = (fun j => (m ((c : Thread nD τ).loc main_arg8)) (ix1 (j 1)) : S1x512.Idx → EReal) := by
  refine (g_l2 (W9 (F := Ideal) m ρ c)).trans ?_
  rw [keep_main_arg8_9_0 m ρ c]
  rfl

theorem shift2 : W10 (F := Ideal) m ρ c (Proc.devRef .tc main_v105) = (fun j => (m ((c : Thread nD τ).loc main_arg9)) (ix1 (j 1)) : S1x512.Idx → EReal) := by
  refine (be_l2 (W9 (F := Ideal) m ρ c)).trans ?_
  rw [keep_main_arg9_9_0 m ρ c]
  rfl

/-! ## The normalised, rectified output -/

theorem out2 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) (hg : ∀ i, ∃ r : ℝ, Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) i = (r : EReal)) : W11 (F := Ideal) m ρ c (Proc.devRef .tc main_v106) = Cert.ReferenceIdeal.Read.val_main_v73 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9)) := by
  refine (W11_arr m ρ c 5).trans ?_
  refine (norm5_final (V10 m ρ) c _ _ _ _ _ ((keep_main_v93_0_10_9 m ρ c).trans (gcn2 m ρ c hg1))
    (mean2 m ρ c hg1) (var2 m ρ c hg1 hg) (scale2 m ρ c) (shift2 m ρ c)).trans ?_
  funext i
  exact (Cert.ReferenceIdeal.NormRead.out1_apply (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9)) i).symm

end Cert.KernelIdeal.Chain

end
-- ==== Proof.ChainL3.lean ====
/-
  The third layer of the kernel program against the reference: the same chain as the first two layers with 256 output
  columns, on the second layer's output.
-/
import proofs.«136907_j29480655519935_1_alg».proof.Proof.Gen.KernelIdeal.Frame
import proofs.«136907_j29480655519935_1_alg».proof.Proof.RefRead
import proofs.«136907_j29480655519935_1_alg».proof.Proof.Carry
import proofs.«136907_j29480655519935_1_alg».proof.Proof.ChainBase
import proofs.«136907_j29480655519935_1_alg».proof.Proof.HostStretch
import proofs.«136907_j29480655519935_1_alg».proof.Proof.RegionMatmul6
import proofs.«136907_j29480655519935_1_alg».proof.Proof.RegionStats7
import proofs.«136907_j29480655519935_1_alg».proof.Proof.RegionNorm8
import proofs.«136907_j29480655519935_1_alg».proof.Proof.RefNorm3
import proofs.«136907_j29480655519935_1_alg».proof.Proof.ChainL2
set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

open Cert.KernelIdeal.RegionValue Cert.KernelIdeal.HostValue

/-! ## The layer's linear transform -/

theorem hlin3 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) (hg2 : ∀ i, ∃ r : ℝ, Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) i = (r : EReal)) : W12 (F := Ideal) m ρ c (Proc.devRef .tc main_v107) = Cert.ReferenceIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 2).trans ?_
  refine (matmul6_final (V11 m ρ) c (Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (out2 m ρ c hg1 hg2) ((keep_main_v15_11_1 m ρ c).trans (w1_v15 m ρ c))).trans ?_
  funext i
  refine Eq.trans ?_ (Cert.ReferenceIdeal.Read.val_main_v137_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i).symm
  refine Finset.sum_congr rfl fun k _ => ?_
  have el : (ix2 (i 0) k : S10000x512.Idx) = Cert.ReferenceIdeal.Read.lidx_main_v137 i k := funext fun a => Fin.ext (by match a with | ⟨0, _⟩ => rfl | ⟨1, _⟩ => rfl)
  have er : (ix2 k (i 1) : S512x256.Idx) = Cert.ReferenceIdeal.Read.ridx_main_v137 i k := funext fun a => Fin.ext (by match a with | ⟨0, _⟩ => rfl | ⟨1, _⟩ => rfl)
  rw [el, er]

/-! ## The aggregation over the edges: the same host operations on both sides -/

set_option maxHeartbeats 4000000 in
theorem agg_of3 (Fv : Valuation τ sig (Elt Ideal))
    (hsrc : Fv (Proc.devRef .tc main_v1) = Cert.ReferenceIdeal.Read.val_main_v1 (F := Ideal) (m ((c : Thread nD τ).loc main_arg1)))
    (hdst : Fv (Proc.devRef .tc main_v3) = Cert.ReferenceIdeal.Read.val_main_v3 (F := Ideal) (m ((c : Thread nD τ).loc main_arg1)))
    (hdis : Fv (Proc.devRef .tc main_v10) = Cert.ReferenceIdeal.Read.val_main_v10 (F := Ideal) (m ((c : Thread nD τ).loc main_arg1)))
    (hlin : Fv (Proc.devRef .tc main_v107) = Cert.ReferenceIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    StableHlo.after (hostOps7 (F := Ideal)) Fv (Proc.devRef .tc main_v135) = Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  after_results_simp
  rw [hsrc, hdst, hdis, hlin]
  rfl

theorem agg3 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) (hg2 : ∀ i, ∃ r : ℝ, Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) i = (r : EReal)) : W13 (F := Ideal) m ρ c (Proc.devRef .tc main_v135) = Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  agg_of3 m c (W12 (F := Ideal) m ρ c)
    ((keep_main_v1_12_1 m ρ c).trans (w1_src m ρ c)) ((keep_main_v3_12_1 m ρ c).trans (w1_dst m ρ c))
    ((keep_main_v10_12_1 m ρ c).trans (w1_dis m ρ c)) (hlin3 m ρ c hg1 hg2)

theorem dsq3 : W13 (F := Ideal) m ρ c (Proc.devRef .tc main_v136) = (fun i => Cert.ReferenceIdeal.Read.val_main_v40 (F := Ideal) (m ((c : Thread nD τ).loc main_arg1)) (ix1 (i 0)) : S10000x1.Idx → EReal) := by
  refine (d2_l3 (W12 (F := Ideal) m ρ c)).trans ?_
  rw [(keep_main_v11_12_1 m ρ c).trans (w1_dis2 m ρ c)]
  rfl

theorem bias3 : W13 (F := Ideal) m ρ c (Proc.devRef .tc main_v137) = (fun i => (m ((c : Thread nD τ).loc main_arg11)) (ix1 (i 1)) : S1x256.Idx → EReal) := by
  refine (b_l3 (W12 (F := Ideal) m ρ c)).trans ?_
  rw [keep_main_arg11_12_0 m ρ c]
  rfl

/-! ## The pre-normalisation array and its column sums -/

/-- The kernel's sum  aggregate + (transform · squared inverse root degree) + bias  is the reference's pre-normalisation
    array of the third layer, entry by entry. -/
theorem gcn_bridge3 (x0 : (⟨Cert.ReferenceIdeal.S10000x512, .f32⟩ : BufTy).Contents (Elt Ideal)) (x1 : (⟨Cert.ReferenceIdeal.S2x160000, .i32⟩ : BufTy).Contents (Elt Ideal)) (x2 : (⟨Cert.ReferenceIdeal.S512x512, .f32⟩ : BufTy).Contents (Elt Ideal)) (x3 : (⟨Cert.ReferenceIdeal.S512, .f32⟩ : BufTy).Contents (Elt Ideal)) (x4 : (⟨Cert.ReferenceIdeal.S512, .f32⟩ : BufTy).Contents (Elt Ideal)) (x5 : (⟨Cert.ReferenceIdeal.S512, .f32⟩ : BufTy).Contents (Elt Ideal)) (x6 : (⟨Cert.ReferenceIdeal.S512x512, .f32⟩ : BufTy).Contents (Elt Ideal)) (x7 : (⟨Cert.ReferenceIdeal.S512, .f32⟩ : BufTy).Contents (Elt Ideal)) (x8 : (⟨Cert.ReferenceIdeal.S512, .f32⟩ : BufTy).Contents (Elt Ideal)) (x9 : (⟨Cert.ReferenceIdeal.S512, .f32⟩ : BufTy).Contents (Elt Ideal)) (x10 : (⟨Cert.ReferenceIdeal.S512x256, .f32⟩ : BufTy).Contents (Elt Ideal)) (x11 : (⟨Cert.ReferenceIdeal.S256, .f32⟩ : BufTy).Contents (Elt Ideal)) :
    gcnOf7 (Cert.ReferenceIdeal.Read.val_main_v165 (F := Ideal) x0 x1 x2 x3 x4 x5 x6 x7 x8 x9 x10) (Cert.ReferenceIdeal.Read.val_main_v137 (F := Ideal) x0 x1 x2 x3 x4 x5 x6 x7 x8 x9 x10)
      (fun i => Cert.ReferenceIdeal.Read.val_main_v40 (F := Ideal) x1 (ix1 (i 0)) : S10000x1.Idx → EReal) (fun i => x11 (ix1 (i 1)) : S1x256.Idx → EReal)
      = Cert.ReferenceIdeal.Read.val_main_v173 (F := Ideal) x0 x1 x2 x3 x4 x5 x6 x7 x8 x9 x10 x11 := by
  funext i
  rw [Cert.ReferenceIdeal.Read.val_main_v173_apply, Cert.ReferenceIdeal.Read.val_main_v170_apply, Cert.ReferenceIdeal.Read.val_main_v169_apply, Cert.ReferenceIdeal.Read.val_main_v168_apply, Cert.ReferenceIdeal.Read.val_main_v167_apply,
    Cert.ReferenceIdeal.Read.val_main_v172_apply, Cert.ReferenceIdeal.Read.val_main_v171_apply]
  have e1 : Cert.ReferenceIdeal.Read.idx_main_v167 (Cert.ReferenceIdeal.Read.idx_main_v168 i) = ix1 (i 0) := funext fun a => Fin.ext (by match a with | ⟨0, _⟩ => rfl)
  have e2 : Cert.ReferenceIdeal.Read.idx_main_v171 (Cert.ReferenceIdeal.Read.idx_main_v172 i) = ix1 (i 1) := funext fun a => Fin.ext (by match a with | ⟨0, _⟩ => rfl)
  rw [e1, e2]
  rfl

theorem gcn3 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) (hg2 : ∀ i, ∃ r : ℝ, Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) i = (r : EReal)) : W14 (F := Ideal) m ρ c (Proc.devRef .tc main_v138_0) = Cert.ReferenceIdeal.Read.val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((W14_arr m ρ c 4).trans (stats7_gcn (V13 m ρ) c _ _ _ _ (agg3 m ρ c hg1 hg2) ((keep_main_v107_13_12 m ρ c).trans (hlin3 m ρ c hg1 hg2)) (dsq3 m ρ c) (bias3 m ρ c))).trans (gcn_bridge3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))

theorem colsum3 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) (hg2 : ∀ i, ∃ r : ℝ, Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) i = (r : EReal)) : W14 (F := Ideal) m ρ c (Proc.devRef .tc main_v138_1) = (fun j => ∑ r : Fin 10000, Cert.ReferenceIdeal.Read.val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 r (j 1)) : S1x256.Idx → EReal) := by
  refine ((W14_arr m ρ c 5).trans (stats7_sum (V13 m ρ) c _ _ _ _ (agg3 m ρ c hg1 hg2) ((keep_main_v107_13_12 m ρ c).trans (hlin3 m ρ c hg1 hg2)) (dsq3 m ρ c) (bias3 m ρ c))).trans ?_
  rw [gcn_bridge3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))]
  rfl

theorem colsumsq3 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) (hg2 : ∀ i, ∃ r : ℝ, Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) i = (r : EReal)) : W14 (F := Ideal) m ρ c (Proc.devRef .tc main_v138_2) = (fun j => ∑ r : Fin 10000, Cert.ReferenceIdeal.Read.val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 r (j 1)) * Cert.ReferenceIdeal.Read.val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 r (j 1)) : S1x256.Idx → EReal) := by
  refine ((W14_arr m ρ c 6).trans (stats7_sumsq (V13 m ρ) c _ _ _ _ (agg3 m ρ c hg1 hg2) ((keep_main_v107_13_12 m ρ c).trans (hlin3 m ρ c hg1 hg2)) (dsq3 m ρ c) (bias3 m ρ c))).trans ?_
  rw [gcn_bridge3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))]
  rfl

/-! ## The column means and variances -/

theorem mean3 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) (hg2 : ∀ i, ∃ r : ℝ, Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) i = (r : EReal)) : W15 (F := Ideal) m ρ c (Proc.devRef .tc main_v147) = (fun j => Cert.ReferenceIdeal.Read.val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix1 (j 1)) : S1x256.Idx → EReal) := by
  refine (mean_l3 (W14 (F := Ideal) m ρ c)).trans ?_
  funext j
  rw [colsum3 m ρ c hg1 hg2]
  exact (Cert.ReferenceIdeal.NormRead.mean3_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix1 (j 1))).symm

theorem var3 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) (hg2 : ∀ i, ∃ r : ℝ, Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) i = (r : EReal)) (hg : ∀ i, ∃ r : ℝ, Cert.ReferenceIdeal.Read.val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i = (r : EReal)) : W15 (F := Ideal) m ρ c (Proc.devRef .tc main_v148) = (fun j => Cert.ReferenceIdeal.Read.val_main_v183 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix1 (j 1)) : S1x256.Idx → EReal) := by
  refine (var_l3 (W14 (F := Ideal) m ρ c)).trans ?_
  funext j
  rw [colsum3 m ρ c hg1 hg2, colsumsq3 m ρ c hg1 hg2]
  exact (Cert.ReferenceIdeal.NormRead.var3_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) hg (ix1 (j 1))).symm

theorem scale3 : W15 (F := Ideal) m ρ c (Proc.devRef .tc main_v149) = (fun j => (m ((c : Thread nD τ).loc main_arg12)) (ix1 (j 1)) : S1x256.Idx → EReal) := by
  refine (g_l3 (W14 (F := Ideal) m ρ c)).trans ?_
  rw [keep_main_arg12_14_0 m ρ c]
  rfl

theorem shift3 : W15 (F := Ideal) m ρ c (Proc.devRef .tc main_v150) = (fun j => (m ((c : Thread nD τ).loc main_arg13)) (ix1 (j 1)) : S1x256.Idx → EReal) := by
  refine (be_l3 (W14 (F := Ideal) m ρ c)).trans ?_
  rw [keep_main_arg13_14_0 m ρ c]
  rfl

/-! ## The normalised, rectified output -/

theorem out3 (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) (hg2 : ∀ i, ∃ r : ℝ, Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) i = (r : EReal)) (hg : ∀ i, ∃ r : ℝ, Cert.ReferenceIdeal.Read.val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i = (r : EReal)) : W16 (F := Ideal) m ρ c (Proc.devRef .tc main_v151) = Cert.ReferenceIdeal.Read.val_main_v199 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W16_arr m ρ c 5).trans ?_
  refine (norm8_final (V15 m ρ) c _ _ _ _ _ ((keep_main_v138_0_15_14 m ρ c).trans (gcn3 m ρ c hg1 hg2))
    (mean3 m ρ c hg1 hg2) (var3 m ρ c hg1 hg2 hg) (scale3 m ρ c) (shift3 m ρ c)).trans ?_
  funext i
  exact (Cert.ReferenceIdeal.NormRead.out3_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) i).symm

end Cert.KernelIdeal.Chain

end
-- ==== Proof.RegionMatmulBias9.lean ====
/- The array the last region leaves: a matrix product plus a bias row. Its left operand is a [10000, 256] array x,
   read in ten blocks of 1000 rows; its right operand is a [256, 10] array w and its bias a [1, 10] row b, both read
   whole at every grid point; each point writes the 1000 rows of the [10000, 10] output it computed. After the region
   the output's entry (r, c) is (the sum over k < 256 of x(r, k) * w(k, c)) + b(0, c), at the extended-real values. -/
import proofs.«136907_j29480655519935_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

/-! ## The operand indices of the product at an output index and a contraction index -/

theorem matmulbias9_lhs0 (i : S1000x10.Idx) (u : dot_S1000x256_S256x10_S1000x10_1_0_0_1_n_n.contr.Idx) :
    (dot_S1000x256_S256x10_S1000x10_1_0_0_1_n_n.lhsIdx i u 0).val = (i 0).val := by
  unfold DotDims.lhsIdx
  rw [dif_neg (show ¬(0 : Fin S1000x256.rank) ∈ dot_S1000x256_S256x10_S1000x10_1_0_0_1_n_n.lhsBatch by decide), dif_pos (show (0 : Fin S1000x256.rank) ∈ dot_S1000x256_S256x10_S1000x10_1_0_0_1_n_n.lhsNonContracting by decide)]
  rfl
theorem matmulbias9_lhs1 (i : S1000x10.Idx) (u : dot_S1000x256_S256x10_S1000x10_1_0_0_1_n_n.contr.Idx) :
    (dot_S1000x256_S256x10_S1000x10_1_0_0_1_n_n.lhsIdx i u 1).val = (u ⟨0, by decide⟩).val :=
  dot_S1000x256_S256x10_S1000x10_1_0_0_1_n_n.lhsIdx_val_of_single rfl i u
theorem matmulbias9_rhs0 (i : S1000x10.Idx) (u : dot_S1000x256_S256x10_S1000x10_1_0_0_1_n_n.contr.Idx) :
    (dot_S1000x256_S256x10_S1000x10_1_0_0_1_n_n.rhsIdx i u 0).val = (u ⟨0, by decide⟩).val :=
  dot_S1000x256_S256x10_S1000x10_1_0_0_1_n_n.rhsIdx_val_of_single rfl i u
theorem matmulbias9_rhs1 (i : S1000x10.Idx) (u : dot_S1000x256_S256x10_S1000x10_1_0_0_1_n_n.contr.Idx) :
    (dot_S1000x256_S256x10_S1000x10_1_0_0_1_n_n.rhsIdx i u 1).val = (i 1).val := by
  unfold DotDims.rhsIdx
  rw [dif_neg (show ¬(1 : Fin S256x10.rank) ∈ dot_S1000x256_S256x10_S1000x10_1_0_0_1_n_n.rhsBatch by decide), dif_pos (show (1 : Fin S256x10.rank) ∈ dot_S1000x256_S256x10_S1000x10_1_0_0_1_n_n.rhsNonContracting by decide)]
  rfl

/-- The product into a zero accumulator at an index of the block: the sum over the contraction axis of the products
    of the left operand's row and the right operand's column. -/
theorem matmulbias9_prod (x0 : FVec Ideal S1000x256 .bf16) (x1 : FVec Ideal S256x10 .bf16) (p : Fin 1000) (q : Fin 10) :
    FloatOps.matmul (F := Ideal) dot_S1000x256_S256x10_S1000x10_1_0_0_1_n_n none x0 x1 (constant (F := Ideal) S1000x10 .f32 0x00000000#32) (ix2 p q)
      = ∑ k : Fin 256, x0 (ix2 p k) * x1 (ix2 k q) := by
  rw [Ideal.matmul_constant_zero_apply, ← Equiv.sum_comp (contrEquiv1 dot_S1000x256_S256x10_S1000x10_1_0_0_1_n_n 256 rfl rfl).symm]
  refine Finset.sum_congr rfl fun k _ => ?_
  have hk := contrEquiv1_symm_val dot_S1000x256_S256x10_S1000x10_1_0_0_1_n_n 256 rfl rfl k
  have el : dot_S1000x256_S256x10_S1000x10_1_0_0_1_n_n.lhsIdx (ix2 p q) ((contrEquiv1 dot_S1000x256_S256x10_S1000x10_1_0_0_1_n_n 256 rfl rfl).symm k) = ix2 p k := funext fun a => Fin.ext (by
    match a with
    | ⟨0, _⟩ => exact matmulbias9_lhs0 _ _
    | ⟨1, _⟩ => exact (matmulbias9_lhs1 _ _).trans hk)
  have er : dot_S1000x256_S256x10_S1000x10_1_0_0_1_n_n.rhsIdx (ix2 p q) ((contrEquiv1 dot_S1000x256_S256x10_S1000x10_1_0_0_1_n_n 256 rfl rfl).symm k) = ix2 k q := funext fun a => Fin.ext (by
    match a with
    | ⟨0, _⟩ => exact (matmulbias9_rhs0 _ _).trans hk
    | ⟨1, _⟩ => exact matmulbias9_rhs1 _ _)
  rw [el, er]

/-- The bias row laid along every row of the block, at an index. -/
theorem matmulbias9_row (b : FVec Ideal S1x10 .f32) (p : Fin 1000) (q : Fin 10) :
    broadcastTo S1000x10 b broadcasts_S1x10_S1000x10 (ix2 p q) = b (ix2 (0 : Fin 1) q) :=
  broadcastTo_apply b broadcasts_S1x10_S1000x10 (ix2 p q) (ix2 (0 : Fin 1) q) (by
    intro a
    match a with
    | ⟨0, _⟩ => rfl
    | ⟨1, _⟩ => rfl)

/-- The body's result at an index of the block: the product's entry plus the bias of its column. -/
theorem matmulbias9_pay (x0 : Vec Ideal S1000x256 .bf16) (x1 : Vec Ideal S256x10 .bf16) (x2 : Vec Ideal S1x10 .f32) (p : Fin 1000) (q : Fin 10) :
    Gen.k9_pay1 (F := Ideal) x0 x1 x2 (ix2 p q) = (∑ k : Fin 256, x0 (ix2 p k) * x1 (ix2 k q)) + x2 (ix2 (0 : Fin 1) q) := by
  unfold Gen.k9_pay1
  simp only [shapeCast_self]
  rw [addf_apply]
  exact congrArg₂ (· + ·) (matmulbias9_prod x0 x1 p q) (matmulbias9_row x2 p q)

/-! ## From the blocks to the array -/

theorem matmulbias9_hz : (![0, 0] : Fin 2 → Nat) = fun _ => 0 := funext fun a => by fin_cases a <;> rfl

/-- The product of a [10000, 256] array and a [256, 10] array plus a [1, 10] row laid along every row, index by index. -/
abbrev matmulbias9_G (A : S10000x256.Idx → EReal) (B : S256x10.Idx → EReal) (b : S1x10.Idx → EReal) : S10000x10.Idx → EReal :=
  fun i => (∑ k : Fin 256, A (ix2 (i 0) k) * B (ix2 k (i 1))) + b (ix2 (0 : Fin 1) (i 1))

/-- A block of 1000 rows of the result: when the left block holds rows `r * 1000 …` of `A`, the right block is all of
    `B` and the row block is all of `b`, the body's result at (p, q) is the result's entry (r * 1000 + p, q). -/
theorem matmulbias9_block (A : S10000x256.Idx → EReal) (B : S256x10.Idx → EReal) (b : S1x10.Idx → EReal)
    (x0 : Vec Ideal S1000x256 .bf16) (x1 : Vec Ideal S256x10 .bf16) (x2 : Vec Ideal S1x10 .f32)
    (r : Nat) (hr : r < 10)
    (h0 : ∀ (p : Fin 1000) (k : Fin 256), x0 (ix2 p k) = A (ix2 (⟨r * 1000 + p.val, by have := p.isLt; omega⟩ : Fin 10000) k))
    (h1 : ∀ (k : Fin 256) (q : Fin 10), x1 (ix2 k q) = B (ix2 k q))
    (h2 : ∀ (q : Fin 10), x2 (ix2 (0 : Fin 1) q) = b (ix2 (0 : Fin 1) q)) (p : Fin 1000) (q : Fin 10) :
    k9_pay1 (F := Ideal) x0 x1 x2 (ix2 p q) = matmulbias9_G A B b (ix2 (⟨r * 1000 + p.val, by have := p.isLt; omega⟩ : Fin 10000) q) := by
  rw [matmulbias9_pay]
  show _ = (∑ k : Fin 256, A (ix2 (⟨r * 1000 + p.val, by have := p.isLt; omega⟩ : Fin 10000) k) * B (ix2 k q)) + b (ix2 (0 : Fin 1) q)
  rw [h2]
  exact congrArg (· + b (ix2 (0 : Fin 1) q)) (Finset.sum_congr rfl fun k _ => by rw [h0, h1])

/-- The block indices over the grid: the left operand's and the output's blocks are the point's 1000 rows, all
    columns; the right operand's and the row's blocks are the whole arrays at every point. -/
theorem matmulbias9_idx : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

set_option maxHeartbeats 1600000 in
/-- What point `t` writes back is block `t` of the product plus the row, of the arrays as the region finds them. -/
theorem matmulbias9_flushed (V : (c : Dev nD) → (b : Ref sig .tc) → Buf (Elt Ideal) ((c : Thread nD τ).loc b)) (c : Dev nD) (t : Fin cfg9.N) :
    (dat9 (F := Ideal) V c).flushed 3 t
      = ((cfg9.win 3).blk t).view.read (Elt Ideal) (matmulbias9_G (V c (Pipeline.arrRef spec9 0)) (V c (Pipeline.arrRef spec9 1)) (V c (Pipeline.arrRef spec9 2))) := by
  show (cfg9.win 3).cut (grid9.coords t) ((dat9 (F := Ideal) V c).after 3 t) = _
  rw [after9_3]
  unfold out9_3
  rw [View.canon_unit_zero matmulbias9_hz]
  simp only [View.ld_unit_zero (S := S1000x256) matmulbias9_hz, View.ld_unit_zero (S := S256x10) matmulbias9_hz, View.ld_unit_zero (S := S1x10) matmulbias9_hz]
  obtain ⟨e0, e1, e2, e3, e4, e5, e6, e7⟩ := matmulbias9_idx t
  have ht : t.val < 10 := t.isLt.trans_eq N_9
  refine funext fun (j : S1000x10.Idx) => ?_
  obtain ⟨p, q, rfl⟩ : ∃ (p : Fin 1000) (q : Fin 10), j = ix2 p q := ⟨j 0, j 1, eq_ix2 j⟩
  have hemb : ((cfg9.win 3).blk t).view.emb (ix2 p q)
      = (ix2 (⟨t.val * 1000 + p.val, by have := p.isLt; omega⟩ : Fin 10000) q : S10000x10.Idx) := by
    funext a; apply Fin.ext
    match a with
    | ⟨0, _⟩ => show win9_3.index t (0 : Fin 2) * 1000 + 1 * p.val = t.val * 1000 + p.val; omega
    | ⟨1, _⟩ => show win9_3.index t (1 : Fin 2) * 10 + 1 * q.val = q.val; omega
  show k9_pay1 (F := Ideal) (iblk9 V c 0 t) (iblk9 V c 1 t) (iblk9 V c 2 t) (ix2 p q)
    = matmulbias9_G (V c (Pipeline.arrRef spec9 0)) (V c (Pipeline.arrRef spec9 1)) (V c (Pipeline.arrRef spec9 2)) (((cfg9.win 3).blk t).view.emb (ix2 p q))
  refine (matmulbias9_block (V c (Pipeline.arrRef spec9 0)) (V c (Pipeline.arrRef spec9 1)) (V c (Pipeline.arrRef spec9 2)) (iblk9 V c 0 t) (iblk9 V c 1 t) (iblk9 V c 2 t) t.val ht ?_ ?_ ?_ p q).trans
    (congrArg (matmulbias9_G (V c (Pipeline.arrRef spec9 0)) (V c (Pipeline.arrRef spec9 1)) (V c (Pipeline.arrRef spec9 2))) hemb.symm)
  · intro p k
    show V c (Pipeline.arrRef spec9 0) (((cfg9.win 0).blk t).view.emb (ix2 p k))
      = V c (Pipeline.arrRef spec9 0) (ix2 (⟨t.val * 1000 + p.val, by have := p.isLt; omega⟩ : Fin 10000) k : S10000x256.Idx)
    refine congrArg _ (funext fun a => Fin.ext ?_)
    match a with
    | ⟨0, _⟩ => show win9_0.index t (0 : Fin 2) * 1000 + 1 * p.val = t.val * 1000 + p.val; omega
    | ⟨1, _⟩ => show win9_0.index t (1 : Fin 2) * 256 + 1 * k.val = k.val; omega
  · intro k q
    show V c (Pipeline.arrRef spec9 1) (((cfg9.win 1).blk t).view.emb (ix2 k q))
      = V c (Pipeline.arrRef spec9 1) (ix2 k q : S256x10.Idx)
    refine congrArg _ (funext fun a => Fin.ext ?_)
    match a with
    | ⟨0, _⟩ => show win9_1.index t (0 : Fin 2) * 256 + 1 * k.val = k.val; omega
    | ⟨1, _⟩ => show win9_1.index t (1 : Fin 2) * 10 + 1 * q.val = q.val; omega
  · intro q
    show V c (Pipeline.arrRef spec9 2) (((cfg9.win 2).blk t).view.emb (ix2 (0 : Fin 1) q))
      = V c (Pipeline.arrRef spec9 2) (ix2 (0 : Fin 1) q : S1x10.Idx)
    refine congrArg _ (funext fun a => Fin.ext ?_)
    match a with
    | ⟨0, _⟩ => show win9_2.index t (0 : Fin 2) * 1 + 1 * 0 = 0; omega
    | ⟨1, _⟩ => show win9_2.index t (1 : Fin 2) * 10 + 1 * q.val = q.val; omega

/-- An index of the array is in point `t`'s block iff each coordinate is in the block's range on its axis. -/
theorem matmulbias9_mem_blk (t : Fin cfg9.N) (i : S10000x10.Idx) :
    i ∈ ((cfg9.win 3).blk t).view.set ↔ ∀ a : Fin 2, win9_3.index t a * S1000x10.size a ≤ (i a).val ∧ (i a).val < win9_3.index t a * S1000x10.size a + S1000x10.size a := by
  show i ∈ ((View.whole main_v153).slice (win9_3.rect t)).set ↔ _
  rw [View.set_slice_whole, Rect.mem_set_unit]
  exact Iff.rfl

/-- Every index of the array is in the block of the point its row falls in. -/
theorem matmulbias9_cover (i : S10000x10.Idx) :
    ∃ t : Fin cfg9.N, (cfg9.win 3).flush t = true ∧ i ∈ ((cfg9.win 3).blk t).view.set := by
  have hi0 : (i 0).val < 10000 := (i 0).isLt
  have hi1 : (i 1).val < 10 := (i 1).isLt
  have hN : cfg9.N = 10 := N_9
  refine ⟨⟨(i 0).val / 1000, by rw [hN]; omega⟩, flush9_3 _, ?_⟩
  rw [matmulbias9_mem_blk]
  obtain ⟨e0, e1, e2, e3, e4, e5, e6, e7⟩ := matmulbias9_idx ⟨(i 0).val / 1000, by rw [hN]; omega⟩
  intro a
  match a with
  | ⟨0, _⟩ =>
    show win9_3.index _ (0 : Fin 2) * 1000 ≤ (i 0).val ∧ (i 0).val < win9_3.index _ (0 : Fin 2) * 1000 + 1000
    rw [e6]
    show (i 0).val / 1000 * 1000 ≤ (i 0).val ∧ (i 0).val < (i 0).val / 1000 * 1000 + 1000
    omega
  | ⟨1, _⟩ =>
    show win9_3.index _ (1 : Fin 2) * 10 ≤ (i 1).val ∧ (i 1).val < win9_3.index _ (1 : Fin 2) * 10 + 10
    rw [e7]
    omega

/-- THE ARRAY after the region is the product of the two arrays plus the row, as the region finds them. -/
theorem matmulbias9_final_G (V : (c : Dev nD) → (b : Ref sig .tc) → Buf (Elt Ideal) ((c : Thread nD τ).loc b)) (c : Dev nD) :
    (dat9 (F := Ideal) V c).arrAt 3 cfg9.N = matmulbias9_G (V c (Pipeline.arrRef spec9 0)) (V c (Pipeline.arrRef spec9 1)) (V c (Pipeline.arrRef spec9 2)) :=
  (dat9 (F := Ideal) V c).arrAt_eq_of_cover 3 (matmulbias9_G (V c (Pipeline.arrRef spec9 0)) (V c (Pipeline.arrRef spec9 1)) (V c (Pipeline.arrRef spec9 2)))
    (fun t _ => matmulbias9_flushed V c t) matmulbias9_cover

/-- THE ARRAY after the region: entry (r, c) is the sum over k of the left array's (r, k) times the right array's (k, c),
    plus the row's entry (0, c). -/
theorem matmulbias9_final (V : (c : Dev nD) → (b : Ref sig .tc) → Buf (Elt Ideal) ((c : Thread nD τ).loc b)) (c : Dev nD)
    (x : S10000x256.Idx → EReal) (w : S256x10.Idx → EReal) (b : S1x10.Idx → EReal)
    (hx : V c (Pipeline.arrRef spec9 0) = x) (hw : V c (Pipeline.arrRef spec9 1) = w) (hb : V c (Pipeline.arrRef spec9 2) = b) :
    (dat9 (F := Ideal) V c).arrAt 3 cfg9.N
      = (fun i => (∑ k : Fin 256, x (ix2 (i 0) k) * w (ix2 k (i 1))) + b (ix2 (0 : Fin 1) (i 1)) : S10000x10.Idx → EReal) := by
  subst hx hw hb
  exact matmulbias9_final_G V c

end Cert.KernelIdeal.RegionValue

end
-- ==== Proof.ChainOut.lean ====
/-
  From the last region to the reference's last stages.

  The last region leaves, at (r, c), the sum over k of its left array at (r, k) times its right array at (k, c), plus its
  row array at (0, c). When the left array is the reference's stage before its last product, the right array the
  reference's weight argument and the row array the reference's bias argument laid out as one row, that is the reference's
  result: its product stage read at an index is the same sum, and its two broadcasts of the bias read the bias at c.
-/
import proofs.«136907_j29480655519935_1_alg».proof.Proof.Gen.KernelIdeal.Frame
import proofs.«136907_j29480655519935_1_alg».proof.Proof.RefRead
import proofs.«136907_j29480655519935_1_alg».proof.Proof.RegionMatmulBias9
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Chain

open Cert.KernelIdeal Cert.KernelIdeal.Gen Cert.KernelIdeal.RegionValue Idealize.ShloMosaic Idealize.ShloMosaic.TcCoe Idealize.ShloMosaic.ValueIdx
open Idealize.ShloMosaic.Pipeline (Dat)

/-- The reference's last stage, index by index: its product stage is the sum over the contracted axis, and the bias,
    broadcast to one row and then to every row, is read at the column. -/
theorem head_pure (x0 : (⟨Cert.ReferenceIdeal.S10000x512, .f32⟩ : BufTy).Contents (Elt Ideal)) (x1 : (⟨Cert.ReferenceIdeal.S2x160000, .i32⟩ : BufTy).Contents (Elt Ideal)) (x2 : (⟨Cert.ReferenceIdeal.S512x512, .f32⟩ : BufTy).Contents (Elt Ideal)) (x3 x4 x5 : (⟨Cert.ReferenceIdeal.S512, .f32⟩ : BufTy).Contents (Elt Ideal)) (x6 : (⟨Cert.ReferenceIdeal.S512x512, .f32⟩ : BufTy).Contents (Elt Ideal)) (x7 x8 x9 : (⟨Cert.ReferenceIdeal.S512, .f32⟩ : BufTy).Contents (Elt Ideal)) (x10 : (⟨Cert.ReferenceIdeal.S512x256, .f32⟩ : BufTy).Contents (Elt Ideal)) (x11 x12 x13 : (⟨Cert.ReferenceIdeal.S256, .f32⟩ : BufTy).Contents (Elt Ideal)) (x14 : (⟨Cert.ReferenceIdeal.S256x10, .f32⟩ : BufTy).Contents (Elt Ideal)) (x15 : (⟨Cert.ReferenceIdeal.S10, .f32⟩ : BufTy).Contents (Elt Ideal)) :
    (fun i => (∑ k : Fin 256, (Cert.ReferenceIdeal.Read.val_main_v199 (F := Ideal) x0 x1 x2 x3 x4 x5 x6 x7 x8 x9 x10 x11 x12 x13 : S10000x256.Idx → EReal) (ix2 (i 0) k) * (x14 : S256x10.Idx → EReal) (ix2 k (i 1)))
        + (fun j => x15 (ix1 (j 1)) : S1x10.Idx → EReal) (ix2 (0 : Fin 1) (i 1)) : S10000x10.Idx → EReal)
      = Cert.ReferenceIdeal.Read.val_main_v203 (F := Ideal) x0 x1 x2 x3 x4 x5 x6 x7 x8 x9 x10 x11 x12 x13 x14 x15 := by
  funext i
  show _ = Cert.ReferenceIdeal.Read.val_main_v203 (F := Ideal) x0 x1 x2 x3 x4 x5 x6 x7 x8 x9 x10 x11 x12 x13 x14 x15 i
  rw [Cert.ReferenceIdeal.Read.val_main_v203_apply, Cert.ReferenceIdeal.Read.val_main_v202_apply,
    Cert.ReferenceIdeal.Read.val_main_v201_apply, Cert.ReferenceIdeal.Read.val_main_v200_apply]
  generalize Cert.ReferenceIdeal.Read.val_main_v199 (F := Ideal) x0 x1 x2 x3 x4 x5 x6 x7 x8 x9 x10 x11 x12 x13 = y0
  have el : ∀ k : Fin 256, Cert.ReferenceIdeal.Read.lidx_main_v200 i k = ix2 (i 0) k := fun k =>
    funext fun a => Fin.ext (by match a with | ⟨0, _⟩ => rfl | ⟨1, _⟩ => rfl)
  have er : ∀ k : Fin 256, Cert.ReferenceIdeal.Read.ridx_main_v200 i k = ix2 k (i 1) := fun k =>
    funext fun a => Fin.ext (by match a with | ⟨0, _⟩ => rfl | ⟨1, _⟩ => rfl)
  have eb : Cert.ReferenceIdeal.Read.idx_main_v201 (Cert.ReferenceIdeal.Read.idx_main_v202 i) = ix1 (i 1) :=
    funext fun a => Fin.ext (by match a with | ⟨0, _⟩ => rfl)
  simp only [el, er, eb, Ideal.addf_def]
  rfl

/-- THE LAST REGION'S ARRAY IS THE REFERENCE'S RESULT, when the region's three arrays are the reference's stage before
    its last product, its weight argument, and its bias argument as one row. -/
theorem head_bridge (V : (c : Dev nD) → (b : Ref sig .tc) → Buf (Elt Ideal) ((c : Thread nD τ).loc b)) (c : Dev nD)
    (x0 : (⟨Cert.ReferenceIdeal.S10000x512, .f32⟩ : BufTy).Contents (Elt Ideal)) (x1 : (⟨Cert.ReferenceIdeal.S2x160000, .i32⟩ : BufTy).Contents (Elt Ideal)) (x2 : (⟨Cert.ReferenceIdeal.S512x512, .f32⟩ : BufTy).Contents (Elt Ideal)) (x3 x4 x5 : (⟨Cert.ReferenceIdeal.S512, .f32⟩ : BufTy).Contents (Elt Ideal)) (x6 : (⟨Cert.ReferenceIdeal.S512x512, .f32⟩ : BufTy).Contents (Elt Ideal)) (x7 x8 x9 : (⟨Cert.ReferenceIdeal.S512, .f32⟩ : BufTy).Contents (Elt Ideal)) (x10 : (⟨Cert.ReferenceIdeal.S512x256, .f32⟩ : BufTy).Contents (Elt Ideal)) (x11 x12 x13 : (⟨Cert.ReferenceIdeal.S256, .f32⟩ : BufTy).Contents (Elt Ideal)) (x14 : (⟨Cert.ReferenceIdeal.S256x10, .f32⟩ : BufTy).Contents (Elt Ideal)) (x15 : (⟨Cert.ReferenceIdeal.S10, .f32⟩ : BufTy).Contents (Elt Ideal))
    (hx : V c (Pipeline.arrRef spec9 0) = Cert.ReferenceIdeal.Read.val_main_v199 (F := Ideal) x0 x1 x2 x3 x4 x5 x6 x7 x8 x9 x10 x11 x12 x13)
    (hw : V c (Pipeline.arrRef spec9 1) = x14)
    (hb : V c (Pipeline.arrRef spec9 2) = (fun j => x15 (ix1 (j 1)) : S1x10.Idx → EReal)) :
    (dat9 (F := Ideal) V c).arrAt 3 cfg9.N = Cert.ReferenceIdeal.Read.val_main_v203 (F := Ideal) x0 x1 x2 x3 x4 x5 x6 x7 x8 x9 x10 x11 x12 x13 x14 x15 :=
  (matmulbias9_final V c _ _ _ hx hw hb).trans (head_pure x0 x1 x2 x3 x4 x5 x6 x7 x8 x9 x10 x11 x12 x13 x14 x15)

end Cert.KernelIdeal.Chain

end
-- ==== Proof.ChainTop.lean ====
/-
  The kernel program's result buffer holds the reference's result term of the sixteen argument arrays: the third layer's
  output, kept through the last host stretch, meets the narrowed head weights and the bias row in the last region, whose
  product-plus-bias is the reference's last contraction and addition.
-/
import proofs.«136907_j29480655519935_1_alg».proof.Proof.Gen.KernelIdeal.Frame
import proofs.«136907_j29480655519935_1_alg».proof.Proof.RefRead
import proofs.«136907_j29480655519935_1_alg».proof.Proof.Carry
import proofs.«136907_j29480655519935_1_alg».proof.Proof.ChainBase
import proofs.«136907_j29480655519935_1_alg».proof.Proof.HostStretch
import proofs.«136907_j29480655519935_1_alg».proof.Proof.ChainL3
import proofs.«136907_j29480655519935_1_alg».proof.Proof.ChainOut
set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

open Cert.KernelIdeal.RegionValue Cert.KernelIdeal.HostValue

theorem result (hg1 : ∀ i, ∃ r : ℝ, Cert.ReferenceIdeal.Read.val_main_v47 (F := Ideal) (m ((c : Thread nD τ).loc main_arg0)) (m ((c : Thread nD τ).loc main_arg1)) (m ((c : Thread nD τ).loc main_arg2)) (m ((c : Thread nD τ).loc main_arg3)) i = (r : EReal)) (hg2 : ∀ i, ∃ r : ℝ, Cert.ReferenceIdeal.Read.val_main_v47 (F := Ideal) (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) i = (r : EReal))
    (hg3 : ∀ i, ∃ r : ℝ, Cert.ReferenceIdeal.Read.val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i = (r : EReal)) :
    W18 (F := Ideal) m ρ c (Proc.devRef .tc main_v153) = Cert.ReferenceIdeal.Read.val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W18_arr m ρ c 3).trans (head_bridge (V17 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
    ((keep_main_v151_17_16 m ρ c).trans (out3 m ρ c hg1 hg2 hg3))
    ((keep_main_v16_17_1 m ρ c).trans (w1_v16 m ρ c))
    ((b_out (W16 (F := Ideal) m ρ c)).trans (by rw [keep_main_arg15_16_0 m ρ c]; rfl)))

end Cert.KernelIdeal.Chain

end
-- ==== Proof.PreReal.lean ====
/-
  The precondition is the conjunction, over the fifteen real-valued arguments, of "every entry x has |x| < +∞":
  each conjunct is an all-reduce by `and` (from the constant 1) of the entrywise comparison  max x (-x) < ⊤  in the
  extended reals, the pattern 0x7F800000 denoting ⊤. An extended real with max x (-x) < ⊤ is neither ⊤ nor ⊥, hence
  a real number. So, under the precondition, every entry of every real-valued argument is a real number.
-/
import proofs.«136907_j29480655519935_1_alg».proof.Pre_finite_inputs
import Idealize.ShloMosaic.Lib.ReduceAll
import Idealize.ShloMosaic.PureOps.Ideal
import Mathlib.Data.EReal.Basic

noncomputable section

namespace Cert.Pre_finite_inputs.RealEntries

open Idealize.ShloMosaic Cert.Pre_finite_inputs

/-- The rank-0 shape has one index. -/
instance subsingleton_S_ : Subsingleton S_.Idx := ⟨fun a b => funext fun d => d.elim0⟩

/-- An extended real whose absolute value max x (-x) is below ⊤ is a real number. -/
theorem real_of_abs_lt_top (x : EReal) (h : max x (-x) < ⊤) : ∃ r : ℝ, x = r := by
  induction x using EReal.rec with
  | bot => simp at h
  | coe r => exact ⟨r, rfl⟩
  | top => simp at h

/-- The f32 pattern 0x7F800000 denotes +∞. -/
theorem inf_eq_top : Ideal.ofBits .f32 0x7F800000#32 = ⊤ := by simp [Ideal.ofBits, Ideal.ieee]

/-- One entry: the comparison |x| < +∞ came out 1, so x is a real number. -/
theorem real_of_cmp (x : EReal) (h : Ideal.cmp .olt (max x (-x)) (Ideal.ofBits .f32 0x7F800000#32) = 1#1) :
    ∃ r : ℝ, x = r := by
  rw [inf_eq_top] at h
  unfold Ideal.cmp at h
  have hlt : max x (-x) < ⊤ := by
    by_contra hn
    simp [hn] at h
  exact real_of_abs_lt_top x hlt

/-- One argument, any shape: the all-reduce by `and` of the entrywise |x| < +∞ came out 1, so every entry is real. -/
theorem real_of_all {s : Shape} {axes : List (Fin s.rank)} (x : s.Idx → EReal)
    (hb : S_.BroadcastsInDim s (![] : Fin 0 → Fin s.rank)) (hr : s.ReducesTo axes S_) (hu : 0 < S_.numel) (j : S_.Idx)
    (e : Host.reduce IntOp.andi
          (cmpf (F := Ideal) (φ := .f32) .olt (Host.absf (F := Ideal) (φ := .f32) x)
            (broadcastInDim s ![] hb (constant (F := Ideal) S_ .f32 0x7F800000#32)))
          (constantI S_ 1 1#1) hr hu j = 1#1) (i : s.Idx) : ∃ r : ℝ, x i = r := by
  have h1 := Host.reduce_andi_all _ _ hr hu j e i
  exact real_of_cmp (x i) h1

variable [Facts]

/-- Under the precondition every entry of every real-valued argument is a real number. -/
theorem real_of_pre (a0 : S10000x512.Idx → EReal) (a1 : IVec S2x160000 32) (a2 : S512x512.Idx → EReal)
    (a3 a4 a5 : S512.Idx → EReal) (a6 : S512x512.Idx → EReal) (a7 a8 a9 : S512.Idx → EReal)
    (a10 : S512x256.Idx → EReal) (a11 a12 a13 : S256.Idx → EReal) (a14 : S256x10.Idx → EReal)
    (a15 : S10.Idx → EReal)
    (h : Cert.Pre_finite_inputs.fn (F := Ideal) a0 a1 a2 a3 a4 a5 a6 a7 a8 a9 a10 a11 a12 a13 a14 a15 = (fun _ => 1#1)) :
    (∀ i, ∃ r : ℝ, a0 i = r) ∧ (∀ i, ∃ r : ℝ, a2 i = r) ∧ (∀ i, ∃ r : ℝ, a3 i = r) ∧ (∀ i, ∃ r : ℝ, a4 i = r)
    ∧ (∀ i, ∃ r : ℝ, a5 i = r) ∧ (∀ i, ∃ r : ℝ, a6 i = r) ∧ (∀ i, ∃ r : ℝ, a7 i = r) ∧ (∀ i, ∃ r : ℝ, a8 i = r)
    ∧ (∀ i, ∃ r : ℝ, a9 i = r) ∧ (∀ i, ∃ r : ℝ, a10 i = r) ∧ (∀ i, ∃ r : ℝ, a11 i = r) ∧ (∀ i, ∃ r : ℝ, a12 i = r)
    ∧ (∀ i, ∃ r : ℝ, a13 i = r) ∧ (∀ i, ∃ r : ℝ, a14 i = r) ∧ (∀ i, ∃ r : ℝ, a15 i = r) := by
  have e := congrFun h (fun d => d.elim0)
  dsimp only [fn, fn_part1, fn_part2, fn_part3, fn_part4, andi] at e
  simp only [IntOp.andi_eq_one] at e
  obtain ⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩ := e
  exact ⟨real_of_all a0 _ _ _ _ h0, real_of_all a2 _ _ _ _ h2, real_of_all a3 _ _ _ _ h3, real_of_all a4 _ _ _ _ h4,
    real_of_all a5 _ _ _ _ h5, real_of_all a6 _ _ _ _ h6, real_of_all a7 _ _ _ _ h7, real_of_all a8 _ _ _ _ h8,
    real_of_all a9 _ _ _ _ h9, real_of_all a10 _ _ _ _ h10, real_of_all a11 _ _ _ _ h11, real_of_all a12 _ _ _ _ h12,
    real_of_all a13 _ _ _ _ h13, real_of_all a14 _ _ _ _ h14, real_of_all a15 _ _ _ _ h15⟩

end Cert.Pre_finite_inputs.RealEntries

end
-- ==== Proof.RefReal1.lean ====
/- The reference's first graph-convolution layer computes only real numbers.

   Every buffer of the reference is an array of extended reals. An array has real entries when each of its
   entries is the image of a real number. Real entries are closed under sums, differences, products, maxima,
   finite sums, division by a nonzero real and under reading an array through any index map; the reciprocal
   square root of a positive real is real.

   Along the layer: the degree of a node is one plus a finite sum of ones, hence a real ≥ 1, so its reciprocal
   square root is real. The feature product x·W is a finite sum of products of reals. A gather reads SOME entry
   of a real-entried array whatever the (integer) index says; the scatter-add writes a real entry plus a finite
   sum of real entries. Hence the layer's pre-normalisation output has real entries, with no hypothesis on the
   integer edge array.

   For the batch normalisation: the column mean is (0 + a finite sum of reals) / 10000; the column variance is
   (0 + a finite sum of squares of reals) / 10000, a real ≥ 0; adding the positive constant ε gives a positive
   real, whose reciprocal square root is real. Scaling, shifting and the maximum with zero keep entries real. -/
import proofs.«136907_j29480655519935_1_alg».proof.Proof.RefRead
import Idealize.ShloMosaic.Lib.IdealHost
import Idealize.ShloMosaic.PureOps.Ideal.Laws

noncomputable section

namespace Cert.ReferenceIdeal.RealEntries

open Cert.ReferenceIdeal Cert.ReferenceIdeal.Gen Cert.ReferenceIdeal.Read Idealize.ShloMosaic Idealize.ShloMosaic.TcCoe Idealize.SL.Sem Idealize.ShloMosaic.StableHlo

/-! ### Real entries are closed under the operations of the reference -/

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem real_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; rcases le_total r s with h | h
  · exact ⟨s, max_eq_right (EReal.coe_le_coe_iff.mpr h)⟩
  · exact ⟨r, max_eq_left (EReal.coe_le_coe_iff.mpr h)⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem nonneg_add {a b : EReal} (ha : ∃ r : ℝ, 0 ≤ r ∧ a = (r : EReal)) (hb : ∃ r : ℝ, 0 ≤ r ∧ b = (r : EReal)) :
    ∃ r : ℝ, 0 ≤ r ∧ a + b = (r : EReal) := by
  obtain ⟨r, hr, rfl⟩ := ha; obtain ⟨s, hs, rfl⟩ := hb
  exact ⟨r + s, add_nonneg hr hs, (EReal.coe_add r s).symm⟩

theorem nonneg_sum {ι : Type*} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by simp⟩
  | insert a s ha ih =>
    rw [Finset.sum_insert ha]
    exact nonneg_add (h a (Finset.mem_insert_self a s)) (ih fun i hi => h i (Finset.mem_insert_of_mem hi))

theorem nonneg_add_pos {a b : EReal} (ha : ∃ r : ℝ, 0 ≤ r ∧ a = (r : EReal)) (hb : ∃ r : ℝ, 0 < r ∧ b = (r : EReal)) :
    ∃ r : ℝ, 0 < r ∧ a + b = (r : EReal) := by
  obtain ⟨r, hr, rfl⟩ := ha; obtain ⟨s, hs, rfl⟩ := hb
  exact ⟨r + s, add_pos_of_nonneg_of_pos hr hs, (EReal.coe_add r s).symm⟩

theorem nonneg_mul_self {a : EReal} (ha : ∃ r : ℝ, a = (r : EReal)) : ∃ r : ℝ, 0 ≤ r ∧ a * a = (r : EReal) := by
  obtain ⟨r, rfl⟩ := ha; exact ⟨r * r, mul_self_nonneg r, (EReal.coe_mul r r).symm⟩

theorem real_of_nonneg {a : EReal} (ha : ∃ r : ℝ, 0 ≤ r ∧ a = (r : EReal)) : ∃ r : ℝ, a = (r : EReal) := by
  obtain ⟨r, _, h⟩ := ha; exact ⟨r, h⟩

theorem real_rsqrt {a : EReal} (ha : ∃ r : ℝ, 0 < r ∧ a = (r : EReal)) : ∃ r : ℝ, Ideal.rsqrt a = (r : EReal) := by
  obtain ⟨r, hr, rfl⟩ := ha
  exact ⟨(Real.sqrt r)⁻¹, by rw [Ideal.rsqrt_coe, if_neg (not_lt.mpr hr.le), if_neg hr.ne']⟩

theorem real_div_coe {a : EReal} {y : ℝ} (hy : y ≠ 0) (ha : ∃ r : ℝ, a = (r : EReal)) :
    ∃ r : ℝ, Ideal.div a (y : EReal) = (r : EReal) := by
  rw [Ideal.div_coe hy]; exact real_mul ha ⟨_, rfl⟩

theorem nonneg_div_coe {a : EReal} {y : ℝ} (hy : 0 < y) (ha : ∃ r : ℝ, 0 ≤ r ∧ a = (r : EReal)) :
    ∃ r : ℝ, 0 ≤ r ∧ Ideal.div a (y : EReal) = (r : EReal) := by
  obtain ⟨r, hr, rfl⟩ := ha
  rw [Ideal.div_coe hy.ne']
  exact ⟨r * (1 / y), mul_nonneg hr (by positivity), (EReal.coe_mul r (1 / y)).symm⟩

theorem ofBits_tenThousand : Ideal.ofBits .f32 0x461C4000#32 = ((10000 : ℝ) : EReal) := by
  simp [Ideal.ofBits, Ideal.ieee, -EReal.coe_mul]; norm_num

theorem ofBits_eps_pos : ∃ r : ℝ, 0 < r ∧ Ideal.ofBits .f32 0x3727C5AC#32 = (r : EReal) := by
  refine ⟨(2 ^ 23 + 2606508 : ℕ) * (2 : ℝ) ^ ((110 : ℤ) - 127 - 23), by positivity, ?_⟩
  simp [Ideal.ofBits, Ideal.ieee, -EReal.coe_mul]

theorem pos_one : ∃ r : ℝ, 0 < r ∧ (1 : EReal) = (r : EReal) := ⟨1, one_pos, EReal.coe_one.symm⟩

theorem nonneg_zero : ∃ r : ℝ, 0 ≤ r ∧ (0 : EReal) = (r : EReal) := ⟨0, le_refl 0, EReal.coe_zero.symm⟩

theorem real_zero : ∃ r : ℝ, (0 : EReal) = (r : EReal) := ⟨0, EReal.coe_zero.symm⟩

theorem nonneg_of_pos {a : EReal} (ha : ∃ r : ℝ, 0 < r ∧ a = (r : EReal)) : ∃ r : ℝ, 0 ≤ r ∧ a = (r : EReal) := by
  obtain ⟨r, hr, h⟩ := ha; exact ⟨r, hr.le, h⟩

/-- A gather reads some entry of its operand. -/
theorem real_gather {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx (d.operandIdx j idx)

/-- A scatter-add writes an operand entry plus a finite sum of update entries. -/
theorem real_scatterAdd {s si u : Shape} {w : Nat} (d : ScatterDims s si u) (x : FVec Ideal s .f32) (idx : IVec si w)
    (upd : FVec Ideal u .f32) (hx : ∀ i, ∃ r : ℝ, x i = (r : EReal)) (hu : ∀ j, ∃ r : ℝ, upd j = (r : EReal))
    (i : s.Idx) : ∃ r : ℝ, Host.scatterAdd d x idx upd i = (r : EReal) :=
  real_add (hx i) (real_sum _ _ fun j _ => hu j)

theorem nonneg_scatterAdd {s si u : Shape} {w : Nat} (d : ScatterDims s si u) (x : FVec Ideal s .f32) (idx : IVec si w)
    (upd : FVec Ideal u .f32) (hx : ∀ i, ∃ r : ℝ, 0 ≤ r ∧ x i = (r : EReal))
    (hu : ∀ j, ∃ r : ℝ, 0 ≤ r ∧ upd j = (r : EReal)) (i : s.Idx) :
    ∃ r : ℝ, 0 ≤ r ∧ Host.scatterAdd d x idx upd i = (r : EReal) :=
  nonneg_add (hx i) (nonneg_sum _ _ fun j _ => hu j)

/-! ### The degree and its reciprocal square root -/

theorem v4_one (i : S160000.Idx) : val_main_v4 (F := Ideal) i = (1 : EReal) := by
  rw [val_main_v4_apply, val_main_cst_apply, Ideal.ofBits_def, Ideal.ofBits_one_f32]

theorem v5_zero (i : S10000.Idx) : val_main_v5 (F := Ideal) i = (0 : EReal) := by
  rw [val_main_v5_apply, val_main_cst_0_apply, Ideal.ofBits_def, Ideal.ofBits_zero_f32]

theorem v8_one (i : S10000.Idx) : val_main_v8 (F := Ideal) i = (1 : EReal) := by
  rw [val_main_v8_apply, val_main_cst_1_apply, Ideal.ofBits_def, Ideal.ofBits_one_f32]

/-- The edge count of a node: zero plus a finite sum of ones. -/
theorem v7_nonneg (x1 : (⟨S2x160000, .i32⟩ : BufTy).Contents (Elt Ideal)) (i : S10000.Idx) : ∃ r : ℝ, 0 ≤ r ∧ val_main_v7 (F := Ideal) x1 i = (r : EReal) :=
  nonneg_scatterAdd scatter_S10000_S160000x1_S160000_n_0_0_1 (val_main_v5 (F := Ideal)) (val_main_v6 (F := Ideal) x1)
    (val_main_v4 (F := Ideal)) (fun i => by rw [v5_zero]; exact nonneg_zero)
    (fun j => by rw [v4_one]; exact nonneg_of_pos pos_one) i

/-- The degree is a positive real. -/
theorem v9_pos (x1 : (⟨S2x160000, .i32⟩ : BufTy).Contents (Elt Ideal)) (i : S10000.Idx) : ∃ r : ℝ, 0 < r ∧ val_main_v9 (F := Ideal) x1 i = (r : EReal) := by
  rw [val_main_v9_apply, Ideal.addf_def, v8_one]
  exact nonneg_add_pos (v7_nonneg x1 i) pos_one

theorem v10_real (x1 : (⟨S2x160000, .i32⟩ : BufTy).Contents (Elt Ideal)) (i : S10000.Idx) : ∃ r : ℝ, val_main_v10 (F := Ideal) x1 i = (r : EReal) := by
  rw [val_main_v10_apply, Ideal.hostUnary_rsqrt_def]
  exact real_rsqrt (v9_pos x1 i)

/-! ### The aggregation -/

theorem v11_real (x0 : (⟨S10000x512, .f32⟩ : BufTy).Contents (Elt Ideal)) (x2 : (⟨S512x512, .f32⟩ : BufTy).Contents (Elt Ideal)) (h0 : ∀ i, ∃ r : ℝ, x0 i = (r : EReal)) (h2 : ∀ i, ∃ r : ℝ, x2 i = (r : EReal)) (i : S10000x512.Idx) : ∃ r : ℝ, val_main_v11 (F := Ideal) x0 x2 i = (r : EReal) := by
  rw [val_main_v11_apply]
  exact real_sum _ _ fun k _ => real_mul (h0 _) (h2 _)

theorem v18_real (x1 : (⟨S2x160000, .i32⟩ : BufTy).Contents (Elt Ideal)) (i : S160000.Idx) : ∃ r : ℝ, val_main_v18 (F := Ideal) x1 i = (r : EReal) :=
  real_gather gather_S10000_S160000x1_S160000_n_0_n_n_0_1_1 (val_main_v10 (F := Ideal) x1) (val_main_v17 (F := Ideal) x1)
    (v10_real x1) i

theorem v25_real (x1 : (⟨S2x160000, .i32⟩ : BufTy).Contents (Elt Ideal)) (i : S160000.Idx) : ∃ r : ℝ, val_main_v25 (F := Ideal) x1 i = (r : EReal) :=
  real_gather gather_S10000_S160000x1_S160000_n_0_n_n_0_1_1 (val_main_v10 (F := Ideal) x1) (val_main_v24 (F := Ideal) x1)
    (v10_real x1) i

theorem v26_real (x1 : (⟨S2x160000, .i32⟩ : BufTy).Contents (Elt Ideal)) (i : S160000.Idx) : ∃ r : ℝ, val_main_v26 (F := Ideal) x1 i = (r : EReal) := by
  rw [val_main_v26_apply, Ideal.mulf_def]
  exact real_mul (v18_real x1 i) (v25_real x1 i)

theorem v33_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (h0 : ∀ i, ∃ r : ℝ, x0 i = (r : EReal)) (h2 : ∀ i, ∃ r : ℝ, x2 i = (r : EReal)) (i : S160000x512.Idx) : ∃ r : ℝ, val_main_v33 (F := Ideal) x0 x1 x2 i = (r : EReal) :=
  real_gather gather_S10000x512_S160000x1_S160000x512_1_0_n_n_0_1_1512 (val_main_v11 (F := Ideal) x0 x2)
    (val_main_v32 (F := Ideal) x1) (v11_real x0 x2 h0 h2) i

theorem v35_real (x1 : (⟨S2x160000, .i32⟩ : BufTy).Contents (Elt Ideal)) (i : S160000x512.Idx) : ∃ r : ℝ, val_main_v35 (F := Ideal) x1 i = (r : EReal) := by
  rw [val_main_v35_apply, val_main_v34_apply]
  exact v26_real x1 _

theorem v36_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (h0 : ∀ i, ∃ r : ℝ, x0 i = (r : EReal)) (h2 : ∀ i, ∃ r : ℝ, x2 i = (r : EReal)) (i : S160000x512.Idx) : ∃ r : ℝ, val_main_v36 (F := Ideal) x0 x1 x2 i = (r : EReal) := by
  rw [val_main_v36_apply, Ideal.mulf_def]
  exact real_mul (v33_real x0 x1 x2 h0 h2 i) (v35_real x1 i)

theorem v37_zero (i : S10000x512.Idx) : val_main_v37 (F := Ideal) i = (0 : EReal) := by
  rw [val_main_v37_apply, val_main_cst_7_apply, Ideal.ofBits_def, Ideal.ofBits_zero_f32]

theorem v39_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (h0 : ∀ i, ∃ r : ℝ, x0 i = (r : EReal)) (h2 : ∀ i, ∃ r : ℝ, x2 i = (r : EReal)) (i : S10000x512.Idx) : ∃ r : ℝ, val_main_v39 (F := Ideal) x0 x1 x2 i = (r : EReal) :=
  real_scatterAdd scatter_S10000x512_S160000x1_S160000x512_1_0_0_1 (val_main_v37 (F := Ideal)) (val_main_v38 (F := Ideal) x1)
    (val_main_v36 (F := Ideal) x0 x1 x2) (fun i => by rw [v37_zero]; exact real_zero) (v36_real x0 x1 x2 h0 h2) i

theorem v42_real (x1 : (⟨S2x160000, .i32⟩ : BufTy).Contents (Elt Ideal)) (i : S10000x512.Idx) : ∃ r : ℝ, val_main_v42 (F := Ideal) x1 i = (r : EReal) := by
  rw [val_main_v42_apply, val_main_v41_apply, val_main_v40_apply, Ideal.mulf_def]
  exact real_mul (v10_real x1 _) (v10_real x1 _)

theorem v43_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (h0 : ∀ i, ∃ r : ℝ, x0 i = (r : EReal)) (h2 : ∀ i, ∃ r : ℝ, x2 i = (r : EReal)) (i : S10000x512.Idx) : ∃ r : ℝ, val_main_v43 (F := Ideal) x0 x1 x2 i = (r : EReal) := by
  rw [val_main_v43_apply, Ideal.mulf_def]
  exact real_mul (v11_real x0 x2 h0 h2 i) (v42_real x1 i)

theorem v44_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (h0 : ∀ i, ∃ r : ℝ, x0 i = (r : EReal)) (h2 : ∀ i, ∃ r : ℝ, x2 i = (r : EReal)) (i : S10000x512.Idx) : ∃ r : ℝ, val_main_v44 (F := Ideal) x0 x1 x2 i = (r : EReal) := by
  rw [val_main_v44_apply, Ideal.addf_def]
  exact real_add (v39_real x0 x1 x2 h0 h2 i) (v43_real x0 x1 x2 h0 h2 i)

theorem v46_real (x3 : (⟨S512, .f32⟩ : BufTy).Contents (Elt Ideal)) (h3 : ∀ i, ∃ r : ℝ, x3 i = (r : EReal)) (i : S10000x512.Idx) : ∃ r : ℝ, val_main_v46 (F := Ideal) x3 i = (r : EReal) := by
  rw [val_main_v46_apply, val_main_v45_apply]
  exact h3 _

/-- The layer's output before normalisation has real entries. -/
theorem gcn1_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (h0 : ∀ i, ∃ r : ℝ, x0 i = (r : EReal)) (h2 : ∀ i, ∃ r : ℝ, x2 i = (r : EReal)) (h3 : ∀ i, ∃ r : ℝ, x3 i = (r : EReal)) :
    ∀ i, ∃ r : ℝ, val_main_v47 (F := Ideal) x0 x1 x2 x3 i = (r : EReal) := by
  intro i
  rw [val_main_v47_apply, Ideal.addf_def]
  exact real_add (v44_real x0 x1 x2 h0 h2 i) (v46_real x3 h3 i)

/-! ### The normalisation: from a real-entried pre-normalisation output -/

theorem v48_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (h47 : ∀ i, ∃ r : ℝ, val_main_v47 (F := Ideal) x0 x1 x2 x3 i = (r : EReal)) (i : S512.Idx) : ∃ r : ℝ, val_main_v48 (F := Ideal) x0 x1 x2 x3 i = (r : EReal) := by
  rw [val_main_v48_apply, val_main_cst_8_apply, Ideal.ofBits_def, Ideal.ofBits_zero_f32]
  exact real_add real_zero (real_sum _ _ fun k _ => h47 _)

theorem v49_eq (i : S512.Idx) : val_main_v49 (F := Ideal) i = ((10000 : ℝ) : EReal) := by
  rw [val_main_v49_apply, val_main_cst_9_apply, Ideal.ofBits_def, ofBits_tenThousand]

/-- The column mean. -/
theorem v50_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (h47 : ∀ i, ∃ r : ℝ, val_main_v47 (F := Ideal) x0 x1 x2 x3 i = (r : EReal)) (i : S512.Idx) : ∃ r : ℝ, val_main_v50 (F := Ideal) x0 x1 x2 x3 i = (r : EReal) := by
  rw [val_main_v50_apply, Ideal.hostDivf_def, v49_eq]
  exact real_div_coe (by norm_num) (v48_real x0 x1 x2 x3 h47 i)

theorem v52_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (h47 : ∀ i, ∃ r : ℝ, val_main_v47 (F := Ideal) x0 x1 x2 x3 i = (r : EReal)) (i : S10000x512.Idx) : ∃ r : ℝ, val_main_v52 (F := Ideal) x0 x1 x2 x3 i = (r : EReal) := by
  rw [val_main_v52_apply, val_main_v51_apply]
  exact v50_real x0 x1 x2 x3 h47 _

theorem v53_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (h47 : ∀ i, ∃ r : ℝ, val_main_v47 (F := Ideal) x0 x1 x2 x3 i = (r : EReal)) (i : S10000x512.Idx) : ∃ r : ℝ, val_main_v53 (F := Ideal) x0 x1 x2 x3 i = (r : EReal) := by
  rw [val_main_v53_apply, Ideal.subf_def]
  exact real_sub (h47 i) (v52_real x0 x1 x2 x3 h47 i)

theorem v54_nonneg (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (h47 : ∀ i, ∃ r : ℝ, val_main_v47 (F := Ideal) x0 x1 x2 x3 i = (r : EReal)) (i : S10000x512.Idx) :
    ∃ r : ℝ, 0 ≤ r ∧ val_main_v54 (F := Ideal) x0 x1 x2 x3 i = (r : EReal) := by
  rw [val_main_v54_apply, Ideal.mulf_def]
  exact nonneg_mul_self (v53_real x0 x1 x2 x3 h47 i)

theorem v55_nonneg (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (h47 : ∀ i, ∃ r : ℝ, val_main_v47 (F := Ideal) x0 x1 x2 x3 i = (r : EReal)) (i : S512.Idx) :
    ∃ r : ℝ, 0 ≤ r ∧ val_main_v55 (F := Ideal) x0 x1 x2 x3 i = (r : EReal) := by
  rw [val_main_v55_apply, val_main_cst_10_apply, Ideal.ofBits_def, Ideal.ofBits_zero_f32]
  exact nonneg_add nonneg_zero (nonneg_sum _ _ fun k _ => v54_nonneg x0 x1 x2 x3 h47 _)

theorem v56_eq (i : S512.Idx) : val_main_v56 (F := Ideal) i = ((10000 : ℝ) : EReal) := by
  rw [val_main_v56_apply, val_main_cst_11_apply, Ideal.ofBits_def, ofBits_tenThousand]

/-- The column variance is a real that is not negative. -/
theorem v57_nonneg (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (h47 : ∀ i, ∃ r : ℝ, val_main_v47 (F := Ideal) x0 x1 x2 x3 i = (r : EReal)) (i : S512.Idx) :
    ∃ r : ℝ, 0 ≤ r ∧ val_main_v57 (F := Ideal) x0 x1 x2 x3 i = (r : EReal) := by
  rw [val_main_v57_apply, Ideal.hostDivf_def, v56_eq]
  exact nonneg_div_coe (by norm_num) (v55_nonneg x0 x1 x2 x3 h47 i)

theorem v60_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (h47 : ∀ i, ∃ r : ℝ, val_main_v47 (F := Ideal) x0 x1 x2 x3 i = (r : EReal)) (i : S10000x512.Idx) : ∃ r : ℝ, val_main_v60 (F := Ideal) x0 x1 x2 x3 i = (r : EReal) := by
  rw [val_main_v60_apply, Ideal.subf_def, val_main_v59_apply, val_main_v58_apply]
  exact real_sub (h47 i) (v50_real x0 x1 x2 x3 h47 _)

theorem v61_pos (i : S512.Idx) : ∃ r : ℝ, 0 < r ∧ val_main_v61 (F := Ideal) i = (r : EReal) := by
  rw [val_main_v61_apply, val_main_cst_12_apply, Ideal.ofBits_def]
  exact ofBits_eps_pos

theorem v62_pos (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (h47 : ∀ i, ∃ r : ℝ, val_main_v47 (F := Ideal) x0 x1 x2 x3 i = (r : EReal)) (i : S512.Idx) :
    ∃ r : ℝ, 0 < r ∧ val_main_v62 (F := Ideal) x0 x1 x2 x3 i = (r : EReal) := by
  rw [val_main_v62_apply, Ideal.addf_def]
  exact nonneg_add_pos (v57_nonneg x0 x1 x2 x3 h47 i) (v61_pos i)

theorem v63_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (h47 : ∀ i, ∃ r : ℝ, val_main_v47 (F := Ideal) x0 x1 x2 x3 i = (r : EReal)) (i : S512.Idx) : ∃ r : ℝ, val_main_v63 (F := Ideal) x0 x1 x2 x3 i = (r : EReal) := by
  rw [val_main_v63_apply, Ideal.hostUnary_rsqrt_def]
  exact real_rsqrt (v62_pos x0 x1 x2 x3 h47 i)

theorem v66_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (h47 : ∀ i, ∃ r : ℝ, val_main_v47 (F := Ideal) x0 x1 x2 x3 i = (r : EReal)) (i : S10000x512.Idx) : ∃ r : ℝ, val_main_v66 (F := Ideal) x0 x1 x2 x3 i = (r : EReal) := by
  rw [val_main_v66_apply, Ideal.mulf_def, val_main_v65_apply, val_main_v64_apply]
  exact real_mul (v60_real x0 x1 x2 x3 h47 i) (v63_real x0 x1 x2 x3 h47 _)

theorem v68_real (x4 : (⟨S512, .f32⟩ : BufTy).Contents (Elt Ideal)) (h4 : ∀ i, ∃ r : ℝ, x4 i = (r : EReal)) (i : S10000x512.Idx) : ∃ r : ℝ, val_main_v68 (F := Ideal) x4 i = (r : EReal) := by
  rw [val_main_v68_apply, val_main_v67_apply]
  exact h4 _

theorem v71_real (x5 : (⟨S512, .f32⟩ : BufTy).Contents (Elt Ideal)) (h5 : ∀ i, ∃ r : ℝ, x5 i = (r : EReal)) (i : S10000x512.Idx) : ∃ r : ℝ, val_main_v71 (F := Ideal) x5 i = (r : EReal) := by
  rw [val_main_v71_apply, val_main_v70_apply]
  exact h5 _

theorem v72_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (h47 : ∀ i, ∃ r : ℝ, val_main_v47 (F := Ideal) x0 x1 x2 x3 i = (r : EReal)) (h4 : ∀ i, ∃ r : ℝ, x4 i = (r : EReal)) (h5 : ∀ i, ∃ r : ℝ, x5 i = (r : EReal)) (i : S10000x512.Idx) :
    ∃ r : ℝ, val_main_v72 (F := Ideal) x0 x1 x2 x3 x4 x5 i = (r : EReal) := by
  rw [val_main_v72_apply, Ideal.addf_def, val_main_v69_apply, Ideal.mulf_def]
  exact real_add (real_mul (v66_real x0 x1 x2 x3 h47 i) (v68_real x4 h4 i)) (v71_real x5 h5 i)

theorem call0_v0_zero (i : S10000x512.Idx) : val_main_call0_v0 (F := Ideal) i = (0 : EReal) := by
  rw [val_main_call0_v0_apply, val_main_call0_cst_apply, Ideal.ofBits_def, Ideal.ofBits_zero_f32]

/-- The layer's output has real entries as soon as its pre-normalisation output has. -/
theorem out1_real_of_gcn (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (h47 : ∀ i, ∃ r : ℝ, val_main_v47 (F := Ideal) x0 x1 x2 x3 i = (r : EReal)) (h4 : ∀ i, ∃ r : ℝ, x4 i = (r : EReal)) (h5 : ∀ i, ∃ r : ℝ, x5 i = (r : EReal)) :
    ∀ i, ∃ r : ℝ, val_main_v73 (F := Ideal) x0 x1 x2 x3 x4 x5 i = (r : EReal) := by
  intro i
  rw [val_main_v73_apply, Ideal.maximumf_def, call0_v0_zero]
  exact real_max (v72_real x0 x1 x2 x3 x4 x5 h47 h4 h5 i) real_zero

/-- The layer's output has real entries. -/
theorem out1_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (h0 : ∀ i, ∃ r : ℝ, x0 i = (r : EReal)) (h2 : ∀ i, ∃ r : ℝ, x2 i = (r : EReal)) (h3 : ∀ i, ∃ r : ℝ, x3 i = (r : EReal)) (h4 : ∀ i, ∃ r : ℝ, x4 i = (r : EReal)) (h5 : ∀ i, ∃ r : ℝ, x5 i = (r : EReal)) :
    ∀ i, ∃ r : ℝ, val_main_v73 (F := Ideal) x0 x1 x2 x3 x4 x5 i = (r : EReal) :=
  out1_real_of_gcn x0 x1 x2 x3 x4 x5 (gcn1_real x0 x1 x2 x3 h0 h2 h3) h4 h5

end Cert.ReferenceIdeal.RealEntries
-- ==== Proof.RefReal3.lean ====
/- The reference's third graph-convolution layer computes only real numbers, given that its input (the second
   layer's output) has real entries.

   Every buffer of the reference is an array of extended reals. An array has real entries when each of its
   entries is the image of a real number. Real entries are closed under sums, differences, products, maxima,
   finite sums, division by a nonzero real and under reading an array through any index map; the reciprocal
   square root of a positive real is real.

   Along the layer: the degree of a node is one plus a finite sum of ones, hence a real ≥ 1, so its reciprocal
   square root is real. The feature product h·W (h the layer's input) is a finite sum of products of reals. A gather reads SOME entry
   of a real-entried array whatever the (integer) index says; the scatter-add writes a real entry plus a finite
   sum of real entries. Hence the layer's pre-normalisation output has real entries, with no hypothesis on the
   integer edge array.

   For the batch normalisation: the column mean is (0 + a finite sum of reals) / 10000; the column variance is
   (0 + a finite sum of squares of reals) / 10000, a real ≥ 0; adding the positive constant ε gives a positive
   real, whose reciprocal square root is real. Scaling, shifting and the maximum with zero keep entries real. -/
import proofs.«136907_j29480655519935_1_alg».proof.Proof.RefRead
import Idealize.ShloMosaic.Lib.IdealHost
import Idealize.ShloMosaic.PureOps.Ideal.Laws

noncomputable section

namespace Cert.ReferenceIdeal.RealEntries3

open Cert.ReferenceIdeal Cert.ReferenceIdeal.Gen Cert.ReferenceIdeal.Read Idealize.ShloMosaic Idealize.ShloMosaic.TcCoe Idealize.SL.Sem Idealize.ShloMosaic.StableHlo

/-! ### Real entries are closed under the operations of the reference -/

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem real_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; rcases le_total r s with h | h
  · exact ⟨s, max_eq_right (EReal.coe_le_coe_iff.mpr h)⟩
  · exact ⟨r, max_eq_left (EReal.coe_le_coe_iff.mpr h)⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem nonneg_add {a b : EReal} (ha : ∃ r : ℝ, 0 ≤ r ∧ a = (r : EReal)) (hb : ∃ r : ℝ, 0 ≤ r ∧ b = (r : EReal)) :
    ∃ r : ℝ, 0 ≤ r ∧ a + b = (r : EReal) := by
  obtain ⟨r, hr, rfl⟩ := ha; obtain ⟨s, hs, rfl⟩ := hb
  exact ⟨r + s, add_nonneg hr hs, (EReal.coe_add r s).symm⟩

theorem nonneg_sum {ι : Type*} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by simp⟩
  | insert a s ha ih =>
    rw [Finset.sum_insert ha]
    exact nonneg_add (h a (Finset.mem_insert_self a s)) (ih fun i hi => h i (Finset.mem_insert_of_mem hi))

theorem nonneg_add_pos {a b : EReal} (ha : ∃ r : ℝ, 0 ≤ r ∧ a = (r : EReal)) (hb : ∃ r : ℝ, 0 < r ∧ b = (r : EReal)) :
    ∃ r : ℝ, 0 < r ∧ a + b = (r : EReal) := by
  obtain ⟨r, hr, rfl⟩ := ha; obtain ⟨s, hs, rfl⟩ := hb
  exact ⟨r + s, add_pos_of_nonneg_of_pos hr hs, (EReal.coe_add r s).symm⟩

theorem nonneg_mul_self {a : EReal} (ha : ∃ r : ℝ, a = (r : EReal)) : ∃ r : ℝ, 0 ≤ r ∧ a * a = (r : EReal) := by
  obtain ⟨r, rfl⟩ := ha; exact ⟨r * r, mul_self_nonneg r, (EReal.coe_mul r r).symm⟩

theorem real_of_nonneg {a : EReal} (ha : ∃ r : ℝ, 0 ≤ r ∧ a = (r : EReal)) : ∃ r : ℝ, a = (r : EReal) := by
  obtain ⟨r, _, h⟩ := ha; exact ⟨r, h⟩

theorem real_rsqrt {a : EReal} (ha : ∃ r : ℝ, 0 < r ∧ a = (r : EReal)) : ∃ r : ℝ, Ideal.rsqrt a = (r : EReal) := by
  obtain ⟨r, hr, rfl⟩ := ha
  exact ⟨(Real.sqrt r)⁻¹, by rw [Ideal.rsqrt_coe, if_neg (not_lt.mpr hr.le), if_neg hr.ne']⟩

theorem real_div_coe {a : EReal} {y : ℝ} (hy : y ≠ 0) (ha : ∃ r : ℝ, a = (r : EReal)) :
    ∃ r : ℝ, Ideal.div a (y : EReal) = (r : EReal) := by
  rw [Ideal.div_coe hy]; exact real_mul ha ⟨_, rfl⟩

theorem nonneg_div_coe {a : EReal} {y : ℝ} (hy : 0 < y) (ha : ∃ r : ℝ, 0 ≤ r ∧ a = (r : EReal)) :
    ∃ r : ℝ, 0 ≤ r ∧ Ideal.div a (y : EReal) = (r : EReal) := by
  obtain ⟨r, hr, rfl⟩ := ha
  rw [Ideal.div_coe hy.ne']
  exact ⟨r * (1 / y), mul_nonneg hr (by positivity), (EReal.coe_mul r (1 / y)).symm⟩

theorem ofBits_tenThousand : Ideal.ofBits .f32 0x461C4000#32 = ((10000 : ℝ) : EReal) := by
  simp [Ideal.ofBits, Ideal.ieee, -EReal.coe_mul]; norm_num

theorem ofBits_eps_pos : ∃ r : ℝ, 0 < r ∧ Ideal.ofBits .f32 0x3727C5AC#32 = (r : EReal) := by
  refine ⟨(2 ^ 23 + 2606508 : ℕ) * (2 : ℝ) ^ ((110 : ℤ) - 127 - 23), by positivity, ?_⟩
  simp [Ideal.ofBits, Ideal.ieee, -EReal.coe_mul]

theorem pos_one : ∃ r : ℝ, 0 < r ∧ (1 : EReal) = (r : EReal) := ⟨1, one_pos, EReal.coe_one.symm⟩

theorem nonneg_zero : ∃ r : ℝ, 0 ≤ r ∧ (0 : EReal) = (r : EReal) := ⟨0, le_refl 0, EReal.coe_zero.symm⟩

theorem real_zero : ∃ r : ℝ, (0 : EReal) = (r : EReal) := ⟨0, EReal.coe_zero.symm⟩

theorem nonneg_of_pos {a : EReal} (ha : ∃ r : ℝ, 0 < r ∧ a = (r : EReal)) : ∃ r : ℝ, 0 ≤ r ∧ a = (r : EReal) := by
  obtain ⟨r, hr, h⟩ := ha; exact ⟨r, hr.le, h⟩

/-- A gather reads some entry of its operand. -/
theorem real_gather {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx (d.operandIdx j idx)

/-- A scatter-add writes an operand entry plus a finite sum of update entries. -/
theorem real_scatterAdd {s si u : Shape} {w : Nat} (d : ScatterDims s si u) (x : FVec Ideal s .f32) (idx : IVec si w)
    (upd : FVec Ideal u .f32) (hx : ∀ i, ∃ r : ℝ, x i = (r : EReal)) (hu : ∀ j, ∃ r : ℝ, upd j = (r : EReal))
    (i : s.Idx) : ∃ r : ℝ, Host.scatterAdd d x idx upd i = (r : EReal) :=
  real_add (hx i) (real_sum _ _ fun j _ => hu j)

theorem nonneg_scatterAdd {s si u : Shape} {w : Nat} (d : ScatterDims s si u) (x : FVec Ideal s .f32) (idx : IVec si w)
    (upd : FVec Ideal u .f32) (hx : ∀ i, ∃ r : ℝ, 0 ≤ r ∧ x i = (r : EReal))
    (hu : ∀ j, ∃ r : ℝ, 0 ≤ r ∧ upd j = (r : EReal)) (i : s.Idx) :
    ∃ r : ℝ, 0 ≤ r ∧ Host.scatterAdd d x idx upd i = (r : EReal) :=
  nonneg_add (hx i) (nonneg_sum _ _ fun j _ => hu j)

/-! ### The degree and its reciprocal square root -/

theorem v4_one (i : S160000.Idx) : val_main_v4 (F := Ideal) i = (1 : EReal) := by
  rw [val_main_v4_apply, val_main_cst_apply, Ideal.ofBits_def, Ideal.ofBits_one_f32]

theorem v5_zero (i : S10000.Idx) : val_main_v5 (F := Ideal) i = (0 : EReal) := by
  rw [val_main_v5_apply, val_main_cst_0_apply, Ideal.ofBits_def, Ideal.ofBits_zero_f32]

theorem v8_one (i : S10000.Idx) : val_main_v8 (F := Ideal) i = (1 : EReal) := by
  rw [val_main_v8_apply, val_main_cst_1_apply, Ideal.ofBits_def, Ideal.ofBits_one_f32]

/-- The edge count of a node: zero plus a finite sum of ones. -/
theorem v7_nonneg (x1 : (⟨S2x160000, .i32⟩ : BufTy).Contents (Elt Ideal)) (i : S10000.Idx) : ∃ r : ℝ, 0 ≤ r ∧ val_main_v7 (F := Ideal) x1 i = (r : EReal) :=
  nonneg_scatterAdd scatter_S10000_S160000x1_S160000_n_0_0_1 (val_main_v5 (F := Ideal)) (val_main_v6 (F := Ideal) x1)
    (val_main_v4 (F := Ideal)) (fun i => by rw [v5_zero]; exact nonneg_zero)
    (fun j => by rw [v4_one]; exact nonneg_of_pos pos_one) i

/-- The degree is a positive real. -/
theorem v9_pos (x1 : (⟨S2x160000, .i32⟩ : BufTy).Contents (Elt Ideal)) (i : S10000.Idx) : ∃ r : ℝ, 0 < r ∧ val_main_v9 (F := Ideal) x1 i = (r : EReal) := by
  rw [val_main_v9_apply, Ideal.addf_def, v8_one]
  exact nonneg_add_pos (v7_nonneg x1 i) pos_one

theorem v10_real (x1 : (⟨S2x160000, .i32⟩ : BufTy).Contents (Elt Ideal)) (i : S10000.Idx) : ∃ r : ℝ, val_main_v10 (F := Ideal) x1 i = (r : EReal) := by
  rw [val_main_v10_apply, Ideal.hostUnary_rsqrt_def]
  exact real_rsqrt (v9_pos x1 i)

/-! ### The aggregation -/

theorem v137_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (hh : ∀ i, ∃ r : ℝ, val_main_v136 (F := Ideal) x0 x1 x2 x3 x4 x5 x6 x7 x8 x9 i = (r : EReal)) (h10 : ∀ i, ∃ r : ℝ, x10 i = (r : EReal)) (i : S10000x256.Idx) : ∃ r : ℝ, val_main_v137 (F := Ideal) x0 x1 x2 x3 x4 x5 x6 x7 x8 x9 x10 i = (r : EReal) := by
  rw [val_main_v137_apply]
  exact real_sum _ _ fun k _ => real_mul (hh _) (h10 _)

theorem v144_real (x1 : (⟨S2x160000, .i32⟩ : BufTy).Contents (Elt Ideal)) (i : S160000.Idx) : ∃ r : ℝ, val_main_v144 (F := Ideal) x1 i = (r : EReal) :=
  real_gather gather_S10000_S160000x1_S160000_n_0_n_n_0_1_1 (val_main_v10 (F := Ideal) x1) (val_main_v143 (F := Ideal) x1)
    (v10_real x1) i

theorem v151_real (x1 : (⟨S2x160000, .i32⟩ : BufTy).Contents (Elt Ideal)) (i : S160000.Idx) : ∃ r : ℝ, val_main_v151 (F := Ideal) x1 i = (r : EReal) :=
  real_gather gather_S10000_S160000x1_S160000_n_0_n_n_0_1_1 (val_main_v10 (F := Ideal) x1) (val_main_v150 (F := Ideal) x1)
    (v10_real x1) i

theorem v152_real (x1 : (⟨S2x160000, .i32⟩ : BufTy).Contents (Elt Ideal)) (i : S160000.Idx) : ∃ r : ℝ, val_main_v152 (F := Ideal) x1 i = (r : EReal) := by
  rw [val_main_v152_apply, Ideal.mulf_def]
  exact real_mul (v144_real x1 i) (v151_real x1 i)

theorem v159_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (hh : ∀ i, ∃ r : ℝ, val_main_v136 (F := Ideal) x0 x1 x2 x3 x4 x5 x6 x7 x8 x9 i = (r : EReal)) (h10 : ∀ i, ∃ r : ℝ, x10 i = (r : EReal)) (i : S160000x256.Idx) : ∃ r : ℝ, val_main_v159 (F := Ideal) x0 x1 x2 x3 x4 x5 x6 x7 x8 x9 x10 i = (r : EReal) :=
  real_gather gather_S10000x256_S160000x1_S160000x256_1_0_n_n_0_1_1256 (val_main_v137 (F := Ideal) x0 x1 x2 x3 x4 x5 x6 x7 x8 x9 x10)
    (val_main_v158 (F := Ideal) x1) (v137_real x0 x1 x2 x3 x4 x5 x6 x7 x8 x9 x10 hh h10) i

theorem v161_real (x1 : (⟨S2x160000, .i32⟩ : BufTy).Contents (Elt Ideal)) (i : S160000x256.Idx) : ∃ r : ℝ, val_main_v161 (F := Ideal) x1 i = (r : EReal) := by
  rw [val_main_v161_apply, val_main_v160_apply]
  exact v152_real x1 _

theorem v162_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (hh : ∀ i, ∃ r : ℝ, val_main_v136 (F := Ideal) x0 x1 x2 x3 x4 x5 x6 x7 x8 x9 i = (r : EReal)) (h10 : ∀ i, ∃ r : ℝ, x10 i = (r : EReal)) (i : S160000x256.Idx) : ∃ r : ℝ, val_main_v162 (F := Ideal) x0 x1 x2 x3 x4 x5 x6 x7 x8 x9 x10 i = (r : EReal) := by
  rw [val_main_v162_apply, Ideal.mulf_def]
  exact real_mul (v159_real x0 x1 x2 x3 x4 x5 x6 x7 x8 x9 x10 hh h10 i) (v161_real x1 i)

theorem v163_zero (i : S10000x256.Idx) : val_main_v163 (F := Ideal) i = (0 : EReal) := by
  rw [val_main_v163_apply, val_main_cst_31_apply, Ideal.ofBits_def, Ideal.ofBits_zero_f32]

theorem v165_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (hh : ∀ i, ∃ r : ℝ, val_main_v136 (F := Ideal) x0 x1 x2 x3 x4 x5 x6 x7 x8 x9 i = (r : EReal)) (h10 : ∀ i, ∃ r : ℝ, x10 i = (r : EReal)) (i : S10000x256.Idx) : ∃ r : ℝ, val_main_v165 (F := Ideal) x0 x1 x2 x3 x4 x5 x6 x7 x8 x9 x10 i = (r : EReal) :=
  real_scatterAdd scatter_S10000x256_S160000x1_S160000x256_1_0_0_1 (val_main_v163 (F := Ideal)) (val_main_v164 (F := Ideal) x1)
    (val_main_v162 (F := Ideal) x0 x1 x2 x3 x4 x5 x6 x7 x8 x9 x10) (fun i => by rw [v163_zero]; exact real_zero) (v162_real x0 x1 x2 x3 x4 x5 x6 x7 x8 x9 x10 hh h10) i

theorem v168_real (x1 : (⟨S2x160000, .i32⟩ : BufTy).Contents (Elt Ideal)) (i : S10000x256.Idx) : ∃ r : ℝ, val_main_v168 (F := Ideal) x1 i = (r : EReal) := by
  rw [val_main_v168_apply, val_main_v167_apply, val_main_v166_apply, Ideal.mulf_def]
  exact real_mul (v10_real x1 _) (v10_real x1 _)

theorem v169_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (hh : ∀ i, ∃ r : ℝ, val_main_v136 (F := Ideal) x0 x1 x2 x3 x4 x5 x6 x7 x8 x9 i = (r : EReal)) (h10 : ∀ i, ∃ r : ℝ, x10 i = (r : EReal)) (i : S10000x256.Idx) : ∃ r : ℝ, val_main_v169 (F := Ideal) x0 x1 x2 x3 x4 x5 x6 x7 x8 x9 x10 i = (r : EReal) := by
  rw [val_main_v169_apply, Ideal.mulf_def]
  exact real_mul (v137_real x0 x1 x2 x3 x4 x5 x6 x7 x8 x9 x10 hh h10 i) (v168_real x1 i)

theorem v170_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (hh : ∀ i, ∃ r : ℝ, val_main_v136 (F := Ideal) x0 x1 x2 x3 x4 x5 x6 x7 x8 x9 i = (r : EReal)) (h10 : ∀ i, ∃ r : ℝ, x10 i = (r : EReal)) (i : S10000x256.Idx) : ∃ r : ℝ, val_main_v170 (F := Ideal) x0 x1 x2 x3 x4 x5 x6 x7 x8 x9 x10 i = (r : EReal) := by
  rw [val_main_v170_apply, Ideal.addf_def]
  exact real_add (v165_real x0 x1 x2 x3 x4 x5 x6 x7 x8 x9 x10 hh h10 i) (v169_real x0 x1 x2 x3 x4 x5 x6 x7 x8 x9 x10 hh h10 i)

theorem v172_real (x11 : (⟨S256, .f32⟩ : BufTy).Contents (Elt Ideal)) (h11 : ∀ i, ∃ r : ℝ, x11 i = (r : EReal)) (i : S10000x256.Idx) : ∃ r : ℝ, val_main_v172 (F := Ideal) x11 i = (r : EReal) := by
  rw [val_main_v172_apply, val_main_v171_apply]
  exact h11 _

/-- The layer's output before normalisation has real entries. -/
theorem gcn3_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (hh : ∀ i, ∃ r : ℝ, val_main_v136 (F := Ideal) x0 x1 x2 x3 x4 x5 x6 x7 x8 x9 i = (r : EReal)) (h10 : ∀ i, ∃ r : ℝ, x10 i = (r : EReal)) (h11 : ∀ i, ∃ r : ℝ, x11 i = (r : EReal)) :
    ∀ i, ∃ r : ℝ, val_main_v173 (F := Ideal) x0 x1 x2 x3 x4 x5 x6 x7 x8 x9 x10 x11 i = (r : EReal) := by
  intro i
  rw [val_main_v173_apply, Ideal.addf_def]
  exact real_add (v170_real x0 x1 x2 x3 x4 x5 x6 x7 x8 x9 x10 hh h10 i) (v172_real x11 h11 i)

/-! ### The normalisation: from a real-entried pre-normalisation output -/

theorem v174_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (h47 : ∀ i, ∃ r : ℝ, val_main_v173 (F := Ideal) x0 x1 x2 x3 x4 x5 x6 x7 x8 x9 x10 x11 i = (r : EReal)) (i : S256.Idx) : ∃ r : ℝ, val_main_v174 (F := Ideal) x0 x1 x2 x3 x4 x5 x6 x7 x8 x9 x10 x11 i = (r : EReal) := by
  rw [val_main_v174_apply, val_main_cst_32_apply, Ideal.ofBits_def, Ideal.ofBits_zero_f32]
  exact real_add real_zero (real_sum _ _ fun k _ => h47 _)

theorem v175_eq (i : S256.Idx) : val_main_v175 (F := Ideal) i = ((10000 : ℝ) : EReal) := by
  rw [val_main_v175_apply, val_main_cst_33_apply, Ideal.ofBits_def, ofBits_tenThousand]

/-- The column mean. -/
theorem v176_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (h47 : ∀ i, ∃ r : ℝ, val_main_v173 (F := Ideal) x0 x1 x2 x3 x4 x5 x6 x7 x8 x9 x10 x11 i = (r : EReal)) (i : S256.Idx) : ∃ r : ℝ, val_main_v176 (F := Ideal) x0 x1 x2 x3 x4 x5 x6 x7 x8 x9 x10 x11 i = (r : EReal) := by
  rw [val_main_v176_apply, Ideal.hostDivf_def, v175_eq]
  exact real_div_coe (by norm_num) (v174_real x0 x1 x2 x3 x4 x5 x6 x7 x8 x9 x10 x11 h47 i)

theorem v178_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (h47 : ∀ i, ∃ r : ℝ, val_main_v173 (F := Ideal) x0 x1 x2 x3 x4 x5 x6 x7 x8 x9 x10 x11 i = (r : EReal)) (i : S10000x256.Idx) : ∃ r : ℝ, val_main_v178 (F := Ideal) x0 x1 x2 x3 x4 x5 x6 x7 x8 x9 x10 x11 i = (r : EReal) := by
  rw [val_main_v178_apply, val_main_v177_apply]
  exact v176_real x0 x1 x2 x3 x4 x5 x6 x7 x8 x9 x10 x11 h47 _

theorem v179_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (h47 : ∀ i, ∃ r : ℝ, val_main_v173 (F := Ideal) x0 x1 x2 x3 x4 x5 x6 x7 x8 x9 x10 x11 i = (r : EReal)) (i : S10000x256.Idx) : ∃ r : ℝ, val_main_v179 (F := Ideal) x0 x1 x2 x3 x4 x5 x6 x7 x8 x9 x10 x11 i = (r : EReal) := by
  rw [val_main_v179_apply, Ideal.subf_def]
  exact real_sub (h47 i) (v178_real x0 x1 x2 x3 x4 x5 x6 x7 x8 x9 x10 x11 h47 i)

theorem v180_nonneg (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (h47 : ∀ i, ∃ r : ℝ, val_main_v173 (F := Ideal) x0 x1 x2 x3 x4 x5 x6 x7 x8 x9 x10 x11 i = (r : EReal)) (i : S10000x256.Idx) :
    ∃ r : ℝ, 0 ≤ r ∧ val_main_v180 (F := Ideal) x0 x1 x2 x3 x4 x5 x6 x7 x8 x9 x10 x11 i = (r : EReal) := by
  rw [val_main_v180_apply, Ideal.mulf_def]
  exact nonneg_mul_self (v179_real x0 x1 x2 x3 x4 x5 x6 x7 x8 x9 x10 x11 h47 i)

theorem v181_nonneg (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (h47 : ∀ i, ∃ r : ℝ, val_main_v173 (F := Ideal) x0 x1 x2 x3 x4 x5 x6 x7 x8 x9 x10 x11 i = (r : EReal)) (i : S256.Idx) :
    ∃ r : ℝ, 0 ≤ r ∧ val_main_v181 (F := Ideal) x0 x1 x2 x3 x4 x5 x6 x7 x8 x9 x10 x11 i = (r : EReal) := by
  rw [val_main_v181_apply, val_main_cst_34_apply, Ideal.ofBits_def, Ideal.ofBits_zero_f32]
  exact nonneg_add nonneg_zero (nonneg_sum _ _ fun k _ => v180_nonneg x0 x1 x2 x3 x4 x5 x6 x7 x8 x9 x10 x11 h47 _)

theorem v182_eq (i : S256.Idx) : val_main_v182 (F := Ideal) i = ((10000 : ℝ) : EReal) := by
  rw [val_main_v182_apply, val_main_cst_35_apply, Ideal.ofBits_def, ofBits_tenThousand]

/-- The column variance is a real that is not negative. -/
theorem v183_nonneg (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (h47 : ∀ i, ∃ r : ℝ, val_main_v173 (F := Ideal) x0 x1 x2 x3 x4 x5 x6 x7 x8 x9 x10 x11 i = (r : EReal)) (i : S256.Idx) :
    ∃ r : ℝ, 0 ≤ r ∧ val_main_v183 (F := Ideal) x0 x1 x2 x3 x4 x5 x6 x7 x8 x9 x10 x11 i = (r : EReal) := by
  rw [val_main_v183_apply, Ideal.hostDivf_def, v182_eq]
  exact nonneg_div_coe (by norm_num) (v181_nonneg x0 x1 x2 x3 x4 x5 x6 x7 x8 x9 x10 x11 h47 i)

theorem v186_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (h47 : ∀ i, ∃ r : ℝ, val_main_v173 (F := Ideal) x0 x1 x2 x3 x4 x5 x6 x7 x8 x9 x10 x11 i = (r : EReal)) (i : S10000x256.Idx) : ∃ r : ℝ, val_main_v186 (F := Ideal) x0 x1 x2 x3 x4 x5 x6 x7 x8 x9 x10 x11 i = (r : EReal) := by
  rw [val_main_v186_apply, Ideal.subf_def, val_main_v185_apply, val_main_v184_apply]
  exact real_sub (h47 i) (v176_real x0 x1 x2 x3 x4 x5 x6 x7 x8 x9 x10 x11 h47 _)

theorem v187_pos (i : S256.Idx) : ∃ r : ℝ, 0 < r ∧ val_main_v187 (F := Ideal) i = (r : EReal) := by
  rw [val_main_v187_apply, val_main_cst_36_apply, Ideal.ofBits_def]
  exact ofBits_eps_pos

theorem v188_pos (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (h47 : ∀ i, ∃ r : ℝ, val_main_v173 (F := Ideal) x0 x1 x2 x3 x4 x5 x6 x7 x8 x9 x10 x11 i = (r : EReal)) (i : S256.Idx) :
    ∃ r : ℝ, 0 < r ∧ val_main_v188 (F := Ideal) x0 x1 x2 x3 x4 x5 x6 x7 x8 x9 x10 x11 i = (r : EReal) := by
  rw [val_main_v188_apply, Ideal.addf_def]
  exact nonneg_add_pos (v183_nonneg x0 x1 x2 x3 x4 x5 x6 x7 x8 x9 x10 x11 h47 i) (v187_pos i)

theorem v189_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (h47 : ∀ i, ∃ r : ℝ, val_main_v173 (F := Ideal) x0 x1 x2 x3 x4 x5 x6 x7 x8 x9 x10 x11 i = (r : EReal)) (i : S256.Idx) : ∃ r : ℝ, val_main_v189 (F := Ideal) x0 x1 x2 x3 x4 x5 x6 x7 x8 x9 x10 x11 i = (r : EReal) := by
  rw [val_main_v189_apply, Ideal.hostUnary_rsqrt_def]
  exact real_rsqrt (v188_pos x0 x1 x2 x3 x4 x5 x6 x7 x8 x9 x10 x11 h47 i)

theorem v192_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (h47 : ∀ i, ∃ r : ℝ, val_main_v173 (F := Ideal) x0 x1 x2 x3 x4 x5 x6 x7 x8 x9 x10 x11 i = (r : EReal)) (i : S10000x256.Idx) : ∃ r : ℝ, val_main_v192 (F := Ideal) x0 x1 x2 x3 x4 x5 x6 x7 x8 x9 x10 x11 i = (r : EReal) := by
  rw [val_main_v192_apply, Ideal.mulf_def, val_main_v191_apply, val_main_v190_apply]
  exact real_mul (v186_real x0 x1 x2 x3 x4 x5 x6 x7 x8 x9 x10 x11 h47 i) (v189_real x0 x1 x2 x3 x4 x5 x6 x7 x8 x9 x10 x11 h47 _)

theorem v194_real (x12 : (⟨S256, .f32⟩ : BufTy).Contents (Elt Ideal)) (h12 : ∀ i, ∃ r : ℝ, x12 i = (r : EReal)) (i : S10000x256.Idx) : ∃ r : ℝ, val_main_v194 (F := Ideal) x12 i = (r : EReal) := by
  rw [val_main_v194_apply, val_main_v193_apply]
  exact h12 _

theorem v197_real (x13 : (⟨S256, .f32⟩ : BufTy).Contents (Elt Ideal)) (h13 : ∀ i, ∃ r : ℝ, x13 i = (r : EReal)) (i : S10000x256.Idx) : ∃ r : ℝ, val_main_v197 (F := Ideal) x13 i = (r : EReal) := by
  rw [val_main_v197_apply, val_main_v196_apply]
  exact h13 _

theorem v198_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (h47 : ∀ i, ∃ r : ℝ, val_main_v173 (F := Ideal) x0 x1 x2 x3 x4 x5 x6 x7 x8 x9 x10 x11 i = (r : EReal)) (h12 : ∀ i, ∃ r : ℝ, x12 i = (r : EReal)) (h13 : ∀ i, ∃ r : ℝ, x13 i = (r : EReal)) (i : S10000x256.Idx) :
    ∃ r : ℝ, val_main_v198 (F := Ideal) x0 x1 x2 x3 x4 x5 x6 x7 x8 x9 x10 x11 x12 x13 i = (r : EReal) := by
  rw [val_main_v198_apply, Ideal.addf_def, val_main_v195_apply, Ideal.mulf_def]
  exact real_add (real_mul (v192_real x0 x1 x2 x3 x4 x5 x6 x7 x8 x9 x10 x11 h47 i) (v194_real x12 h12 i)) (v197_real x13 h13 i)

theorem call2_v0_zero (i : S10000x256.Idx) : val_main_call2_v0 (F := Ideal) i = (0 : EReal) := by
  rw [val_main_call2_v0_apply, val_main_call2_cst_apply, Ideal.ofBits_def, Ideal.ofBits_zero_f32]

/-- The layer's output has real entries as soon as its pre-normalisation output has. -/
theorem out3_real_of_gcn (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (h47 : ∀ i, ∃ r : ℝ, val_main_v173 (F := Ideal) x0 x1 x2 x3 x4 x5 x6 x7 x8 x9 x10 x11 i = (r : EReal)) (h12 : ∀ i, ∃ r : ℝ, x12 i = (r : EReal)) (h13 : ∀ i, ∃ r : ℝ, x13 i = (r : EReal)) :
    ∀ i, ∃ r : ℝ, val_main_v199 (F := Ideal) x0 x1 x2 x3 x4 x5 x6 x7 x8 x9 x10 x11 x12 x13 i = (r : EReal) := by
  intro i
  rw [val_main_v199_apply, Ideal.maximumf_def, call2_v0_zero]
  exact real_max (v198_real x0 x1 x2 x3 x4 x5 x6 x7 x8 x9 x10 x11 x12 x13 h47 h12 h13 i) real_zero

/-- The layer's output has real entries. -/
theorem out3_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (hh : ∀ i, ∃ r : ℝ, val_main_v136 (F := Ideal) x0 x1 x2 x3 x4 x5 x6 x7 x8 x9 i = (r : EReal)) (h10 : ∀ i, ∃ r : ℝ, x10 i = (r : EReal)) (h11 : ∀ i, ∃ r : ℝ, x11 i = (r : EReal)) (h12 : ∀ i, ∃ r : ℝ, x12 i = (r : EReal)) (h13 : ∀ i, ∃ r : ℝ, x13 i = (r : EReal)) :
    ∀ i, ∃ r : ℝ, val_main_v199 (F := Ideal) x0 x1 x2 x3 x4 x5 x6 x7 x8 x9 x10 x11 x12 x13 i = (r : EReal) :=
  out3_real_of_gcn x0 x1 x2 x3 x4 x5 x6 x7 x8 x9 x10 x11 x12 x13 (gcn3_real x0 x1 x2 x3 x4 x5 x6 x7 x8 x9 x10 x11 hh h10 h11) h12 h13

end Cert.ReferenceIdeal.RealEntries3

namespace Cert.ReferenceIdeal.RealEntries

open Cert.ReferenceIdeal Cert.ReferenceIdeal.Gen Cert.ReferenceIdeal.Read Idealize.ShloMosaic Idealize.ShloMosaic.TcCoe Idealize.SL.Sem Idealize.ShloMosaic.StableHlo

/-- The third layer's output before normalisation has real entries when the layer's input has. -/
theorem gcn3_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (hh : ∀ i, ∃ r : ℝ, val_main_v136 (F := Ideal) x0 x1 x2 x3 x4 x5 x6 x7 x8 x9 i = (r : EReal)) (h10 : ∀ i, ∃ r : ℝ, x10 i = (r : EReal)) (h11 : ∀ i, ∃ r : ℝ, x11 i = (r : EReal)) :
    ∀ i, ∃ r : ℝ, val_main_v173 (F := Ideal) x0 x1 x2 x3 x4 x5 x6 x7 x8 x9 x10 x11 i = (r : EReal) :=
  RealEntries3.gcn3_real x0 x1 x2 x3 x4 x5 x6 x7 x8 x9 x10 x11 hh h10 h11

/-- The third layer's output has real entries when the layer's input has. -/
theorem out3_real (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (hh : ∀ i, ∃ r : ℝ, val_main_v136 (F := Ideal) x0 x1 x2 x3 x4 x5 x6 x7 x8 x9 i = (r : EReal)) (h10 : ∀ i, ∃ r : ℝ, x10 i = (r : EReal)) (h11 : ∀ i, ∃ r : ℝ, x11 i = (r : EReal)) (h12 : ∀ i, ∃ r : ℝ, x12 i = (r : EReal)) (h13 : ∀ i, ∃ r : ℝ, x13 i = (r : EReal)) :
    ∀ i, ∃ r : ℝ, val_main_v199 (F := Ideal) x0 x1 x2 x3 x4 x5 x6 x7 x8 x9 x10 x11 x12 x13 i = (r : EReal) :=
  RealEntries3.out3_real x0 x1 x2 x3 x4 x5 x6 x7 x8 x9 x10 x11 x12 x13 hh h10 h11 h12 h13

end Cert.ReferenceIdeal.RealEntries
-- ==== Proof.lean ====
/-
  A three-layer graph convolution network with batch normalisation: per layer a linear transform, a degree-normalised
  aggregation over the edges with self-loops, a bias, batch normalisation over the nodes and a rectifier; then a linear head.
  The kernel program computes each linear transform and the head as matrix products over row blocks, the pre-normalisation
  array with its column sums and sums of squares in one pass over the row blocks, the variance as the mean of the squares minus
  the squared mean, and the normalisation and rectifier row block by row block; the gathers and scatter-additions over the edges
  are host operations, the same ones as the reference's. On the extended reals the two programs end with the same result:
  a change of float format is the identity, a matrix product into a zero accumulator is the contraction, a sum over row blocks
  is the sum over all rows, and — every intermediate entry being real when the inputs are — the mean of the squares minus the
  squared mean is the mean of the squared deviations. The three frames are the generated ones (the reference's is its run with
  the result dropped); the idealisation rewrote nothing, so its conjunct is trivial.
-/
import proofs.«136907_j29480655519935_1_alg».proof.Defs
import proofs.«136907_j29480655519935_1_alg».proof.Proof.Gen.Kernel
import proofs.«136907_j29480655519935_1_alg».proof.Proof.Gen.Kernel.Skeleton
import proofs.«136907_j29480655519935_1_alg».proof.Proof.Gen.Kernel.Launch
import proofs.«136907_j29480655519935_1_alg».proof.Proof.Gen.Kernel.Points
import proofs.«136907_j29480655519935_1_alg».proof.Proof.Gen.Kernel.Frame
import proofs.«136907_j29480655519935_1_alg».proof.Proof.Gen.KernelIdeal
import proofs.«136907_j29480655519935_1_alg».proof.Proof.Gen.KernelIdeal.Skeleton
import proofs.«136907_j29480655519935_1_alg».proof.Proof.Gen.KernelIdeal.Launch
import proofs.«136907_j29480655519935_1_alg».proof.Proof.Gen.KernelIdeal.Points
import proofs.«136907_j29480655519935_1_alg».proof.Proof.Gen.KernelIdeal.Frame
import proofs.«136907_j29480655519935_1_alg».proof.Proof.Gen.ReferenceIdeal
import proofs.«136907_j29480655519935_1_alg».proof.Proof.Gen.Pre_finite_inputs
import proofs.«136907_j29480655519935_1_alg».proof.Proof.RefRun
import proofs.«136907_j29480655519935_1_alg».proof.Proof.ValueRun
import proofs.«136907_j29480655519935_1_alg».proof.Proof.ChainTop
import proofs.«136907_j29480655519935_1_alg».proof.Proof.PreReal
import proofs.«136907_j29480655519935_1_alg».proof.Proof.RefReal1
import proofs.«136907_j29480655519935_1_alg».proof.Proof.RefReal3
import Idealize.ShloMosaic.Adequacy
import Idealize.ShloMosaic.Init

set_option maxRecDepth 16384

noncomputable section

namespace Cert.Proof

open Idealize.ShloMosaic Idealize.SL.Sem

/-- The reference's frame: its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both idealised programs end with the reference's result term of the (agreeing) arguments: the kernel program by the chain
    through its segments, under real entries of every float argument (the precondition), the reference by its run. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.ReferenceIdeal.Read.val_main_v203 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ⟨(h c).1.trans ?_, (h c).2⟩) (Cert.KernelIdeal.ValueRun.run_result m ρ)
    obtain ⟨r0, r2, r3, r4, r5, r6, r7, r8, r9, r10, r11, r12, r13, r14, r15⟩ := @Cert.Pre_finite_inputs.RealEntries.real_of_pre Cert.Pre_finite_inputs.Gen.facts (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (hpre c)
    have hg1 := Cert.ReferenceIdeal.RealEntries.gcn1_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) r0 r2 r3
    have hh1 := Cert.ReferenceIdeal.RealEntries.out1_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) r0 r2 r3 r4 r5
    have hg2 := Cert.ReferenceIdeal.RealEntries.gcn1_real _ (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) hh1 r6 r7
    have hh2 := Cert.ReferenceIdeal.RealEntries.out1_real _ (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) hh1 r6 r7 r8 r9
    have hg3 := Cert.ReferenceIdeal.RealEntries.gcn3_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) hh2 r10 r11
    exact Cert.KernelIdeal.Chain.result m ρ c hg1 hg2 hg3
  · refine (θ_run Cert.ReferenceIdeal.defs _ _).mono (fun _ h c => ⟨(h c).1.trans ?_, (h c).2⟩) (Cert.ReferenceIdeal.Value.run (F := Ideal) m' ρ')
    obtain ⟨e0, e1, e2, e3, e4, e5, e6, e7, e8, e9, e10, e11, e12, e13, e14, e15⟩ := hagree c
    show Cert.ReferenceIdeal.Read.val_main_v203 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
    rw [e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
